-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1 : Shape := ⟨1, ![1]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S256 .f32) (main_arg9 : FVec F S256 .f32) (main_arg10 : FVec F S256 .f32) (main_arg11 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S256 .f32) (main_arg6 : FVec F S1 .f32) (main_arg7 : FVec F S256x256 .f32) (main_arg8 : FVec F S256 .f32) (main_arg9 : FVec F S256 .f32) (main_arg10 : FVec F S256 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S256 .f32) (main_arg5 : FVec F S256 .f32) (main_arg6 : FVec F S1 .f32) (main_arg7 : FVec F S256x256 .f32) (main_arg8 : FVec F S256 .f32) (main_arg9 : FVec F S256 .f32) (main_arg10 : FVec F S256 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1 : Shape := ⟨1, ![1]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S1x1 : Shape := ⟨2, ![1, 1]⟩
abbrev S850000x256 : Shape := ⟨2, ![850000, 256]⟩

abbrev nBuf : Space → Nat
  | .hbm => 123
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S1, .f32⟩
  | .hbm, ⟨12, _⟩ => ⟨S50000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x256, .f32⟩
  | .hbm, ⟨69, _⟩ => ⟨S50000x256, .f32⟩
  | .hbm, ⟨70, _⟩ => ⟨S1x256, .f32⟩
  | .hbm, ⟨71, _⟩ => ⟨S1x256, .f32⟩
  | .hbm, ⟨72, _⟩ => ⟨S_, .f32⟩
  | .hbm, ⟨73, _⟩ => ⟨S1x256, .f32⟩
  | .hbm, ⟨74, _⟩ => ⟨S1x256, .f32⟩
  | .hbm, ⟨75, _⟩ => ⟨S_, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S_, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S1x1, .f32⟩
  | .hbm, ⟨86, _⟩ => ⟨S50000x256, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x256, .f32⟩
  | .hbm, ⟨96, _⟩ => ⟨S850000x1, .f32⟩
  | .hbm, ⟨97, _⟩ => ⟨S850000x256, .f32⟩
  | .hbm, ⟨98, _⟩ => ⟨S850000x256, .f32⟩
  | .hbm, ⟨99, _⟩ => ⟨S_, .f32⟩
  | .hbm, ⟨100, _⟩ => ⟨S50000x256, .f32⟩
  | .hbm, ⟨101, _⟩ => ⟨S850000x1, .i32⟩
  | .hbm, ⟨102, _⟩ => ⟨S50000x256, .f32⟩
  | .hbm, ⟨103, _⟩ => ⟨S1x256, .f32⟩
  | .hbm, ⟨104, _⟩ => ⟨S50000x256, .f32⟩
  | .hbm, ⟨105, _⟩ => ⟨S50000x256, .f32⟩
  | .hbm, ⟨106, _⟩ => ⟨S1x256, .f32⟩
  | .hbm, ⟨107, _⟩ => ⟨S1x256, .f32⟩
  | .hbm, ⟨108, _⟩ => ⟨S_, .f32⟩
  | .hbm, ⟨109, _⟩ => ⟨S1x256, .f32⟩
  | .hbm, ⟨110, _⟩ => ⟨S1x256, .f32⟩
  | .hbm, ⟨111, _⟩ => ⟨S_, .f32⟩
  | .hbm, ⟨112, _⟩ => ⟨S1x256, .f32⟩
  | .hbm, ⟨113, _⟩ => ⟨S1x256, .f32⟩
  | .hbm, ⟨114, _⟩ => ⟨S1x256, .f32⟩
  | .hbm, ⟨115, _⟩ => ⟨S1x256, .f32⟩
  | .hbm, ⟨116, _⟩ => ⟨S_, .f32⟩
  | .hbm, ⟨117, _⟩ => ⟨S1x256, .f32⟩
  | .hbm, ⟨118, _⟩ => ⟨S1x256, .f32⟩
  | .hbm, ⟨119, _⟩ => ⟨S1x256, .f32⟩
  | .hbm, ⟨120, _⟩ => ⟨S1x256, .f32⟩
  | .hbm, ⟨121, _⟩ => ⟨S1x1, .f32⟩
  | .hbm, ⟨122, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x1, .f32⟩
  | .local _ .vmem, ⟨19, _⟩ => ⟨S256x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S5000x256, .f32⟩
  | .local _ .vmem, ⟨29, _⟩ => ⟨S5000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x1, .f32⟩
  | .local _ .vmem, ⟨35, _⟩ => ⟨S5000x256, .f32⟩
  | .local _ .vmem, ⟨36, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74_0 : Ref sig .tc := ⟨.hbm, 106, rfl⟩
abbrev main_v74_1 : Ref sig .tc := ⟨.hbm, 107, rfl⟩
abbrev main_cst_15 : Ref sig .tc := ⟨.hbm, 108, rfl⟩
abbrev main_v75 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_scratch0 : Ref sig .tc := ⟨.vmem, 26, rfl⟩
abbrev cc3_scratch1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg6_0 : Ref sig .tc := ⟨.vmem, 35, rfl⟩
abbrev cc4_stg6_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  reduces_S5000x256_S256 : S5000x256.Reduces [0] S256
  bcast_S_S1x256 : S_.BroadcastsInDim S1x256 (![] : Fin 0 → Fin S1x256.rank)
  shapeCasts_S1_S1x1 : S1.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x256.size a ≤ S50000x256.size a
  hwx2_7 : ∀ i : grid2.Coords, EltTy.bits .f32 = 32 ∨ (Rect.block (s := S50000x256) S5000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x256.size a ≤ S50000x256.size a
  hwx4_6 : ∀ i : grid4.Coords, EltTy.bits .f32 = 32 ∨ (Rect.block (s := S50000x256) S5000x256.size (cc4_transform_6 i) (hinb4_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45_0) S1x256.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_1) S1x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v44) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S5000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v73) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74_0) S1x256.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74_1) S1x256.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun i => !(k3_cond2 i == 1#1) | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v73) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86) S5000x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S1 : Shape := ⟨1, ![1]⟩
abbrev S256x256 : Shape := ⟨2, ![256, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S1, .f32⟩
  | 7 => ⟨S256x256, .f32⟩
  | 8 => ⟨S256, .f32⟩
  | 9 => ⟨S256, .f32⟩
  | 10 => ⟨S256, .f32⟩
  | 11 => ⟨S1, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x256, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x256, .f32⟩
  | 62 => ⟨S850000x1, .f32⟩
  | 63 => ⟨S850000x256, .f32⟩
  | 64 => ⟨S850000x256, .f32⟩
  | 65 => ⟨S_, .f32⟩
  | 66 => ⟨S50000x256, .f32⟩
  | 67 => ⟨S850000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S256, .f32⟩
  | 74 => ⟨S_, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S50000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S_, .f32⟩
  | 90 => ⟨S256, .f32⟩
  | 91 => ⟨S256, .f32⟩
  | 92 => ⟨S256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .i1⟩
  | 105 => ⟨S_, .f32⟩
  | 106 => ⟨S50000x256, .f32⟩
  | 107 => ⟨S50000x256, .f32⟩
  | 108 => ⟨S50000x256, .f32⟩
  | 109 => ⟨S50000x256, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x256, .f32⟩
  | 119 => ⟨S850000x1, .f32⟩
  | 120 => ⟨S850000x256, .f32⟩
  | 121 => ⟨S850000x256, .f32⟩
  | 122 => ⟨S_, .f32⟩
  | 123 => ⟨S50000x256, .f32⟩
  | 124 => ⟨S850000x1, .i32⟩
  | 125 => ⟨S50000x256, .f32⟩
  | 126 => ⟨S1x256, .f32⟩
  | 127 => ⟨S50000x256, .f32⟩
  | _ => ⟨S50000x128, .f32⟩

abbrev hbmTy0_1 (i : Nat) : BufTy := match i % 128 with
  | 0 => ⟨S50000x256, .f32⟩
  | 1 => ⟨S_, .f32⟩
  | 2 => ⟨S256, .f32⟩
  | 3 => ⟨S_, .f32⟩
  | 4 => ⟨S256, .f32⟩
  | 5 => ⟨S256, .f32⟩
  | 6 => ⟨S1x256, .f32⟩
  | 7 => ⟨S50000x256, .f32⟩
  | 8 => ⟨S50000x256, .f32⟩
  | 9 => ⟨S50000x256, .f32⟩
  | 10 => ⟨S_, .f32⟩
  | 11 => ⟨S256, .f32⟩
  | 12 => ⟨S_, .f32⟩
  | 13 => ⟨S256, .f32⟩
  | 14 => ⟨S256, .f32⟩
  | 15 => ⟨S1x256, .f32⟩
  | 16 => ⟨S50000x256, .f32⟩
  | 17 => ⟨S50000x256, .f32⟩
  | 18 => ⟨S_, .f32⟩
  | 19 => ⟨S256, .f32⟩
  | 20 => ⟨S256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S50000x256, .f32⟩
  | 33 => ⟨S50000x256, .i1⟩
  | 34 => ⟨S_, .f32⟩
  | 35 => ⟨S50000x256, .f32⟩
  | 36 => ⟨S50000x256, .f32⟩
  | 37 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_15 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_17 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_20 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_22 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_23 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  shapeCasts_S1_S_ : S1.ShapeCasts S_
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Region0.lean ====
/-
  Region 0 of @main — the dense transform `h = a · W + b` over node tiles of 5000 rows.
  Every grid point reads one 5000×128 tile of the aggregated features, the whole 128×256 weight matrix and the 1×256
  bias row, and stores the 5000×256 tile `tile · W + bias` (the bias row repeated down the tile) over the whole output
  block. The weight and the bias keep one block index over the grid, so they are fetched at the first point only and
  found in place at every later one. Stated at any float instance: the same text serves the word-level program and its
  idealization.
-/
import proofs.«160346_j84963043049900_2_alg».proof.Proof.Gen.KernelIdeal.Launch
import proofs.«160346_j84963043049900_2_alg».proof.Proof.Gen.KernelIdeal.Skeleton
import proofs.«160346_j84963043049900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole_5000x128 : Rect S5000x128 := Rect.unit (s := S5000x128) ![0, 0] S5000x128.size inb_S5000x128_S5000x128_0_0
abbrev whole_128x256 : Rect S128x256 := Rect.unit (s := S128x256) ![0, 0] S128x256.size inb_S128x256_S128x256_0_0
abbrev whole_1x256 : Rect S1x256 := Rect.unit (s := S1x256) ![0, 0] S1x256.size inb_S1x256_S1x256_0_0
abbrev whole_5000x256 : Rect S5000x256 := Rect.unit (s := S5000x256) ![0, 0] S5000x256.size inb_S5000x256_S5000x256_0_0

/-- The output tile the body leaves: its one store, over the whole block, of `tile · W + bias`. -/
def out0 (x0 : Vec F S5000x128 .f32) (x1 : Vec F S128x256 .f32) (x2 : Vec F S1x256 .f32) : Vec F S5000x256 .f32 :=
  View.canon [⟨whole_5000x256, k0_pay1 (View.ld x0 whole_5000x128) (View.ld x1 whole_128x256) (View.ld x2 whole_1x256)⟩]

/-- That one store covers the block. -/
theorem out0_cover (p : Vec F S5000x256 .f32) (y : S5000x256.Idx) :
    ∃ pc ∈ ([⟨whole_5000x256, p⟩] : List (View.Piece (Elt F) S5000x256 .f32)), y ∈ pc.1.set :=
  View.cover_of_tiled [⟨whole_5000x256, p⟩] S5000x256.size (by rfl) y

set_option maxHeartbeats 1000000 in
/-- The body on whole staging buffers: the three inputs are read and left as found, the output buffer ends at `out0` of them. -/
theorem body (c : Dev nD) (E : Set ℕ) (i : grid0.Coords)
    (a0 : Memref sig .tc .vmem S5000x128 .f32) (h0 : a0.IsWhole) (a1 : Memref sig .tc .vmem S128x256 .f32) (h1 : a1.IsWhole) (a2 : Memref sig .tc .vmem S1x256 .f32) (h2 : a2.IsWhole) (a3 : Memref sig .tc .vmem S5000x256 .f32) (h3 : a3.IsWhole)
    (x0 : Vec F S5000x128 .f32) (x1 : Vec F S128x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0 x0 x1 x2)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (out0_cover _)

/-! ## The proof data -/

/-- Input window 0's staging buffer holds the window's tile at every point: fetched there, or — its block index not
    having moved — found as the point before left it. -/
theorem found_tile_0 {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
/-- Input window 1's staging buffer holds the window's tile at every point: fetched there, or — its block index not
    having moved — found as the point before left it. -/
theorem found_tile_1 {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)
/-- Input window 2's staging buffer holds the window's tile at every point: fetched there, or — its block index not
    having moved — found as the point before left it. -/
theorem found_tile_2 {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-- The region's proof data on core `c`: the arrays as found; after the body at point `t` every input buffer still at its
    tile and the output buffer at `out0` of the tiles; the invariant the plain one (the scoped rest and the generator
    register pass through untouched); nothing owed. -/
def dat (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => out0 (tile0 V c 0 t) (tile0 V c 1 t) (tile0 V c 2 t)
  Φ _ := Pipeline.ΦA spec0 c
  q _ := fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = tile0 V c 0 t := by dsimp only [dat]
theorem dat_after1 (c : Dev nD) (t : Fin cfg0.N) : (dat V c).after 1 t = tile0 V c 1 t := by dsimp only [dat]
theorem dat_after2 (c : Dev nD) (t : Fin cfg0.N) : (dat V c).after 2 t = tile0 V c 2 t := by dsimp only [dat]
theorem dat_after3 (c : Dev nD) (t : Fin cfg0.N) :
    (dat V c).after 3 t = out0 (tile0 V c 0 t) (tile0 V c 1 t) (tile0 V c 2 t) := by dsimp only [dat]
theorem dat_before0 (c : Dev nD) (t : Fin cfg0.N) (d) : (dat V c).before 0 t d = tile0 V c 0 t :=
  found_tile_0 V (dat V c) (dat_A V c 0) (dat_after0 V c) t d
theorem dat_before1 (c : Dev nD) (t : Fin cfg0.N) (d) : (dat V c).before 1 t d = tile0 V c 1 t :=
  found_tile_1 V (dat V c) (dat_A V c 1) (dat_after1 V c) t d
theorem dat_before2 (c : Dev nD) (t : Fin cfg0.N) (d) : (dat V c).before 2 t d = tile0 V c 2 t :=
  found_tile_2 V (dat V c) (dat_A V c 2) (dat_after2 V c) t d

/-! ## The body at a point -/

theorem point (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t))) := by
  unfold bodyAt0
  simp only [dat_before0, dat_before1, dat_before2]
  rw [show (dat V c).Φ t.succ = (dat V c).Φ t.castSucc from rfl,
    show (dat V c).owesAt () t.succ = (dat V c).owesAt () t.castSucc from rfl,
    dat_after0, dat_after1, dat_after2, dat_after3]
  iintro ⟨HΦ, Ho, ⟨%d0, H0⟩, ⟨%d1, H1⟩, ⟨%d2, H2⟩, ⟨%d3, H3⟩⟩
  iapply (body c Set.univ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem obligation (c : Dev nD) : BodyObligation (dat (F := F) V c) (defs₀ (F := F)) Variants.none () Set.univ := fun t => by
  rw [bigSep_W0, bigSep_W0]
  exact point V c t

end Cert.KernelIdeal.Dense

end
-- ==== Proof.Region1.lean ====
/-
  Region 1 of @main — the column statistics of a 50000×256 array, accumulated over its ten tiles of 5000 rows.
  Two 1×256 rows live in scratch memory across the grid: the running column sums and the running column sums of
  squares. The first grid point zeroes both rows; every point adds its tile's column sums and its tile's column sums of
  squares to them; the last point copies the two rows over the two 1×256 output blocks, which are written back there
  and nowhere else (at the other points the body does not touch the output buffers). So the body has three cases by
  the grid position, and the region's invariant carries the two rows: after the points below `t` they hold the sums
  over the tiles below `t`. Stated at any float instance.
-/
import proofs.«160346_j84963043049900_2_alg».proof.Proof.Gen.KernelIdeal.Launch
import proofs.«160346_j84963043049900_2_alg».proof.Proof.Gen.KernelIdeal.Skeleton
import proofs.«160346_j84963043049900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Stats1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole_1x256 : Rect S1x256 := Rect.unit (s := S1x256) ![0, 0] S1x256.size inb_S1x256_S1x256_0_0
abbrev whole_5000x256 : Rect S5000x256 := Rect.unit (s := S5000x256) ![0, 0] S5000x256.size inb_S5000x256_S5000x256_0_0

theorem zeros2 : (![0, 0] : Fin 2 → Nat) = fun _ => 0 := by
  funext a; match a with | ⟨0, _⟩ => rfl | ⟨1, _⟩ => rfl

/-- Every index of a row lies under the whole-row rectangle. -/
theorem row_covered (p : Vec F S1x256 .f32) (L : List (View.Piece (Elt F) S1x256 .f32)) (y : S1x256.Idx) :
    ∃ pc ∈ ((⟨whole_1x256, p⟩ : View.Piece (Elt F) S1x256 .f32) :: L), y ∈ pc.1.set :=
  ⟨_, List.mem_cons_self, View.mem_set_unit_zero zeros2 inb_S1x256_S1x256_0_0 y⟩

/-- The first condition of the body: the grid position is 0. -/
def isFirst (i : grid1.Coords) : BitVec 1 :=
  Scalar.cmpi .ne (Scalar.extui (Scalar.cmpi .eq (BitVec.ofNat 32 (i 0).val) 0#32)) 0#32

theorem first_iff : ∀ t : Fin cfg1.N, isFirst (grid1.coords t) = 1#1 ↔ t.val = 0 :=
  (by decide +kernel : ∀ t : Fin grid1.N, isFirst (grid1.coords t) = 1#1 ↔ t.val = 0)
theorem last_iff : ∀ t : Fin cfg1.N, k1_cond2 (grid1.coords t) = 1#1 ↔ t.val = 9 :=
  (by decide +kernel : ∀ t : Fin grid1.N, k1_cond2 (grid1.coords t) = 1#1 ↔ t.val = 9)

set_option maxHeartbeats 1000000 in
/-- The body at the first grid point: both accumulator rows are zeroed, then the tile's column sums and column sums
    of squares are added to them; the two output buffers are not touched. -/
theorem body_first (c : Dev nD) (E : Set ℕ) (i : grid1.Coords) (hf : isFirst i = 1#1) (hl : ¬ k1_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 : Vec F S1x256 .f32) (K : PUnit → sProp 𝕄) :
    iprop(owns (c : Thread nD τ) a1 fullShare x ∗ owns (c : Thread nD τ) a2 fullShare o2 ∗ owns (c : Thread nD τ) a3 fullShare o3
        ∗ (∃ d, owns (c : Thread nD τ) a4 fullShare d) ∗ (∃ d, owns (c : Thread nD τ) a5 fullShare d)
        ∗ (iprop(owns (c : Thread nD τ) a1 fullShare x ∗ owns (c : Thread nD τ) a2 fullShare o2 ∗ owns (c : Thread nD τ) a3 fullShare o3
            ∗ owns (c : Thread nD τ) a4 fullShare (k1_pay4 x (k1_pay1 (F := F))) ∗ owns (c : Thread nD τ) a5 fullShare (k1_pay5 x (k1_pay2 (F := F)))) -∗ K ⟨⟩))
      ⊢ wp frame (wpE (defs₀ (F := F)) Variants.none c none) E (cc1__bn_stats_kernel i a1 h1 a2 h2 a3 h3 a4 h4 a5 h5) K := by
  simp only [cc1__bn_stats_kernel_eq_skeleton]; unfold cc1__bn_stats_kernel_skel
  unfold isFirst at hf
  simp only [dif_pos hf, dif_neg hl]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readCov_unit_zero _ zeros2, View.readAt_eq_ld, View.ld_unit_zero zeros2]
  · iexists _; isplitr
    swap; · iexact H5
    ipureintro
    rw [View.read_writes_eq_canon _ _ _ (row_covered _ _), View.canon_cons_unit_zero zeros2]
    sl_unfold_words
    rw [View.readCov_unit_zero _ zeros2, View.readAt_eq_ld, View.ld_unit_zero zeros2]

set_option maxHeartbeats 1000000 in
/-- The body at a middle grid point: the tile's column sums and column sums of squares are added to the accumulator
    rows as found; the two output buffers are not touched. -/
theorem body_mid (c : Dev nD) (E : Set ℕ) (i : grid1.Coords) (hf : ¬ isFirst i = 1#1) (hl : ¬ k1_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 s4 s5 : Vec F S1x256 .f32) (K : PUnit → sProp 𝕄) :
    iprop(owns (c : Thread nD τ) a1 fullShare x ∗ owns (c : Thread nD τ) a2 fullShare o2 ∗ owns (c : Thread nD τ) a3 fullShare o3 ∗ owns (c : Thread nD τ) a4 fullShare s4 ∗ owns (c : Thread nD τ) a5 fullShare s5
        ∗ (iprop(owns (c : Thread nD τ) a1 fullShare x ∗ owns (c : Thread nD τ) a2 fullShare o2 ∗ owns (c : Thread nD τ) a3 fullShare o3
            ∗ owns (c : Thread nD τ) a4 fullShare (k1_pay4 x s4) ∗ owns (c : Thread nD τ) a5 fullShare (k1_pay5 x s5)) -∗ K ⟨⟩))
      ⊢ wp frame (wpE (defs₀ (F := F)) Variants.none c none) E (cc1__bn_stats_kernel i a1 h1 a2 h2 a3 h3 a4 h4 a5 h5) K := by
  simp only [cc1__bn_stats_kernel_eq_skeleton]; unfold cc1__bn_stats_kernel_skel
  unfold isFirst at hf
  simp only [dif_neg hf, dif_neg hl]
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]
  · iexists _; isplitr
    swap; · iexact H5
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]

set_option maxHeartbeats 1000000 in
/-- The body at the last grid point: the tile is added to the accumulator rows as at a middle point, and then the two
    rows are copied over the two output blocks. -/
theorem body_last (c : Dev nD) (E : Set ℕ) (i : grid1.Coords) (hf : ¬ isFirst i = 1#1) (hl : k1_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (s4 s5 : Vec F S1x256 .f32) (K : PUnit → sProp 𝕄) :
    iprop(owns (c : Thread nD τ) a1 fullShare x ∗ (∃ d, owns (c : Thread nD τ) a2 fullShare d) ∗ (∃ d, owns (c : Thread nD τ) a3 fullShare d) ∗ owns (c : Thread nD τ) a4 fullShare s4 ∗ owns (c : Thread nD τ) a5 fullShare s5
        ∗ (iprop(owns (c : Thread nD τ) a1 fullShare x ∗ owns (c : Thread nD τ) a2 fullShare (k1_pay4 x s4) ∗ owns (c : Thread nD τ) a3 fullShare (k1_pay5 x s5)
            ∗ owns (c : Thread nD τ) a4 fullShare (k1_pay4 x s4) ∗ owns (c : Thread nD τ) a5 fullShare (k1_pay5 x s5)) -∗ K ⟨⟩))
      ⊢ wp frame (wpE (defs₀ (F := F)) Variants.none c none) E (cc1__bn_stats_kernel i a1 h1 a2 h2 a3 h3 a4 h4 a5 h5) K := by
  simp only [cc1__bn_stats_kernel_eq_skeleton]; unfold cc1__bn_stats_kernel_skel
  unfold isFirst at hf
  simp only [dif_neg hf, dif_pos hl]
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec
  sl_step
  iapply Hk
  isplitl [H1]
  · iexists f1; isplitr; · ipureintro; rfl
    iexact H1
  isplitl [H2]
  · iexists _; isplitr
    swap; · iexact H2
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H3]
  · iexists _; isplitr
    swap; · iexact H3
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H4]
  · iexists _; isplitr
    swap; · iexact H4
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]
  · iexists _; isplitr
    swap; · iexact H5
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]

/-! ## The running sums, the invariant, the proof data -/

/-- The two rows after the tiles below a point: zero rows at the start, then each tile's column sums and column sums
    of squares added in turn. -/
def sums (c : Dev nD) : Fin (cfg1.N + 1) → Vec F S1x256 .f32 × Vec F S1x256 .f32 :=
  Fin.induction (motive := fun _ => Vec F S1x256 .f32 × Vec F S1x256 .f32) (k1_pay1 (F := F), k1_pay2 (F := F))
    (fun t prev => (k1_pay4 (tile1 V c 0 t) prev.1, k1_pay5 (tile1 V c 0 t) prev.2))

theorem sums_zero (c : Dev nD) : sums V c 0 = (k1_pay1 (F := F), k1_pay2 (F := F)) := by
  unfold sums; exact Fin.induction_zero _ _
theorem sums_succ (c : Dev nD) (t : Fin cfg1.N) :
    sums V c t.succ = (k1_pay4 (tile1 V c 0 t) (sums V c t.castSucc).1, k1_pay5 (tile1 V c 0 t) (sums V c t.castSucc).2) := by
  unfold sums; exact Fin.induction_succ _ _ _

/-- The region's invariant before point `t`: the two scratch rows — at anything before the first point, at the running
    sums after it —, the other scoped buffers untouched, the generator register at some state. -/
def inv (c : Dev nD) (t : Fin (cfg1.N + 1)) : sProp 𝕄 :=
  iprop(∃ d4 d5 : Vec F S1x256 .f32, ⌜t ≠ 0 → d4 = (sums V c t).1 ∧ d5 = (sums V c t).2⌝
    ∗ owns (c : Thread nD τ) (Memref.whole cc1_scratch0) fullShare d4 ∗ owns (c : Thread nD τ) (Memref.whole cc1_scratch1) fullShare d5
    ∗ Pipeline.scopedRestBut (Ix := Unit) (Name := ℕ) (U := UR sig nD τ) (Lvl := ℕ) (Val := Elt F) spec1 c [cc1_scratch0, cc1_scratch1]
    ∗ ∃ r, prngReg c r)

/-- The input window's staging buffer holds its tile at every point (it is fetched at every point). -/
theorem found_tile_0 {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The region's proof data on core `c`: the array as found; the input buffer left at its tile; each output buffer,
    where the body writes it (the last point), at the running row after that point; the invariant above; nothing owed. -/
def dat (c : Dev nD) : Dat τ (Elt F) Unit ℕ (UR sig nD τ) ℕ cfg1 c where
  A w := V c (Pipeline.arrRef spec1 w)
  after w t := match w with
    | ⟨0, _⟩ => tile1 V c 0 t
    | ⟨1, _⟩ => (sums V c t.succ).1
    | ⟨2, _⟩ => (sums V c t.succ).2
  Φ t := inv V c t
  q _ := fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = tile1 V c 0 t := by dsimp only [dat]
theorem dat_after1 (c : Dev nD) (t : Fin cfg1.N) : (dat V c).after 1 t = (sums V c t.succ).1 := by dsimp only [dat]
theorem dat_after2 (c : Dev nD) (t : Fin cfg1.N) : (dat V c).after 2 t = (sums V c t.succ).2 := by dsimp only [dat]
theorem dat_before0 (c : Dev nD) (t : Fin cfg1.N) (d) : (dat V c).before 0 t d = tile1 V c 0 t :=
  found_tile_0 V (dat V c) (dat_A V c 0) (dat_after0 V c) t d

/-! ## The body at a point, case by case -/

theorem point_first (c : Dev nD) (t : Fin cfg1.N) (h0 : t.val = 0) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ (∃ d, owns (c : Thread nD τ) (st1_1 t) fullShare ((dat V c).before 1 t d))
            ∗ (∃ d, owns (c : Thread nD τ) (st1_2 t) fullShare ((dat V c).before 2 t d)))) := by
  have hf : isFirst (grid1.coords t) = 1#1 := (first_iff t).2 h0
  have hl : ¬ k1_cond2 (grid1.coords t) = 1#1 := fun h => by have := (last_iff t).1 h; omega
  have hz : t.castSucc = 0 := Fin.ext (by simpa using h0)
  unfold bodyAt1
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, -, Hs4, Hs5, Hrest, Hp⟩, Ho, ⟨%d0, H0⟩, ⟨%e1, H1⟩, ⟨%e2, H2⟩⟩
  iapply (body_first c Set.univ _ hf hl _ _ _ _ _ _ _ _ _ _ (tile1 V c 0 t) _ _ _)
  isplitl [H0]; · iexact H0
  isplitl [H1]; · iexact H1
  isplitl [H2]; · iexact H2
  isplitl [Hs4]; · iexists _; iexact Hs4
  isplitl [Hs5]; · iexists _; iexact Hs5
  iintro ⟨H0, H1, H2, Hs4, Hs5⟩
  isplitl [Hs4 Hs5 Hrest Hp]
  · iexists _, _; isplitr
    · ipureintro; intro _; rw [sums_succ, hz, sums_zero]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_mid (c : Dev nD) (t : Fin cfg1.N) (h0 : t.val ≠ 0) (h9 : t.val ≠ 9) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ (∃ d, owns (c : Thread nD τ) (st1_1 t) fullShare ((dat V c).before 1 t d))
            ∗ (∃ d, owns (c : Thread nD τ) (st1_2 t) fullShare ((dat V c).before 2 t d)))) := by
  have hf : ¬ isFirst (grid1.coords t) = 1#1 := fun h => h0 ((first_iff t).1 h)
  have hl : ¬ k1_cond2 (grid1.coords t) = 1#1 := fun h => h9 ((last_iff t).1 h)
  have hnz : t.castSucc ≠ 0 := fun h => h0 (by have := congrArg Fin.val h; simpa using this)
  unfold bodyAt1
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_mid c Set.univ _ hf hl _ _ _ _ _ _ _ _ _ _ (tile1 V c 0 t) _ _ _ _ _)
  isplitl [H0]; · iexact H0
  isplitl [H1]; · iexact H1
  isplitl [H2]; · iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; rw [sums_succ]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_last (c : Dev nD) (t : Fin cfg1.N) (h9 : t.val = 9) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ owns (c : Thread nD τ) (st1_1 t) fullShare ((dat V c).after 1 t)
            ∗ owns (c : Thread nD τ) (st1_2 t) fullShare ((dat V c).after 2 t))) := by
  have hf : ¬ isFirst (grid1.coords t) = 1#1 := fun h => by have := (first_iff t).1 h; omega
  have hl : k1_cond2 (grid1.coords t) = 1#1 := (last_iff t).2 h9
  have hnz : t.castSucc ≠ 0 := fun h => by have := congrArg Fin.val h; simp at this; omega
  unfold bodyAt1
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  rw [dat_after1, dat_after2, sums_succ]
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_last c Set.univ _ hf hl _ _ _ _ _ _ _ _ _ _ (tile1 V c 0 t) _ _ _)
  isplitl [H0]; · iexact H0
  isplitl [H1]; · iexists _; iexact H1
  isplitl [H2]; · iexists _; iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexact H1
  iexact H2

/-- The body obligation of the region's pipeline, at every point: the three cases, the configuration's `idle` and
    `flush` decided in each. -/
theorem obligation (c : Dev nD) : BodyObligation (dat (F := F) V c) (defs₀ (F := F)) Variants.none () Set.univ := fun t => by
  rw [bigSep_W1, bigSep_W1]
  have hlt : t.val < 10 := Nat.lt_of_lt_of_eq t.isLt N_1
  have idle_of (hl : ¬ k1_cond2 (grid1.coords t) = 1#1) : (!(k1_cond2 (grid1.coords t) == 1#1)) = true := by simp [hl]
  have live_of (hl : k1_cond2 (grid1.coords t) = 1#1) : (!(k1_cond2 (grid1.coords t) == 1#1)) = false := by simp [hl]
  have nf1 (h9 : t.val ≠ 9) : (win1 1).flush t = false := by
    cases hfl : (win1 1).flush t with
    | false => rfl
    | true => exact absurd ((flush1_1 t).1 hfl) (by omega)
  have nf2 (h9 : t.val ≠ 9) : (win1 2).flush t = false := by
    cases hfl : (win1 2).flush t with
    | false => rfl
    | true => exact absurd ((flush1_2 t).1 hfl) (by omega)
  by_cases h0 : t.val = 0
  · have hl : ¬ k1_cond2 (grid1.coords t) = 1#1 := fun h => by have := (last_iff t).1 h; omega
    have hi1 : idle1 1 (grid1.coords t) = true := idle_of hl
    have hi2 : idle1 2 (grid1.coords t) = true := idle_of hl
    simp only [hi1, hi2, nf1 (by omega), nf2 (by omega)]
    exact point_first V c t h0
  · by_cases h9 : t.val = 9
    · have hl : k1_cond2 (grid1.coords t) = 1#1 := (last_iff t).2 h9
      have hi1 : idle1 1 (grid1.coords t) = false := live_of hl
      have hi2 : idle1 2 (grid1.coords t) = false := live_of hl
      simp only [hi1, hi2]
      exact point_last V c t h9
    · have hl : ¬ k1_cond2 (grid1.coords t) = 1#1 := fun h => h9 ((last_iff t).1 h)
      have hi1 : idle1 1 (grid1.coords t) = true := idle_of hl
      have hi2 : idle1 2 (grid1.coords t) = true := idle_of hl
      simp only [hi1, hi2, nf1 h9, nf2 h9]
      exact point_mid V c t h0 h9

end Cert.KernelIdeal.Stats1

end
-- ==== Proof.Region2.lean ====
/-
  Region 2 of @main — layer 0's normalisation, affine map and leaky rectifier fused with layer 1's matrix product.
  Every grid point reads one 5000×256 tile `h`, the mean row, the variance row, the scale and shift rows, the slope
  (1×1) and the whole 256×256 weight matrix, and stores over the whole output block
  `prelu((h − mean) · rsqrt(max(var, 0) + ε) · scale + shift) · W`. All operands but the tile keep one block index over
  the grid: fetched at the first point, found in place afterwards. Stated at any float instance.
-/
import proofs.«160346_j84963043049900_2_alg».proof.Proof.Gen.KernelIdeal.Launch
import proofs.«160346_j84963043049900_2_alg».proof.Proof.Gen.KernelIdeal.Skeleton
import proofs.«160346_j84963043049900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev whole_5000x256 : Rect S5000x256 := Rect.unit (s := S5000x256) ![0, 0] S5000x256.size inb_S5000x256_S5000x256_0_0
abbrev whole_1x256 : Rect S1x256 := Rect.unit (s := S1x256) ![0, 0] S1x256.size inb_S1x256_S1x256_0_0
abbrev whole_1x1 : Rect S1x1 := Rect.unit (s := S1x1) ![0, 0] S1x1.size inb_S1x1_S1x1_0_0
abbrev whole_256x256 : Rect S256x256 := Rect.unit (s := S256x256) ![0, 0] S256x256.size inb_S256x256_S256x256_0_0

/-- The output tile the body leaves: its one store, over the whole block, of the normalised, rectified tile times `W`. -/
def out2 (x0 : Vec F S5000x256 .f32) (x1 : Vec F S1x256 .f32) (x2 : Vec F S1x256 .f32) (x3 : Vec F S1x256 .f32) (x4 : Vec F S1x256 .f32) (x5 : Vec F S1x1 .f32) (x6 : Vec F S256x256 .f32) : Vec F S5000x256 .f32 :=
  View.canon [⟨whole_5000x256, k2_pay1 (View.ld x0 whole_5000x256) (View.ld x2 whole_1x256) (View.ld x1 whole_1x256) (View.ld x3 whole_1x256) (View.ld x4 whole_1x256) (View.ld x5 whole_1x1) (View.ld x6 whole_256x256)⟩]

/-- That one store covers the block. -/
theorem out2_cover (p : Vec F S5000x256 .f32) (y : S5000x256.Idx) :
    ∃ pc ∈ ([⟨whole_5000x256, p⟩] : List (View.Piece (Elt F) S5000x256 .f32)), y ∈ pc.1.set :=
  View.cover_of_tiled [⟨whole_5000x256, p⟩] S5000x256.size (by rfl) y

set_option maxHeartbeats 1000000 in
/-- The body on whole staging buffers: the seven inputs are read and left as found, the output buffer ends at `out2` of them. -/
theorem body (c : Dev nD) (E : Set ℕ) (i : grid2.Coords)
    (a0 : Memref sig .tc .vmem S5000x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x1 .f32) (h5 : a5.IsWhole) (a6 : Memref sig .tc .vmem S256x256 .f32) (h6 : a6.IsWhole) (a7 : Memref sig .tc .vmem S5000x256 .f32) (h7 : a7.IsWhole)
    (x0 : Vec F S5000x256 .f32) (x1 : Vec F S1x256 .f32) (x2 : Vec F S1x256 .f32) (x3 : Vec F S1x256 .f32) (x4 : Vec F S1x256 .f32) (x5 : Vec F S1x1 .f32) (x6 : Vec F S256x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out2 x0 x1 x2 x3 x4 x5 x6)) -∗ K ⟨⟩))
      ⊢ wp frame (wpE (defs₀ (F := F)) Variants.none c none) E (cc2__bn_apply_linear_kernel i a0 h0 a1 h1 a2 h2 a3 h3 a4 h4 a5 h5 a6 h6 a7 h7) K := by
  simp only [cc2__bn_apply_linear_kernel_eq_skeleton]; unfold cc2__bn_apply_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (out2_cover _)

/-! ## The proof data -/

/-- Input window 0's staging buffer holds the window's tile at every point: fetched there, or — its block index not
    having moved — found as the point before left it. -/
theorem found_tile_0 {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)
/-- Input window 1's staging buffer holds the window's tile at every point: fetched there, or — its block index not
    having moved — found as the point before left it. -/
theorem found_tile_1 {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)
/-- Input window 2's staging buffer holds the window's tile at every point: fetched there, or — its block index not
    having moved — found as the point before left it. -/
theorem found_tile_2 {c : Dev nD} (dat : Dat τ (Elt F) Unit ℕ (UR sig nD τ) ℕ cfg2 c) (hA : dat.A 2 = V c (Pipeline.arrRef spec2 2))
    (hafter : ∀ t, dat.after 2 t = tile2 V c 2 t) (t : Fin cfg2.N) (d) : dat.before 2 t d = tile2 V c 2 t :=
  (dat.before_in_eq_fetched 2 rfl (fun _ => rfl) (fun _ _ _ => rfl) (fun t => by rw [hafter]; unfold Dat.blockOf tile2; rw [hA]; try rfl) t d).trans
    (by unfold Dat.fetched Dat.blockOf tile2; rw [hA]; try rfl)
/-- Input window 3's staging buffer holds the window's tile at every point: fetched there, or — its block index not
    having moved — found as the point before left it. -/
theorem found_tile_3 {c : Dev nD} (dat : Dat τ (Elt F) Unit ℕ (UR sig nD τ) ℕ cfg2 c) (hA : dat.A 3 = V c (Pipeline.arrRef spec2 3))
    (hafter : ∀ t, dat.after 3 t = tile2 V c 3 t) (t : Fin cfg2.N) (d) : dat.before 3 t d = tile2 V c 3 t :=
  (dat.before_in_eq_fetched 3 rfl (fun _ => rfl) (fun _ _ _ => rfl) (fun t => by rw [hafter]; unfold Dat.blockOf tile2; rw [hA]; try rfl) t d).trans
    (by unfold Dat.fetched Dat.blockOf tile2; rw [hA]; try rfl)
/-- Input window 4's staging buffer holds the window's tile at every point: fetched there, or — its block index not
    having moved — found as the point before left it. -/
theorem found_tile_4 {c : Dev nD} (dat : Dat τ (Elt F) Unit ℕ (UR sig nD τ) ℕ cfg2 c) (hA : dat.A 4 = V c (Pipeline.arrRef spec2 4))
    (hafter : ∀ t, dat.after 4 t = tile2 V c 4 t) (t : Fin cfg2.N) (d) : dat.before 4 t d = tile2 V c 4 t :=
  (dat.before_in_eq_fetched 4 rfl (fun _ => rfl) (fun _ _ _ => rfl) (fun t => by rw [hafter]; unfold Dat.blockOf tile2; rw [hA]; try rfl) t d).trans
    (by unfold Dat.fetched Dat.blockOf tile2; rw [hA]; try rfl)
/-- Input window 5's staging buffer holds the window's tile at every point: fetched there, or — its block index not
    having moved — found as the point before left it. -/
theorem found_tile_5 {c : Dev nD} (dat : Dat τ (Elt F) Unit ℕ (UR sig nD τ) ℕ cfg2 c) (hA : dat.A 5 = V c (Pipeline.arrRef spec2 5))
    (hafter : ∀ t, dat.after 5 t = tile2 V c 5 t) (t : Fin cfg2.N) (d) : dat.before 5 t d = tile2 V c 5 t :=
  (dat.before_in_eq_fetched 5 rfl (fun _ => rfl) (fun _ _ _ => rfl) (fun t => by rw [hafter]; unfold Dat.blockOf tile2; rw [hA]; try rfl) t d).trans
    (by unfold Dat.fetched Dat.blockOf tile2; rw [hA]; try rfl)
/-- Input window 6's staging buffer holds the window's tile at every point: fetched there, or — its block index not
    having moved — found as the point before left it. -/
theorem found_tile_6 {c : Dev nD} (dat : Dat τ (Elt F) Unit ℕ (UR sig nD τ) ℕ cfg2 c) (hA : dat.A 6 = V c (Pipeline.arrRef spec2 6))
    (hafter : ∀ t, dat.after 6 t = tile2 V c 6 t) (t : Fin cfg2.N) (d) : dat.before 6 t d = tile2 V c 6 t :=
  (dat.before_in_eq_fetched 6 rfl (fun _ => rfl) (fun _ _ _ => rfl) (fun t => by rw [hafter]; unfold Dat.blockOf tile2; rw [hA]; try rfl) t d).trans
    (by unfold Dat.fetched Dat.blockOf tile2; rw [hA]; try rfl)

/-- The region's proof data on core `c`: the arrays as found; after the body at point `t` every input buffer still at its
    tile and the output buffer at `out2` of the tiles; the invariant the plain one (the scoped rest and the generator
    register pass through untouched); nothing owed. -/
def dat (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => tile2 V c 3 t
    | ⟨4, _⟩ => tile2 V c 4 t
    | ⟨5, _⟩ => tile2 V c 5 t
    | ⟨6, _⟩ => tile2 V c 6 t
    | ⟨7, _⟩ => out2 (tile2 V c 0 t) (tile2 V c 1 t) (tile2 V c 2 t) (tile2 V c 3 t) (tile2 V c 4 t) (tile2 V c 5 t) (tile2 V c 6 t)
  Φ _ := Pipeline.ΦA spec2 c
  q _ := fullShare
  owed _ := 0

theorem dat_A (c : Dev nD) (w : Fin cfg2.W) : (dat V c).A w = V c (Pipeline.arrRef spec2 w) := by dsimp only [dat]
theorem dat_after0 (c : Dev nD) (t : Fin cfg2.N) : (dat V c).after 0 t = tile2 V c 0 t := by dsimp only [dat]
theorem dat_after1 (c : Dev nD) (t : Fin cfg2.N) : (dat V c).after 1 t = tile2 V c 1 t := by dsimp only [dat]
theorem dat_after2 (c : Dev nD) (t : Fin cfg2.N) : (dat V c).after 2 t = tile2 V c 2 t := by dsimp only [dat]
theorem dat_after3 (c : Dev nD) (t : Fin cfg2.N) : (dat V c).after 3 t = tile2 V c 3 t := by dsimp only [dat]
theorem dat_after4 (c : Dev nD) (t : Fin cfg2.N) : (dat V c).after 4 t = tile2 V c 4 t := by dsimp only [dat]
theorem dat_after5 (c : Dev nD) (t : Fin cfg2.N) : (dat V c).after 5 t = tile2 V c 5 t := by dsimp only [dat]
theorem dat_after6 (c : Dev nD) (t : Fin cfg2.N) : (dat V c).after 6 t = tile2 V c 6 t := by dsimp only [dat]
theorem dat_after7 (c : Dev nD) (t : Fin cfg2.N) :
    (dat V c).after 7 t = out2 (tile2 V c 0 t) (tile2 V c 1 t) (tile2 V c 2 t) (tile2 V c 3 t) (tile2 V c 4 t) (tile2 V c 5 t) (tile2 V c 6 t) := by dsimp only [dat]
theorem dat_before0 (c : Dev nD) (t : Fin cfg2.N) (d) : (dat V c).before 0 t d = tile2 V c 0 t :=
  found_tile_0 V (dat V c) (dat_A V c 0) (dat_after0 V c) t d
theorem dat_before1 (c : Dev nD) (t : Fin cfg2.N) (d) : (dat V c).before 1 t d = tile2 V c 1 t :=
  found_tile_1 V (dat V c) (dat_A V c 1) (dat_after1 V c) t d
theorem dat_before2 (c : Dev nD) (t : Fin cfg2.N) (d) : (dat V c).before 2 t d = tile2 V c 2 t :=
  found_tile_2 V (dat V c) (dat_A V c 2) (dat_after2 V c) t d
theorem dat_before3 (c : Dev nD) (t : Fin cfg2.N) (d) : (dat V c).before 3 t d = tile2 V c 3 t :=
  found_tile_3 V (dat V c) (dat_A V c 3) (dat_after3 V c) t d
theorem dat_before4 (c : Dev nD) (t : Fin cfg2.N) (d) : (dat V c).before 4 t d = tile2 V c 4 t :=
  found_tile_4 V (dat V c) (dat_A V c 4) (dat_after4 V c) t d
theorem dat_before5 (c : Dev nD) (t : Fin cfg2.N) (d) : (dat V c).before 5 t d = tile2 V c 5 t :=
  found_tile_5 V (dat V c) (dat_A V c 5) (dat_after5 V c) t d
theorem dat_before6 (c : Dev nD) (t : Fin cfg2.N) (d) : (dat V c).before 6 t d = tile2 V c 6 t :=
  found_tile_6 V (dat V c) (dat_A V c 6) (dat_after6 V c) t d

/-! ## The body at a point -/

theorem point (c : Dev nD) (t : Fin cfg2.N) :
    iprop((dat V c).Φ t.castSucc ∗ (dat V c).owesAt () t.castSucc
        ∗ (∃ d, owns (c : Thread nD τ) (st2_0 t) fullShare ((dat V c).before 0 t d))
        ∗ (∃ d, owns (c : Thread nD τ) (st2_1 t) fullShare ((dat V c).before 1 t d))
        ∗ (∃ d, owns (c : Thread nD τ) (st2_2 t) fullShare ((dat V c).before 2 t d))
        ∗ (∃ d, owns (c : Thread nD τ) (st2_3 t) fullShare ((dat V c).before 3 t d))
        ∗ (∃ d, owns (c : Thread nD τ) (st2_4 t) fullShare ((dat V c).before 4 t d))
        ∗ (∃ d, owns (c : Thread nD τ) (st2_5 t) fullShare ((dat V c).before 5 t d))
        ∗ (∃ d, owns (c : Thread nD τ) (st2_6 t) fullShare ((dat V c).before 6 t d))
        ∗ (∃ d, owns (c : Thread nD τ) (st2_7 t) fullShare ((dat V c).before 7 t d)))
      ⊢ wp frame (wpE (defs₀ (F := F)) Variants.none c none) Set.univ (bodyAt2 t) (fun _ =>
          iprop((dat V c).Φ t.succ ∗ (dat V c).owesAt () t.succ
            ∗ owns (c : Thread nD τ) (st2_0 t) fullShare ((dat V c).after 0 t)
            ∗ owns (c : Thread nD τ) (st2_1 t) fullShare ((dat V c).after 1 t)
            ∗ owns (c : Thread nD τ) (st2_2 t) fullShare ((dat V c).after 2 t)
            ∗ owns (c : Thread nD τ) (st2_3 t) fullShare ((dat V c).after 3 t)
            ∗ owns (c : Thread nD τ) (st2_4 t) fullShare ((dat V c).after 4 t)
            ∗ owns (c : Thread nD τ) (st2_5 t) fullShare ((dat V c).after 5 t)
            ∗ owns (c : Thread nD τ) (st2_6 t) fullShare ((dat V c).after 6 t)
            ∗ owns (c : Thread nD τ) (st2_7 t) fullShare ((dat V c).after 7 t))) := by
  unfold bodyAt2
  simp only [dat_before0, dat_before1, dat_before2, dat_before3, dat_before4, dat_before5, dat_before6]
  rw [show (dat V c).Φ t.succ = (dat V c).Φ t.castSucc from rfl,
    show (dat V c).owesAt () t.succ = (dat V c).owesAt () t.castSucc from rfl,
    dat_after0, dat_after1, dat_after2, dat_after3, dat_after4, dat_after5, dat_after6, dat_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c Set.univ _ _ _ _ _ _ _ _ _ _ _ _ _ _ _ _ _ (tile2 V c 0 t) (tile2 V c 1 t) (tile2 V c 2 t) (tile2 V c 3 t) (tile2 V c 4 t) (tile2 V c 5 t) (tile2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every point. -/
theorem obligation (c : Dev nD) : BodyObligation (dat (F := F) V c) (defs₀ (F := F)) Variants.none () Set.univ := fun t => by
  rw [bigSep_W2, bigSep_W2]
  exact point V c t

end Cert.KernelIdeal.Fused

end
-- ==== Proof.Region3.lean ====
/-
  Region 3 of @main — the column statistics of a 50000×256 array, accumulated over its ten tiles of 5000 rows.
  Two 1×256 rows live in scratch memory across the grid: the running column sums and the running column sums of
  squares. The first grid point zeroes both rows; every point adds its tile's column sums and its tile's column sums of
  squares to them; the last point copies the two rows over the two 1×256 output blocks, which are written back there
  and nowhere else (at the other points the body does not touch the output buffers). So the body has three cases by
  the grid position, and the region's invariant carries the two rows: after the points below `t` they hold the sums
  over the tiles below `t`. Stated at any float instance.
-/
import proofs.«160346_j84963043049900_2_alg».proof.Proof.Gen.KernelIdeal.Launch
import proofs.«160346_j84963043049900_2_alg».proof.Proof.Gen.KernelIdeal.Skeleton
import proofs.«160346_j84963043049900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Stats3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev whole_1x256 : Rect S1x256 := Rect.unit (s := S1x256) ![0, 0] S1x256.size inb_S1x256_S1x256_0_0
abbrev whole_5000x256 : Rect S5000x256 := Rect.unit (s := S5000x256) ![0, 0] S5000x256.size inb_S5000x256_S5000x256_0_0

theorem zeros2 : (![0, 0] : Fin 2 → Nat) = fun _ => 0 := by
  funext a; match a with | ⟨0, _⟩ => rfl | ⟨1, _⟩ => rfl

/-- Every index of a row lies under the whole-row rectangle. -/
theorem row_covered (p : Vec F S1x256 .f32) (L : List (View.Piece (Elt F) S1x256 .f32)) (y : S1x256.Idx) :
    ∃ pc ∈ ((⟨whole_1x256, p⟩ : View.Piece (Elt F) S1x256 .f32) :: L), y ∈ pc.1.set :=
  ⟨_, List.mem_cons_self, View.mem_set_unit_zero zeros2 inb_S1x256_S1x256_0_0 y⟩

/-- The first condition of the body: the grid position is 0. -/
def isFirst (i : grid3.Coords) : BitVec 1 :=
  Scalar.cmpi .ne (Scalar.extui (Scalar.cmpi .eq (BitVec.ofNat 32 (i 0).val) 0#32)) 0#32

theorem first_iff : ∀ t : Fin cfg3.N, isFirst (grid3.coords t) = 1#1 ↔ t.val = 0 :=
  (by decide +kernel : ∀ t : Fin grid3.N, isFirst (grid3.coords t) = 1#1 ↔ t.val = 0)
theorem last_iff : ∀ t : Fin cfg3.N, k3_cond2 (grid3.coords t) = 1#1 ↔ t.val = 9 :=
  (by decide +kernel : ∀ t : Fin grid3.N, k3_cond2 (grid3.coords t) = 1#1 ↔ t.val = 9)

set_option maxHeartbeats 1000000 in
/-- The body at the first grid point: both accumulator rows are zeroed, then the tile's column sums and column sums
    of squares are added to them; the two output buffers are not touched. -/
theorem body_first (c : Dev nD) (E : Set ℕ) (i : grid3.Coords) (hf : isFirst i = 1#1) (hl : ¬ k3_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 : Vec F S1x256 .f32) (K : PUnit → sProp 𝕄) :
    iprop(owns (c : Thread nD τ) a1 fullShare x ∗ owns (c : Thread nD τ) a2 fullShare o2 ∗ owns (c : Thread nD τ) a3 fullShare o3
        ∗ (∃ d, owns (c : Thread nD τ) a4 fullShare d) ∗ (∃ d, owns (c : Thread nD τ) a5 fullShare d)
        ∗ (iprop(owns (c : Thread nD τ) a1 fullShare x ∗ owns (c : Thread nD τ) a2 fullShare o2 ∗ owns (c : Thread nD τ) a3 fullShare o3
            ∗ owns (c : Thread nD τ) a4 fullShare (k3_pay4 x (k3_pay1 (F := F))) ∗ owns (c : Thread nD τ) a5 fullShare (k3_pay5 x (k3_pay2 (F := F)))) -∗ K ⟨⟩))
      ⊢ wp frame (wpE (defs₀ (F := F)) Variants.none c none) E (cc3__bn_stats_kernel i a1 h1 a2 h2 a3 h3 a4 h4 a5 h5) K := by
  simp only [cc3__bn_stats_kernel_eq_skeleton]; unfold cc3__bn_stats_kernel_skel
  unfold isFirst at hf
  simp only [dif_pos hf, dif_neg hl]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readCov_unit_zero _ zeros2, View.readAt_eq_ld, View.ld_unit_zero zeros2]
  · iexists _; isplitr
    swap; · iexact H5
    ipureintro
    rw [View.read_writes_eq_canon _ _ _ (row_covered _ _), View.canon_cons_unit_zero zeros2]
    sl_unfold_words
    rw [View.readCov_unit_zero _ zeros2, View.readAt_eq_ld, View.ld_unit_zero zeros2]

set_option maxHeartbeats 1000000 in
/-- The body at a middle grid point: the tile's column sums and column sums of squares are added to the accumulator
    rows as found; the two output buffers are not touched. -/
theorem body_mid (c : Dev nD) (E : Set ℕ) (i : grid3.Coords) (hf : ¬ isFirst i = 1#1) (hl : ¬ k3_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 s4 s5 : Vec F S1x256 .f32) (K : PUnit → sProp 𝕄) :
    iprop(owns (c : Thread nD τ) a1 fullShare x ∗ owns (c : Thread nD τ) a2 fullShare o2 ∗ owns (c : Thread nD τ) a3 fullShare o3 ∗ owns (c : Thread nD τ) a4 fullShare s4 ∗ owns (c : Thread nD τ) a5 fullShare s5
        ∗ (iprop(owns (c : Thread nD τ) a1 fullShare x ∗ owns (c : Thread nD τ) a2 fullShare o2 ∗ owns (c : Thread nD τ) a3 fullShare o3
            ∗ owns (c : Thread nD τ) a4 fullShare (k3_pay4 x s4) ∗ owns (c : Thread nD τ) a5 fullShare (k3_pay5 x s5)) -∗ K ⟨⟩))
      ⊢ wp frame (wpE (defs₀ (F := F)) Variants.none c none) E (cc3__bn_stats_kernel i a1 h1 a2 h2 a3 h3 a4 h4 a5 h5) K := by
  simp only [cc3__bn_stats_kernel_eq_skeleton]; unfold cc3__bn_stats_kernel_skel
  unfold isFirst at hf
  simp only [dif_neg hf, dif_neg hl]
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]
  · iexists _; isplitr
    swap; · iexact H5
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]

set_option maxHeartbeats 1000000 in
/-- The body at the last grid point: the tile is added to the accumulator rows as at a middle point, and then the two
    rows are copied over the two output blocks. -/
theorem body_last (c : Dev nD) (E : Set ℕ) (i : grid3.Coords) (hf : ¬ isFirst i = 1#1) (hl : k3_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (s4 s5 : Vec F S1x256 .f32) (K : PUnit → sProp 𝕄) :
    iprop(owns (c : Thread nD τ) a1 fullShare x ∗ (∃ d, owns (c : Thread nD τ) a2 fullShare d) ∗ (∃ d, owns (c : Thread nD τ) a3 fullShare d) ∗ owns (c : Thread nD τ) a4 fullShare s4 ∗ owns (c : Thread nD τ) a5 fullShare s5
        ∗ (iprop(owns (c : Thread nD τ) a1 fullShare x ∗ owns (c : Thread nD τ) a2 fullShare (k3_pay4 x s4) ∗ owns (c : Thread nD τ) a3 fullShare (k3_pay5 x s5)
            ∗ owns (c : Thread nD τ) a4 fullShare (k3_pay4 x s4) ∗ owns (c : Thread nD τ) a5 fullShare (k3_pay5 x s5)) -∗ K ⟨⟩))
      ⊢ wp frame (wpE (defs₀ (F := F)) Variants.none c none) E (cc3__bn_stats_kernel i a1 h1 a2 h2 a3 h3 a4 h4 a5 h5) K := by
  simp only [cc3__bn_stats_kernel_eq_skeleton]; unfold cc3__bn_stats_kernel_skel
  unfold isFirst at hf
  simp only [dif_neg hf, dif_pos hl]
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec
  sl_step
  iapply Hk
  isplitl [H1]
  · iexists f1; isplitr; · ipureintro; rfl
    iexact H1
  isplitl [H2]
  · iexists _; isplitr
    swap; · iexact H2
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H3]
  · iexists _; isplitr
    swap; · iexact H3
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H4]
  · iexists _; isplitr
    swap; · iexact H4
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]
  · iexists _; isplitr
    swap; · iexact H5
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]

/-! ## The running sums, the invariant, the proof data -/

/-- The two rows after the tiles below a point: zero rows at the start, then each tile's column sums and column sums
    of squares added in turn. -/
def sums (c : Dev nD) : Fin (cfg3.N + 1) → Vec F S1x256 .f32 × Vec F S1x256 .f32 :=
  Fin.induction (motive := fun _ => Vec F S1x256 .f32 × Vec F S1x256 .f32) (k3_pay1 (F := F), k3_pay2 (F := F))
    (fun t prev => (k3_pay4 (tile3 V c 0 t) prev.1, k3_pay5 (tile3 V c 0 t) prev.2))

theorem sums_zero (c : Dev nD) : sums V c 0 = (k3_pay1 (F := F), k3_pay2 (F := F)) := by
  unfold sums; exact Fin.induction_zero _ _
theorem sums_succ (c : Dev nD) (t : Fin cfg3.N) :
    sums V c t.succ = (k3_pay4 (tile3 V c 0 t) (sums V c t.castSucc).1, k3_pay5 (tile3 V c 0 t) (sums V c t.castSucc).2) := by
  unfold sums; exact Fin.induction_succ _ _ _

/-- The region's invariant before point `t`: the two scratch rows — at anything before the first point, at the running
    sums after it —, the other scoped buffers untouched, the generator register at some state. -/
def inv (c : Dev nD) (t : Fin (cfg3.N + 1)) : sProp 𝕄 :=
  iprop(∃ d4 d5 : Vec F S1x256 .f32, ⌜t ≠ 0 → d4 = (sums V c t).1 ∧ d5 = (sums V c t).2⌝
    ∗ owns (c : Thread nD τ) (Memref.whole cc3_scratch0) fullShare d4 ∗ owns (c : Thread nD τ) (Memref.whole cc3_scratch1) fullShare d5
    ∗ Pipeline.scopedRestBut (Ix := Unit) (Name := ℕ) (U := UR sig nD τ) (Lvl := ℕ) (Val := Elt F) spec3 c [cc3_scratch0, cc3_scratch1]
    ∗ ∃ r, prngReg c r)

/-- The input window's staging buffer holds its tile at every point (it is fetched at every point). -/
theorem found_tile_0 {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- The region's proof data on core `c`: the array as found; the input buffer left at its tile; each output buffer,
    where the body writes it (the last point), at the running row after that point; the invariant above; nothing owed. -/
def dat (c : Dev nD) : Dat τ (Elt F) Unit ℕ (UR sig nD τ) ℕ cfg3 c where
  A w := V c (Pipeline.arrRef spec3 w)
  after w t := match w with
    | ⟨0, _⟩ => tile3 V c 0 t
    | ⟨1, _⟩ => (sums V c t.succ).1
    | ⟨2, _⟩ => (sums V c t.succ).2
  Φ t := inv V c t
  q _ := fullShare
  owed _ := 0

theorem dat_A (c : Dev nD) (w : Fin cfg3.W) : (dat V c).A w = V c (Pipeline.arrRef spec3 w) := by dsimp only [dat]
theorem dat_after0 (c : Dev nD) (t : Fin cfg3.N) : (dat V c).after 0 t = tile3 V c 0 t := by dsimp only [dat]
theorem dat_after1 (c : Dev nD) (t : Fin cfg3.N) : (dat V c).after 1 t = (sums V c t.succ).1 := by dsimp only [dat]
theorem dat_after2 (c : Dev nD) (t : Fin cfg3.N) : (dat V c).after 2 t = (sums V c t.succ).2 := by dsimp only [dat]
theorem dat_before0 (c : Dev nD) (t : Fin cfg3.N) (d) : (dat V c).before 0 t d = tile3 V c 0 t :=
  found_tile_0 V (dat V c) (dat_A V c 0) (dat_after0 V c) t d

/-! ## The body at a point, case by case -/

theorem point_first (c : Dev nD) (t : Fin cfg3.N) (h0 : t.val = 0) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d)))
      ⊢ wp frame (wpE (defs₀ (F := F)) Variants.none c none) Set.univ (bodyAt3 t) (fun _ =>
          iprop((dat V c).Φ t.succ ∗ (dat V c).owesAt () t.succ
            ∗ owns (c : Thread nD τ) (st3_0 t) fullShare ((dat V c).after 0 t)
            ∗ (∃ d, owns (c : Thread nD τ) (st3_1 t) fullShare ((dat V c).before 1 t d))
            ∗ (∃ d, owns (c : Thread nD τ) (st3_2 t) fullShare ((dat V c).before 2 t d)))) := by
  have hf : isFirst (grid3.coords t) = 1#1 := (first_iff t).2 h0
  have hl : ¬ k3_cond2 (grid3.coords t) = 1#1 := fun h => by have := (last_iff t).1 h; omega
  have hz : t.castSucc = 0 := Fin.ext (by simpa using h0)
  unfold bodyAt3
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, -, Hs4, Hs5, Hrest, Hp⟩, Ho, ⟨%d0, H0⟩, ⟨%e1, H1⟩, ⟨%e2, H2⟩⟩
  iapply (body_first c Set.univ _ hf hl _ _ _ _ _ _ _ _ _ _ (tile3 V c 0 t) _ _ _)
  isplitl [H0]; · iexact H0
  isplitl [H1]; · iexact H1
  isplitl [H2]; · iexact H2
  isplitl [Hs4]; · iexists _; iexact Hs4
  isplitl [Hs5]; · iexists _; iexact Hs5
  iintro ⟨H0, H1, H2, Hs4, Hs5⟩
  isplitl [Hs4 Hs5 Hrest Hp]
  · iexists _, _; isplitr
    · ipureintro; intro _; rw [sums_succ, hz, sums_zero]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_mid (c : Dev nD) (t : Fin cfg3.N) (h0 : t.val ≠ 0) (h9 : t.val ≠ 9) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d)))
      ⊢ wp frame (wpE (defs₀ (F := F)) Variants.none c none) Set.univ (bodyAt3 t) (fun _ =>
          iprop((dat V c).Φ t.succ ∗ (dat V c).owesAt () t.succ
            ∗ owns (c : Thread nD τ) (st3_0 t) fullShare ((dat V c).after 0 t)
            ∗ (∃ d, owns (c : Thread nD τ) (st3_1 t) fullShare ((dat V c).before 1 t d))
            ∗ (∃ d, owns (c : Thread nD τ) (st3_2 t) fullShare ((dat V c).before 2 t d)))) := by
  have hf : ¬ isFirst (grid3.coords t) = 1#1 := fun h => h0 ((first_iff t).1 h)
  have hl : ¬ k3_cond2 (grid3.coords t) = 1#1 := fun h => h9 ((last_iff t).1 h)
  have hnz : t.castSucc ≠ 0 := fun h => h0 (by have := congrArg Fin.val h; simpa using this)
  unfold bodyAt3
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_mid c Set.univ _ hf hl _ _ _ _ _ _ _ _ _ _ (tile3 V c 0 t) _ _ _ _ _)
  isplitl [H0]; · iexact H0
  isplitl [H1]; · iexact H1
  isplitl [H2]; · iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; rw [sums_succ]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_last (c : Dev nD) (t : Fin cfg3.N) (h9 : t.val = 9) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d)))
      ⊢ wp frame (wpE (defs₀ (F := F)) Variants.none c none) Set.univ (bodyAt3 t) (fun _ =>
          iprop((dat V c).Φ t.succ ∗ (dat V c).owesAt () t.succ
            ∗ owns (c : Thread nD τ) (st3_0 t) fullShare ((dat V c).after 0 t)
            ∗ owns (c : Thread nD τ) (st3_1 t) fullShare ((dat V c).after 1 t)
            ∗ owns (c : Thread nD τ) (st3_2 t) fullShare ((dat V c).after 2 t))) := by
  have hf : ¬ isFirst (grid3.coords t) = 1#1 := fun h => by have := (first_iff t).1 h; omega
  have hl : k3_cond2 (grid3.coords t) = 1#1 := (last_iff t).2 h9
  have hnz : t.castSucc ≠ 0 := fun h => by have := congrArg Fin.val h; simp at this; omega
  unfold bodyAt3
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  rw [dat_after1, dat_after2, sums_succ]
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_last c Set.univ _ hf hl _ _ _ _ _ _ _ _ _ _ (tile3 V c 0 t) _ _ _)
  isplitl [H0]; · iexact H0
  isplitl [H1]; · iexists _; iexact H1
  isplitl [H2]; · iexists _; iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexact H1
  iexact H2

/-- The body obligation of the region's pipeline, at every point: the three cases, the configuration's `idle` and
    `flush` decided in each. -/
theorem obligation (c : Dev nD) : BodyObligation (dat (F := F) V c) (defs₀ (F := F)) Variants.none () Set.univ := fun t => by
  rw [bigSep_W3, bigSep_W3]
  have hlt : t.val < 10 := Nat.lt_of_lt_of_eq t.isLt N_3
  have idle_of (hl : ¬ k3_cond2 (grid3.coords t) = 1#1) : (!(k3_cond2 (grid3.coords t) == 1#1)) = true := by simp [hl]
  have live_of (hl : k3_cond2 (grid3.coords t) = 1#1) : (!(k3_cond2 (grid3.coords t) == 1#1)) = false := by simp [hl]
  have nf1 (h9 : t.val ≠ 9) : (win3 1).flush t = false := by
    cases hfl : (win3 1).flush t with
    | false => rfl
    | true => exact absurd ((flush3_1 t).1 hfl) (by omega)
  have nf2 (h9 : t.val ≠ 9) : (win3 2).flush t = false := by
    cases hfl : (win3 2).flush t with
    | false => rfl
    | true => exact absurd ((flush3_2 t).1 hfl) (by omega)
  by_cases h0 : t.val = 0
  · have hl : ¬ k3_cond2 (grid3.coords t) = 1#1 := fun h => by have := (last_iff t).1 h; omega
    have hi1 : idle3 1 (grid3.coords t) = true := idle_of hl
    have hi2 : idle3 2 (grid3.coords t) = true := idle_of hl
    simp only [hi1, hi2, nf1 (by omega), nf2 (by omega)]
    exact point_first V c t h0
  · by_cases h9 : t.val = 9
    · have hl : k3_cond2 (grid3.coords t) = 1#1 := (last_iff t).2 h9
      have hi1 : idle3 1 (grid3.coords t) = false := live_of hl
      have hi2 : idle3 2 (grid3.coords t) = false := live_of hl
      simp only [hi1, hi2]
      exact point_last V c t h9
    · have hl : ¬ k3_cond2 (grid3.coords t) = 1#1 := fun h => h9 ((last_iff t).1 h)
      have hi1 : idle3 1 (grid3.coords t) = true := idle_of hl
      have hi2 : idle3 2 (grid3.coords t) = true := idle_of hl
      simp only [hi1, hi2, nf1 h9, nf2 h9]
      exact point_mid V c t h0 h9

end Cert.KernelIdeal.Stats3

end
-- ==== Proof.Region4.lean ====
/-
  Region 4 of @main — layer 1's normalisation, affine map and leaky rectifier, the program's result.
  Every grid point reads one 5000×256 tile `h`, the mean row, the variance row, the scale and shift rows and the slope
  (1×1), and stores over the whole output block `prelu((h − mean) · rsqrt(max(var, 0) + ε) · scale + shift)`. All operands
  but the tile keep one block index over the grid. Stated at any float instance.
-/
import proofs.«160346_j84963043049900_2_alg».proof.Proof.Gen.KernelIdeal.Launch
import proofs.«160346_j84963043049900_2_alg».proof.Proof.Gen.KernelIdeal.Skeleton
import proofs.«160346_j84963043049900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Act

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev whole_5000x256 : Rect S5000x256 := Rect.unit (s := S5000x256) ![0, 0] S5000x256.size inb_S5000x256_S5000x256_0_0
abbrev whole_1x256 : Rect S1x256 := Rect.unit (s := S1x256) ![0, 0] S1x256.size inb_S1x256_S1x256_0_0
abbrev whole_1x1 : Rect S1x1 := Rect.unit (s := S1x1) ![0, 0] S1x1.size inb_S1x1_S1x1_0_0

/-- The output tile the body leaves: its one store, over the whole block, of the normalised, rectified tile. -/
def out4 (x0 : Vec F S5000x256 .f32) (x1 : Vec F S1x256 .f32) (x2 : Vec F S1x256 .f32) (x3 : Vec F S1x256 .f32) (x4 : Vec F S1x256 .f32) (x5 : Vec F S1x1 .f32) : Vec F S5000x256 .f32 :=
  View.canon [⟨whole_5000x256, k4_pay1 (View.ld x0 whole_5000x256) (View.ld x2 whole_1x256) (View.ld x1 whole_1x256) (View.ld x3 whole_1x256) (View.ld x4 whole_1x256) (View.ld x5 whole_1x1)⟩]

/-- That one store covers the block. -/
theorem out4_cover (p : Vec F S5000x256 .f32) (y : S5000x256.Idx) :
    ∃ pc ∈ ([⟨whole_5000x256, p⟩] : List (View.Piece (Elt F) S5000x256 .f32)), y ∈ pc.1.set :=
  View.cover_of_tiled [⟨whole_5000x256, p⟩] S5000x256.size (by rfl) y

set_option maxHeartbeats 1000000 in
/-- The body on whole staging buffers: the six inputs are read and left as found, the output buffer ends at `out4` of them. -/
theorem body (c : Dev nD) (E : Set ℕ) (i : grid4.Coords)
    (a0 : Memref sig .tc .vmem S5000x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x1 .f32) (h5 : a5.IsWhole) (a6 : Memref sig .tc .vmem S5000x256 .f32) (h6 : a6.IsWhole)
    (x0 : Vec F S5000x256 .f32) (x1 : Vec F S1x256 .f32) (x2 : Vec F S1x256 .f32) (x3 : Vec F S1x256 .f32) (x4 : Vec F S1x256 .f32) (x5 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out4 x0 x1 x2 x3 x4 x5)) -∗ K ⟨⟩))
      ⊢ wp frame (wpE (defs₀ (F := F)) Variants.none c none) E (cc4__bn_apply_kernel i a0 h0 a1 h1 a2 h2 a3 h3 a4 h4 a5 h5 a6 h6) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (out4_cover _)

/-! ## The proof data -/

/-- Input window 0's staging buffer holds the window's tile at every point: fetched there, or — its block index not
    having moved — found as the point before left it. -/
theorem found_tile_0 {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)
/-- Input window 1's staging buffer holds the window's tile at every point: fetched there, or — its block index not
    having moved — found as the point before left it. -/
theorem found_tile_1 {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)
/-- Input window 2's staging buffer holds the window's tile at every point: fetched there, or — its block index not
    having moved — found as the point before left it. -/
theorem found_tile_2 {c : Dev nD} (dat : Dat τ (Elt F) Unit ℕ (UR sig nD τ) ℕ cfg4 c) (hA : dat.A 2 = V c (Pipeline.arrRef spec4 2))
    (hafter : ∀ t, dat.after 2 t = tile4 V c 2 t) (t : Fin cfg4.N) (d) : dat.before 2 t d = tile4 V c 2 t :=
  (dat.before_in_eq_fetched 2 rfl (fun _ => rfl) (fun _ _ _ => rfl) (fun t => by rw [hafter]; unfold Dat.blockOf tile4; rw [hA]; try rfl) t d).trans
    (by unfold Dat.fetched Dat.blockOf tile4; rw [hA]; try rfl)
/-- Input window 3's staging buffer holds the window's tile at every point: fetched there, or — its block index not
    having moved — found as the point before left it. -/
theorem found_tile_3 {c : Dev nD} (dat : Dat τ (Elt F) Unit ℕ (UR sig nD τ) ℕ cfg4 c) (hA : dat.A 3 = V c (Pipeline.arrRef spec4 3))
    (hafter : ∀ t, dat.after 3 t = tile4 V c 3 t) (t : Fin cfg4.N) (d) : dat.before 3 t d = tile4 V c 3 t :=
  (dat.before_in_eq_fetched 3 rfl (fun _ => rfl) (fun _ _ _ => rfl) (fun t => by rw [hafter]; unfold Dat.blockOf tile4; rw [hA]; try rfl) t d).trans
    (by unfold Dat.fetched Dat.blockOf tile4; rw [hA]; try rfl)
/-- Input window 4's staging buffer holds the window's tile at every point: fetched there, or — its block index not
    having moved — found as the point before left it. -/
theorem found_tile_4 {c : Dev nD} (dat : Dat τ (Elt F) Unit ℕ (UR sig nD τ) ℕ cfg4 c) (hA : dat.A 4 = V c (Pipeline.arrRef spec4 4))
    (hafter : ∀ t, dat.after 4 t = tile4 V c 4 t) (t : Fin cfg4.N) (d) : dat.before 4 t d = tile4 V c 4 t :=
  (dat.before_in_eq_fetched 4 rfl (fun _ => rfl) (fun _ _ _ => rfl) (fun t => by rw [hafter]; unfold Dat.blockOf tile4; rw [hA]; try rfl) t d).trans
    (by unfold Dat.fetched Dat.blockOf tile4; rw [hA]; try rfl)
/-- Input window 5's staging buffer holds the window's tile at every point: fetched there, or — its block index not
    having moved — found as the point before left it. -/
theorem found_tile_5 {c : Dev nD} (dat : Dat τ (Elt F) Unit ℕ (UR sig nD τ) ℕ cfg4 c) (hA : dat.A 5 = V c (Pipeline.arrRef spec4 5))
    (hafter : ∀ t, dat.after 5 t = tile4 V c 5 t) (t : Fin cfg4.N) (d) : dat.before 5 t d = tile4 V c 5 t :=
  (dat.before_in_eq_fetched 5 rfl (fun _ => rfl) (fun _ _ _ => rfl) (fun t => by rw [hafter]; unfold Dat.blockOf tile4; rw [hA]; try rfl) t d).trans
    (by unfold Dat.fetched Dat.blockOf tile4; rw [hA]; try rfl)

/-- The region's proof data on core `c`: the arrays as found; after the body at point `t` every input buffer still at its
    tile and the output buffer at `out4` of the tiles; the invariant the plain one (the scoped rest and the generator
    register pass through untouched); nothing owed. -/
def dat (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => tile4 V c 3 t
    | ⟨4, _⟩ => tile4 V c 4 t
    | ⟨5, _⟩ => tile4 V c 5 t
    | ⟨6, _⟩ => out4 (tile4 V c 0 t) (tile4 V c 1 t) (tile4 V c 2 t) (tile4 V c 3 t) (tile4 V c 4 t) (tile4 V c 5 t)
  Φ _ := Pipeline.ΦA spec4 c
  q _ := fullShare
  owed _ := 0

theorem dat_A (c : Dev nD) (w : Fin cfg4.W) : (dat V c).A w = V c (Pipeline.arrRef spec4 w) := by dsimp only [dat]
theorem dat_after0 (c : Dev nD) (t : Fin cfg4.N) : (dat V c).after 0 t = tile4 V c 0 t := by dsimp only [dat]
theorem dat_after1 (c : Dev nD) (t : Fin cfg4.N) : (dat V c).after 1 t = tile4 V c 1 t := by dsimp only [dat]
theorem dat_after2 (c : Dev nD) (t : Fin cfg4.N) : (dat V c).after 2 t = tile4 V c 2 t := by dsimp only [dat]
theorem dat_after3 (c : Dev nD) (t : Fin cfg4.N) : (dat V c).after 3 t = tile4 V c 3 t := by dsimp only [dat]
theorem dat_after4 (c : Dev nD) (t : Fin cfg4.N) : (dat V c).after 4 t = tile4 V c 4 t := by dsimp only [dat]
theorem dat_after5 (c : Dev nD) (t : Fin cfg4.N) : (dat V c).after 5 t = tile4 V c 5 t := by dsimp only [dat]
theorem dat_after6 (c : Dev nD) (t : Fin cfg4.N) :
    (dat V c).after 6 t = out4 (tile4 V c 0 t) (tile4 V c 1 t) (tile4 V c 2 t) (tile4 V c 3 t) (tile4 V c 4 t) (tile4 V c 5 t) := by dsimp only [dat]
theorem dat_before0 (c : Dev nD) (t : Fin cfg4.N) (d) : (dat V c).before 0 t d = tile4 V c 0 t :=
  found_tile_0 V (dat V c) (dat_A V c 0) (dat_after0 V c) t d
theorem dat_before1 (c : Dev nD) (t : Fin cfg4.N) (d) : (dat V c).before 1 t d = tile4 V c 1 t :=
  found_tile_1 V (dat V c) (dat_A V c 1) (dat_after1 V c) t d
theorem dat_before2 (c : Dev nD) (t : Fin cfg4.N) (d) : (dat V c).before 2 t d = tile4 V c 2 t :=
  found_tile_2 V (dat V c) (dat_A V c 2) (dat_after2 V c) t d
theorem dat_before3 (c : Dev nD) (t : Fin cfg4.N) (d) : (dat V c).before 3 t d = tile4 V c 3 t :=
  found_tile_3 V (dat V c) (dat_A V c 3) (dat_after3 V c) t d
theorem dat_before4 (c : Dev nD) (t : Fin cfg4.N) (d) : (dat V c).before 4 t d = tile4 V c 4 t :=
  found_tile_4 V (dat V c) (dat_A V c 4) (dat_after4 V c) t d
theorem dat_before5 (c : Dev nD) (t : Fin cfg4.N) (d) : (dat V c).before 5 t d = tile4 V c 5 t :=
  found_tile_5 V (dat V c) (dat_A V c 5) (dat_after5 V c) t d

/-! ## The body at a point -/

theorem point (c : Dev nD) (t : Fin cfg4.N) :
    iprop((dat V c).Φ t.castSucc ∗ (dat V c).owesAt () t.castSucc
        ∗ (∃ d, owns (c : Thread nD τ) (st4_0 t) fullShare ((dat V c).before 0 t d))
        ∗ (∃ d, owns (c : Thread nD τ) (st4_1 t) fullShare ((dat V c).before 1 t d))
        ∗ (∃ d, owns (c : Thread nD τ) (st4_2 t) fullShare ((dat V c).before 2 t d))
        ∗ (∃ d, owns (c : Thread nD τ) (st4_3 t) fullShare ((dat V c).before 3 t d))
        ∗ (∃ d, owns (c : Thread nD τ) (st4_4 t) fullShare ((dat V c).before 4 t d))
        ∗ (∃ d, owns (c : Thread nD τ) (st4_5 t) fullShare ((dat V c).before 5 t d))
        ∗ (∃ d, owns (c : Thread nD τ) (st4_6 t) fullShare ((dat V c).before 6 t d)))
      ⊢ wp frame (wpE (defs₀ (F := F)) Variants.none c none) Set.univ (bodyAt4 t) (fun _ =>
          iprop((dat V c).Φ t.succ ∗ (dat V c).owesAt () t.succ
            ∗ owns (c : Thread nD τ) (st4_0 t) fullShare ((dat V c).after 0 t)
            ∗ owns (c : Thread nD τ) (st4_1 t) fullShare ((dat V c).after 1 t)
            ∗ owns (c : Thread nD τ) (st4_2 t) fullShare ((dat V c).after 2 t)
            ∗ owns (c : Thread nD τ) (st4_3 t) fullShare ((dat V c).after 3 t)
            ∗ owns (c : Thread nD τ) (st4_4 t) fullShare ((dat V c).after 4 t)
            ∗ owns (c : Thread nD τ) (st4_5 t) fullShare ((dat V c).after 5 t)
            ∗ owns (c : Thread nD τ) (st4_6 t) fullShare ((dat V c).after 6 t))) := by
  unfold bodyAt4
  simp only [dat_before0, dat_before1, dat_before2, dat_before3, dat_before4, dat_before5]
  rw [show (dat V c).Φ t.succ = (dat V c).Φ t.castSucc from rfl,
    show (dat V c).owesAt () t.succ = (dat V c).owesAt () t.castSucc from rfl,
    dat_after0, dat_after1, dat_after2, dat_after3, dat_after4, dat_after5, dat_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c Set.univ _ _ _ _ _ _ _ _ _ _ _ _ _ _ _ (tile4 V c 0 t) (tile4 V c 1 t) (tile4 V c 2 t) (tile4 V c 3 t) (tile4 V c 4 t) (tile4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem obligation (c : Dev nD) : BodyObligation (dat (F := F) V c) (defs₀ (F := F)) Variants.none () Set.univ := fun t => by
  rw [bigSep_W4, bigSep_W4]
  exact point V c t

end Cert.KernelIdeal.Act

end
-- ==== Proof.Whole.lean ====
/-
  @main as a whole: the contents of the TensorCore's buffers at each boundary between its eleven items (six stretches
  of host operations, five kernel regions), stage by stage from the launch memory. A host stretch maps the contents
  through its operations; a region changes only its output arrays, to what its write-backs leave
  (the region's proof data read at the end of its grid). Every later item reads earlier results there.
-/
import proofs.«160346_j84963043049900_2_alg».proof.Proof.Gen.KernelIdeal.Regions
import proofs.«160346_j84963043049900_2_alg».proof.Proof.Region0
import proofs.«160346_j84963043049900_2_alg».proof.Proof.Region1
import proofs.«160346_j84963043049900_2_alg».proof.Proof.Region2
import proofs.«160346_j84963043049900_2_alg».proof.Proof.Region3
import proofs.«160346_j84963043049900_2_alg».proof.Proof.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A boundary's contents as the regions' modules take them: by core and buffer. -/
abbrev byRef (W : Dev nD → Valuation τ sig (Elt F)) : (c : Dev nD) → (b : Ref sig .tc) → Buf (Elt F) ((c : Thread nD τ).loc b) :=
  fun c b => W c b

/-! ## The stages -/

/-- Before region 0: the launch memory through the first three host stretches. -/
def S3 (c : Dev nD) : Valuation τ sig (Elt F) := V3 m c
theorem S3_eq (c : Dev nD) : V3 m c = S3 m c := rfl
/-- What region 0 leaves in its output array. -/
def o44 (c : Dev nD) : Buf (Elt F) ((c : Thread nD τ).loc main_v44) := (Dense.dat (byRef (S3 m)) c).arrAt 3 cfg0.N
/-- After region 0. -/
def S4 (c : Dev nD) : Valuation τ sig (Elt F) := Function.update (S3 m c) main_v44 (o44 m c)
/-- What region 1 leaves in its two output rows. -/
def o45_0 (c : Dev nD) : Buf (Elt F) ((c : Thread nD τ).loc main_v45_0) := (Stats1.dat (byRef (S4 m)) c).arrAt 1 cfg1.N
def o45_1 (c : Dev nD) : Buf (Elt F) ((c : Thread nD τ).loc main_v45_1) := (Stats1.dat (byRef (S4 m)) c).arrAt 2 cfg1.N
/-- After region 1. -/
def S5 (c : Dev nD) : Valuation τ sig (Elt F) :=
  Function.update (Function.update (S4 m c) main_v45_0 (o45_0 m c)) main_v45_1 (o45_1 m c)
/-- After the host stretch between regions 1 and 2. -/
def S6 (c : Dev nD) : Valuation τ sig (Elt F) := StableHlo.after hostOps2 (S5 m c)
def o57 (c : Dev nD) : Buf (Elt F) ((c : Thread nD τ).loc main_v57) := (Fused.dat (byRef (S6 m)) c).arrAt 7 cfg2.N
/-- After region 2. -/
def S7 (c : Dev nD) : Valuation τ sig (Elt F) := Function.update (S6 m c) main_v57 (o57 m c)
/-- After the host stretch between regions 2 and 3. -/
def S8 (c : Dev nD) : Valuation τ sig (Elt F) := StableHlo.after hostOps3 (S7 m c)
def o74_0 (c : Dev nD) : Buf (Elt F) ((c : Thread nD τ).loc main_v74_0) := (Stats3.dat (byRef (S8 m)) c).arrAt 1 cfg3.N
def o74_1 (c : Dev nD) : Buf (Elt F) ((c : Thread nD τ).loc main_v74_1) := (Stats3.dat (byRef (S8 m)) c).arrAt 2 cfg3.N
/-- After region 3. -/
def S9 (c : Dev nD) : Valuation τ sig (Elt F) :=
  Function.update (Function.update (S8 m c) main_v74_0 (o74_0 m c)) main_v74_1 (o74_1 m c)
/-- After the host stretch between regions 3 and 4. -/
def S10 (c : Dev nD) : Valuation τ sig (Elt F) := StableHlo.after hostOps4 (S9 m c)
def o86 (c : Dev nD) : Buf (Elt F) ((c : Thread nD τ).loc main_v86) := (Act.dat (byRef (S10 m)) c).arrAt 6 cfg4.N
/-- After region 4: the end. -/
def S11 (c : Dev nD) : Valuation τ sig (Elt F) := Function.update (S10 m c) main_v86 (o86 m c)

/-- The regions' results, as the conditional frame's parameter: each read off the stage right after its region. -/
def outs : Outs (F := F) := fun J r c =>
  match J with
  | 4 => S4 m c r
  | 5 => S5 m c r
  | 7 => S7 m c r
  | 9 => S9 m c r
  | _ => S11 m c r

theorem ne_ref {a b : Ref sig .tc} (h : a ≠ b) : (Proc.devRef .tc a : DevRef τ sig) ≠ Proc.devRef .tc b :=
  StableHlo.devRef_ne_of_ne h

theorem V4_eq (c : Dev nD) : V4 m (outs m) c = S4 m c := by
  show Function.update (V3 m c) main_v44 (S4 m c main_v44) = S4 m c
  rw [S3_eq]; unfold S4; rw [Function.update_self]
theorem V5_eq (c : Dev nD) : V5 m (outs m) c = S5 m c := by
  show Function.update (Function.update (V4 m (outs m) c) main_v45_0 (S5 m c main_v45_0)) main_v45_1 (S5 m c main_v45_1) = S5 m c
  rw [V4_eq]; unfold S5
  rw [Function.update_self, Function.update_of_ne (ne_ref (by decide : main_v45_0 ≠ main_v45_1)), Function.update_self]
theorem V6_eq (c : Dev nD) : V6 m (outs m) c = S6 m c := by
  show StableHlo.after hostOps2 (V5 m (outs m) c) = S6 m c
  rw [V5_eq]; rfl
theorem V7_eq (c : Dev nD) : V7 m (outs m) c = S7 m c := by
  show Function.update (V6 m (outs m) c) main_v57 (S7 m c main_v57) = S7 m c
  rw [V6_eq]; unfold S7; rw [Function.update_self]
theorem V8_eq (c : Dev nD) : V8 m (outs m) c = S8 m c := by
  show StableHlo.after hostOps3 (V7 m (outs m) c) = S8 m c
  rw [V7_eq]; rfl
theorem V9_eq (c : Dev nD) : V9 m (outs m) c = S9 m c := by
  show Function.update (Function.update (V8 m (outs m) c) main_v74_0 (S9 m c main_v74_0)) main_v74_1 (S9 m c main_v74_1) = S9 m c
  rw [V8_eq]; unfold S9
  rw [Function.update_self, Function.update_of_ne (ne_ref (by decide : main_v74_0 ≠ main_v74_1)), Function.update_self]
theorem V10_eq (c : Dev nD) : V10 m (outs m) c = S10 m c := by
  show StableHlo.after hostOps4 (V9 m (outs m) c) = S10 m c
  rw [V9_eq]; rfl
theorem V11_eq (c : Dev nD) : V11 m (outs m) c = S11 m c := by
  show Function.update (V10 m (outs m) c) main_v86 (S11 m c main_v86) = S11 m c
  rw [V10_eq]; unfold S11; rw [Function.update_self]

/-! ## The proof data family and what rides along -/

/-- Every region's proof data, each at its own entry contents. -/
def pdats : (p : Fin 5) → (c : Dev nD) → Dat τ (Elt F) Unit ℕ (UR sig nD τ) ℕ (cfgs p) c
  | ⟨0, _⟩ => fun c => Dense.dat (byRef (S3 m)) c
  | ⟨1, _⟩ => fun c => Stats1.dat (byRef (S4 m)) c
  | ⟨2, _⟩ => fun c => Fused.dat (byRef (S6 m)) c
  | ⟨3, _⟩ => fun c => Stats3.dat (byRef (S8 m)) c
  | ⟨4, _⟩ => fun c => Act.dat (byRef (S10 m)) c

abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)

/-! ## Region 0 -/

theorem pdats0 (c : Dev nD) : pdats m 0 c = Dense.dat (byRef (S3 m)) c := rfl
set_option maxHeartbeats 4000000 in
theorem exit0 (c : Dev nD) (w : Fin 4) : (Dense.dat (byRef (S3 m)) c).arrAt w cfg0.N = byRef (S4 m) c (Pipeline.arrRef spec0 w) := by
  match w with
  | 0 => exact ((Dense.dat (byRef (S3 m)) c).arrAt_in 0 rfl _).trans (Function.update_of_ne (ne_ref (by decide +kernel : Pipeline.arrRef spec0 0 ≠ main_v44)) (o44 m c) (S3 m c)).symm
  | 1 => exact ((Dense.dat (byRef (S3 m)) c).arrAt_in 1 rfl _).trans (Function.update_of_ne (ne_ref (by decide +kernel : Pipeline.arrRef spec0 1 ≠ main_v44)) (o44 m c) (S3 m c)).symm
  | 2 => exact ((Dense.dat (byRef (S3 m)) c).arrAt_in 2 rfl _).trans (Function.update_of_ne (ne_ref (by decide +kernel : Pipeline.arrRef spec0 2 ≠ main_v44)) (o44 m c) (S3 m c)).symm
  | 3 => exact (Function.update_self (Proc.devRef .tc main_v44 : DevRef τ sig) (o44 m c) (S3 m c)).symm
  | ⟨_ + 4, h⟩ => exact absurd h (Nat.not_lt.2 (Nat.le_add_left _ _))
theorem rest0 (c : Dev nD) : ∀ b, b ∉ Finset.univ.image (Pipeline.arrRef spec0) → byRef (S4 m) c b = byRef (S3 m) c b := fun b hb => by
  exact Function.update_of_ne (ne_ref (fun h => hb (Finset.mem_image.mpr ⟨3, Finset.mem_univ _, h.symm⟩))) (o44 m c) (S3 m c)

set_option backward.isDefEq.respectTransparency.types false in
/-- Region 0 over the thread state: entered with every unscoped buffer at the stage before it, left with them at the
    stage after it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.obligation (byRef (S3 m)) c).loose
  hwaits := Pipeline.hwaits_of_owed_zero _ _ _ _ L lv 0 fun _ _ => rfl
  pre c := iprop(StableHlo.held (c : Thread nD τ) (Pipeline.ucRefs τ sig) (S3 m c) ∗ R c)
  post c := iprop(StableHlo.held (c : Thread nD τ) (Pipeline.ucRefs τ sig) (S4 m c) ∗ R c)
  X c := iprop(∃ r, prngReg c r)
  Y c := iprop(∃ r, prngReg c r)
  Z c := Pipeline.unscopedRest (Ix := Unit) (Name := ℕ) (U := UR sig nD τ) (Lvl := ℕ) spec0 c (byRef (S3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (byRef (S3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (byRef (S3 m) c) (byRef (S4 m) c) ((pdats m 0 c).arrAt · cfg0.N)
      (fun w => (congrArg (fun d : Dat τ (Elt F) Unit ℕ (UR sig nD τ) ℕ cfg0 c => d.arrAt w cfg0.N) (pdats0 m c)).trans (exit0 m c w))
      (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem pdats1 (c : Dev nD) : pdats m 1 c = Stats1.dat (byRef (S4 m)) c := rfl
set_option maxHeartbeats 4000000 in
theorem exit1 (c : Dev nD) (w : Fin 3) : (Stats1.dat (byRef (S4 m)) c).arrAt w cfg1.N = byRef (S5 m) c (Pipeline.arrRef spec1 w) := by
  match w with
  | 0 => exact ((Stats1.dat (byRef (S4 m)) c).arrAt_in 0 rfl _).trans ((Function.update_of_ne (ne_ref (by decide +kernel : Pipeline.arrRef spec1 0 ≠ main_v45_1)) (o45_1 m c) (Function.update (S4 m c) main_v45_0 (o45_0 m c))).trans (Function.update_of_ne (ne_ref (by decide +kernel : Pipeline.arrRef spec1 0 ≠ main_v45_0)) (o45_0 m c) (S4 m c))).symm
  | 1 =>
    exact ((Function.update_of_ne (ne_ref (by decide +kernel : main_v45_0 ≠ main_v45_1)) (o45_1 m c) (Function.update (S4 m c) main_v45_0 (o45_0 m c))).trans
      (Function.update_self (Proc.devRef .tc main_v45_0 : DevRef τ sig) (o45_0 m c) (S4 m c))).symm
  | 2 => exact (Function.update_self (Proc.devRef .tc main_v45_1 : DevRef τ sig) (o45_1 m c) (Function.update (S4 m c) main_v45_0 (o45_0 m c))).symm
  | ⟨_ + 3, h⟩ => exact absurd h (Nat.not_lt.2 (Nat.le_add_left _ _))
theorem rest1 (c : Dev nD) : ∀ b, b ∉ Finset.univ.image (Pipeline.arrRef spec1) → byRef (S5 m) c b = byRef (S4 m) c b := fun b hb => by
  exact (Function.update_of_ne (ne_ref (fun h => hb (Finset.mem_image.mpr ⟨2, Finset.mem_univ _, h.symm⟩))) (o45_1 m c) (Function.update (S4 m c) main_v45_0 (o45_0 m c))).trans
    (Function.update_of_ne (ne_ref (fun h => hb (Finset.mem_image.mpr ⟨1, Finset.mem_univ _, h.symm⟩))) (o45_0 m c) (S4 m c))

set_option backward.isDefEq.respectTransparency.types false in
/-- Region 1 over the thread state: entered with every unscoped buffer at the stage before it, left with them at the
    stage after it; its two scratch rows come out of the scoped rest into the invariant and go back at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stats1.obligation (byRef (S4 m)) c).loose
  hwaits := Pipeline.hwaits_of_owed_zero _ _ _ _ L lv 1 fun _ _ => rfl
  pre c := iprop(StableHlo.held (c : Thread nD τ) (Pipeline.ucRefs τ sig) (S4 m c) ∗ R c)
  post c := iprop(StableHlo.held (c : Thread nD τ) (Pipeline.ucRefs τ sig) (S5 m c) ∗ R c)
  X c := iprop(∃ r, prngReg c r)
  Y c := iprop(∃ r, prngReg c r)
  Z c := Pipeline.unscopedRest (Ix := Unit) (Name := ℕ) (U := UR sig nD τ) (Lvl := ℕ) spec1 c (byRef (S4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (byRef (S4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Stats1.inv (byRef (S4 m)) c 0 from rfl]; unfold Stats1.inv
    rw [show Pipeline.scopedRest (Ix := Unit) (Name := ℕ) (U := UR sig nD τ) (Lvl := ℕ) (Val := Elt F) (Pipeline.pin (pcfgs (F := F)) adm 1).spec c
        = Pipeline.scopedRest (Ix := Unit) (Name := ℕ) (U := UR sig nD τ) (Lvl := ℕ) (Val := Elt F) spec1 c from rfl, scopedRest1_split]
    iintro ⟨Hp, -, ⟨⟨%f4, H4⟩, ⟨%f5, H5⟩⟩, Hrest⟩
    iexists f4, f5
    isplitr; · ipureintro; exact fun h => absurd rfl h
    rw [owns_whole, owns_whole]
    isplitl [H4]; · iexact H4
    isplitl [H5]; · iexact H5
    isplitl [Hrest]; · iexact Hrest
    iexact Hp
  hout c := by
    rw [Pipeline.ownSems0_none, show (pdats m 1 c).Φ (Fin.last _) = Stats1.inv (byRef (S4 m)) c (Fin.last _) from rfl]; unfold Stats1.inv
    rw [show Pipeline.scopedRest (Ix := Unit) (Name := ℕ) (U := UR sig nD τ) (Lvl := ℕ) (Val := Elt F) (Pipeline.pin (pcfgs (F := F)) adm 1).spec c
        = Pipeline.scopedRest (Ix := Unit) (Name := ℕ) (U := UR sig nD τ) (Lvl := ℕ) (Val := Elt F) spec1 c from rfl, scopedRest1_split]
    simp only [owns_whole]
    iintro ⟨%d4, %d5, -, H4, H5, Hrest, Hp⟩
    isplitl [Hp]; · iexact Hp
    isplitr; · iempintro
    isplitl [H4 H5]
    · isplitl [H4]
      · iexists _; iexact H4
      iexists _; iexact H5
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (byRef (S4 m) c) (byRef (S5 m) c) ((pdats m 1 c).arrAt · cfg1.N)
      (fun w => (congrArg (fun d : Dat τ (Elt F) Unit ℕ (UR sig nD τ) ℕ cfg1 c => d.arrAt w cfg1.N) (pdats1 m c)).trans (exit1 m c w))
      (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem pdats2 (c : Dev nD) : pdats m 2 c = Fused.dat (byRef (S6 m)) c := rfl
set_option maxHeartbeats 4000000 in
theorem exit2 (c : Dev nD) (w : Fin 8) : (Fused.dat (byRef (S6 m)) c).arrAt w cfg2.N = byRef (S7 m) c (Pipeline.arrRef spec2 w) := by
  match w with
  | 0 => exact ((Fused.dat (byRef (S6 m)) c).arrAt_in 0 rfl _).trans (Function.update_of_ne (ne_ref (by decide +kernel : Pipeline.arrRef spec2 0 ≠ main_v57)) (o57 m c) (S6 m c)).symm
  | 1 => exact ((Fused.dat (byRef (S6 m)) c).arrAt_in 1 rfl _).trans (Function.update_of_ne (ne_ref (by decide +kernel : Pipeline.arrRef spec2 1 ≠ main_v57)) (o57 m c) (S6 m c)).symm
  | 2 => exact ((Fused.dat (byRef (S6 m)) c).arrAt_in 2 rfl _).trans (Function.update_of_ne (ne_ref (by decide +kernel : Pipeline.arrRef spec2 2 ≠ main_v57)) (o57 m c) (S6 m c)).symm
  | 3 => exact ((Fused.dat (byRef (S6 m)) c).arrAt_in 3 rfl _).trans (Function.update_of_ne (ne_ref (by decide +kernel : Pipeline.arrRef spec2 3 ≠ main_v57)) (o57 m c) (S6 m c)).symm
  | 4 => exact ((Fused.dat (byRef (S6 m)) c).arrAt_in 4 rfl _).trans (Function.update_of_ne (ne_ref (by decide +kernel : Pipeline.arrRef spec2 4 ≠ main_v57)) (o57 m c) (S6 m c)).symm
  | 5 => exact ((Fused.dat (byRef (S6 m)) c).arrAt_in 5 rfl _).trans (Function.update_of_ne (ne_ref (by decide +kernel : Pipeline.arrRef spec2 5 ≠ main_v57)) (o57 m c) (S6 m c)).symm
  | 6 => exact ((Fused.dat (byRef (S6 m)) c).arrAt_in 6 rfl _).trans (Function.update_of_ne (ne_ref (by decide +kernel : Pipeline.arrRef spec2 6 ≠ main_v57)) (o57 m c) (S6 m c)).symm
  | 7 => exact (Function.update_self (Proc.devRef .tc main_v57 : DevRef τ sig) (o57 m c) (S6 m c)).symm
  | ⟨_ + 8, h⟩ => exact absurd h (Nat.not_lt.2 (Nat.le_add_left _ _))
theorem rest2 (c : Dev nD) : ∀ b, b ∉ Finset.univ.image (Pipeline.arrRef spec2) → byRef (S7 m) c b = byRef (S6 m) c b := fun b hb => by
  exact Function.update_of_ne (ne_ref (fun h => hb (Finset.mem_image.mpr ⟨7, Finset.mem_univ _, h.symm⟩))) (o57 m c) (S6 m c)

set_option backward.isDefEq.respectTransparency.types false in
/-- Region 2 over the thread state: entered with every unscoped buffer at the stage before it, left with them at the
    stage after it. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Fused.obligation (byRef (S6 m)) c).loose
  hwaits := Pipeline.hwaits_of_owed_zero _ _ _ _ L lv 2 fun _ _ => rfl
  pre c := iprop(StableHlo.held (c : Thread nD τ) (Pipeline.ucRefs τ sig) (S6 m c) ∗ R c)
  post c := iprop(StableHlo.held (c : Thread nD τ) (Pipeline.ucRefs τ sig) (S7 m c) ∗ R c)
  X c := iprop(∃ r, prngReg c r)
  Y c := iprop(∃ r, prngReg c r)
  Z c := Pipeline.unscopedRest (Ix := Unit) (Name := ℕ) (U := UR sig nD τ) (Lvl := ℕ) spec2 c (byRef (S6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (byRef (S6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (byRef (S6 m) c) (byRef (S7 m) c) ((pdats m 2 c).arrAt · cfg2.N)
      (fun w => (congrArg (fun d : Dat τ (Elt F) Unit ℕ (UR sig nD τ) ℕ cfg2 c => d.arrAt w cfg2.N) (pdats2 m c)).trans (exit2 m c w))
      (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem pdats3 (c : Dev nD) : pdats m 3 c = Stats3.dat (byRef (S8 m)) c := rfl
set_option maxHeartbeats 4000000 in
theorem exit3 (c : Dev nD) (w : Fin 3) : (Stats3.dat (byRef (S8 m)) c).arrAt w cfg3.N = byRef (S9 m) c (Pipeline.arrRef spec3 w) := by
  match w with
  | 0 => exact ((Stats3.dat (byRef (S8 m)) c).arrAt_in 0 rfl _).trans ((Function.update_of_ne (ne_ref (by decide +kernel : Pipeline.arrRef spec3 0 ≠ main_v74_1)) (o74_1 m c) (Function.update (S8 m c) main_v74_0 (o74_0 m c))).trans (Function.update_of_ne (ne_ref (by decide +kernel : Pipeline.arrRef spec3 0 ≠ main_v74_0)) (o74_0 m c) (S8 m c))).symm
  | 1 =>
    exact ((Function.update_of_ne (ne_ref (by decide +kernel : main_v74_0 ≠ main_v74_1)) (o74_1 m c) (Function.update (S8 m c) main_v74_0 (o74_0 m c))).trans
      (Function.update_self (Proc.devRef .tc main_v74_0 : DevRef τ sig) (o74_0 m c) (S8 m c))).symm
  | 2 => exact (Function.update_self (Proc.devRef .tc main_v74_1 : DevRef τ sig) (o74_1 m c) (Function.update (S8 m c) main_v74_0 (o74_0 m c))).symm
  | ⟨_ + 3, h⟩ => exact absurd h (Nat.not_lt.2 (Nat.le_add_left _ _))
theorem rest3 (c : Dev nD) : ∀ b, b ∉ Finset.univ.image (Pipeline.arrRef spec3) → byRef (S9 m) c b = byRef (S8 m) c b := fun b hb => by
  exact (Function.update_of_ne (ne_ref (fun h => hb (Finset.mem_image.mpr ⟨2, Finset.mem_univ _, h.symm⟩))) (o74_1 m c) (Function.update (S8 m c) main_v74_0 (o74_0 m c))).trans
    (Function.update_of_ne (ne_ref (fun h => hb (Finset.mem_image.mpr ⟨1, Finset.mem_univ _, h.symm⟩))) (o74_0 m c) (S8 m c))

set_option backward.isDefEq.respectTransparency.types false in
/-- Region 3 over the thread state: entered with every unscoped buffer at the stage before it, left with them at the
    stage after it; its two scratch rows come out of the scoped rest into the invariant and go back at the end. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Stats3.obligation (byRef (S8 m)) c).loose
  hwaits := Pipeline.hwaits_of_owed_zero _ _ _ _ L lv 3 fun _ _ => rfl
  pre c := iprop(StableHlo.held (c : Thread nD τ) (Pipeline.ucRefs τ sig) (S8 m c) ∗ R c)
  post c := iprop(StableHlo.held (c : Thread nD τ) (Pipeline.ucRefs τ sig) (S9 m c) ∗ R c)
  X c := iprop(∃ r, prngReg c r)
  Y c := iprop(∃ r, prngReg c r)
  Z c := Pipeline.unscopedRest (Ix := Unit) (Name := ℕ) (U := UR sig nD τ) (Lvl := ℕ) spec3 c (byRef (S8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (byRef (S8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Stats3.inv (byRef (S8 m)) c 0 from rfl]; unfold Stats3.inv
    rw [show Pipeline.scopedRest (Ix := Unit) (Name := ℕ) (U := UR sig nD τ) (Lvl := ℕ) (Val := Elt F) (Pipeline.pin (pcfgs (F := F)) adm 3).spec c
        = Pipeline.scopedRest (Ix := Unit) (Name := ℕ) (U := UR sig nD τ) (Lvl := ℕ) (Val := Elt F) spec3 c from rfl, scopedRest3_split]
    iintro ⟨Hp, -, ⟨⟨%f4, H4⟩, ⟨%f5, H5⟩⟩, Hrest⟩
    iexists f4, f5
    isplitr; · ipureintro; exact fun h => absurd rfl h
    rw [owns_whole, owns_whole]
    isplitl [H4]; · iexact H4
    isplitl [H5]; · iexact H5
    isplitl [Hrest]; · iexact Hrest
    iexact Hp
  hout c := by
    rw [Pipeline.ownSems0_none, show (pdats m 3 c).Φ (Fin.last _) = Stats3.inv (byRef (S8 m)) c (Fin.last _) from rfl]; unfold Stats3.inv
    rw [show Pipeline.scopedRest (Ix := Unit) (Name := ℕ) (U := UR sig nD τ) (Lvl := ℕ) (Val := Elt F) (Pipeline.pin (pcfgs (F := F)) adm 3).spec c
        = Pipeline.scopedRest (Ix := Unit) (Name := ℕ) (U := UR sig nD τ) (Lvl := ℕ) (Val := Elt F) spec3 c from rfl, scopedRest3_split]
    simp only [owns_whole]
    iintro ⟨%d4, %d5, -, H4, H5, Hrest, Hp⟩
    isplitl [Hp]; · iexact Hp
    isplitr; · iempintro
    isplitl [H4 H5]
    · isplitl [H4]
      · iexists _; iexact H4
      iexists _; iexact H5
    iexact Hrest
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (byRef (S8 m) c) (byRef (S9 m) c) ((pdats m 3 c).arrAt · cfg3.N)
      (fun w => (congrArg (fun d : Dat τ (Elt F) Unit ℕ (UR sig nD τ) ℕ cfg3 c => d.arrAt w cfg3.N) (pdats3 m c)).trans (exit3 m c w))
      (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

theorem pdats4 (c : Dev nD) : pdats m 4 c = Act.dat (byRef (S10 m)) c := rfl
set_option maxHeartbeats 4000000 in
theorem exit4 (c : Dev nD) (w : Fin 7) : (Act.dat (byRef (S10 m)) c).arrAt w cfg4.N = byRef (S11 m) c (Pipeline.arrRef spec4 w) := by
  match w with
  | 0 => exact ((Act.dat (byRef (S10 m)) c).arrAt_in 0 rfl _).trans (Function.update_of_ne (ne_ref (by decide +kernel : Pipeline.arrRef spec4 0 ≠ main_v86)) (o86 m c) (S10 m c)).symm
  | 1 => exact ((Act.dat (byRef (S10 m)) c).arrAt_in 1 rfl _).trans (Function.update_of_ne (ne_ref (by decide +kernel : Pipeline.arrRef spec4 1 ≠ main_v86)) (o86 m c) (S10 m c)).symm
  | 2 => exact ((Act.dat (byRef (S10 m)) c).arrAt_in 2 rfl _).trans (Function.update_of_ne (ne_ref (by decide +kernel : Pipeline.arrRef spec4 2 ≠ main_v86)) (o86 m c) (S10 m c)).symm
  | 3 => exact ((Act.dat (byRef (S10 m)) c).arrAt_in 3 rfl _).trans (Function.update_of_ne (ne_ref (by decide +kernel : Pipeline.arrRef spec4 3 ≠ main_v86)) (o86 m c) (S10 m c)).symm
  | 4 => exact ((Act.dat (byRef (S10 m)) c).arrAt_in 4 rfl _).trans (Function.update_of_ne (ne_ref (by decide +kernel : Pipeline.arrRef spec4 4 ≠ main_v86)) (o86 m c) (S10 m c)).symm
  | 5 => exact ((Act.dat (byRef (S10 m)) c).arrAt_in 5 rfl _).trans (Function.update_of_ne (ne_ref (by decide +kernel : Pipeline.arrRef spec4 5 ≠ main_v86)) (o86 m c) (S10 m c)).symm
  | 6 => exact (Function.update_self (Proc.devRef .tc main_v86 : DevRef τ sig) (o86 m c) (S10 m c)).symm
  | ⟨_ + 7, h⟩ => exact absurd h (Nat.not_lt.2 (Nat.le_add_left _ _))
theorem rest4 (c : Dev nD) : ∀ b, b ∉ Finset.univ.image (Pipeline.arrRef spec4) → byRef (S11 m) c b = byRef (S10 m) c b := fun b hb => by
  exact Function.update_of_ne (ne_ref (fun h => hb (Finset.mem_image.mpr ⟨6, Finset.mem_univ _, h.symm⟩))) (o86 m c) (S10 m c)

set_option backward.isDefEq.respectTransparency.types false in
/-- Region 4 over the thread state: entered with every unscoped buffer at the stage before it, left with them at the
    stage after it. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Act.obligation (byRef (S10 m)) c).loose
  hwaits := Pipeline.hwaits_of_owed_zero _ _ _ _ L lv 4 fun _ _ => rfl
  pre c := iprop(StableHlo.held (c : Thread nD τ) (Pipeline.ucRefs τ sig) (S10 m c) ∗ R c)
  post c := iprop(StableHlo.held (c : Thread nD τ) (Pipeline.ucRefs τ sig) (S11 m c) ∗ R c)
  X c := iprop(∃ r, prngReg c r)
  Y c := iprop(∃ r, prngReg c r)
  Z c := Pipeline.unscopedRest (Ix := Unit) (Name := ℕ) (U := UR sig nD τ) (Lvl := ℕ) spec4 c (byRef (S10 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (byRef (S10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (byRef (S10 m) c) (byRef (S11 m) c) ((pdats m 4 c).arrAt · cfg4.N)
      (fun w => (congrArg (fun d : Dat τ (Elt F) Unit ℕ (UR sig nD τ) ℕ cfg4 c => d.arrAt w cfg4.N) (pdats4 m c)).trans (exit4 m c w))
      (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem rest_at_launch_core (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R (F := F) c := by
  iintro ⟨-, HO, -, Hp, -⟩
  isplitl [Hp]; · iexists _; iexact Hp
  iexists ∅; iexact HO

/-- The launch gives every core its generator register and owing nothing. -/
theorem rest_at_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts L lv)
      ⊢ (|={Set.univ}=> bigSep Finset.univ (fun c : Dev nD => R (F := F) c) : sProp 𝕄) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)))
      ⊢ (bigSep Finset.univ (fun c : Dev nD => R (F := F) c) : sProp 𝕄) :=
    bigSep_mono fun c _ => rest_at_launch_core ρ c
  iintro ⟨H, -⟩
  imodintro
  iapply h; iexact H

set_option backward.isDefEq.respectTransparency.types false in
/-- Every weakly fair execution of @main terminates, faults nowhere, and leaves each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (emb₁ (A := UR sig nD τ)) () 𝒱₀ L lv (fun _ _ => rfl) ρ (outs m) (pdats m)
    (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (rest_at_launch ρ)
    (fun c => by iintro ⟨-, HO⟩; iexact HO)
    (reg0 m) (fun c => by rw [S3_eq]; exact .rfl) (fun c => by rw [V4_eq]; exact .rfl)
    (reg1 m) (fun c => by rw [V4_eq]; exact .rfl) (fun c => by rw [V5_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V10_eq]; exact .rfl) (fun c => by rw [V11_eq]; exact .rfl)

end Cert.KernelIdeal.Whole

end
-- ==== Proof.WordRegion0.lean ====
/-
  Region 0 of @main — the dense transform `h = a · W + b` over node tiles of 5000 rows.
  Every grid point reads one 5000×128 tile of the aggregated features, the whole 128×256 weight matrix and the 1×256
  bias row, and stores the 5000×256 tile `tile · W + bias` (the bias row repeated down the tile) over the whole output
  block. The weight and the bias keep one block index over the grid, so they are fetched at the first point only and
  found in place at every later one. Stated at any float instance: the same text serves the word-level program and its
  idealization.
-/
import proofs.«160346_j84963043049900_2_alg».proof.Proof.Gen.Kernel.Launch
import proofs.«160346_j84963043049900_2_alg».proof.Proof.Gen.Kernel.Skeleton
import proofs.«160346_j84963043049900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev whole_5000x128 : Rect S5000x128 := Rect.unit (s := S5000x128) ![0, 0] S5000x128.size inb_S5000x128_S5000x128_0_0
abbrev whole_128x256 : Rect S128x256 := Rect.unit (s := S128x256) ![0, 0] S128x256.size inb_S128x256_S128x256_0_0
abbrev whole_1x256 : Rect S1x256 := Rect.unit (s := S1x256) ![0, 0] S1x256.size inb_S1x256_S1x256_0_0
abbrev whole_5000x256 : Rect S5000x256 := Rect.unit (s := S5000x256) ![0, 0] S5000x256.size inb_S5000x256_S5000x256_0_0

/-- The output tile the body leaves: its one store, over the whole block, of `tile · W + bias`. -/
def out0 (x0 : Vec F S5000x128 .f32) (x1 : Vec F S128x256 .f32) (x2 : Vec F S1x256 .f32) : Vec F S5000x256 .f32 :=
  View.canon [⟨whole_5000x256, k0_pay1 (View.ld x0 whole_5000x128) (View.ld x1 whole_128x256) (View.ld x2 whole_1x256)⟩]

/-- That one store covers the block. -/
theorem out0_cover (p : Vec F S5000x256 .f32) (y : S5000x256.Idx) :
    ∃ pc ∈ ([⟨whole_5000x256, p⟩] : List (View.Piece (Elt F) S5000x256 .f32)), y ∈ pc.1.set :=
  View.cover_of_tiled [⟨whole_5000x256, p⟩] S5000x256.size (by rfl) y

set_option maxHeartbeats 1000000 in
/-- The body on whole staging buffers: the three inputs are read and left as found, the output buffer ends at `out0` of them. -/
theorem body (c : Dev nD) (E : Set ℕ) (i : grid0.Coords)
    (a0 : Memref sig .tc .vmem S5000x128 .f32) (h0 : a0.IsWhole) (a1 : Memref sig .tc .vmem S128x256 .f32) (h1 : a1.IsWhole) (a2 : Memref sig .tc .vmem S1x256 .f32) (h2 : a2.IsWhole) (a3 : Memref sig .tc .vmem S5000x256 .f32) (h3 : a3.IsWhole)
    (x0 : Vec F S5000x128 .f32) (x1 : Vec F S128x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (out0 x0 x1 x2)) -∗ K ⟨⟩))
      ⊢ wp frame (wpE (defs₀ (F := F)) Variants.none c none) E (cc0__linear_kernel i a0 h0 a1 h1 a2 h2 a3 h3) K := by
  simp only [cc0__linear_kernel_eq_skeleton]; unfold cc0__linear_kernel_skel
  unfold owns
  iintro ⟨⟨%f0, %hf0, H0⟩, ⟨%f1, %hf1, H1⟩, ⟨%f2, %hf2, H2⟩, ⟨%dO, %fO, -, HO⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact View.read_writes_eq_canon _ _ _ (out0_cover _)

/-! ## The proof data -/

/-- Input window 0's staging buffer holds the window's tile at every point: fetched there, or — its block index not
    having moved — found as the point before left it. -/
theorem found_tile_0 {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
/-- Input window 1's staging buffer holds the window's tile at every point: fetched there, or — its block index not
    having moved — found as the point before left it. -/
theorem found_tile_1 {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)
/-- Input window 2's staging buffer holds the window's tile at every point: fetched there, or — its block index not
    having moved — found as the point before left it. -/
theorem found_tile_2 {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)

/-- The region's proof data on core `c`: the arrays as found; after the body at point `t` every input buffer still at its
    tile and the output buffer at `out0` of the tiles; the invariant the plain one (the scoped rest and the generator
    register pass through untouched); nothing owed. -/
def dat (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => out0 (tile0 V c 0 t) (tile0 V c 1 t) (tile0 V c 2 t)
  Φ _ := Pipeline.ΦA spec0 c
  q _ := fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = tile0 V c 0 t := by dsimp only [dat]
theorem dat_after1 (c : Dev nD) (t : Fin cfg0.N) : (dat V c).after 1 t = tile0 V c 1 t := by dsimp only [dat]
theorem dat_after2 (c : Dev nD) (t : Fin cfg0.N) : (dat V c).after 2 t = tile0 V c 2 t := by dsimp only [dat]
theorem dat_after3 (c : Dev nD) (t : Fin cfg0.N) :
    (dat V c).after 3 t = out0 (tile0 V c 0 t) (tile0 V c 1 t) (tile0 V c 2 t) := by dsimp only [dat]
theorem dat_before0 (c : Dev nD) (t : Fin cfg0.N) (d) : (dat V c).before 0 t d = tile0 V c 0 t :=
  found_tile_0 V (dat V c) (dat_A V c 0) (dat_after0 V c) t d
theorem dat_before1 (c : Dev nD) (t : Fin cfg0.N) (d) : (dat V c).before 1 t d = tile0 V c 1 t :=
  found_tile_1 V (dat V c) (dat_A V c 1) (dat_after1 V c) t d
theorem dat_before2 (c : Dev nD) (t : Fin cfg0.N) (d) : (dat V c).before 2 t d = tile0 V c 2 t :=
  found_tile_2 V (dat V c) (dat_A V c 2) (dat_after2 V c) t d

/-! ## The body at a point -/

theorem point (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d))
        ∗ (∃ d, owns (c : Thread nD τ) (st0_3 t) fullShare ((dat V c).before 3 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t)
            ∗ owns (c : Thread nD τ) (st0_3 t) fullShare ((dat V c).after 3 t))) := by
  unfold bodyAt0
  simp only [dat_before0, dat_before1, dat_before2]
  rw [show (dat V c).Φ t.succ = (dat V c).Φ t.castSucc from rfl,
    show (dat V c).owesAt () t.succ = (dat V c).owesAt () t.castSucc from rfl,
    dat_after0, dat_after1, dat_after2, dat_after3]
  iintro ⟨HΦ, Ho, ⟨%d0, H0⟩, ⟨%d1, H1⟩, ⟨%d2, H2⟩, ⟨%d3, H3⟩⟩
  iapply (body c Set.univ _ _ _ _ _ _ _ _ _ (tile0 V c 0 t) (tile0 V c 1 t) (tile0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region's pipeline, at every point. -/
theorem obligation (c : Dev nD) : BodyObligation (dat (F := F) V c) (defs₀ (F := F)) Variants.none () Set.univ := fun t => by
  rw [bigSep_W0, bigSep_W0]
  exact point V c t

end Cert.Kernel.Dense

end
-- ==== Proof.WordRegion1.lean ====
/-
  Region 1 of @main — the column statistics of a 50000×256 array, accumulated over its ten tiles of 5000 rows.
  Two 1×256 rows live in scratch memory across the grid: the running column sums and the running column sums of
  squares. The first grid point zeroes both rows; every point adds its tile's column sums and its tile's column sums of
  squares to them; the last point copies the two rows over the two 1×256 output blocks, which are written back there
  and nowhere else (at the other points the body does not touch the output buffers). So the body has three cases by
  the grid position, and the region's invariant carries the two rows: after the points below `t` they hold the sums
  over the tiles below `t`. Stated at any float instance.
-/
import proofs.«160346_j84963043049900_2_alg».proof.Proof.Gen.Kernel.Launch
import proofs.«160346_j84963043049900_2_alg».proof.Proof.Gen.Kernel.Skeleton
import proofs.«160346_j84963043049900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Stats1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev whole_1x256 : Rect S1x256 := Rect.unit (s := S1x256) ![0, 0] S1x256.size inb_S1x256_S1x256_0_0
abbrev whole_5000x256 : Rect S5000x256 := Rect.unit (s := S5000x256) ![0, 0] S5000x256.size inb_S5000x256_S5000x256_0_0

theorem zeros2 : (![0, 0] : Fin 2 → Nat) = fun _ => 0 := by
  funext a; match a with | ⟨0, _⟩ => rfl | ⟨1, _⟩ => rfl

/-- Every index of a row lies under the whole-row rectangle. -/
theorem row_covered (p : Vec F S1x256 .f32) (L : List (View.Piece (Elt F) S1x256 .f32)) (y : S1x256.Idx) :
    ∃ pc ∈ ((⟨whole_1x256, p⟩ : View.Piece (Elt F) S1x256 .f32) :: L), y ∈ pc.1.set :=
  ⟨_, List.mem_cons_self, View.mem_set_unit_zero zeros2 inb_S1x256_S1x256_0_0 y⟩

/-- The first condition of the body: the grid position is 0. -/
def isFirst (i : grid1.Coords) : BitVec 1 :=
  Scalar.cmpi .ne (Scalar.extui (Scalar.cmpi .eq (BitVec.ofNat 32 (i 0).val) 0#32)) 0#32

theorem first_iff : ∀ t : Fin cfg1.N, isFirst (grid1.coords t) = 1#1 ↔ t.val = 0 :=
  (by decide +kernel : ∀ t : Fin grid1.N, isFirst (grid1.coords t) = 1#1 ↔ t.val = 0)
theorem last_iff : ∀ t : Fin cfg1.N, k1_cond2 (grid1.coords t) = 1#1 ↔ t.val = 9 :=
  (by decide +kernel : ∀ t : Fin grid1.N, k1_cond2 (grid1.coords t) = 1#1 ↔ t.val = 9)

set_option maxHeartbeats 1000000 in
/-- The body at the first grid point: both accumulator rows are zeroed, then the tile's column sums and column sums
    of squares are added to them; the two output buffers are not touched. -/
theorem body_first (c : Dev nD) (E : Set ℕ) (i : grid1.Coords) (hf : isFirst i = 1#1) (hl : ¬ k1_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 : Vec F S1x256 .f32) (K : PUnit → sProp 𝕄) :
    iprop(owns (c : Thread nD τ) a1 fullShare x ∗ owns (c : Thread nD τ) a2 fullShare o2 ∗ owns (c : Thread nD τ) a3 fullShare o3
        ∗ (∃ d, owns (c : Thread nD τ) a4 fullShare d) ∗ (∃ d, owns (c : Thread nD τ) a5 fullShare d)
        ∗ (iprop(owns (c : Thread nD τ) a1 fullShare x ∗ owns (c : Thread nD τ) a2 fullShare o2 ∗ owns (c : Thread nD τ) a3 fullShare o3
            ∗ owns (c : Thread nD τ) a4 fullShare (k1_pay4 x (k1_pay1 (F := F))) ∗ owns (c : Thread nD τ) a5 fullShare (k1_pay5 x (k1_pay2 (F := F)))) -∗ K ⟨⟩))
      ⊢ wp frame (wpE (defs₀ (F := F)) Variants.none c none) E (cc1__bn_stats_kernel i a1 h1 a2 h2 a3 h3 a4 h4 a5 h5) K := by
  simp only [cc1__bn_stats_kernel_eq_skeleton]; unfold cc1__bn_stats_kernel_skel
  unfold isFirst at hf
  simp only [dif_pos hf, dif_neg hl]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readCov_unit_zero _ zeros2, View.readAt_eq_ld, View.ld_unit_zero zeros2]
  · iexists _; isplitr
    swap; · iexact H5
    ipureintro
    rw [View.read_writes_eq_canon _ _ _ (row_covered _ _), View.canon_cons_unit_zero zeros2]
    sl_unfold_words
    rw [View.readCov_unit_zero _ zeros2, View.readAt_eq_ld, View.ld_unit_zero zeros2]

set_option maxHeartbeats 1000000 in
/-- The body at a middle grid point: the tile's column sums and column sums of squares are added to the accumulator
    rows as found; the two output buffers are not touched. -/
theorem body_mid (c : Dev nD) (E : Set ℕ) (i : grid1.Coords) (hf : ¬ isFirst i = 1#1) (hl : ¬ k1_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 s4 s5 : Vec F S1x256 .f32) (K : PUnit → sProp 𝕄) :
    iprop(owns (c : Thread nD τ) a1 fullShare x ∗ owns (c : Thread nD τ) a2 fullShare o2 ∗ owns (c : Thread nD τ) a3 fullShare o3 ∗ owns (c : Thread nD τ) a4 fullShare s4 ∗ owns (c : Thread nD τ) a5 fullShare s5
        ∗ (iprop(owns (c : Thread nD τ) a1 fullShare x ∗ owns (c : Thread nD τ) a2 fullShare o2 ∗ owns (c : Thread nD τ) a3 fullShare o3
            ∗ owns (c : Thread nD τ) a4 fullShare (k1_pay4 x s4) ∗ owns (c : Thread nD τ) a5 fullShare (k1_pay5 x s5)) -∗ K ⟨⟩))
      ⊢ wp frame (wpE (defs₀ (F := F)) Variants.none c none) E (cc1__bn_stats_kernel i a1 h1 a2 h2 a3 h3 a4 h4 a5 h5) K := by
  simp only [cc1__bn_stats_kernel_eq_skeleton]; unfold cc1__bn_stats_kernel_skel
  unfold isFirst at hf
  simp only [dif_neg hf, dif_neg hl]
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]
  · iexists _; isplitr
    swap; · iexact H5
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]

set_option maxHeartbeats 1000000 in
/-- The body at the last grid point: the tile is added to the accumulator rows as at a middle point, and then the two
    rows are copied over the two output blocks. -/
theorem body_last (c : Dev nD) (E : Set ℕ) (i : grid1.Coords) (hf : ¬ isFirst i = 1#1) (hl : k1_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (s4 s5 : Vec F S1x256 .f32) (K : PUnit → sProp 𝕄) :
    iprop(owns (c : Thread nD τ) a1 fullShare x ∗ (∃ d, owns (c : Thread nD τ) a2 fullShare d) ∗ (∃ d, owns (c : Thread nD τ) a3 fullShare d) ∗ owns (c : Thread nD τ) a4 fullShare s4 ∗ owns (c : Thread nD τ) a5 fullShare s5
        ∗ (iprop(owns (c : Thread nD τ) a1 fullShare x ∗ owns (c : Thread nD τ) a2 fullShare (k1_pay4 x s4) ∗ owns (c : Thread nD τ) a3 fullShare (k1_pay5 x s5)
            ∗ owns (c : Thread nD τ) a4 fullShare (k1_pay4 x s4) ∗ owns (c : Thread nD τ) a5 fullShare (k1_pay5 x s5)) -∗ K ⟨⟩))
      ⊢ wp frame (wpE (defs₀ (F := F)) Variants.none c none) E (cc1__bn_stats_kernel i a1 h1 a2 h2 a3 h3 a4 h4 a5 h5) K := by
  simp only [cc1__bn_stats_kernel_eq_skeleton]; unfold cc1__bn_stats_kernel_skel
  unfold isFirst at hf
  simp only [dif_neg hf, dif_pos hl]
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec
  sl_step
  iapply Hk
  isplitl [H1]
  · iexists f1; isplitr; · ipureintro; rfl
    iexact H1
  isplitl [H2]
  · iexists _; isplitr
    swap; · iexact H2
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H3]
  · iexists _; isplitr
    swap; · iexact H3
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H4]
  · iexists _; isplitr
    swap; · iexact H4
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]
  · iexists _; isplitr
    swap; · iexact H5
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]

/-! ## The running sums, the invariant, the proof data -/

/-- The two rows after the tiles below a point: zero rows at the start, then each tile's column sums and column sums
    of squares added in turn. -/
def sums (c : Dev nD) : Fin (cfg1.N + 1) → Vec F S1x256 .f32 × Vec F S1x256 .f32 :=
  Fin.induction (motive := fun _ => Vec F S1x256 .f32 × Vec F S1x256 .f32) (k1_pay1 (F := F), k1_pay2 (F := F))
    (fun t prev => (k1_pay4 (tile1 V c 0 t) prev.1, k1_pay5 (tile1 V c 0 t) prev.2))

theorem sums_zero (c : Dev nD) : sums V c 0 = (k1_pay1 (F := F), k1_pay2 (F := F)) := by
  unfold sums; exact Fin.induction_zero _ _
theorem sums_succ (c : Dev nD) (t : Fin cfg1.N) :
    sums V c t.succ = (k1_pay4 (tile1 V c 0 t) (sums V c t.castSucc).1, k1_pay5 (tile1 V c 0 t) (sums V c t.castSucc).2) := by
  unfold sums; exact Fin.induction_succ _ _ _

/-- The region's invariant before point `t`: the two scratch rows — at anything before the first point, at the running
    sums after it —, the other scoped buffers untouched, the generator register at some state. -/
def inv (c : Dev nD) (t : Fin (cfg1.N + 1)) : sProp 𝕄 :=
  iprop(∃ d4 d5 : Vec F S1x256 .f32, ⌜t ≠ 0 → d4 = (sums V c t).1 ∧ d5 = (sums V c t).2⌝
    ∗ owns (c : Thread nD τ) (Memref.whole cc1_scratch0) fullShare d4 ∗ owns (c : Thread nD τ) (Memref.whole cc1_scratch1) fullShare d5
    ∗ Pipeline.scopedRestBut (Ix := Unit) (Name := ℕ) (U := UR sig nD τ) (Lvl := ℕ) (Val := Elt F) spec1 c [cc1_scratch0, cc1_scratch1]
    ∗ ∃ r, prngReg c r)

/-- The input window's staging buffer holds its tile at every point (it is fetched at every point). -/
theorem found_tile_0 {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)

/-- The region's proof data on core `c`: the array as found; the input buffer left at its tile; each output buffer,
    where the body writes it (the last point), at the running row after that point; the invariant above; nothing owed. -/
def dat (c : Dev nD) : Dat τ (Elt F) Unit ℕ (UR sig nD τ) ℕ cfg1 c where
  A w := V c (Pipeline.arrRef spec1 w)
  after w t := match w with
    | ⟨0, _⟩ => tile1 V c 0 t
    | ⟨1, _⟩ => (sums V c t.succ).1
    | ⟨2, _⟩ => (sums V c t.succ).2
  Φ t := inv V c t
  q _ := fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = tile1 V c 0 t := by dsimp only [dat]
theorem dat_after1 (c : Dev nD) (t : Fin cfg1.N) : (dat V c).after 1 t = (sums V c t.succ).1 := by dsimp only [dat]
theorem dat_after2 (c : Dev nD) (t : Fin cfg1.N) : (dat V c).after 2 t = (sums V c t.succ).2 := by dsimp only [dat]
theorem dat_before0 (c : Dev nD) (t : Fin cfg1.N) (d) : (dat V c).before 0 t d = tile1 V c 0 t :=
  found_tile_0 V (dat V c) (dat_A V c 0) (dat_after0 V c) t d

/-! ## The body at a point, case by case -/

theorem point_first (c : Dev nD) (t : Fin cfg1.N) (h0 : t.val = 0) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ (∃ d, owns (c : Thread nD τ) (st1_1 t) fullShare ((dat V c).before 1 t d))
            ∗ (∃ d, owns (c : Thread nD τ) (st1_2 t) fullShare ((dat V c).before 2 t d)))) := by
  have hf : isFirst (grid1.coords t) = 1#1 := (first_iff t).2 h0
  have hl : ¬ k1_cond2 (grid1.coords t) = 1#1 := fun h => by have := (last_iff t).1 h; omega
  have hz : t.castSucc = 0 := Fin.ext (by simpa using h0)
  unfold bodyAt1
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, -, Hs4, Hs5, Hrest, Hp⟩, Ho, ⟨%d0, H0⟩, ⟨%e1, H1⟩, ⟨%e2, H2⟩⟩
  iapply (body_first c Set.univ _ hf hl _ _ _ _ _ _ _ _ _ _ (tile1 V c 0 t) _ _ _)
  isplitl [H0]; · iexact H0
  isplitl [H1]; · iexact H1
  isplitl [H2]; · iexact H2
  isplitl [Hs4]; · iexists _; iexact Hs4
  isplitl [Hs5]; · iexists _; iexact Hs5
  iintro ⟨H0, H1, H2, Hs4, Hs5⟩
  isplitl [Hs4 Hs5 Hrest Hp]
  · iexists _, _; isplitr
    · ipureintro; intro _; rw [sums_succ, hz, sums_zero]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_mid (c : Dev nD) (t : Fin cfg1.N) (h0 : t.val ≠ 0) (h9 : t.val ≠ 9) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ (∃ d, owns (c : Thread nD τ) (st1_1 t) fullShare ((dat V c).before 1 t d))
            ∗ (∃ d, owns (c : Thread nD τ) (st1_2 t) fullShare ((dat V c).before 2 t d)))) := by
  have hf : ¬ isFirst (grid1.coords t) = 1#1 := fun h => h0 ((first_iff t).1 h)
  have hl : ¬ k1_cond2 (grid1.coords t) = 1#1 := fun h => h9 ((last_iff t).1 h)
  have hnz : t.castSucc ≠ 0 := fun h => h0 (by have := congrArg Fin.val h; simpa using this)
  unfold bodyAt1
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_mid c Set.univ _ hf hl _ _ _ _ _ _ _ _ _ _ (tile1 V c 0 t) _ _ _ _ _)
  isplitl [H0]; · iexact H0
  isplitl [H1]; · iexact H1
  isplitl [H2]; · iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; rw [sums_succ]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_last (c : Dev nD) (t : Fin cfg1.N) (h9 : t.val = 9) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ owns (c : Thread nD τ) (st1_1 t) fullShare ((dat V c).after 1 t)
            ∗ owns (c : Thread nD τ) (st1_2 t) fullShare ((dat V c).after 2 t))) := by
  have hf : ¬ isFirst (grid1.coords t) = 1#1 := fun h => by have := (first_iff t).1 h; omega
  have hl : k1_cond2 (grid1.coords t) = 1#1 := (last_iff t).2 h9
  have hnz : t.castSucc ≠ 0 := fun h => by have := congrArg Fin.val h; simp at this; omega
  unfold bodyAt1
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  rw [dat_after1, dat_after2, sums_succ]
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_last c Set.univ _ hf hl _ _ _ _ _ _ _ _ _ _ (tile1 V c 0 t) _ _ _)
  isplitl [H0]; · iexact H0
  isplitl [H1]; · iexists _; iexact H1
  isplitl [H2]; · iexists _; iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexact H1
  iexact H2

/-- The body obligation of the region's pipeline, at every point: the three cases, the configuration's `idle` and
    `flush` decided in each. -/
theorem obligation (c : Dev nD) : BodyObligation (dat (F := F) V c) (defs₀ (F := F)) Variants.none () Set.univ := fun t => by
  rw [bigSep_W1, bigSep_W1]
  have hlt : t.val < 10 := Nat.lt_of_lt_of_eq t.isLt N_1
  have idle_of (hl : ¬ k1_cond2 (grid1.coords t) = 1#1) : (!(k1_cond2 (grid1.coords t) == 1#1)) = true := by simp [hl]
  have live_of (hl : k1_cond2 (grid1.coords t) = 1#1) : (!(k1_cond2 (grid1.coords t) == 1#1)) = false := by simp [hl]
  have nf1 (h9 : t.val ≠ 9) : (win1 1).flush t = false := by
    cases hfl : (win1 1).flush t with
    | false => rfl
    | true => exact absurd ((flush1_1 t).1 hfl) (by omega)
  have nf2 (h9 : t.val ≠ 9) : (win1 2).flush t = false := by
    cases hfl : (win1 2).flush t with
    | false => rfl
    | true => exact absurd ((flush1_2 t).1 hfl) (by omega)
  by_cases h0 : t.val = 0
  · have hl : ¬ k1_cond2 (grid1.coords t) = 1#1 := fun h => by have := (last_iff t).1 h; omega
    have hi1 : idle1 1 (grid1.coords t) = true := idle_of hl
    have hi2 : idle1 2 (grid1.coords t) = true := idle_of hl
    simp only [hi1, hi2, nf1 (by omega), nf2 (by omega)]
    exact point_first V c t h0
  · by_cases h9 : t.val = 9
    · have hl : k1_cond2 (grid1.coords t) = 1#1 := (last_iff t).2 h9
      have hi1 : idle1 1 (grid1.coords t) = false := live_of hl
      have hi2 : idle1 2 (grid1.coords t) = false := live_of hl
      simp only [hi1, hi2]
      exact point_last V c t h9
    · have hl : ¬ k1_cond2 (grid1.coords t) = 1#1 := fun h => h9 ((last_iff t).1 h)
      have hi1 : idle1 1 (grid1.coords t) = true := idle_of hl
      have hi2 : idle1 2 (grid1.coords t) = true := idle_of hl
      simp only [hi1, hi2, nf1 h9, nf2 h9]
      exact point_mid V c t h0 h9

end Cert.Kernel.Stats1

end
-- ==== Proof.WordRegion2.lean ====
/-
  Region 2 of @main — layer 0's normalisation, affine map and leaky rectifier fused with layer 1's matrix product.
  Every grid point reads one 5000×256 tile `h`, the mean row, the variance row, the scale and shift rows, the slope
  (1×1) and the whole 256×256 weight matrix, and stores over the whole output block
  `prelu((h − mean) · rsqrt(max(var, 0) + ε) · scale + shift) · W`. All operands but the tile keep one block index over
  the grid: fetched at the first point, found in place afterwards. Stated at any float instance.
-/
import proofs.«160346_j84963043049900_2_alg».proof.Proof.Gen.Kernel.Launch
import proofs.«160346_j84963043049900_2_alg».proof.Proof.Gen.Kernel.Skeleton
import proofs.«160346_j84963043049900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev whole_5000x256 : Rect S5000x256 := Rect.unit (s := S5000x256) ![0, 0] S5000x256.size inb_S5000x256_S5000x256_0_0
abbrev whole_1x256 : Rect S1x256 := Rect.unit (s := S1x256) ![0, 0] S1x256.size inb_S1x256_S1x256_0_0
abbrev whole_1x1 : Rect S1x1 := Rect.unit (s := S1x1) ![0, 0] S1x1.size inb_S1x1_S1x1_0_0
abbrev whole_256x256 : Rect S256x256 := Rect.unit (s := S256x256) ![0, 0] S256x256.size inb_S256x256_S256x256_0_0

/-- The output tile the body leaves: its one store, over the whole block, of the normalised, rectified tile times `W`. -/
def out2 (x0 : Vec F S5000x256 .f32) (x1 : Vec F S1x256 .f32) (x2 : Vec F S1x256 .f32) (x3 : Vec F S1x256 .f32) (x4 : Vec F S1x256 .f32) (x5 : Vec F S1x1 .f32) (x6 : Vec F S256x256 .f32) : Vec F S5000x256 .f32 :=
  View.canon [⟨whole_5000x256, k2_pay1 (View.ld x0 whole_5000x256) (View.ld x2 whole_1x256) (View.ld x1 whole_1x256) (View.ld x3 whole_1x256) (View.ld x4 whole_1x256) (View.ld x5 whole_1x1) (View.ld x6 whole_256x256)⟩]

/-- That one store covers the block. -/
theorem out2_cover (p : Vec F S5000x256 .f32) (y : S5000x256.Idx) :
    ∃ pc ∈ ([⟨whole_5000x256, p⟩] : List (View.Piece (Elt F) S5000x256 .f32)), y ∈ pc.1.set :=
  View.cover_of_tiled [⟨whole_5000x256, p⟩] S5000x256.size (by rfl) y

set_option maxHeartbeats 1000000 in
/-- The body on whole staging buffers: the seven inputs are read and left as found, the output buffer ends at `out2` of them. -/
theorem body (c : Dev nD) (E : Set ℕ) (i : grid2.Coords)
    (a0 : Memref sig .tc .vmem S5000x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x1 .f32) (h5 : a5.IsWhole) (a6 : Memref sig .tc .vmem S256x256 .f32) (h6 : a6.IsWhole) (a7 : Memref sig .tc .vmem S5000x256 .f32) (h7 : a7.IsWhole)
    (x0 : Vec F S5000x256 .f32) (x1 : Vec F S1x256 .f32) (x2 : Vec F S1x256 .f32) (x3 : Vec F S1x256 .f32) (x4 : Vec F S1x256 .f32) (x5 : Vec F S1x1 .f32) (x6 : Vec F S256x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out2 x0 x1 x2 x3 x4 x5 x6)) -∗ K ⟨⟩))
      ⊢ wp frame (wpE (defs₀ (F := F)) Variants.none c none) E (cc2__bn_apply_linear_kernel i a0 h0 a1 h1 a2 h2 a3 h3 a4 h4 a5 h5 a6 h6 a7 h7) K := by
  simp only [cc2__bn_apply_linear_kernel_eq_skeleton]; unfold cc2__bn_apply_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fO, -, HO⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HO
  ipureintro
  exact View.read_writes_eq_canon _ _ _ (out2_cover _)

/-! ## The proof data -/

/-- Input window 0's staging buffer holds the window's tile at every point: fetched there, or — its block index not
    having moved — found as the point before left it. -/
theorem found_tile_0 {c : Dev nD} (dat : Dat τ (Elt F) Unit ℕ (UR sig nD τ) ℕ cfg2 c) (hA : dat.A 0 = V c (Pipeline.arrRef spec2 0))
    (hafter : ∀ t, dat.after 0 t = tile2 V c 0 t) (t : Fin cfg2.N) (d) : dat.before 0 t d = tile2 V c 0 t :=
  (dat.before_in_eq_fetched 0 rfl (fun _ => rfl) (fun _ _ _ => rfl) (fun t => by rw [hafter]; unfold Dat.blockOf tile2; rw [hA]; try rfl) t d).trans
    (by unfold Dat.fetched Dat.blockOf tile2; rw [hA]; try rfl)
/-- Input window 1's staging buffer holds the window's tile at every point: fetched there, or — its block index not
    having moved — found as the point before left it. -/
theorem found_tile_1 {c : Dev nD} (dat : Dat τ (Elt F) Unit ℕ (UR sig nD τ) ℕ cfg2 c) (hA : dat.A 1 = V c (Pipeline.arrRef spec2 1))
    (hafter : ∀ t, dat.after 1 t = tile2 V c 1 t) (t : Fin cfg2.N) (d) : dat.before 1 t d = tile2 V c 1 t :=
  (dat.before_in_eq_fetched 1 rfl (fun _ => rfl) (fun _ _ _ => rfl) (fun t => by rw [hafter]; unfold Dat.blockOf tile2; rw [hA]; try rfl) t d).trans
    (by unfold Dat.fetched Dat.blockOf tile2; rw [hA]; try rfl)
/-- Input window 2's staging buffer holds the window's tile at every point: fetched there, or — its block index not
    having moved — found as the point before left it. -/
theorem found_tile_2 {c : Dev nD} (dat : Dat τ (Elt F) Unit ℕ (UR sig nD τ) ℕ cfg2 c) (hA : dat.A 2 = V c (Pipeline.arrRef spec2 2))
    (hafter : ∀ t, dat.after 2 t = tile2 V c 2 t) (t : Fin cfg2.N) (d) : dat.before 2 t d = tile2 V c 2 t :=
  (dat.before_in_eq_fetched 2 rfl (fun _ => rfl) (fun _ _ _ => rfl) (fun t => by rw [hafter]; unfold Dat.blockOf tile2; rw [hA]; try rfl) t d).trans
    (by unfold Dat.fetched Dat.blockOf tile2; rw [hA]; try rfl)
/-- Input window 3's staging buffer holds the window's tile at every point: fetched there, or — its block index not
    having moved — found as the point before left it. -/
theorem found_tile_3 {c : Dev nD} (dat : Dat τ (Elt F) Unit ℕ (UR sig nD τ) ℕ cfg2 c) (hA : dat.A 3 = V c (Pipeline.arrRef spec2 3))
    (hafter : ∀ t, dat.after 3 t = tile2 V c 3 t) (t : Fin cfg2.N) (d) : dat.before 3 t d = tile2 V c 3 t :=
  (dat.before_in_eq_fetched 3 rfl (fun _ => rfl) (fun _ _ _ => rfl) (fun t => by rw [hafter]; unfold Dat.blockOf tile2; rw [hA]; try rfl) t d).trans
    (by unfold Dat.fetched Dat.blockOf tile2; rw [hA]; try rfl)
/-- Input window 4's staging buffer holds the window's tile at every point: fetched there, or — its block index not
    having moved — found as the point before left it. -/
theorem found_tile_4 {c : Dev nD} (dat : Dat τ (Elt F) Unit ℕ (UR sig nD τ) ℕ cfg2 c) (hA : dat.A 4 = V c (Pipeline.arrRef spec2 4))
    (hafter : ∀ t, dat.after 4 t = tile2 V c 4 t) (t : Fin cfg2.N) (d) : dat.before 4 t d = tile2 V c 4 t :=
  (dat.before_in_eq_fetched 4 rfl (fun _ => rfl) (fun _ _ _ => rfl) (fun t => by rw [hafter]; unfold Dat.blockOf tile2; rw [hA]; try rfl) t d).trans
    (by unfold Dat.fetched Dat.blockOf tile2; rw [hA]; try rfl)
/-- Input window 5's staging buffer holds the window's tile at every point: fetched there, or — its block index not
    having moved — found as the point before left it. -/
theorem found_tile_5 {c : Dev nD} (dat : Dat τ (Elt F) Unit ℕ (UR sig nD τ) ℕ cfg2 c) (hA : dat.A 5 = V c (Pipeline.arrRef spec2 5))
    (hafter : ∀ t, dat.after 5 t = tile2 V c 5 t) (t : Fin cfg2.N) (d) : dat.before 5 t d = tile2 V c 5 t :=
  (dat.before_in_eq_fetched 5 rfl (fun _ => rfl) (fun _ _ _ => rfl) (fun t => by rw [hafter]; unfold Dat.blockOf tile2; rw [hA]; try rfl) t d).trans
    (by unfold Dat.fetched Dat.blockOf tile2; rw [hA]; try rfl)
/-- Input window 6's staging buffer holds the window's tile at every point: fetched there, or — its block index not
    having moved — found as the point before left it. -/
theorem found_tile_6 {c : Dev nD} (dat : Dat τ (Elt F) Unit ℕ (UR sig nD τ) ℕ cfg2 c) (hA : dat.A 6 = V c (Pipeline.arrRef spec2 6))
    (hafter : ∀ t, dat.after 6 t = tile2 V c 6 t) (t : Fin cfg2.N) (d) : dat.before 6 t d = tile2 V c 6 t :=
  (dat.before_in_eq_fetched 6 rfl (fun _ => rfl) (fun _ _ _ => rfl) (fun t => by rw [hafter]; unfold Dat.blockOf tile2; rw [hA]; try rfl) t d).trans
    (by unfold Dat.fetched Dat.blockOf tile2; rw [hA]; try rfl)

/-- The region's proof data on core `c`: the arrays as found; after the body at point `t` every input buffer still at its
    tile and the output buffer at `out2` of the tiles; the invariant the plain one (the scoped rest and the generator
    register pass through untouched); nothing owed. -/
def dat (c : Dev nD) : Dat τ (Elt F) Unit ℕ (UR sig nD τ) ℕ cfg2 c where
  A w := V c (Pipeline.arrRef spec2 w)
  after w t := match w with
    | ⟨0, _⟩ => tile2 V c 0 t
    | ⟨1, _⟩ => tile2 V c 1 t
    | ⟨2, _⟩ => tile2 V c 2 t
    | ⟨3, _⟩ => tile2 V c 3 t
    | ⟨4, _⟩ => tile2 V c 4 t
    | ⟨5, _⟩ => tile2 V c 5 t
    | ⟨6, _⟩ => tile2 V c 6 t
    | ⟨7, _⟩ => out2 (tile2 V c 0 t) (tile2 V c 1 t) (tile2 V c 2 t) (tile2 V c 3 t) (tile2 V c 4 t) (tile2 V c 5 t) (tile2 V c 6 t)
  Φ _ := Pipeline.ΦA spec2 c
  q _ := fullShare
  owed _ := 0

theorem dat_A (c : Dev nD) (w : Fin cfg2.W) : (dat V c).A w = V c (Pipeline.arrRef spec2 w) := by dsimp only [dat]
theorem dat_after0 (c : Dev nD) (t : Fin cfg2.N) : (dat V c).after 0 t = tile2 V c 0 t := by dsimp only [dat]
theorem dat_after1 (c : Dev nD) (t : Fin cfg2.N) : (dat V c).after 1 t = tile2 V c 1 t := by dsimp only [dat]
theorem dat_after2 (c : Dev nD) (t : Fin cfg2.N) : (dat V c).after 2 t = tile2 V c 2 t := by dsimp only [dat]
theorem dat_after3 (c : Dev nD) (t : Fin cfg2.N) : (dat V c).after 3 t = tile2 V c 3 t := by dsimp only [dat]
theorem dat_after4 (c : Dev nD) (t : Fin cfg2.N) : (dat V c).after 4 t = tile2 V c 4 t := by dsimp only [dat]
theorem dat_after5 (c : Dev nD) (t : Fin cfg2.N) : (dat V c).after 5 t = tile2 V c 5 t := by dsimp only [dat]
theorem dat_after6 (c : Dev nD) (t : Fin cfg2.N) : (dat V c).after 6 t = tile2 V c 6 t := by dsimp only [dat]
theorem dat_after7 (c : Dev nD) (t : Fin cfg2.N) :
    (dat V c).after 7 t = out2 (tile2 V c 0 t) (tile2 V c 1 t) (tile2 V c 2 t) (tile2 V c 3 t) (tile2 V c 4 t) (tile2 V c 5 t) (tile2 V c 6 t) := by dsimp only [dat]
theorem dat_before0 (c : Dev nD) (t : Fin cfg2.N) (d) : (dat V c).before 0 t d = tile2 V c 0 t :=
  found_tile_0 V (dat V c) (dat_A V c 0) (dat_after0 V c) t d
theorem dat_before1 (c : Dev nD) (t : Fin cfg2.N) (d) : (dat V c).before 1 t d = tile2 V c 1 t :=
  found_tile_1 V (dat V c) (dat_A V c 1) (dat_after1 V c) t d
theorem dat_before2 (c : Dev nD) (t : Fin cfg2.N) (d) : (dat V c).before 2 t d = tile2 V c 2 t :=
  found_tile_2 V (dat V c) (dat_A V c 2) (dat_after2 V c) t d
theorem dat_before3 (c : Dev nD) (t : Fin cfg2.N) (d) : (dat V c).before 3 t d = tile2 V c 3 t :=
  found_tile_3 V (dat V c) (dat_A V c 3) (dat_after3 V c) t d
theorem dat_before4 (c : Dev nD) (t : Fin cfg2.N) (d) : (dat V c).before 4 t d = tile2 V c 4 t :=
  found_tile_4 V (dat V c) (dat_A V c 4) (dat_after4 V c) t d
theorem dat_before5 (c : Dev nD) (t : Fin cfg2.N) (d) : (dat V c).before 5 t d = tile2 V c 5 t :=
  found_tile_5 V (dat V c) (dat_A V c 5) (dat_after5 V c) t d
theorem dat_before6 (c : Dev nD) (t : Fin cfg2.N) (d) : (dat V c).before 6 t d = tile2 V c 6 t :=
  found_tile_6 V (dat V c) (dat_A V c 6) (dat_after6 V c) t d

/-! ## The body at a point -/

theorem point (c : Dev nD) (t : Fin cfg2.N) :
    iprop((dat V c).Φ t.castSucc ∗ (dat V c).owesAt () t.castSucc
        ∗ (∃ d, owns (c : Thread nD τ) (st2_0 t) fullShare ((dat V c).before 0 t d))
        ∗ (∃ d, owns (c : Thread nD τ) (st2_1 t) fullShare ((dat V c).before 1 t d))
        ∗ (∃ d, owns (c : Thread nD τ) (st2_2 t) fullShare ((dat V c).before 2 t d))
        ∗ (∃ d, owns (c : Thread nD τ) (st2_3 t) fullShare ((dat V c).before 3 t d))
        ∗ (∃ d, owns (c : Thread nD τ) (st2_4 t) fullShare ((dat V c).before 4 t d))
        ∗ (∃ d, owns (c : Thread nD τ) (st2_5 t) fullShare ((dat V c).before 5 t d))
        ∗ (∃ d, owns (c : Thread nD τ) (st2_6 t) fullShare ((dat V c).before 6 t d))
        ∗ (∃ d, owns (c : Thread nD τ) (st2_7 t) fullShare ((dat V c).before 7 t d)))
      ⊢ wp frame (wpE (defs₀ (F := F)) Variants.none c none) Set.univ (bodyAt2 t) (fun _ =>
          iprop((dat V c).Φ t.succ ∗ (dat V c).owesAt () t.succ
            ∗ owns (c : Thread nD τ) (st2_0 t) fullShare ((dat V c).after 0 t)
            ∗ owns (c : Thread nD τ) (st2_1 t) fullShare ((dat V c).after 1 t)
            ∗ owns (c : Thread nD τ) (st2_2 t) fullShare ((dat V c).after 2 t)
            ∗ owns (c : Thread nD τ) (st2_3 t) fullShare ((dat V c).after 3 t)
            ∗ owns (c : Thread nD τ) (st2_4 t) fullShare ((dat V c).after 4 t)
            ∗ owns (c : Thread nD τ) (st2_5 t) fullShare ((dat V c).after 5 t)
            ∗ owns (c : Thread nD τ) (st2_6 t) fullShare ((dat V c).after 6 t)
            ∗ owns (c : Thread nD τ) (st2_7 t) fullShare ((dat V c).after 7 t))) := by
  unfold bodyAt2
  simp only [dat_before0, dat_before1, dat_before2, dat_before3, dat_before4, dat_before5, dat_before6]
  rw [show (dat V c).Φ t.succ = (dat V c).Φ t.castSucc from rfl,
    show (dat V c).owesAt () t.succ = (dat V c).owesAt () t.castSucc from rfl,
    dat_after0, dat_after1, dat_after2, dat_after3, dat_after4, dat_after5, dat_after6, dat_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c Set.univ _ _ _ _ _ _ _ _ _ _ _ _ _ _ _ _ _ (tile2 V c 0 t) (tile2 V c 1 t) (tile2 V c 2 t) (tile2 V c 3 t) (tile2 V c 4 t) (tile2 V c 5 t) (tile2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the region's pipeline, at every point. -/
theorem obligation (c : Dev nD) : BodyObligation (dat (F := F) V c) (defs₀ (F := F)) Variants.none () Set.univ := fun t => by
  rw [bigSep_W2, bigSep_W2]
  exact point V c t

end Cert.Kernel.Fused

end
-- ==== Proof.WordRegion3.lean ====
/-
  Region 3 of @main — the column statistics of a 50000×256 array, accumulated over its ten tiles of 5000 rows.
  Two 1×256 rows live in scratch memory across the grid: the running column sums and the running column sums of
  squares. The first grid point zeroes both rows; every point adds its tile's column sums and its tile's column sums of
  squares to them; the last point copies the two rows over the two 1×256 output blocks, which are written back there
  and nowhere else (at the other points the body does not touch the output buffers). So the body has three cases by
  the grid position, and the region's invariant carries the two rows: after the points below `t` they hold the sums
  over the tiles below `t`. Stated at any float instance.
-/
import proofs.«160346_j84963043049900_2_alg».proof.Proof.Gen.Kernel.Launch
import proofs.«160346_j84963043049900_2_alg».proof.Proof.Gen.Kernel.Skeleton
import proofs.«160346_j84963043049900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Stats3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev whole_1x256 : Rect S1x256 := Rect.unit (s := S1x256) ![0, 0] S1x256.size inb_S1x256_S1x256_0_0
abbrev whole_5000x256 : Rect S5000x256 := Rect.unit (s := S5000x256) ![0, 0] S5000x256.size inb_S5000x256_S5000x256_0_0

theorem zeros2 : (![0, 0] : Fin 2 → Nat) = fun _ => 0 := by
  funext a; match a with | ⟨0, _⟩ => rfl | ⟨1, _⟩ => rfl

/-- Every index of a row lies under the whole-row rectangle. -/
theorem row_covered (p : Vec F S1x256 .f32) (L : List (View.Piece (Elt F) S1x256 .f32)) (y : S1x256.Idx) :
    ∃ pc ∈ ((⟨whole_1x256, p⟩ : View.Piece (Elt F) S1x256 .f32) :: L), y ∈ pc.1.set :=
  ⟨_, List.mem_cons_self, View.mem_set_unit_zero zeros2 inb_S1x256_S1x256_0_0 y⟩

/-- The first condition of the body: the grid position is 0. -/
def isFirst (i : grid3.Coords) : BitVec 1 :=
  Scalar.cmpi .ne (Scalar.extui (Scalar.cmpi .eq (BitVec.ofNat 32 (i 0).val) 0#32)) 0#32

theorem first_iff : ∀ t : Fin cfg3.N, isFirst (grid3.coords t) = 1#1 ↔ t.val = 0 :=
  (by decide +kernel : ∀ t : Fin grid3.N, isFirst (grid3.coords t) = 1#1 ↔ t.val = 0)
theorem last_iff : ∀ t : Fin cfg3.N, k3_cond2 (grid3.coords t) = 1#1 ↔ t.val = 9 :=
  (by decide +kernel : ∀ t : Fin grid3.N, k3_cond2 (grid3.coords t) = 1#1 ↔ t.val = 9)

set_option maxHeartbeats 1000000 in
/-- The body at the first grid point: both accumulator rows are zeroed, then the tile's column sums and column sums
    of squares are added to them; the two output buffers are not touched. -/
theorem body_first (c : Dev nD) (E : Set ℕ) (i : grid3.Coords) (hf : isFirst i = 1#1) (hl : ¬ k3_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 : Vec F S1x256 .f32) (K : PUnit → sProp 𝕄) :
    iprop(owns (c : Thread nD τ) a1 fullShare x ∗ owns (c : Thread nD τ) a2 fullShare o2 ∗ owns (c : Thread nD τ) a3 fullShare o3
        ∗ (∃ d, owns (c : Thread nD τ) a4 fullShare d) ∗ (∃ d, owns (c : Thread nD τ) a5 fullShare d)
        ∗ (iprop(owns (c : Thread nD τ) a1 fullShare x ∗ owns (c : Thread nD τ) a2 fullShare o2 ∗ owns (c : Thread nD τ) a3 fullShare o3
            ∗ owns (c : Thread nD τ) a4 fullShare (k3_pay4 x (k3_pay1 (F := F))) ∗ owns (c : Thread nD τ) a5 fullShare (k3_pay5 x (k3_pay2 (F := F)))) -∗ K ⟨⟩))
      ⊢ wp frame (wpE (defs₀ (F := F)) Variants.none c none) E (cc3__bn_stats_kernel i a1 h1 a2 h2 a3 h3 a4 h4 a5 h5) K := by
  simp only [cc3__bn_stats_kernel_eq_skeleton]; unfold cc3__bn_stats_kernel_skel
  unfold isFirst at hf
  simp only [dif_pos hf, dif_neg hl]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readCov_unit_zero _ zeros2, View.readAt_eq_ld, View.ld_unit_zero zeros2]
  · iexists _; isplitr
    swap; · iexact H5
    ipureintro
    rw [View.read_writes_eq_canon _ _ _ (row_covered _ _), View.canon_cons_unit_zero zeros2]
    sl_unfold_words
    rw [View.readCov_unit_zero _ zeros2, View.readAt_eq_ld, View.ld_unit_zero zeros2]

set_option maxHeartbeats 1000000 in
/-- The body at a middle grid point: the tile's column sums and column sums of squares are added to the accumulator
    rows as found; the two output buffers are not touched. -/
theorem body_mid (c : Dev nD) (E : Set ℕ) (i : grid3.Coords) (hf : ¬ isFirst i = 1#1) (hl : ¬ k3_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (o2 o3 s4 s5 : Vec F S1x256 .f32) (K : PUnit → sProp 𝕄) :
    iprop(owns (c : Thread nD τ) a1 fullShare x ∗ owns (c : Thread nD τ) a2 fullShare o2 ∗ owns (c : Thread nD τ) a3 fullShare o3 ∗ owns (c : Thread nD τ) a4 fullShare s4 ∗ owns (c : Thread nD τ) a5 fullShare s5
        ∗ (iprop(owns (c : Thread nD τ) a1 fullShare x ∗ owns (c : Thread nD τ) a2 fullShare o2 ∗ owns (c : Thread nD τ) a3 fullShare o3
            ∗ owns (c : Thread nD τ) a4 fullShare (k3_pay4 x s4) ∗ owns (c : Thread nD τ) a5 fullShare (k3_pay5 x s5)) -∗ K ⟨⟩))
      ⊢ wp frame (wpE (defs₀ (F := F)) Variants.none c none) E (cc3__bn_stats_kernel i a1 h1 a2 h2 a3 h3 a4 h4 a5 h5) K := by
  simp only [cc3__bn_stats_kernel_eq_skeleton]; unfold cc3__bn_stats_kernel_skel
  unfold isFirst at hf
  simp only [dif_neg hf, dif_neg hl]
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]
  · iexists _; isplitr
    swap; · iexact H5
    ipureintro
    rw [View.read_writes_eq_canon _ _ _ (row_covered _ _), View.canon_cons_unit_zero zeros2]
    sl_unfold_words
    rw [View.readAt_eq_ld, View.readAt_eq_ld, View.ld_unit_zero zeros2, View.ld_unit_zero zeros2]

set_option maxHeartbeats 1000000 in
/-- The body at the last grid point: the tile is added to the accumulator rows as at a middle point, and then the two
    rows are copied over the two output blocks. -/
theorem body_last (c : Dev nD) (E : Set ℕ) (i : grid3.Coords) (hf : ¬ isFirst i = 1#1) (hl : k3_cond2 i = 1#1)
    (a1 : Memref sig .tc .vmem S5000x256 .f32) (h1 : a1.IsWhole) (a2 : Memref sig .tc .vmem S1x256 .f32) (h2 : a2.IsWhole)
    (a3 : Memref sig .tc .vmem S1x256 .f32) (h3 : a3.IsWhole) (a4 : Memref sig .tc .vmem S1x256 .f32) (h4 : a4.IsWhole)
    (a5 : Memref sig .tc .vmem S1x256 .f32) (h5 : a5.IsWhole)
    (x : Vec F S5000x256 .f32) (s4 s5 : Vec F S1x256 .f32) (K : PUnit → sProp 𝕄) :
    iprop(owns (c : Thread nD τ) a1 fullShare x ∗ (∃ d, owns (c : Thread nD τ) a2 fullShare d) ∗ (∃ d, owns (c : Thread nD τ) a3 fullShare d) ∗ owns (c : Thread nD τ) a4 fullShare s4 ∗ owns (c : Thread nD τ) a5 fullShare s5
        ∗ (iprop(owns (c : Thread nD τ) a1 fullShare x ∗ owns (c : Thread nD τ) a2 fullShare (k3_pay4 x s4) ∗ owns (c : Thread nD τ) a3 fullShare (k3_pay5 x s5)
            ∗ owns (c : Thread nD τ) a4 fullShare (k3_pay4 x s4) ∗ owns (c : Thread nD τ) a5 fullShare (k3_pay5 x s5)) -∗ K ⟨⟩))
      ⊢ wp frame (wpE (defs₀ (F := F)) Variants.none c none) E (cc3__bn_stats_kernel i a1 h1 a2 h2 a3 h3 a4 h4 a5 h5) K := by
  simp only [cc3__bn_stats_kernel_eq_skeleton]; unfold cc3__bn_stats_kernel_skel
  unfold isFirst at hf
  simp only [dif_neg hf, dif_pos hl]
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec
  sl_step
  iapply Hk
  isplitl [H1]
  · iexists f1; isplitr; · ipureintro; rfl
    iexact H1
  isplitl [H2]
  · iexists _; isplitr
    swap; · iexact H2
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H3]
  · iexists _; isplitr
    swap; · iexact H3
    ipureintro
    rw [View.read_writes_eq_canon _ _ _ (row_covered _ _), View.canon_cons_unit_zero zeros2]
    sl_unfold_words
    rw [View.readCov_unit_zero _ zeros2, View.readAt_eq_ld, View.readAt_eq_ld, View.ld_unit_zero zeros2, View.ld_unit_zero zeros2]
  isplitl [H4]
  · iexists _; isplitr
    swap; · iexact H4
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]
  · iexists _; isplitr
    swap; · iexact H5
    ipureintro
    sl_unfold_words
    rw [View.read_writes_eq_canon _ _ _ (row_covered _ _), View.canon_cons_unit_zero zeros2]
    rw [View.readAt_eq_ld, View.readAt_eq_ld, View.ld_unit_zero zeros2, View.ld_unit_zero zeros2]

/-! ## The running sums, the invariant, the proof data -/

/-- The two rows after the tiles below a point: zero rows at the start, then each tile's column sums and column sums
    of squares added in turn. -/
def sums (c : Dev nD) : Fin (cfg3.N + 1) → Vec F S1x256 .f32 × Vec F S1x256 .f32 :=
  Fin.induction (motive := fun _ => Vec F S1x256 .f32 × Vec F S1x256 .f32) (k3_pay1 (F := F), k3_pay2 (F := F))
    (fun t prev => (k3_pay4 (tile3 V c 0 t) prev.1, k3_pay5 (tile3 V c 0 t) prev.2))

theorem sums_zero (c : Dev nD) : sums V c 0 = (k3_pay1 (F := F), k3_pay2 (F := F)) := by
  unfold sums; exact Fin.induction_zero _ _
theorem sums_succ (c : Dev nD) (t : Fin cfg3.N) :
    sums V c t.succ = (k3_pay4 (tile3 V c 0 t) (sums V c t.castSucc).1, k3_pay5 (tile3 V c 0 t) (sums V c t.castSucc).2) := by
  unfold sums; exact Fin.induction_succ _ _ _

/-- The region's invariant before point `t`: the two scratch rows — at anything before the first point, at the running
    sums after it —, the other scoped buffers untouched, the generator register at some state. -/
def inv (c : Dev nD) (t : Fin (cfg3.N + 1)) : sProp 𝕄 :=
  iprop(∃ d4 d5 : Vec F S1x256 .f32, ⌜t ≠ 0 → d4 = (sums V c t).1 ∧ d5 = (sums V c t).2⌝
    ∗ owns (c : Thread nD τ) (Memref.whole cc3_scratch0) fullShare d4 ∗ owns (c : Thread nD τ) (Memref.whole cc3_scratch1) fullShare d5
    ∗ Pipeline.scopedRestBut (Ix := Unit) (Name := ℕ) (U := UR sig nD τ) (Lvl := ℕ) (Val := Elt F) spec3 c [cc3_scratch0, cc3_scratch1]
    ∗ ∃ r, prngReg c r)

/-- The input window's staging buffer holds its tile at every point (it is fetched at every point). -/
theorem found_tile_0 {c : Dev nD} (dat : Dat τ (Elt F) Unit ℕ (UR sig nD τ) ℕ cfg3 c) (hA : dat.A 0 = V c (Pipeline.arrRef spec3 0))
    (hafter : ∀ t, dat.after 0 t = tile3 V c 0 t) (t : Fin cfg3.N) (d) : dat.before 0 t d = tile3 V c 0 t :=
  (dat.before_in_eq_fetched 0 rfl (fun _ => rfl) (fun _ _ _ => rfl) (fun t => by rw [hafter]; unfold Dat.blockOf tile3; rw [hA]; try rfl) t d).trans
    (by unfold Dat.fetched Dat.blockOf tile3; rw [hA]; try rfl)

/-- The region's proof data on core `c`: the array as found; the input buffer left at its tile; each output buffer,
    where the body writes it (the last point), at the running row after that point; the invariant above; nothing owed. -/
def dat (c : Dev nD) : Dat τ (Elt F) Unit ℕ (UR sig nD τ) ℕ cfg3 c where
  A w := V c (Pipeline.arrRef spec3 w)
  after w t := match w with
    | ⟨0, _⟩ => tile3 V c 0 t
    | ⟨1, _⟩ => (sums V c t.succ).1
    | ⟨2, _⟩ => (sums V c t.succ).2
  Φ t := inv V c t
  q _ := fullShare
  owed _ := 0

theorem dat_A (c : Dev nD) (w : Fin cfg3.W) : (dat V c).A w = V c (Pipeline.arrRef spec3 w) := by dsimp only [dat]
theorem dat_after0 (c : Dev nD) (t : Fin cfg3.N) : (dat V c).after 0 t = tile3 V c 0 t := by dsimp only [dat]
theorem dat_after1 (c : Dev nD) (t : Fin cfg3.N) : (dat V c).after 1 t = (sums V c t.succ).1 := by dsimp only [dat]
theorem dat_after2 (c : Dev nD) (t : Fin cfg3.N) : (dat V c).after 2 t = (sums V c t.succ).2 := by dsimp only [dat]
theorem dat_before0 (c : Dev nD) (t : Fin cfg3.N) (d) : (dat V c).before 0 t d = tile3 V c 0 t :=
  found_tile_0 V (dat V c) (dat_A V c 0) (dat_after0 V c) t d

/-! ## The body at a point, case by case -/

theorem point_first (c : Dev nD) (t : Fin cfg3.N) (h0 : t.val = 0) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d)))
      ⊢ wp frame (wpE (defs₀ (F := F)) Variants.none c none) Set.univ (bodyAt3 t) (fun _ =>
          iprop((dat V c).Φ t.succ ∗ (dat V c).owesAt () t.succ
            ∗ owns (c : Thread nD τ) (st3_0 t) fullShare ((dat V c).after 0 t)
            ∗ (∃ d, owns (c : Thread nD τ) (st3_1 t) fullShare ((dat V c).before 1 t d))
            ∗ (∃ d, owns (c : Thread nD τ) (st3_2 t) fullShare ((dat V c).before 2 t d)))) := by
  have hf : isFirst (grid3.coords t) = 1#1 := (first_iff t).2 h0
  have hl : ¬ k3_cond2 (grid3.coords t) = 1#1 := fun h => by have := (last_iff t).1 h; omega
  have hz : t.castSucc = 0 := Fin.ext (by simpa using h0)
  unfold bodyAt3
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, -, Hs4, Hs5, Hrest, Hp⟩, Ho, ⟨%d0, H0⟩, ⟨%e1, H1⟩, ⟨%e2, H2⟩⟩
  iapply (body_first c Set.univ _ hf hl _ _ _ _ _ _ _ _ _ _ (tile3 V c 0 t) _ _ _)
  isplitl [H0]; · iexact H0
  isplitl [H1]; · iexact H1
  isplitl [H2]; · iexact H2
  isplitl [Hs4]; · iexists _; iexact Hs4
  isplitl [Hs5]; · iexists _; iexact Hs5
  iintro ⟨H0, H1, H2, Hs4, Hs5⟩
  isplitl [Hs4 Hs5 Hrest Hp]
  · iexists _, _; isplitr
    · ipureintro; intro _; rw [sums_succ, hz, sums_zero]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_mid (c : Dev nD) (t : Fin cfg3.N) (h0 : t.val ≠ 0) (h9 : t.val ≠ 9) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d)))
      ⊢ wp frame (wpE (defs₀ (F := F)) Variants.none c none) Set.univ (bodyAt3 t) (fun _ =>
          iprop((dat V c).Φ t.succ ∗ (dat V c).owesAt () t.succ
            ∗ owns (c : Thread nD τ) (st3_0 t) fullShare ((dat V c).after 0 t)
            ∗ (∃ d, owns (c : Thread nD τ) (st3_1 t) fullShare ((dat V c).before 1 t d))
            ∗ (∃ d, owns (c : Thread nD τ) (st3_2 t) fullShare ((dat V c).before 2 t d)))) := by
  have hf : ¬ isFirst (grid3.coords t) = 1#1 := fun h => h0 ((first_iff t).1 h)
  have hl : ¬ k3_cond2 (grid3.coords t) = 1#1 := fun h => h9 ((last_iff t).1 h)
  have hnz : t.castSucc ≠ 0 := fun h => h0 (by have := congrArg Fin.val h; simpa using this)
  unfold bodyAt3
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_mid c Set.univ _ hf hl _ _ _ _ _ _ _ _ _ _ (tile3 V c 0 t) _ _ _ _ _)
  isplitl [H0]; · iexact H0
  isplitl [H1]; · iexact H1
  isplitl [H2]; · iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; rw [sums_succ]; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexists _; iexact H1
  iexists _; iexact H2

theorem point_last (c : Dev nD) (t : Fin cfg3.N) (h9 : t.val = 9) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d)))
      ⊢ wp frame (wpE (defs₀ (F := F)) Variants.none c none) Set.univ (bodyAt3 t) (fun _ =>
          iprop((dat V c).Φ t.succ ∗ (dat V c).owesAt () t.succ
            ∗ owns (c : Thread nD τ) (st3_0 t) fullShare ((dat V c).after 0 t)
            ∗ owns (c : Thread nD τ) (st3_1 t) fullShare ((dat V c).after 1 t)
            ∗ owns (c : Thread nD τ) (st3_2 t) fullShare ((dat V c).after 2 t))) := by
  have hf : ¬ isFirst (grid3.coords t) = 1#1 := fun h => by have := (first_iff t).1 h; omega
  have hl : k3_cond2 (grid3.coords t) = 1#1 := (last_iff t).2 h9
  have hnz : t.castSucc ≠ 0 := fun h => by have := congrArg Fin.val h; simp at this; omega
  unfold bodyAt3
  simp only [dat_before0]
  rw [show (dat V c).Φ t.castSucc = inv V c t.castSucc from rfl, show (dat V c).Φ t.succ = inv V c t.succ from rfl,
    show (dat V c).owesAt () t.succ = (dat V c).owesAt () t.castSucc from rfl, dat_after0]
  unfold inv
  rw [dat_after1, dat_after2, sums_succ]
  iintro ⟨⟨%d4, %d5, %hd, Hs4, Hs5, Hrest, Hp⟩, Ho, ⟨%d0, H0⟩, ⟨%e1, H1⟩, ⟨%e2, H2⟩⟩
  obtain ⟨rfl, rfl⟩ := hd hnz
  iapply (body_last c Set.univ _ hf hl _ _ _ _ _ _ _ _ _ _ (tile3 V c 0 t) _ _ _)
  isplitl [H0]; · iexact H0
  isplitl [H1]; · iexists _; iexact H1
  isplitl [H2]; · iexists _; iexact H2
  isplitl [Hs4]; · iexact Hs4
  isplitl [Hs5]; · iexact Hs5
  iintro ⟨H0, H1, H2, Hs4, Hs5⟩
  isplitl [Hs4 Hs5 Hrest Hp]
  · iexists _, _; isplitr
    · ipureintro; intro _; exact ⟨rfl, rfl⟩
    isplitl [Hs4]; · iexact Hs4
    isplitl [Hs5]; · iexact Hs5
    isplitl [Hrest]; · iexact Hrest
    iexact Hp
  isplitl [Ho]; · iexact Ho
  isplitl [H0]; · iexact H0
  isplitl [H1]; · iexact H1
  iexact H2

/-- The body obligation of the region's pipeline, at every point: the three cases, the configuration's `idle` and
    `flush` decided in each. -/
theorem obligation (c : Dev nD) : BodyObligation (dat (F := F) V c) (defs₀ (F := F)) Variants.none () Set.univ := fun t => by
  rw [bigSep_W3, bigSep_W3]
  have hlt : t.val < 10 := Nat.lt_of_lt_of_eq t.isLt N_3
  have idle_of (hl : ¬ k3_cond2 (grid3.coords t) = 1#1) : (!(k3_cond2 (grid3.coords t) == 1#1)) = true := by simp [hl]
  have live_of (hl : k3_cond2 (grid3.coords t) = 1#1) : (!(k3_cond2 (grid3.coords t) == 1#1)) = false := by simp [hl]
  have nf1 (h9 : t.val ≠ 9) : (win3 1).flush t = false := by
    cases hfl : (win3 1).flush t with
    | false => rfl
    | true => exact absurd ((flush3_1 t).1 hfl) (by omega)
  have nf2 (h9 : t.val ≠ 9) : (win3 2).flush t = false := by
    cases hfl : (win3 2).flush t with
    | false => rfl
    | true => exact absurd ((flush3_2 t).1 hfl) (by omega)
  by_cases h0 : t.val = 0
  · have hl : ¬ k3_cond2 (grid3.coords t) = 1#1 := fun h => by have := (last_iff t).1 h; omega
    have hi1 : idle3 1 (grid3.coords t) = true := idle_of hl
    have hi2 : idle3 2 (grid3.coords t) = true := idle_of hl
    simp only [hi1, hi2, nf1 (by omega), nf2 (by omega)]
    exact point_first V c t h0
  · by_cases h9 : t.val = 9
    · have hl : k3_cond2 (grid3.coords t) = 1#1 := (last_iff t).2 h9
      have hi1 : idle3 1 (grid3.coords t) = false := live_of hl
      have hi2 : idle3 2 (grid3.coords t) = false := live_of hl
      simp only [hi1, hi2]
      exact point_last V c t h9
    · have hl : ¬ k3_cond2 (grid3.coords t) = 1#1 := fun h => h9 ((last_iff t).1 h)
      have hi1 : idle3 1 (grid3.coords t) = true := idle_of hl
      have hi2 : idle3 2 (grid3.coords t) = true := idle_of hl
      simp only [hi1, hi2, nf1 h9, nf2 h9]
      exact point_mid V c t h0 h9

end Cert.Kernel.Stats3

end
-- ==== Proof.WordRegion4.lean ====
/-
  Region 4 of @main — layer 1's normalisation, affine map and leaky rectifier, the program's result.
  Every grid point reads one 5000×256 tile `h`, the mean row, the variance row, the scale and shift rows and the slope
  (1×1), and stores over the whole output block `prelu((h − mean) · rsqrt(max(var, 0) + ε) · scale + shift)`. All operands
  but the tile keep one block index over the grid. Stated at any float instance.
-/
import proofs.«160346_j84963043049900_2_alg».proof.Proof.Gen.Kernel.Launch
import proofs.«160346_j84963043049900_2_alg».proof.Proof.Gen.Kernel.Skeleton
import proofs.«160346_j84963043049900_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Act

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-- The tile of window `w` at grid point `t`, cut out of the array the region finds. -/
def tile4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev whole_5000x256 : Rect S5000x256 := Rect.unit (s := S5000x256) ![0, 0] S5000x256.size inb_S5000x256_S5000x256_0_0
abbrev whole_1x256 : Rect S1x256 := Rect.unit (s := S1x256) ![0, 0] S1x256.size inb_S1x256_S1x256_0_0
abbrev whole_1x1 : Rect S1x1 := Rect.unit (s := S1x1) ![0, 0] S1x1.size inb_S1x1_S1x1_0_0

/-- The output tile the body leaves: its one store, over the whole block, of the normalised, rectified tile. -/
def out4 (x0 : Vec F S5000x256 .f32) (x1 : Vec F S1x256 .f32) (x2 : Vec F S1x256 .f32) (x3 : Vec F S1x256 .f32) (x4 : Vec F S1x256 .f32) (x5 : Vec F S1x1 .f32) : Vec F S5000x256 .f32 :=
  View.canon [⟨whole_5000x256, k4_pay1 (View.ld x0 whole_5000x256) (View.ld x2 whole_1x256) (View.ld x1 whole_1x256) (View.ld x3 whole_1x256) (View.ld x4 whole_1x256) (View.ld x5 whole_1x1)⟩]

/-- That one store covers the block. -/
theorem out4_cover (p : Vec F S5000x256 .f32) (y : S5000x256.Idx) :
    ∃ pc ∈ ([⟨whole_5000x256, p⟩] : List (View.Piece (Elt F) S5000x256 .f32)), y ∈ pc.1.set :=
  View.cover_of_tiled [⟨whole_5000x256, p⟩] S5000x256.size (by rfl) y

set_option maxHeartbeats 1000000 in
/-- The body on whole staging buffers: the six inputs are read and left as found, the output buffer ends at `out4` of them. -/
theorem body (c : Dev nD) (E : Set ℕ) (i : grid4.Coords)
    (a0 : Memref sig .tc .vmem S5000x256 .f32) (h0 : a0.IsWhole) (a1 : Memref sig .tc .vmem S1x256 .f32) (h1 : a1.IsWhole) (a2 : Memref sig .tc .vmem S1x256 .f32) (h2 : a2.IsWhole) (a3 : Memref sig .tc .vmem S1x256 .f32) (h3 : a3.IsWhole) (a4 : Memref sig .tc .vmem S1x256 .f32) (h4 : a4.IsWhole) (a5 : Memref sig .tc .vmem S1x1 .f32) (h5 : a5.IsWhole) (a6 : Memref sig .tc .vmem S5000x256 .f32) (h6 : a6.IsWhole)
    (x0 : Vec F S5000x256 .f32) (x1 : Vec F S1x256 .f32) (x2 : Vec F S1x256 .f32) (x3 : Vec F S1x256 .f32) (x4 : Vec F S1x256 .f32) (x5 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out4 x0 x1 x2 x3 x4 x5)) -∗ K ⟨⟩))
      ⊢ wp frame (wpE (defs₀ (F := F)) Variants.none c none) E (cc4__bn_apply_kernel i a0 h0 a1 h1 a2 h2 a3 h3 a4 h4 a5 h5 a6 h6) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (out4_cover _)

/-! ## The proof data -/

/-- Input window 0's staging buffer holds the window's tile at every point: fetched there, or — its block index not
    having moved — found as the point before left it. -/
theorem found_tile_0 {c : Dev nD} (dat : Dat τ (Elt F) Unit ℕ (UR sig nD τ) ℕ cfg4 c) (hA : dat.A 0 = V c (Pipeline.arrRef spec4 0))
    (hafter : ∀ t, dat.after 0 t = tile4 V c 0 t) (t : Fin cfg4.N) (d) : dat.before 0 t d = tile4 V c 0 t :=
  (dat.before_in_eq_fetched 0 rfl (fun _ => rfl) (fun _ _ _ => rfl) (fun t => by rw [hafter]; unfold Dat.blockOf tile4; rw [hA]; try rfl) t d).trans
    (by unfold Dat.fetched Dat.blockOf tile4; rw [hA]; try rfl)
/-- Input window 1's staging buffer holds the window's tile at every point: fetched there, or — its block index not
    having moved — found as the point before left it. -/
theorem found_tile_1 {c : Dev nD} (dat : Dat τ (Elt F) Unit ℕ (UR sig nD τ) ℕ cfg4 c) (hA : dat.A 1 = V c (Pipeline.arrRef spec4 1))
    (hafter : ∀ t, dat.after 1 t = tile4 V c 1 t) (t : Fin cfg4.N) (d) : dat.before 1 t d = tile4 V c 1 t :=
  (dat.before_in_eq_fetched 1 rfl (fun _ => rfl) (fun _ _ _ => rfl) (fun t => by rw [hafter]; unfold Dat.blockOf tile4; rw [hA]; try rfl) t d).trans
    (by unfold Dat.fetched Dat.blockOf tile4; rw [hA]; try rfl)
/-- Input window 2's staging buffer holds the window's tile at every point: fetched there, or — its block index not
    having moved — found as the point before left it. -/
theorem found_tile_2 {c : Dev nD} (dat : Dat τ (Elt F) Unit ℕ (UR sig nD τ) ℕ cfg4 c) (hA : dat.A 2 = V c (Pipeline.arrRef spec4 2))
    (hafter : ∀ t, dat.after 2 t = tile4 V c 2 t) (t : Fin cfg4.N) (d) : dat.before 2 t d = tile4 V c 2 t :=
  (dat.before_in_eq_fetched 2 rfl (fun _ => rfl) (fun _ _ _ => rfl) (fun t => by rw [hafter]; unfold Dat.blockOf tile4; rw [hA]; try rfl) t d).trans
    (by unfold Dat.fetched Dat.blockOf tile4; rw [hA]; try rfl)
/-- Input window 3's staging buffer holds the window's tile at every point: fetched there, or — its block index not
    having moved — found as the point before left it. -/
theorem found_tile_3 {c : Dev nD} (dat : Dat τ (Elt F) Unit ℕ (UR sig nD τ) ℕ cfg4 c) (hA : dat.A 3 = V c (Pipeline.arrRef spec4 3))
    (hafter : ∀ t, dat.after 3 t = tile4 V c 3 t) (t : Fin cfg4.N) (d) : dat.before 3 t d = tile4 V c 3 t :=
  (dat.before_in_eq_fetched 3 rfl (fun _ => rfl) (fun _ _ _ => rfl) (fun t => by rw [hafter]; unfold Dat.blockOf tile4; rw [hA]; try rfl) t d).trans
    (by unfold Dat.fetched Dat.blockOf tile4; rw [hA]; try rfl)
/-- Input window 4's staging buffer holds the window's tile at every point: fetched there, or — its block index not
    having moved — found as the point before left it. -/
theorem found_tile_4 {c : Dev nD} (dat : Dat τ (Elt F) Unit ℕ (UR sig nD τ) ℕ cfg4 c) (hA : dat.A 4 = V c (Pipeline.arrRef spec4 4))
    (hafter : ∀ t, dat.after 4 t = tile4 V c 4 t) (t : Fin cfg4.N) (d) : dat.before 4 t d = tile4 V c 4 t :=
  (dat.before_in_eq_fetched 4 rfl (fun _ => rfl) (fun _ _ _ => rfl) (fun t => by rw [hafter]; unfold Dat.blockOf tile4; rw [hA]; try rfl) t d).trans
    (by unfold Dat.fetched Dat.blockOf tile4; rw [hA]; try rfl)
/-- Input window 5's staging buffer holds the window's tile at every point: fetched there, or — its block index not
    having moved — found as the point before left it. -/
theorem found_tile_5 {c : Dev nD} (dat : Dat τ (Elt F) Unit ℕ (UR sig nD τ) ℕ cfg4 c) (hA : dat.A 5 = V c (Pipeline.arrRef spec4 5))
    (hafter : ∀ t, dat.after 5 t = tile4 V c 5 t) (t : Fin cfg4.N) (d) : dat.before 5 t d = tile4 V c 5 t :=
  (dat.before_in_eq_fetched 5 rfl (fun _ => rfl) (fun _ _ _ => rfl) (fun t => by rw [hafter]; unfold Dat.blockOf tile4; rw [hA]; try rfl) t d).trans
    (by unfold Dat.fetched Dat.blockOf tile4; rw [hA]; try rfl)

/-- The region's proof data on core `c`: the arrays as found; after the body at point `t` every input buffer still at its
    tile and the output buffer at `out4` of the tiles; the invariant the plain one (the scoped rest and the generator
    register pass through untouched); nothing owed. -/
def dat (c : Dev nD) : Dat τ (Elt F) Unit ℕ (UR sig nD τ) ℕ cfg4 c where
  A w := V c (Pipeline.arrRef spec4 w)
  after w t := match w with
    | ⟨0, _⟩ => tile4 V c 0 t
    | ⟨1, _⟩ => tile4 V c 1 t
    | ⟨2, _⟩ => tile4 V c 2 t
    | ⟨3, _⟩ => tile4 V c 3 t
    | ⟨4, _⟩ => tile4 V c 4 t
    | ⟨5, _⟩ => tile4 V c 5 t
    | ⟨6, _⟩ => out4 (tile4 V c 0 t) (tile4 V c 1 t) (tile4 V c 2 t) (tile4 V c 3 t) (tile4 V c 4 t) (tile4 V c 5 t)
  Φ _ := Pipeline.ΦA spec4 c
  q _ := fullShare
  owed _ := 0

theorem dat_A (c : Dev nD) (w : Fin cfg4.W) : (dat V c).A w = V c (Pipeline.arrRef spec4 w) := by dsimp only [dat]
theorem dat_after0 (c : Dev nD) (t : Fin cfg4.N) : (dat V c).after 0 t = tile4 V c 0 t := by dsimp only [dat]
theorem dat_after1 (c : Dev nD) (t : Fin cfg4.N) : (dat V c).after 1 t = tile4 V c 1 t := by dsimp only [dat]
theorem dat_after2 (c : Dev nD) (t : Fin cfg4.N) : (dat V c).after 2 t = tile4 V c 2 t := by dsimp only [dat]
theorem dat_after3 (c : Dev nD) (t : Fin cfg4.N) : (dat V c).after 3 t = tile4 V c 3 t := by dsimp only [dat]
theorem dat_after4 (c : Dev nD) (t : Fin cfg4.N) : (dat V c).after 4 t = tile4 V c 4 t := by dsimp only [dat]
theorem dat_after5 (c : Dev nD) (t : Fin cfg4.N) : (dat V c).after 5 t = tile4 V c 5 t := by dsimp only [dat]
theorem dat_after6 (c : Dev nD) (t : Fin cfg4.N) :
    (dat V c).after 6 t = out4 (tile4 V c 0 t) (tile4 V c 1 t) (tile4 V c 2 t) (tile4 V c 3 t) (tile4 V c 4 t) (tile4 V c 5 t) := by dsimp only [dat]
theorem dat_before0 (c : Dev nD) (t : Fin cfg4.N) (d) : (dat V c).before 0 t d = tile4 V c 0 t :=
  found_tile_0 V (dat V c) (dat_A V c 0) (dat_after0 V c) t d
theorem dat_before1 (c : Dev nD) (t : Fin cfg4.N) (d) : (dat V c).before 1 t d = tile4 V c 1 t :=
  found_tile_1 V (dat V c) (dat_A V c 1) (dat_after1 V c) t d
theorem dat_before2 (c : Dev nD) (t : Fin cfg4.N) (d) : (dat V c).before 2 t d = tile4 V c 2 t :=
  found_tile_2 V (dat V c) (dat_A V c 2) (dat_after2 V c) t d
theorem dat_before3 (c : Dev nD) (t : Fin cfg4.N) (d) : (dat V c).before 3 t d = tile4 V c 3 t :=
  found_tile_3 V (dat V c) (dat_A V c 3) (dat_after3 V c) t d
theorem dat_before4 (c : Dev nD) (t : Fin cfg4.N) (d) : (dat V c).before 4 t d = tile4 V c 4 t :=
  found_tile_4 V (dat V c) (dat_A V c 4) (dat_after4 V c) t d
theorem dat_before5 (c : Dev nD) (t : Fin cfg4.N) (d) : (dat V c).before 5 t d = tile4 V c 5 t :=
  found_tile_5 V (dat V c) (dat_A V c 5) (dat_after5 V c) t d

/-! ## The body at a point -/

theorem point (c : Dev nD) (t : Fin cfg4.N) :
    iprop((dat V c).Φ t.castSucc ∗ (dat V c).owesAt () t.castSucc
        ∗ (∃ d, owns (c : Thread nD τ) (st4_0 t) fullShare ((dat V c).before 0 t d))
        ∗ (∃ d, owns (c : Thread nD τ) (st4_1 t) fullShare ((dat V c).before 1 t d))
        ∗ (∃ d, owns (c : Thread nD τ) (st4_2 t) fullShare ((dat V c).before 2 t d))
        ∗ (∃ d, owns (c : Thread nD τ) (st4_3 t) fullShare ((dat V c).before 3 t d))
        ∗ (∃ d, owns (c : Thread nD τ) (st4_4 t) fullShare ((dat V c).before 4 t d))
        ∗ (∃ d, owns (c : Thread nD τ) (st4_5 t) fullShare ((dat V c).before 5 t d))
        ∗ (∃ d, owns (c : Thread nD τ) (st4_6 t) fullShare ((dat V c).before 6 t d)))
      ⊢ wp frame (wpE (defs₀ (F := F)) Variants.none c none) Set.univ (bodyAt4 t) (fun _ =>
          iprop((dat V c).Φ t.succ ∗ (dat V c).owesAt () t.succ
            ∗ owns (c : Thread nD τ) (st4_0 t) fullShare ((dat V c).after 0 t)
            ∗ owns (c : Thread nD τ) (st4_1 t) fullShare ((dat V c).after 1 t)
            ∗ owns (c : Thread nD τ) (st4_2 t) fullShare ((dat V c).after 2 t)
            ∗ owns (c : Thread nD τ) (st4_3 t) fullShare ((dat V c).after 3 t)
            ∗ owns (c : Thread nD τ) (st4_4 t) fullShare ((dat V c).after 4 t)
            ∗ owns (c : Thread nD τ) (st4_5 t) fullShare ((dat V c).after 5 t)
            ∗ owns (c : Thread nD τ) (st4_6 t) fullShare ((dat V c).after 6 t))) := by
  unfold bodyAt4
  simp only [dat_before0, dat_before1, dat_before2, dat_before3, dat_before4, dat_before5]
  rw [show (dat V c).Φ t.succ = (dat V c).Φ t.castSucc from rfl,
    show (dat V c).owesAt () t.succ = (dat V c).owesAt () t.castSucc from rfl,
    dat_after0, dat_after1, dat_after2, dat_after3, dat_after4, dat_after5, dat_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c Set.univ _ _ _ _ _ _ _ _ _ _ _ _ _ _ _ (tile4 V c 0 t) (tile4 V c 1 t) (tile4 V c 2 t) (tile4 V c 3 t) (tile4 V c 4 t) (tile4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's pipeline, at every point. -/
theorem obligation (c : Dev nD) : BodyObligation (dat (F := F) V c) (defs₀ (F := F)) Variants.none () Set.univ := fun t => by
  rw [bigSep_W4, bigSep_W4]
  exact point V c t

end Cert.Kernel.Act

end
-- ==== Proof.WordWhole.lean ====
/-
  @main as a whole: the contents of the TensorCore's buffers at each boundary between its eleven items (six stretches
  of host operations, five kernel regions), stage by stage from the launch memory. A host stretch maps the contents
  through its operations; a region changes only its output arrays, to what its write-backs leave
  (the region's proof data read at the end of its grid). Every later item reads earlier results there.
-/
import proofs.«160346_j84963043049900_2_alg».proof.Proof.Gen.Kernel.Regions
import proofs.«160346_j84963043049900_2_alg».proof.Proof.WordRegion0
import proofs.«160346_j84963043049900_2_alg».proof.Proof.WordRegion1
import proofs.«160346_j84963043049900_2_alg».proof.Proof.WordRegion2
import proofs.«160346_j84963043049900_2_alg».proof.Proof.WordRegion3
import proofs.«160346_j84963043049900_2_alg».proof.Proof.WordRegion4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A boundary's contents as the regions' modules take them: by core and buffer. -/
abbrev byRef (W : Dev nD → Valuation τ sig (Elt F)) : (c : Dev nD) → (b : Ref sig .tc) → Buf (Elt F) ((c : Thread nD τ).loc b) :=
  fun c b => W c b

/-! ## The stages -/

/-- Before region 0: the launch memory through the first three host stretches. -/
def S3 (c : Dev nD) : Valuation τ sig (Elt F) := V3 m c
theorem S3_eq (c : Dev nD) : V3 m c = S3 m c := rfl
/-- What region 0 leaves in its output array. -/
def o44 (c : Dev nD) : Buf (Elt F) ((c : Thread nD τ).loc main_v44) := (Dense.dat (byRef (S3 m)) c).arrAt 3 cfg0.N
/-- After region 0. -/
def S4 (c : Dev nD) : Valuation τ sig (Elt F) := Function.update (S3 m c) main_v44 (o44 m c)
/-- What region 1 leaves in its two output rows. -/
def o45_0 (c : Dev nD) : Buf (Elt F) ((c : Thread nD τ).loc main_v45_0) := (Stats1.dat (byRef (S4 m)) c).arrAt 1 cfg1.N
def o45_1 (c : Dev nD) : Buf (Elt F) ((c : Thread nD τ).loc main_v45_1) := (Stats1.dat (byRef (S4 m)) c).arrAt 2 cfg1.N
/-- After region 1. -/
def S5 (c : Dev nD) : Valuation τ sig (Elt F) :=
  Function.update (Function.update (S4 m c) main_v45_0 (o45_0 m c)) main_v45_1 (o45_1 m c)
/-- After the host stretch between regions 1 and 2. -/
def S6 (c : Dev nD) : Valuation τ sig (Elt F) := StableHlo.after hostOps2 (S5 m c)
def o57 (c : Dev nD) : Buf (Elt F) ((c : Thread nD τ).loc main_v57) := (Fused.dat (byRef (S6 m)) c).arrAt 7 cfg2.N
/-- After region 2. -/
def S7 (c : Dev nD) : Valuation τ sig (Elt F) := Function.update (S6 m c) main_v57 (o57 m c)
/-- After the host stretch between regions 2 and 3. -/
def S8 (c : Dev nD) : Valuation τ sig (Elt F) := StableHlo.after hostOps3 (S7 m c)
def o74_0 (c : Dev nD) : Buf (Elt F) ((c : Thread nD τ).loc main_v74_0) := (Stats3.dat (byRef (S8 m)) c).arrAt 1 cfg3.N
def o74_1 (c : Dev nD) : Buf (Elt F) ((c : Thread nD τ).loc main_v74_1) := (Stats3.dat (byRef (S8 m)) c).arrAt 2 cfg3.N
/-- After region 3. -/
def S9 (c : Dev nD) : Valuation τ sig (Elt F) :=
  Function.update (Function.update (S8 m c) main_v74_0 (o74_0 m c)) main_v74_1 (o74_1 m c)
/-- After the host stretch between regions 3 and 4. -/
def S10 (c : Dev nD) : Valuation τ sig (Elt F) := StableHlo.after hostOps4 (S9 m c)
def o86 (c : Dev nD) : Buf (Elt F) ((c : Thread nD τ).loc main_v86) := (Act.dat (byRef (S10 m)) c).arrAt 6 cfg4.N
/-- After region 4: the end. -/
def S11 (c : Dev nD) : Valuation τ sig (Elt F) := Function.update (S10 m c) main_v86 (o86 m c)

/-- The regions' results, as the conditional frame's parameter: each read off the stage right after its region. -/
def outs : Outs (F := F) := fun J r c =>
  match J with
  | 4 => S4 m c r
  | 5 => S5 m c r
  | 7 => S7 m c r
  | 9 => S9 m c r
  | _ => S11 m c r

theorem ne_ref {a b : Ref sig .tc} (h : a ≠ b) : (Proc.devRef .tc a : DevRef τ sig) ≠ Proc.devRef .tc b :=
  StableHlo.devRef_ne_of_ne h

theorem V4_eq (c : Dev nD) : V4 m (outs m) c = S4 m c := by
  show Function.update (V3 m c) main_v44 (S4 m c main_v44) = S4 m c
  rw [S3_eq]; unfold S4; rw [Function.update_self]
theorem V5_eq (c : Dev nD) : V5 m (outs m) c = S5 m c := by
  show Function.update (Function.update (V4 m (outs m) c) main_v45_0 (S5 m c main_v45_0)) main_v45_1 (S5 m c main_v45_1) = S5 m c
  rw [V4_eq]; unfold S5
  rw [Function.update_self, Function.update_of_ne (ne_ref (by decide : main_v45_0 ≠ main_v45_1)), Function.update_self]
theorem V6_eq (c : Dev nD) : V6 m (outs m) c = S6 m c := by
  show StableHlo.after hostOps2 (V5 m (outs m) c) = S6 m c
  rw [V5_eq]; rfl
theorem V7_eq (c : Dev nD) : V7 m (outs m) c = S7 m c := by
  show Function.update (V6 m (outs m) c) main_v57 (S7 m c main_v57) = S7 m c
  rw [V6_eq]; unfold S7; rw [Function.update_self]
theorem V8_eq (c : Dev nD) : V8 m (outs m) c = S8 m c := by
  show StableHlo.after hostOps3 (V7 m (outs m) c) = S8 m c
  rw [V7_eq]; rfl
theorem V9_eq (c : Dev nD) : V9 m (outs m) c = S9 m c := by
  show Function.update (Function.update (V8 m (outs m) c) main_v74_0 (S9 m c main_v74_0)) main_v74_1 (S9 m c main_v74_1) = S9 m c
  rw [V8_eq]; unfold S9
  rw [Function.update_self, Function.update_of_ne (ne_ref (by decide : main_v74_0 ≠ main_v74_1)), Function.update_self]
theorem V10_eq (c : Dev nD) : V10 m (outs m) c = S10 m c := by
  show StableHlo.after hostOps4 (V9 m (outs m) c) = S10 m c
  rw [V9_eq]; rfl
theorem V11_eq (c : Dev nD) : V11 m (outs m) c = S11 m c := by
  show Function.update (V10 m (outs m) c) main_v86 (S11 m c main_v86) = S11 m c
  rw [V10_eq]; unfold S11; rw [Function.update_self]

/-! ## The proof data family and what rides along -/

/-- Every region's proof data, each at its own entry contents. -/
def pdats : (p : Fin 5) → (c : Dev nD) → Dat τ (Elt F) Unit ℕ (UR sig nD τ) ℕ (cfgs p) c
  | ⟨0, _⟩ => fun c => Dense.dat (byRef (S3 m)) c
  | ⟨1, _⟩ => fun c => Stats1.dat (byRef (S4 m)) c
  | ⟨2, _⟩ => fun c => Fused.dat (byRef (S6 m)) c
  | ⟨3, _⟩ => fun c => Stats3.dat (byRef (S8 m)) c
  | ⟨4, _⟩ => fun c => Act.dat (byRef (S10 m)) c

abbrev 𝒱₀ : Variants := Variants.none
/-- No core waits on another: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)

/-! ## Region 0 -/

theorem pdats0 (c : Dev nD) : pdats m 0 c = Dense.dat (byRef (S3 m)) c := rfl
set_option maxHeartbeats 4000000 in
theorem exit0 (c : Dev nD) (w : Fin 4) : (Dense.dat (byRef (S3 m)) c).arrAt w cfg0.N = byRef (S4 m) c (Pipeline.arrRef spec0 w) := by
  match w with
  | 0 => exact ((Dense.dat (byRef (S3 m)) c).arrAt_in 0 rfl _).trans (Function.update_of_ne (ne_ref (by decide +kernel : Pipeline.arrRef spec0 0 ≠ main_v44)) (o44 m c) (S3 m c)).symm
  | 1 => exact ((Dense.dat (byRef (S3 m)) c).arrAt_in 1 rfl _).trans (Function.update_of_ne (ne_ref (by decide +kernel : Pipeline.arrRef spec0 1 ≠ main_v44)) (o44 m c) (S3 m c)).symm
  | 2 => exact ((Dense.dat (byRef (S3 m)) c).arrAt_in 2 rfl _).trans (Function.update_of_ne (ne_ref (by decide +kernel : Pipeline.arrRef spec0 2 ≠ main_v44)) (o44 m c) (S3 m c)).symm
  | 3 => exact (Function.update_self (Proc.devRef .tc main_v44 : DevRef τ sig) (o44 m c) (S3 m c)).symm
  | ⟨_ + 4, h⟩ => exact absurd h (Nat.not_lt.2 (Nat.le_add_left _ _))
theorem rest0 (c : Dev nD) : ∀ b, b ∉ Finset.univ.image (Pipeline.arrRef spec0) → byRef (S4 m) c b = byRef (S3 m) c b := fun b hb => by
  exact Function.update_of_ne (ne_ref (fun h => hb (Finset.mem_image.mpr ⟨3, Finset.mem_univ _, h.symm⟩))) (o44 m c) (S3 m c)

set_option backward.isDefEq.respectTransparency.types false in
/-- Region 0 over the thread state: entered with every unscoped buffer at the stage before it, left with them at the
    stage after it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dense.obligation (byRef (S3 m)) c).loose
  hwaits := Pipeline.hwaits_of_owed_zero _ _ _ _ L lv 0 fun _ _ => rfl
  pre c := iprop(StableHlo.held (c : Thread nD τ) (Pipeline.ucRefs τ sig) (S3 m c) ∗ R c)
  post c := iprop(StableHlo.held (c : Thread nD τ) (Pipeline.ucRefs τ sig) (S4 m c) ∗ R c)
  X c := iprop(∃ r, prngReg c r)
  Y c := iprop(∃ r, prngReg c r)
  Z c := Pipeline.unscopedRest (Ix := Unit) (Name := ℕ) (U := UR sig nD τ) (Lvl := ℕ) spec0 c (byRef (S3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (byRef (S3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (byRef (S3 m) c) (byRef (S4 m) c) ((pdats m 0 c).arrAt · cfg0.N)
      (fun w => (congrArg (fun d : Dat τ (Elt F) Unit ℕ (UR sig nD τ) ℕ cfg0 c => d.arrAt w cfg0.N) (pdats0 m c)).trans (exit0 m c w))
      (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem pdats1 (c : Dev nD) : pdats m 1 c = Stats1.dat (byRef (S4 m)) c := rfl
set_option maxHeartbeats 4000000 in
theorem exit1 (c : Dev nD) (w : Fin 3) : (Stats1.dat (byRef (S4 m)) c).arrAt w cfg1.N = byRef (S5 m) c (Pipeline.arrRef spec1 w) := by
  match w with
  | 0 => exact ((Stats1.dat (byRef (S4 m)) c).arrAt_in 0 rfl _).trans ((Function.update_of_ne (ne_ref (by decide +kernel : Pipeline.arrRef spec1 0 ≠ main_v45_1)) (o45_1 m c) (Function.update (S4 m c) main_v45_0 (o45_0 m c))).trans (Function.update_of_ne (ne_ref (by decide +kernel : Pipeline.arrRef spec1 0 ≠ main_v45_0)) (o45_0 m c) (S4 m c))).symm
  | 1 =>
    exact ((Function.update_of_ne (ne_ref (by decide +kernel : main_v45_0 ≠ main_v45_1)) (o45_1 m c) (Function.update (S4 m c) main_v45_0 (o45_0 m c))).trans
      (Function.update_self (Proc.devRef .tc main_v45_0 : DevRef τ sig) (o45_0 m c) (S4 m c))).symm
  | 2 => exact (Function.update_self (Proc.devRef .tc main_v45_1 : DevRef τ sig) (o45_1 m c) (Function.update (S4 m c) main_v45_0 (o45_0 m c))).symm
  | ⟨_ + 3, h⟩ => exact absurd h (Nat.not_lt.2 (Nat.le_add_left _ _))
theorem rest1 (c : Dev nD) : ∀ b, b ∉ Finset.univ.image (Pipeline.arrRef spec1) → byRef (S5 m) c b = byRef (S4 m) c b := fun b hb => by
  exact (Function.update_of_ne (ne_ref (fun h => hb (Finset.mem_image.mpr ⟨2, Finset.mem_univ _, h.symm⟩))) (o45_1 m c) (Function.update (S4 m c) main_v45_0 (o45_0 m c))).trans
    (Function.update_of_ne (ne_ref (fun h => hb (Finset.mem_image.mpr ⟨1, Finset.mem_univ _, h.symm⟩))) (o45_0 m c) (S4 m c))

set_option backward.isDefEq.respectTransparency.types false in
/-- Region 1 over the thread state: entered with every unscoped buffer at the stage before it, left with them at the
    stage after it; its two scratch rows come out of the scoped rest into the invariant and go back at the end. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Stats1.obligation (byRef (S4 m)) c).loose
  hwaits := Pipeline.hwaits_of_owed_zero _ _ _ _ L lv 1 fun _ _ => rfl
  pre c := iprop(StableHlo.held (c : Thread nD τ) (Pipeline.ucRefs τ sig) (S4 m c) ∗ R c)
  post c := iprop(StableHlo.held (c : Thread nD τ) (Pipeline.ucRefs τ sig) (S5 m c) ∗ R c)
  X c := iprop(∃ r, prngReg c r)
  Y c := iprop(∃ r, prngReg c r)
  Z c := Pipeline.unscopedRest (Ix := Unit) (Name := ℕ) (U := UR sig nD τ) (Lvl := ℕ) spec1 c (byRef (S4 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (byRef (S4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Stats1.inv (byRef (S4 m)) c 0 from rfl]; unfold Stats1.inv
    rw [show Pipeline.scopedRest (Ix := Unit) (Name := ℕ) (U := UR sig nD τ) (Lvl := ℕ) (Val := Elt F) (Pipeline.pin (pcfgs (F := F)) adm 1).spec c
        = Pipeline.scopedRest (Ix := Unit) (Name := ℕ) (U := UR sig nD τ) (Lvl := ℕ) (Val := Elt F) spec1 c from rfl, scopedRest1_split]
    iintro ⟨Hp, -, ⟨⟨%f4, H4⟩, ⟨%f5, H5⟩⟩, Hrest⟩
    iexists f4, f5
    isplitr; · ipureintro; exact fun h => absurd rfl h
    rw [owns_whole, owns_whole]
    isplitl [H4]; · iexact H4
    isplitl [H5]; · iexact H5
    isplitl [Hrest]; · iexact Hrest
    iexact Hp
  hout c := by
    rw [Pipeline.ownSems0_none, show (pdats m 1 c).Φ (Fin.last _) = Stats1.inv (byRef (S4 m)) c (Fin.last _) from rfl]; unfold Stats1.inv
    rw [show Pipeline.scopedRest (Ix := Unit) (Name := ℕ) (U := UR sig nD τ) (Lvl := ℕ) (Val := Elt F) (Pipeline.pin (pcfgs (F := F)) adm 1).spec c
        = Pipeline.scopedRest (Ix := Unit) (Name := ℕ) (U := UR sig nD τ) (Lvl := ℕ) (Val := Elt F) spec1 c from rfl, scopedRest1_split]
    simp only [owns_whole]
    iintro ⟨%d4, %d5, -, H4, H5, Hrest, Hp⟩
    isplitl [Hp]; · iexact Hp
    isplitr; · iempintro
    isplitl [H4 H5]
    · isplitl [H4]
      · iexists _; iexact H4
      iexists _; iexact H5
    iexact Hrest
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (byRef (S4 m) c) (byRef (S5 m) c) ((pdats m 1 c).arrAt · cfg1.N)
      (fun w => (congrArg (fun d : Dat τ (Elt F) Unit ℕ (UR sig nD τ) ℕ cfg1 c => d.arrAt w cfg1.N) (pdats1 m c)).trans (exit1 m c w))
      (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem pdats2 (c : Dev nD) : pdats m 2 c = Fused.dat (byRef (S6 m)) c := rfl
set_option maxHeartbeats 4000000 in
theorem exit2 (c : Dev nD) (w : Fin 8) : (Fused.dat (byRef (S6 m)) c).arrAt w cfg2.N = byRef (S7 m) c (Pipeline.arrRef spec2 w) := by
  match w with
  | 0 => exact ((Fused.dat (byRef (S6 m)) c).arrAt_in 0 rfl _).trans (Function.update_of_ne (ne_ref (by decide +kernel : Pipeline.arrRef spec2 0 ≠ main_v57)) (o57 m c) (S6 m c)).symm
  | 1 => exact ((Fused.dat (byRef (S6 m)) c).arrAt_in 1 rfl _).trans (Function.update_of_ne (ne_ref (by decide +kernel : Pipeline.arrRef spec2 1 ≠ main_v57)) (o57 m c) (S6 m c)).symm
  | 2 => exact ((Fused.dat (byRef (S6 m)) c).arrAt_in 2 rfl _).trans (Function.update_of_ne (ne_ref (by decide +kernel : Pipeline.arrRef spec2 2 ≠ main_v57)) (o57 m c) (S6 m c)).symm
  | 3 => exact ((Fused.dat (byRef (S6 m)) c).arrAt_in 3 rfl _).trans (Function.update_of_ne (ne_ref (by decide +kernel : Pipeline.arrRef spec2 3 ≠ main_v57)) (o57 m c) (S6 m c)).symm
  | 4 => exact ((Fused.dat (byRef (S6 m)) c).arrAt_in 4 rfl _).trans (Function.update_of_ne (ne_ref (by decide +kernel : Pipeline.arrRef spec2 4 ≠ main_v57)) (o57 m c) (S6 m c)).symm
  | 5 => exact ((Fused.dat (byRef (S6 m)) c).arrAt_in 5 rfl _).trans (Function.update_of_ne (ne_ref (by decide +kernel : Pipeline.arrRef spec2 5 ≠ main_v57)) (o57 m c) (S6 m c)).symm
  | 6 => exact ((Fused.dat (byRef (S6 m)) c).arrAt_in 6 rfl _).trans (Function.update_of_ne (ne_ref (by decide +kernel : Pipeline.arrRef spec2 6 ≠ main_v57)) (o57 m c) (S6 m c)).symm
  | 7 => exact (Function.update_self (Proc.devRef .tc main_v57 : DevRef τ sig) (o57 m c) (S6 m c)).symm
  | ⟨_ + 8, h⟩ => exact absurd h (Nat.not_lt.2 (Nat.le_add_left _ _))
theorem rest2 (c : Dev nD) : ∀ b, b ∉ Finset.univ.image (Pipeline.arrRef spec2) → byRef (S7 m) c b = byRef (S6 m) c b := fun b hb => by
  exact Function.update_of_ne (ne_ref (fun h => hb (Finset.mem_image.mpr ⟨7, Finset.mem_univ _, h.symm⟩))) (o57 m c) (S6 m c)

set_option backward.isDefEq.respectTransparency.types false in
/-- Region 2 over the thread state: entered with every unscoped buffer at the stage before it, left with them at the
    stage after it. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Fused.obligation (byRef (S6 m)) c).loose
  hwaits := Pipeline.hwaits_of_owed_zero _ _ _ _ L lv 2 fun _ _ => rfl
  pre c := iprop(StableHlo.held (c : Thread nD τ) (Pipeline.ucRefs τ sig) (S6 m c) ∗ R c)
  post c := iprop(StableHlo.held (c : Thread nD τ) (Pipeline.ucRefs τ sig) (S7 m c) ∗ R c)
  X c := iprop(∃ r, prngReg c r)
  Y c := iprop(∃ r, prngReg c r)
  Z c := Pipeline.unscopedRest (Ix := Unit) (Name := ℕ) (U := UR sig nD τ) (Lvl := ℕ) spec2 c (byRef (S6 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (byRef (S6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (byRef (S6 m) c) (byRef (S7 m) c) ((pdats m 2 c).arrAt · cfg2.N)
      (fun w => (congrArg (fun d : Dat τ (Elt F) Unit ℕ (UR sig nD τ) ℕ cfg2 c => d.arrAt w cfg2.N) (pdats2 m c)).trans (exit2 m c w))
      (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem pdats3 (c : Dev nD) : pdats m 3 c = Stats3.dat (byRef (S8 m)) c := rfl
set_option maxHeartbeats 4000000 in
theorem exit3 (c : Dev nD) (w : Fin 3) : (Stats3.dat (byRef (S8 m)) c).arrAt w cfg3.N = byRef (S9 m) c (Pipeline.arrRef spec3 w) := by
  match w with
  | 0 => exact ((Stats3.dat (byRef (S8 m)) c).arrAt_in 0 rfl _).trans ((Function.update_of_ne (ne_ref (by decide +kernel : Pipeline.arrRef spec3 0 ≠ main_v74_1)) (o74_1 m c) (Function.update (S8 m c) main_v74_0 (o74_0 m c))).trans (Function.update_of_ne (ne_ref (by decide +kernel : Pipeline.arrRef spec3 0 ≠ main_v74_0)) (o74_0 m c) (S8 m c))).symm
  | 1 =>
    exact ((Function.update_of_ne (ne_ref (by decide +kernel : main_v74_0 ≠ main_v74_1)) (o74_1 m c) (Function.update (S8 m c) main_v74_0 (o74_0 m c))).trans
      (Function.update_self (Proc.devRef .tc main_v74_0 : DevRef τ sig) (o74_0 m c) (S8 m c))).symm
  | 2 => exact (Function.update_self (Proc.devRef .tc main_v74_1 : DevRef τ sig) (o74_1 m c) (Function.update (S8 m c) main_v74_0 (o74_0 m c))).symm
  | ⟨_ + 3, h⟩ => exact absurd h (Nat.not_lt.2 (Nat.le_add_left _ _))
theorem rest3 (c : Dev nD) : ∀ b, b ∉ Finset.univ.image (Pipeline.arrRef spec3) → byRef (S9 m) c b = byRef (S8 m) c b := fun b hb => by
  exact (Function.update_of_ne (ne_ref (fun h => hb (Finset.mem_image.mpr ⟨2, Finset.mem_univ _, h.symm⟩))) (o74_1 m c) (Function.update (S8 m c) main_v74_0 (o74_0 m c))).trans
    (Function.update_of_ne (ne_ref (fun h => hb (Finset.mem_image.mpr ⟨1, Finset.mem_univ _, h.symm⟩))) (o74_0 m c) (S8 m c))

set_option backward.isDefEq.respectTransparency.types false in
/-- Region 3 over the thread state: entered with every unscoped buffer at the stage before it, left with them at the
    stage after it; its two scratch rows come out of the scoped rest into the invariant and go back at the end. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Stats3.obligation (byRef (S8 m)) c).loose
  hwaits := Pipeline.hwaits_of_owed_zero _ _ _ _ L lv 3 fun _ _ => rfl
  pre c := iprop(StableHlo.held (c : Thread nD τ) (Pipeline.ucRefs τ sig) (S8 m c) ∗ R c)
  post c := iprop(StableHlo.held (c : Thread nD τ) (Pipeline.ucRefs τ sig) (S9 m c) ∗ R c)
  X c := iprop(∃ r, prngReg c r)
  Y c := iprop(∃ r, prngReg c r)
  Z c := Pipeline.unscopedRest (Ix := Unit) (Name := ℕ) (U := UR sig nD τ) (Lvl := ℕ) spec3 c (byRef (S8 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (byRef (S8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Stats3.inv (byRef (S8 m)) c 0 from rfl]; unfold Stats3.inv
    rw [show Pipeline.scopedRest (Ix := Unit) (Name := ℕ) (U := UR sig nD τ) (Lvl := ℕ) (Val := Elt F) (Pipeline.pin (pcfgs (F := F)) adm 3).spec c
        = Pipeline.scopedRest (Ix := Unit) (Name := ℕ) (U := UR sig nD τ) (Lvl := ℕ) (Val := Elt F) spec3 c from rfl, scopedRest3_split]
    iintro ⟨Hp, -, ⟨⟨%f4, H4⟩, ⟨%f5, H5⟩⟩, Hrest⟩
    iexists f4, f5
    isplitr; · ipureintro; exact fun h => absurd rfl h
    rw [owns_whole, owns_whole]
    isplitl [H4]; · iexact H4
    isplitl [H5]; · iexact H5
    isplitl [Hrest]; · iexact Hrest
    iexact Hp
  hout c := by
    rw [Pipeline.ownSems0_none, show (pdats m 3 c).Φ (Fin.last _) = Stats3.inv (byRef (S8 m)) c (Fin.last _) from rfl]; unfold Stats3.inv
    rw [show Pipeline.scopedRest (Ix := Unit) (Name := ℕ) (U := UR sig nD τ) (Lvl := ℕ) (Val := Elt F) (Pipeline.pin (pcfgs (F := F)) adm 3).spec c
        = Pipeline.scopedRest (Ix := Unit) (Name := ℕ) (U := UR sig nD τ) (Lvl := ℕ) (Val := Elt F) spec3 c from rfl, scopedRest3_split]
    simp only [owns_whole]
    iintro ⟨%d4, %d5, -, H4, H5, Hrest, Hp⟩
    isplitl [Hp]; · iexact Hp
    isplitr; · iempintro
    isplitl [H4 H5]
    · isplitl [H4]
      · iexists _; iexact H4
      iexists _; iexact H5
    iexact Hrest
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (byRef (S8 m) c) (byRef (S9 m) c) ((pdats m 3 c).arrAt · cfg3.N)
      (fun w => (congrArg (fun d : Dat τ (Elt F) Unit ℕ (UR sig nD τ) ℕ cfg3 c => d.arrAt w cfg3.N) (pdats3 m c)).trans (exit3 m c w))
      (rest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

theorem pdats4 (c : Dev nD) : pdats m 4 c = Act.dat (byRef (S10 m)) c := rfl
set_option maxHeartbeats 4000000 in
theorem exit4 (c : Dev nD) (w : Fin 7) : (Act.dat (byRef (S10 m)) c).arrAt w cfg4.N = byRef (S11 m) c (Pipeline.arrRef spec4 w) := by
  match w with
  | 0 => exact ((Act.dat (byRef (S10 m)) c).arrAt_in 0 rfl _).trans (Function.update_of_ne (ne_ref (by decide +kernel : Pipeline.arrRef spec4 0 ≠ main_v86)) (o86 m c) (S10 m c)).symm
  | 1 => exact ((Act.dat (byRef (S10 m)) c).arrAt_in 1 rfl _).trans (Function.update_of_ne (ne_ref (by decide +kernel : Pipeline.arrRef spec4 1 ≠ main_v86)) (o86 m c) (S10 m c)).symm
  | 2 => exact ((Act.dat (byRef (S10 m)) c).arrAt_in 2 rfl _).trans (Function.update_of_ne (ne_ref (by decide +kernel : Pipeline.arrRef spec4 2 ≠ main_v86)) (o86 m c) (S10 m c)).symm
  | 3 => exact ((Act.dat (byRef (S10 m)) c).arrAt_in 3 rfl _).trans (Function.update_of_ne (ne_ref (by decide +kernel : Pipeline.arrRef spec4 3 ≠ main_v86)) (o86 m c) (S10 m c)).symm
  | 4 => exact ((Act.dat (byRef (S10 m)) c).arrAt_in 4 rfl _).trans (Function.update_of_ne (ne_ref (by decide +kernel : Pipeline.arrRef spec4 4 ≠ main_v86)) (o86 m c) (S10 m c)).symm
  | 5 => exact ((Act.dat (byRef (S10 m)) c).arrAt_in 5 rfl _).trans (Function.update_of_ne (ne_ref (by decide +kernel : Pipeline.arrRef spec4 5 ≠ main_v86)) (o86 m c) (S10 m c)).symm
  | 6 => exact (Function.update_self (Proc.devRef .tc main_v86 : DevRef τ sig) (o86 m c) (S10 m c)).symm
  | ⟨_ + 7, h⟩ => exact absurd h (Nat.not_lt.2 (Nat.le_add_left _ _))
theorem rest4 (c : Dev nD) : ∀ b, b ∉ Finset.univ.image (Pipeline.arrRef spec4) → byRef (S11 m) c b = byRef (S10 m) c b := fun b hb => by
  exact Function.update_of_ne (ne_ref (fun h => hb (Finset.mem_image.mpr ⟨6, Finset.mem_univ _, h.symm⟩))) (o86 m c) (S10 m c)

set_option backward.isDefEq.respectTransparency.types false in
/-- Region 4 over the thread state: entered with every unscoped buffer at the stage before it, left with them at the
    stage after it. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (Act.obligation (byRef (S10 m)) c).loose
  hwaits := Pipeline.hwaits_of_owed_zero _ _ _ _ L lv 4 fun _ _ => rfl
  pre c := iprop(StableHlo.held (c : Thread nD τ) (Pipeline.ucRefs τ sig) (S10 m c) ∗ R c)
  post c := iprop(StableHlo.held (c : Thread nD τ) (Pipeline.ucRefs τ sig) (S11 m c) ∗ R c)
  X c := iprop(∃ r, prngReg c r)
  Y c := iprop(∃ r, prngReg c r)
  Z c := Pipeline.unscopedRest (Ix := Unit) (Name := ℕ) (U := UR sig nD τ) (Lvl := ℕ) spec4 c (byRef (S10 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (byRef (S10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (byRef (S10 m) c) (byRef (S11 m) c) ((pdats m 4 c).arrAt · cfg4.N)
      (fun w => (congrArg (fun d : Dat τ (Elt F) Unit ℕ (UR sig nD τ) ℕ cfg4 c => d.arrAt w cfg4.N) (pdats4 m c)).trans (exit4 m c w))
      (rest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

theorem rest_at_launch_core (ρ : Dev nD → PrngReg) (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R (F := F) c := by
  iintro ⟨-, HO, -, Hp, -⟩
  isplitl [Hp]; · iexists _; iexact Hp
  iexists ∅; iexact HO

/-- The launch gives every core its generator register and owing nothing. -/
theorem rest_at_launch (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp))) ∗ levAts L lv)
      ⊢ (|={Set.univ}=> bigSep Finset.univ (fun c : Dev nD => R (F := F) c) : sProp 𝕄) := by
  have h : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)))
      ⊢ (bigSep Finset.univ (fun c : Dev nD => R (F := F) c) : sProp 𝕄) :=
    bigSep_mono fun c _ => rest_at_launch_core ρ c
  iintro ⟨H, -⟩
  imodintro
  iapply h; iexact H

set_option backward.isDefEq.respectTransparency.types false in
/-- Every weakly fair execution of @main terminates, faults nowhere, and leaves each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (emb₁ (A := UR sig nD τ)) () 𝒱₀ L lv (fun _ _ => rfl) ρ (outs m) (pdats m)
    (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (rest_at_launch ρ)
    (fun c => by iintro ⟨-, HO⟩; iexact HO)
    (reg0 m) (fun c => by rw [S3_eq]; exact .rfl) (fun c => by rw [V4_eq]; exact .rfl)
    (reg1 m) (fun c => by rw [V4_eq]; exact .rfl) (fun c => by rw [V5_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V10_eq]; exact .rfl) (fun c => by rw [V11_eq]; exact .rfl)

end Cert.Kernel.Whole

end
-- ==== Proof.Frames.lean ====
/-
  The three frame claims. Each program, from any memory satisfying the precondition, runs to the end on every weakly
  fair execution without a fault and leaves its twelve argument arrays as launched. For the kernel program (read at
  words and at extended reals) this is the run of @main's eleven items over the five regions' records; the precondition
  is not used: no index is read from an argument inside a region, so nothing can fault. For the reference it is its
  straight-line run.
-/
import proofs.«160346_j84963043049900_2_alg».proof.Defs
import proofs.«160346_j84963043049900_2_alg».proof.Proof.Gen.Kernel
import proofs.«160346_j84963043049900_2_alg».proof.Proof.Gen.KernelIdeal
import proofs.«160346_j84963043049900_2_alg».proof.Proof.Gen.ReferenceIdeal
import proofs.«160346_j84963043049900_2_alg».proof.Proof.Gen.Pre_finite_inputs
import proofs.«160346_j84963043049900_2_alg».proof.Proof.Whole
import proofs.«160346_j84963043049900_2_alg».proof.Proof.WordWhole
import proofs.«160346_j84963043049900_2_alg».proof.Proof.RefRunP

noncomputable section

namespace Cert.Proof.Frames

open Idealize.ShloMosaic Idealize.SL.Sem

theorem frame_k : @Cert.frame_Kernel Cert.Kernel.Gen.facts Cert.Pre_finite_inputs.Gen.facts :=
  fun m ρ _ => Cert.Kernel.Whole.frame m ρ

theorem frame_ki : @Cert.frame_KernelIdeal Cert.KernelIdeal.Gen.facts Cert.Pre_finite_inputs.Gen.facts :=
  fun m ρ _ => Cert.KernelIdeal.Whole.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

end Cert.Proof.Frames

end
-- ==== Proof.RunNamed.lean ====
/-
  @main's run with its result named. Given one segment record per kernel region — each entered from the contents of
  the buffers at the boundary before it and left at the contents after it — every weakly fair execution of @main
  terminates without a fault, and the final memory holds each argument array as launched and the result array at what
  the last boundary's contents have there. The contents are read off the thread state's points-to facts at the end, the
  arguments through the chain "no item writes an argument", the result directly.
-/
import proofs.«160346_j84963043049900_2_alg».proof.Proof.Gen.KernelIdeal.Regions

-- memberships decided over the 160 buffer references recurse past the default depth
set_option maxRecDepth 1152

noncomputable section

namespace Cert.KernelIdeal.GenP

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

-- `θ_run_regions_kit_dev`'s implicit arguments are found by unifying its conclusion with this one, which takes unfolding
-- plain definitions in a metavariable's type
set_option backward.isDefEq.respectTransparency.types false in
/-- The run, given the regions' records: terminates, arguments as launched, the result at the last boundary's contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V10 m outs c) ∗ E 4 c) ⊢ R4.pre c)
    (hpost4 : ∀ c : Dev nD, R4.post c ⊢ iprop(StableHlo.held (c : Thread nD τ) (Pipeline.ucRefs τ sig) (V11 m outs c) ∗ E 5 c)) :
    θ_run defs (onTc (τ := τ) (main (F := F))) ⟨m, fun _ => 0, ρ⟩ (fun r => ∀ c : Dev nD,
      r.2.mem ((c.tc : Thread nD τ).loc main_v86) = V11 m outs c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, hpre0 c, (hpost0 c).trans (hpre1 c), hpost1 c, hpre2 c, hpost2 c, hpre3 c, hpost3 c, hpre4 c, (hpost4 c).trans (sep_mono .rfl (hE5 c))⟩)
    (hinit := ?_) (QY := fun c s => s.mem ((c.tc : Thread nD τ).loc main_v86) = V11 m outs c main_v86 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v86) (Finset.mem_filter.mpr ⟨StableHlo.devRef_mem_tcRefs main_v86, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c),
        (h (Proc.devRef .tc main_arg7) (Finset.mem_filter.mpr ⟨StableHlo.devRef_mem_tcRefs main_arg7, by decide⟩)).trans (V11_main_arg7 m outs c),
        (h (Proc.devRef .tc main_arg8) (Finset.mem_filter.mpr ⟨StableHlo.devRef_mem_tcRefs main_arg8, by decide⟩)).trans (V11_main_arg8 m outs c),
        (h (Proc.devRef .tc main_arg9) (Finset.mem_filter.mpr ⟨StableHlo.devRef_mem_tcRefs main_arg9, by decide⟩)).trans (V11_main_arg9 m outs c),
        (h (Proc.devRef .tc main_arg10) (Finset.mem_filter.mpr ⟨StableHlo.devRef_mem_tcRefs main_arg10, by decide⟩)).trans (V11_main_arg10 m outs c),
        (h (Proc.devRef .tc main_arg11) (Finset.mem_filter.mpr ⟨StableHlo.devRef_mem_tcRefs main_arg11, by decide⟩)).trans (V11_main_arg11 m outs c)⟩
    · iexact HSI

end Cert.KernelIdeal.GenP

end
-- ==== Proof.WholeRun.lean ====
/-
  The idealized kernel's run with its result named: every weakly fair execution of @main terminates without a fault,
  the result array ends at what region 4 leaves in it, and the twelve argument arrays end as launched.
-/
import proofs.«160346_j84963043049900_2_alg».proof.Proof.Whole
import proofs.«160346_j84963043049900_2_alg».proof.Proof.RunNamed

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_at_last (ρ : Dev nD → PrngReg) :
    θ_run defs (onTc (τ := τ) (main (F := F))) ⟨m, fun _ => 0, ρ⟩ (fun r => ∀ c : Dev nD,
      r.2.mem ((c.tc : Thread nD τ).loc main_v86) = V11 m (outs m) c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  GenP.run_cond m (emb₁ (A := UR sig nD τ)) () 𝒱₀ L lv (fun _ _ => rfl) ρ (outs m) (pdats m)
    (fun _ => 0) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (rest_at_launch ρ)
    (fun c => by iintro ⟨-, HO⟩; iexact HO)
    (reg0 m) (fun c => by rw [S3_eq]; exact .rfl) (fun c => by rw [V4_eq]; exact .rfl)
    (reg1 m) (fun c => by rw [V4_eq]; exact .rfl) (fun c => by rw [V5_eq]; exact .rfl)
    (reg2 m) (fun c => by rw [V6_eq]; exact .rfl) (fun c => by rw [V7_eq]; exact .rfl)
    (reg3 m) (fun c => by rw [V8_eq]; exact .rfl) (fun c => by rw [V9_eq]; exact .rfl)
    (reg4 m) (fun c => by rw [V10_eq]; exact .rfl) (fun c => by rw [V11_eq]; exact .rfl)

/-- The last boundary's contents at the result buffer are what region 4 left there. -/
theorem last_result (c : Dev nD) : V11 m (outs m) c main_v86 = o86 m c := by
  rw [V11_eq]; unfold S11
  exact Function.update_self (Proc.devRef .tc main_v86 : DevRef τ sig) (o86 m c) (S10 m c)

theorem run (ρ : Dev nD → PrngReg) :
    θ_run defs (onTc (τ := τ) (main (F := F))) ⟨m, fun _ => 0, ρ⟩ (fun r => ∀ c : Dev nD,
      r.2.mem ((c.tc : Thread nD τ).loc main_v86) = o86 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (last_result m c), (h c).2⟩) (run_at_last m ρ)

end Cert.KernelIdeal.Whole

end
-- ==== Proof.LibConcat2.lean ====
/-
  Reading what a buffer holds after a line of host operations.

  A line of host operations is a fold: each operation overwrites its result buffer with its function of its operand
  buffers.  What a buffer holds afterwards is therefore a nest of those functions over the contents the line started
  from, and one rewriting pass computes it: at an operation's own result buffer the fold gives the function's value, at
  any other buffer what was there before.

  One operation stops such a pass: a concatenation takes its operands as a LIST of (shape, array) pairs, and a rewriting
  pass does not enter that list.  For two operands we give the concatenation a form with the operands as plain
  arguments; the pass folds a concatenation into this form as soon as it meets one and then continues inside the two
  operands.
-/
import Idealize.ShloMosaic.Lib.StableHlo.Run

namespace Cert.HostLine

open Idealize.ShloMosaic Idealize.ShloMosaic.StableHlo

/-- The concatenation of two arrays along an axis, the two arrays as plain arguments. -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A concatenation of two operands is `concat2` of them. -/
theorem concat2_fold {α : Type} (t : Shape) (a : Fin t.rank) (s1 s2 : Shape) (h : Shape.Concatenates [s1, s2] t a)
    (x : s1.Idx → α) (y : s2.Idx → α) :
    concatenate t a [⟨s1, x⟩, ⟨s2, y⟩] h = concat2 t a s1 s2 h x y := rfl

/-- Computes `after ops V b` for a literal line `ops`, as the operations' functions nested over `V` at the buffers the
    line reads but does not write; two-operand concatenations come out as `concat2`. -/
macro "host_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_fold]))

end Cert.HostLine
-- ==== Proof.RefResult.lean ====
/-
  What the reference leaves in its result buffer: the fold of its 154 host operations over the launch memory, read at
  the result, is the last stage of the operation-by-operation reading — the composed function of the twelve argument
  arrays. One rewriting pass computes the fold (two-operand concatenations read through their plain-argument form).
-/
import proofs.«160346_j84963043049900_2_alg».proof.Proof.RefRunP
import proofs.«160346_j84963043049900_2_alg».proof.Proof.RefReadP
import proofs.«160346_j84963043049900_2_alg».proof.Proof.LibConcat2

noncomputable section

namespace Cert.ReferenceIdeal.Result

open Cert.ReferenceIdeal Cert.ReferenceIdeal.Gen Idealize.ShloMosaic Idealize.ShloMosaic.TcCoe Idealize.SL.Sem Idealize.ShloMosaic.StableHlo
open Cert.HostLine

variable {F : FTy → Type} [FloatOps F]

set_option maxRecDepth 8192 in
set_option maxHeartbeats 0 in
theorem result_eq (m : (ℓ : Loc nD τ sig) → Buf (Elt F) ℓ) (c : Dev nD) :
    after (ValueP.ops (F := F)) (launchContents m c) (Proc.devRef .tc main_v125)
      = ReadP.val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  host_line
  rfl

end Cert.ReferenceIdeal.Result

end
-- ==== Proof.Rd.lean ====
/-
  Reading a buffer's contents as a function into the extended reals: the identity, with the shape named, so that sums
  and products of entries are typed as extended reals.
-/
import Idealize.ShloMosaic.PureOps.Ideal

namespace Cert

open Idealize.ShloMosaic

/-- The contents `f` of a buffer of shape `S`, as a function from indices to extended reals. -/
abbrev rd (S : Shape) (f : S.Idx → EReal) : S.Idx → EReal := f

end Cert
-- ==== Proof.HostK.lean ====
/-
  The idealized kernel's host stretches as values. Between the regions @main runs stretches of host operations; what
  a stretch leaves in a buffer is its operations' functions nested over what the stretch found. Here each buffer a
  region reads is written out that way, stage by stage. Where the kernel computes from the edge list exactly what the
  reference computes (the source and destination index columns with the self-loops appended and negative words
  wrapped, the per-edge normalisation weight), the reference's stage function is written in its place: one rewriting
  pass computes both sides to the same nest.
-/
import proofs.«160346_j84963043049900_2_alg».proof.Proof.Whole
import proofs.«160346_j84963043049900_2_alg».proof.Proof.RefReadP
import proofs.«160346_j84963043049900_2_alg».proof.Proof.LibConcat2

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen Cert.KernelIdeal.Whole Cert.HostLine
open Cert.ReferenceIdeal.ReadP (val_main_v29 val_main_v36 val_main_v42 val_main_v84 val_main_v87 val_main_v89 val_main_v90 val_main_v93)

variable {F : FTy → Type} [FloatOps F]
variable (m : (ℓ : Loc nD τ sig) → Buf (Elt F) ℓ)

/-! ## Before region 0 -/

set_option maxHeartbeats 0 in
/-- The aggregated input features: rows of `x` gathered by source, weighted, scatter-added by destination into zeros. -/
theorem agg0 (c : Dev nD) : S3 m c main_v42
    = Host.scatterAdd scatter_S50000x128_S850000x1_S850000x128_1_0_0_1
        (broadcastInDim S50000x128 ![] bcast_S_S50000x128 (constant S_ .f32 0x00000000#32))
        (val_main_v42 (F := F) (m ((c.tc : Thread nD τ).loc main_arg1)))
        (mulf (Host.gather gather_S50000x128_S850000x1_S850000x128_1_0_n_n_0_1_1128 (m ((c.tc : Thread nD τ).loc main_arg0)) (val_main_v36 (F := F) (m ((c.tc : Thread nD τ).loc main_arg1))))
          (broadcastInDim S850000x128 ![0, 1] bcast_S850000x1_S850000x128_0_1
            (broadcastInDim S850000x1 ![0] bcast_S850000_S850000x1_0 (val_main_v29 (F := F) (m ((c.tc : Thread nD τ).loc main_arg1)))))) := by
  unfold S3 V3 V2 V1 V0
  host_line
  rfl

set_option maxHeartbeats 0 in
/-- The bias as a 1×256 row. -/
theorem bias0 (c : Dev nD) : S3 m c main_v43 = shapeCast S1x256 (m ((c.tc : Thread nD τ).loc main_arg3)) shapeCasts_S256_S1x256 := by
  unfold S3 V3 V2 V1 V0
  host_line
  rfl

set_option maxHeartbeats 0 in
theorem arg2_at3 (c : Dev nD) : S3 m c main_arg2 = (m ((c.tc : Thread nD τ).loc main_arg2)) := by
  unfold S3 V3 V2 V1 V0
  host_line

/-! ## A buffer no region and no later stretch writes keeps its contents -/

theorem S4_old (c : Dev nD) (r : Ref sig .tc) (h : r ≠ main_v44) : S4 m c r = S3 m c r := by
  unfold S4; exact Function.update_of_ne (ne_ref h) _ _
theorem S5_old (c : Dev nD) (r : Ref sig .tc) (h0 : r ≠ main_v45_0) (h1 : r ≠ main_v45_1) : S5 m c r = S4 m c r := by
  unfold S5; exact (Function.update_of_ne (ne_ref h1) _ _).trans (Function.update_of_ne (ne_ref h0) _ _)
theorem S6_old (c : Dev nD) (r : Ref sig .tc) (h : r ∉ hostOps2_W) : S6 m c r = S5 m c r :=
  StableHlo.after_of_writes_sub hostOps2 _ hostOps2_writes h
theorem S7_old (c : Dev nD) (r : Ref sig .tc) (h : r ≠ main_v57) : S7 m c r = S6 m c r := by
  unfold S7; exact Function.update_of_ne (ne_ref h) _ _
theorem S8_old (c : Dev nD) (r : Ref sig .tc) (h : r ∉ hostOps3_W) : S8 m c r = S7 m c r :=
  StableHlo.after_of_writes_sub hostOps3 _ hostOps3_writes h
theorem S9_old (c : Dev nD) (r : Ref sig .tc) (h0 : r ≠ main_v74_0) (h1 : r ≠ main_v74_1) : S9 m c r = S8 m c r := by
  unfold S9; exact (Function.update_of_ne (ne_ref h1) _ _).trans (Function.update_of_ne (ne_ref h0) _ _)
theorem S10_old (c : Dev nD) (r : Ref sig .tc) (h : r ∉ hostOps4_W) : S10 m c r = S9 m c r :=
  StableHlo.after_of_writes_sub hostOps4 _ hostOps4_writes h

/-- An argument array is as launched at every stage. -/
theorem arg_at3 (c : Dev nD) (r : Ref sig .tc) (h0 : r ∉ hostOps0_W) (h1 : r ∉ hostOps0_1_W) (h2 : r ∉ hostOps0_2_W) : S3 m c r = m ((c.tc : Thread nD τ).loc r) :=
  (V3_of m c r h2).trans ((V2_of m c r h1).trans ((V1_of m c r h0).trans rfl))

/-! ## Between regions 1 and 2: the mean, the clamped variance, the scale, shift and slope rows -/

/-- The divisor 50000 as a 1×256 row. -/
abbrev count_row : (⟨S1x256, .f32⟩ : BufTy).Contents (Elt F) := broadcastInDim S1x256 ![] bcast_S_S1x256 (constant S_ .f32 0x47435000#32)
/-- The zero 1×256 row. -/
abbrev zero_row : (⟨S1x256, .f32⟩ : BufTy).Contents (Elt F) := broadcastInDim S1x256 ![] bcast_S_S1x256 (constant S_ .f32 0x00000000#32)

/-- Mean and clamped variance rows from a sum row and a sum-of-squares row. -/
def meanOf (s : (⟨S1x256, .f32⟩ : BufTy).Contents (Elt F)) : (⟨S1x256, .f32⟩ : BufTy).Contents (Elt F) := Host.divf s count_row
def varOf (s q : (⟨S1x256, .f32⟩ : BufTy).Contents (Elt F)) : (⟨S1x256, .f32⟩ : BufTy).Contents (Elt F) :=
  maximumf (subf (Host.divf q count_row) (mulf (meanOf s) (meanOf s))) zero_row

set_option maxHeartbeats 0 in
theorem mean0 (c : Dev nD) : S6 m c main_v47 = meanOf (S5 m c main_v45_0) := by
  unfold S6; host_line; rfl
set_option maxHeartbeats 0 in
theorem var0 (c : Dev nD) : S6 m c main_v53 = varOf (S5 m c main_v45_0) (S5 m c main_v45_1) := by
  unfold S6; host_line; rfl
set_option maxHeartbeats 0 in
theorem scale0 (c : Dev nD) : S6 m c main_v54 = shapeCast S1x256 (S5 m c main_arg4) shapeCasts_S256_S1x256 := by
  unfold S6; host_line; rfl
set_option maxHeartbeats 0 in
theorem shift0 (c : Dev nD) : S6 m c main_v55 = shapeCast S1x256 (S5 m c main_arg5) shapeCasts_S256_S1x256 := by
  unfold S6; host_line; rfl
set_option maxHeartbeats 0 in
theorem slope0 (c : Dev nD) : S6 m c main_v56 = shapeCast S1x1 (S5 m c main_arg6) shapeCasts_S1_S1x1 := by
  unfold S6; host_line; rfl

/-! ## Between regions 3 and 4 -/

set_option maxHeartbeats 0 in
theorem mean1 (c : Dev nD) : S10 m c main_v76 = meanOf (S9 m c main_v74_0) := by
  unfold S10; host_line; rfl
set_option maxHeartbeats 0 in
theorem var1 (c : Dev nD) : S10 m c main_v82 = varOf (S9 m c main_v74_0) (S9 m c main_v74_1) := by
  unfold S10; host_line; rfl
set_option maxHeartbeats 0 in
theorem scale1 (c : Dev nD) : S10 m c main_v83 = shapeCast S1x256 (S9 m c main_arg9) shapeCasts_S256_S1x256 := by
  unfold S10; host_line; rfl
set_option maxHeartbeats 0 in
theorem shift1 (c : Dev nD) : S10 m c main_v84 = shapeCast S1x256 (S9 m c main_arg10) shapeCasts_S256_S1x256 := by
  unfold S10; host_line; rfl
set_option maxHeartbeats 0 in
theorem slope1 (c : Dev nD) : S10 m c main_v85 = shapeCast S1x1 (S9 m c main_arg11) shapeCasts_S1_S1x1 := by
  unfold S10; host_line; rfl

end Cert.KernelIdeal.HostK

end
-- ==== Proof.Value0.lean ====
/-
  What region 0 leaves in its output array, as one function of whole arrays: entry (r, j) is row r of the aggregated
  features against column j of the weight matrix, plus the bias at j. A tile's stored value is read at an index (the
  matrix unit's product into a zero accumulator is the plain sum over the contracted axis; the bias row is repeated
  down the tile); each grid point's written-back block is the corresponding block of that one function, because the
  tile's rows are rows 5000·t … 5000·t + 4999 of the array and the weight and bias blocks are the whole arrays; and the
  ten blocks tile the output array.
-/
import proofs.«160346_j84963043049900_2_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.DenseValue

open Idealize.ShloMosaic Idealize.ShloMosaic.TcCoe Idealize.ShloMosaic.ValueIdx
open Idealize.ShloMosaic.Pipeline (Dat Cfg Window)
open Cert.KernelIdeal Cert.KernelIdeal.Gen

theorem lhs0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem rhs0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem rhs1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's stored value at row `p`, column `q` of the tile: the tile's row `p` against the weight's column `q`,
    plus the bias at column `q`. -/
theorem pay_apply (x : Vec Ideal S5000x128 .f32) (W : Vec Ideal S128x256 .f32) (b : Vec Ideal S1x256 .f32) (p : Fin 5000) (q : Fin 256) :
    k0_pay1 (F := Ideal) x W b (ix2 p q) = (∑ k : Fin 128, x (ix2 p k) * W (ix2 k q)) + b (ix2 (0 : Fin 1) q) := by
  unfold k0_pay1
  simp only [shapeCast_self]
  show FloatOps.matmul (F := Ideal) dot_S5000x128_S128x256_S5000x256_1_0_0_1_n_n (some .fp32) x W (constant (F := Ideal) S5000x256 .f32 0x00000000#32) (ix2 p q)
      + broadcastTo S5000x256 b broadcasts_S1x256_S5000x256 (ix2 p q) = _
  rw [Ideal.matmul_constant_zero_apply, ← Equiv.sum_comp (ValueIdx.contrEquiv1 dot_S5000x128_S128x256_S5000x256_1_0_0_1_n_n 128 rfl rfl).symm]
  congr 1
  · refine Finset.sum_congr rfl fun k _ => ?_
    have hk := ValueIdx.contrEquiv1_symm_val dot_S5000x128_S128x256_S5000x256_1_0_0_1_n_n 128 rfl rfl k
    have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
      match a with
      | ⟨0, _⟩ => exact lhs0 _ _
      | ⟨1, _⟩ => exact (lhs1 _ _).trans hk)
    have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
      match a with
      | ⟨0, _⟩ => exact (rhs0 _ _).trans hk
      | ⟨1, _⟩ => exact rhs1 _ _)
    rw [el, er]
  · exact broadcastTo_apply b broadcasts_S1x256_S5000x256 (ix2 p q) (ix2 (0 : Fin 1) q) (fun a => by
      match a with
      | ⟨0, _⟩ => rfl
      | ⟨1, _⟩ => rfl)

open Cert.KernelIdeal.Dense

theorem hz : (![0, 0] : Fin 2 → Nat) = fun _ => 0 := by
  funext a; match a with | ⟨0, _⟩ => rfl | ⟨1, _⟩ => rfl

/-- The dense transform as one function of whole arrays: row `i 0` of `A` against column `i 1` of `W`, plus the bias. -/
def G (A : S50000x128.Idx → EReal) (W : S128x256.Idx → EReal) (b : S1x256.Idx → EReal) : S50000x256.Idx → EReal :=
  fun i => (∑ k : Fin 128, A (ix2 (i 0) k) * W (ix2 k (i 1))) + b (ix2 (0 : Fin 1) (i 1))

variable (V : (c : Dev nD) → (b : Ref sig .tc) → Buf (Elt Ideal) ((c : Thread nD τ).loc b))

theorem idx_facts : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

theorem idx_onto : ∀ q0 : Fin 10, ∃ t : Fin cfg0.N, win0_3.index t = ![q0.val, 0] :=
  (by decide +kernel : ∀ q0 : Fin 10, ∃ t : Fin grid0.N, win0_3.index t = ![q0.val, 0])

set_option maxHeartbeats 2000000 in
theorem flushed_eq (c : Dev nD) (t : Fin cfg0.N) :
    (Dense.dat V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((Dense.dat V c).after 3 t) = _
  rw [Dense.dat_after3]
  unfold Dense.out0
  rw [View.canon_unit_zero hz]
  simp only [View.ld_unit_zero (S := S5000x128) hz, View.ld_unit_zero (S := S128x256) hz, View.ld_unit_zero (S := S1x256) hz]
  obtain ⟨e0, e1, e2, e3, e4, e5, e6, e7⟩ := idx_facts t
  funext j
  obtain ⟨p, q, rfl⟩ : ∃ (p : Fin 5000) (q : Fin 256), j = ix2 p q := ⟨j 0, j 1, eq_ix2 j⟩
  show k0_pay1 (F := Ideal) (tile0 V c 0 t) (tile0 V c 1 t) (tile0 V c 2 t) (ix2 p q)
      = G (V c (Pipeline.arrRef spec0 0)) (V c (Pipeline.arrRef spec0 1)) (V c (Pipeline.arrRef spec0 2)) (((cfg0.win 3).blk t).view.emb (ix2 p q))
  rw [pay_apply]
  unfold G
  have hA : ∀ k : Fin 128, tile0 V c 0 t (ix2 p k)
      = V c (Pipeline.arrRef spec0 0) (ix2 ((((cfg0.win 3).blk t).view.emb (ix2 p q)) 0) k) := fun k => by
    show V c (Pipeline.arrRef spec0 0) (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hW : ∀ k : Fin 128, tile0 V c 1 t (ix2 k q)
      = V c (Pipeline.arrRef spec0 1) (ix2 k ((((cfg0.win 3).blk t).view.emb (ix2 p q)) 1)) := fun k => by
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 256 + 1 * q.val = win0_3.index t (1 : Fin 2) * 256 + 1 * q.val; omega
  have hb : tile0 V c 2 t (ix2 (0 : Fin 1) q)
      = V c (Pipeline.arrRef spec0 2) (ix2 (0 : Fin 1) ((((cfg0.win 3).blk t).view.emb (ix2 p q)) 1)) := by
    show V c (Pipeline.arrRef spec0 2) (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = win0_3.index t (1 : Fin 2) * 256 + 1 * q.val; omega
  simp only [hA, hW, hb]

/-- An index of the output array is in point `t`'s block iff each coordinate is in the block's range. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v44).slice (win0_3.rect t)).set ↔ _
  rw [View.set_slice_whole, Rect.mem_set_unit]
  exact Iff.rfl

/-- Every index of the output array is in the block of the point that handles its row's tile. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- What region 0 leaves in its output array: the dense transform of the arrays it finds. -/
theorem final (c : Dev nD) :
    (Dense.dat V c).arrAt 3 cfg0.N = G (V c (Pipeline.arrRef spec0 0)) (V c (Pipeline.arrRef spec0 1)) (V c (Pipeline.arrRef spec0 2)) :=
  (Dense.dat V c).arrAt_eq_of_cover 3 _ (fun t _ => flushed_eq V c t) cover

end Cert.KernelIdeal.DenseValue

end
-- ==== Proof.LibScatterRows.lean ====
/-
  Rows of a table scattered and gathered through a column of signed index words.

  A rank-2 table with N rows is updated by M update rows; update row e lands on the table row named by
  the signed reading of the e-th index word, and is dropped when that word names no row. Column
  positions are kept. A gather reads, for result row e, the table row named by the e-th index word
  clamped into [0, N-1]. The lemmas here put those two facts in coordinates, so that a sum over the
  update elements landing on a table element becomes a sum over the EDGES whose word names that row,
  and they count, in 32-bit integers, the edges landing on a row when every update is the word 1.
-/
import Idealize.ShloMosaic.PureOps.Ideal
import Idealize.ShloMosaic.PureOps.ShapeOps
import Idealize.ShloMosaic.Lib.ValueIdx

noncomputable section

open scoped BigOperators

namespace Cert.ScatterRows

open Idealize.ShloMosaic Idealize.ShloMosaic.ValueIdx

variable {N M C w : Nat}

/-- The edges whose index word, read signed, names row `n`. -/
def edgesInto (idx : IVec ⟨2, ![M, 1]⟩ w) (n : Fin N) : Finset (Fin M) :=
  Finset.univ.filter fun e => (idx (ix2 e (0 : Fin 1))).toInt = (n.val : Int)

/-- The table row result row `e` of a row gather reads: the signed word, negative words read as row 0,
    words past the last row as the last row. -/
def sourceRow (hN : 0 < N) (idx : IVec ⟨2, ![M, 1]⟩ w) (e : Fin M) : Fin N :=
  ⟨min (idx (ix2 e (0 : Fin 1))).toInt.toNat (N - 1), by omega⟩

/-! ## Rows of a rank-2 table: the coordinates of the landing index -/

section Rows
variable (d : ScatterDims ⟨2, ![N, C]⟩ ⟨2, ![M, 1]⟩ ⟨2, ![M, C]⟩)

/-- On the row axis the window starts at the signed reading of the update row's index word. -/
theorem rows_start0 (h1 : d.updateWindowDims = [1]) (h2 : d.insertedWindowDims = [0]) (h3 : d.scatterDimsToOperandDims = [0])
    (h4 : d.indexVectorDim = 1) (idx : IVec ⟨2, ![M, 1]⟩ w) (j : (⟨2, ![M, C]⟩ : Shape).Idx) :
    d.start j idx 0 = (idx (ix2 (j 0) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- On the column axis, which the index words do not name, the window starts at 0. -/
theorem rows_start1 (h3 : d.scatterDimsToOperandDims = [0])
    (idx : IVec ⟨2, ![M, 1]⟩ w) (j : (⟨2, ![M, C]⟩ : Shape).Idx) :
    d.start j idx 1 = 0 := by
  unfold ScatterDims.start
  rw [dif_neg (by rw [h3]; simp)]

/-- The row axis is inserted: its window coordinate is 0. -/
theorem rows_window0 (h2 : d.insertedWindowDims = [0]) (j : (⟨2, ![M, C]⟩ : Shape).Idx) :
    d.window j 0 = 0 := by
  unfold ScatterDims.window
  rw [dif_neg (by rw [ScatterDims.sKept, h2]; simp [Shape.kept])]

/-- The column axis keeps the update element's column. -/
theorem rows_window1 (h1 : d.updateWindowDims = [1]) (h2 : d.insertedWindowDims = [0]) (j : (⟨2, ![M, C]⟩ : Shape).Idx) :
    d.window j 1 = (j 1).val := by
  obtain ⟨uw, iw, sd, iv, wf⟩ := d
  simp only at h1 h2
  subst h1 h2
  unfold ScatterDims.window
  rw [dif_pos (by simp [ScatterDims.sKept, Shape.kept])]
  rfl

/-- Update element `j` lands on table element (n, c') exactly when the index word of its row reads `n`
    and its column is `c'`. -/
theorem rows_resultIdx (h1 : d.updateWindowDims = [1]) (h2 : d.insertedWindowDims = [0]) (h3 : d.scatterDimsToOperandDims = [0])
    (h4 : d.indexVectorDim = 1) (idx : IVec ⟨2, ![M, 1]⟩ w) (j : (⟨2, ![M, C]⟩ : Shape).Idx) (n : Fin N) (c' : Fin C) :
    d.resultIdx? j idx = some (ix2 n c') ↔ (idx (ix2 (j 0) (0 : Fin 1))).toInt = (n.val : Int) ∧ j 1 = c' := by
  have s0 := rows_start0 d h1 h2 h3 h4 idx j
  have s1 := rows_start1 d h3 idx j
  have w0 := rows_window0 d h2 j
  have w1 := rows_window1 d h1 h2 j
  have hn : n.val < N := n.isLt
  have hc : (j 1).val < C := idx2_lt1 j
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      change _ = n.val at e0
      change _ = c'.val at e1
      exact ⟨by omega, Fin.ext (by omega)⟩
    · rintro ⟨ht, hj⟩
      funext a
      refine Fin.ext ?_
      match a with
      | ⟨0, _⟩ =>
        show (d.start j idx 0 + ↑(d.window j 0)).toNat = n.val
        rw [s0, w0]; omega
      | ⟨1, _⟩ =>
        show (d.start j idx 1 + ↑(d.window j 1)).toNat = c'.val
        rw [s1, w1, ← hj]; omega
  · rename_i h
    constructor
    · intro hf; cases hf
    · rintro ⟨ht, hj⟩
      exfalso; apply h
      intro a
      match a with
      | ⟨0, _⟩ =>
        show 0 ≤ d.start j idx 0 + ↑(d.window j 0) ∧ d.start j idx 0 + ↑(d.window j 0) < (N : Int)
        rw [s0, w0]; omega
      | ⟨1, _⟩ =>
        show 0 ≤ d.start j idx 1 + ↑(d.window j 1) ∧ d.start j idx 1 + ↑(d.window j 1) < (C : Int)
        rw [s1, w1]; omega

end Rows

/-- A sum over the update elements that land on table element (n, c) is the sum over the edges into row
    `n` of the update element (e, c). -/
theorem sum_landing_rows {α : Type} [AddCommMonoid α] (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (n : Fin N) (c : Fin C)
    (f : (⟨2, ![M, C]⟩ : Shape).Idx → α) [DecidablePred fun j => d.resultIdx? j idx = some (ix2 n c)] :
    ∑ j ∈ Finset.univ.filter (fun j => d.resultIdx? j idx = some (ix2 n c)), f j = ∑ e ∈ edgesInto idx n, f (ix2 e c) := by
  symm
  refine Finset.sum_bij (fun e _ => ix2 e c) ?_ ?_ ?_ ?_
  · intro e he
    rw [Finset.mem_filter]
    refine ⟨Finset.mem_univ _, ?_⟩
    rw [rows_resultIdx d h1 h2 h3 h4]
    exact ⟨(Finset.mem_filter.mp he).2, rfl⟩
  · intro e1 _ e2 _ h
    exact congrFun h 0
  · intro j hj
    rw [Finset.mem_filter, rows_resultIdx d h1 h2 h3 h4] at hj
    refine ⟨j 0, Finset.mem_filter.mpr ⟨Finset.mem_univ _, hj.2.1⟩, ?_⟩
    have hj' := eq_ix2 j
    rw [hj.2.2] at hj'
    exact hj'.symm
  · intro e _
    rfl

/-! ## Entries of a rank-1 table -/

section Entries
variable (d : ScatterDims ⟨1, ![N]⟩ ⟨2, ![M, 1]⟩ ⟨1, ![M]⟩)

/-- On the table's one axis the window starts at the signed reading of the update's index word. -/
theorem entries_start (h1 : d.updateWindowDims = []) (h2 : d.insertedWindowDims = [0]) (h3 : d.scatterDimsToOperandDims = [0])
    (h4 : d.indexVectorDim = 1) (idx : IVec ⟨2, ![M, 1]⟩ w) (j : (⟨1, ![M]⟩ : Shape).Idx) :
    d.start j idx 0 = (idx (ix2 (j 0) (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  refine Fin.ext ?_
  match b with
  | ⟨0, _⟩ => rfl
  | ⟨1, _⟩ => rfl

/-- The table's one axis is inserted: its window coordinate is 0. -/
theorem entries_window (h2 : d.insertedWindowDims = [0]) (j : (⟨1, ![M]⟩ : Shape).Idx) :
    d.window j 0 = 0 := by
  unfold ScatterDims.window
  rw [dif_neg (by rw [ScatterDims.sKept, h2]; simp [Shape.kept])]

/-- Update `j` lands on table entry `n` exactly when its index word reads `n`. -/
theorem entries_resultIdx (h1 : d.updateWindowDims = []) (h2 : d.insertedWindowDims = [0]) (h3 : d.scatterDimsToOperandDims = [0])
    (h4 : d.indexVectorDim = 1) (idx : IVec ⟨2, ![M, 1]⟩ w) (j : (⟨1, ![M]⟩ : Shape).Idx) (n : Fin N) :
    d.resultIdx? j idx = some (ix1 n) ↔ (idx (ix2 (j 0) (0 : Fin 1))).toInt = (n.val : Int) := by
  have s0 := entries_start d h1 h2 h3 h4 idx j
  have w0 := entries_window d h2 j
  have hn : n.val < N := n.isLt
  unfold ScatterDims.resultIdx?
  split
  · rename_i h
    rw [Option.some.injEq]
    constructor
    · intro hf
      have e0 := congrArg Fin.val (congrFun hf 0)
      have h0 := h 0
      simp only [s0, w0] at e0 h0
      change _ = n.val at e0
      omega
    · intro ht
      funext a
      refine Fin.ext ?_
      match a with
      | ⟨0, _⟩ =>
        show (d.start j idx 0 + ↑(d.window j 0)).toNat = n.val
        rw [s0, w0]; omega
  · rename_i h
    constructor
    · intro hf; cases hf
    · intro ht
      exfalso; apply h
      intro a
      match a with
      | ⟨0, _⟩ =>
        show 0 ≤ d.start j idx 0 + ↑(d.window j 0) ∧ d.start j idx 0 + ↑(d.window j 0) < (N : Int)
        rw [s0, w0]; omega

end Entries

/-- The same for a rank-1 table of N entries updated by M scalars. -/
theorem sum_landing_entries {α : Type} [AddCommMonoid α] (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (n : Fin N)
    (f : (⟨1, ![M]⟩ : Shape).Idx → α) [DecidablePred fun j => d.resultIdx? j idx = some (ix1 n)] :
    ∑ j ∈ Finset.univ.filter (fun j => d.resultIdx? j idx = some (ix1 n)), f j = ∑ e ∈ edgesInto idx n, f (ix1 e) := by
  symm
  refine Finset.sum_bij (fun e _ => ix1 e) ?_ ?_ ?_ ?_
  · intro e he
    rw [Finset.mem_filter]
    refine ⟨Finset.mem_univ _, ?_⟩
    rw [entries_resultIdx d h1 h2 h3 h4]
    exact (Finset.mem_filter.mp he).2
  · intro e1 _ e2 _ h
    exact congrFun h 0
  · intro j hj
    rw [Finset.mem_filter, entries_resultIdx d h1 h2 h3 h4] at hj
    exact ⟨j 0, Finset.mem_filter.mpr ⟨Finset.mem_univ _, hj.2⟩, (eq_ix1 j).symm⟩
  · intro e _
    rfl

/-! ## A row gather: the coordinates of the operand index -/

section Gather
variable (g : GatherDims ⟨2, ![N, C]⟩ ⟨2, ![M, 1]⟩ ⟨2, ![M, C]⟩)

/-- On the row axis the slice starts at the signed reading of the result row's index word, clamped into [0, N-1]. -/
theorem gather_start0 (h1 : g.offsetDims = [1]) (h5 : g.startIndexMap = [0]) (h6 : g.indexVectorDim = 1)
    (h7 : g.sliceSizes = ![1, C]) (idx : IVec ⟨2, ![M, 1]⟩ w) (j : (⟨2, ![M, C]⟩ : Shape).Idx) :
    g.start j idx 0 = min (idx (ix2 (j 0) (0 : Fin 1))).toInt.toNat (N - 1) := by
  obtain ⟨od, cd, ob, sb, sm, iv, ss, wf⟩ := g
  simp only at h1 h5 h6 h7
  subst h1 h5 h6 h7
  unfold GatherDims.start
  rw [dif_pos (List.mem_singleton.mpr rfl)]
  congr 1
  congr 3
  funext b
  refine Fin.ext ?_
  match b with
  | ⟨0, _⟩ => rfl
  | ⟨1, _⟩ => rfl

/-- On the column axis, which the index words do not name, the slice starts at 0. -/
theorem gather_start1 (h5 : g.startIndexMap = [0]) (idx : IVec ⟨2, ![M, 1]⟩ w) (j : (⟨2, ![M, C]⟩ : Shape).Idx) :
    g.start j idx 1 = 0 := by
  unfold GatherDims.start
  rw [dif_neg (by rw [h5]; simp)]

/-- The row axis is collapsed: its offset coordinate is 0. -/
theorem gather_off0 (h2 : g.collapsedSliceDims = [0]) (j : (⟨2, ![M, C]⟩ : Shape).Idx) :
    g.offCoord j 0 = 0 :=
  g.offCoord_eq_zero j 0 fun h => ((g.mem_sKept 0).mp h).1 (by rw [h2]; exact List.mem_singleton.mpr rfl)

/-- The column axis keeps the result element's column. -/
theorem gather_off1 (h1 : g.offsetDims = [1]) (h2 : g.collapsedSliceDims = [0]) (h3 : g.operandBatchingDims = [])
    (j : (⟨2, ![M, C]⟩ : Shape).Idx) :
    g.offCoord j 1 = (j 1).val := by
  obtain ⟨od, cd, ob, sb, sm, iv, ss, wf⟩ := g
  simp only at h1 h2 h3
  subst h1 h2 h3
  unfold GatherDims.offCoord
  rw [dif_pos (by simp [GatherDims.sKept, Shape.kept])]
  rfl

/-- There are no batching axes: every batching coordinate is 0. -/
theorem gather_batch (h3 : g.operandBatchingDims = []) (j : (⟨2, ![M, C]⟩ : Shape).Idx) (a : Fin 2) :
    g.batchCoord j a = 0 :=
  g.batchCoord_eq_zero j a (by rw [h3]; exact List.not_mem_nil)

end Gather

/-- A row gather reads table element (sourceRow e, c) for result element (e, c). -/
theorem gather_row (hN : 0 < N) (g : GatherDims ⟨2, ![N, C]⟩ ⟨2, ![M, 1]⟩ ⟨2, ![M, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (idx : IVec ⟨2, ![M, 1]⟩ w) (e : Fin M) (c : Fin C) :
    g.operandIdx (ix2 e c) idx = ix2 (sourceRow hN idx e) c := by
  funext a
  refine Fin.ext ?_
  match a with
  | ⟨0, _⟩ =>
    show g.start (ix2 e c) idx 0 + g.batchCoord (ix2 e c) 0 + g.offCoord (ix2 e c) 0 = (sourceRow hN idx e).val
    rw [gather_start0 g h1 h5 h6 h7, gather_batch g h3, gather_off0 g h2]
    rfl
  | ⟨1, _⟩ =>
    show g.start (ix2 e c) idx 1 + g.batchCoord (ix2 e c) 1 + g.offCoord (ix2 e c) 1 = c.val
    rw [gather_start1 g h5, gather_batch g h3, gather_off1 g h1 h2 h3]
    show 0 + 0 + c.val = c.val
    omega

/-! ## Counting the edges into an entry with 32-bit words -/

/-- Counting the positions below `K` that satisfy `p` along the list 0, 1, …, K-1 gives the size of the set of
    those positions. -/
theorem countP_finRange (K : Nat) (p : Fin K → Prop) [DecidablePred p] :
    (List.finRange K).countP (fun k => decide (p k)) = (Finset.univ.filter p).card := by
  rw [Finset.card_def, Finset.filter_val, ← Multiset.countP_eq_card_filter, Fin.univ_def]
  simp

/-- The 32-bit word of a number below 2^31, added to the zero word, reads signed as that number. -/
theorem toInt_ofNat_small (k : Nat) (hk : k < 2 ^ 31) : (0#32 + BitVec.ofNat 32 k).toInt = (k : Int) := by
  rw [BitVec.zero_add, BitVec.toInt_eq_toNat_cond, BitVec.toNat_ofNat, Nat.mod_eq_of_lt (by omega)]
  rw [if_pos (by omega)]

/-- A left fold whose every step adds the word 1 to the value read by `rd` when the position satisfies `p`, and
    leaves that value alone otherwise, adds to it the number of positions of the list that satisfy `p`. -/
theorem foldl_count {K : Nat} {T : Type} (step : T → Fin K → T) (rd : T → BitVec 32) (p : Fin K → Prop) [DecidablePred p]
    (hstep : ∀ r k, rd (step r k) = rd r + if p k then 1#32 else 0#32) (l : List (Fin K)) (x : T) :
    rd (l.foldl step x) = rd x + BitVec.ofNat 32 (l.countP fun k => decide (p k)) := by
  induction l generalizing x with
  | nil => simp
  | cons k l ih =>
    rw [List.foldl_cons, ih, hstep, List.countP_cons]
    by_cases hk : p k
    · simp only [hk, decide_true, if_true]
      rw [BitVec.ofNat_add, BitVec.add_assoc, BitVec.add_comm (BitVec.ofNat 32 _) (BitVec.ofNat 32 1)]
    · simp [hk]

/-- Row-major numbering identifies the positions of the M scalar updates with the edges, so the positions
    whose index word reads `n` are as many as the edges into `n`. -/
theorem card_positions (idx : IVec ⟨2, ![M, 1]⟩ w) (n : Fin N) :
    (Finset.univ.filter fun k : Fin (⟨1, ![M]⟩ : Shape).numel =>
        (idx (ix2 (((⟨1, ![M]⟩ : Shape).rowMajor.symm k) 0) (0 : Fin 1))).toInt = (n.val : Int)).card
      = (edgesInto idx n).card := by
  refine Finset.card_bij (fun k _ => ((⟨1, ![M]⟩ : Shape).rowMajor.symm k) 0) ?_ ?_ ?_
  · intro k hk
    exact Finset.mem_filter.mpr ⟨Finset.mem_univ _, (Finset.mem_filter.mp hk).2⟩
  · intro k1 _ k2 _ h
    apply (⟨1, ![M]⟩ : Shape).rowMajor.symm.injective
    rw [eq_ix1 ((⟨1, ![M]⟩ : Shape).rowMajor.symm k1), eq_ix1 ((⟨1, ![M]⟩ : Shape).rowMajor.symm k2)]
    exact congrArg ix1 h
  · intro e he
    refine ⟨(⟨1, ![M]⟩ : Shape).rowMajor (ix1 e), ?_, ?_⟩
    · rw [Finset.mem_filter, Equiv.symm_apply_apply]
      exact ⟨Finset.mem_univ _, (Finset.mem_filter.mp he).2⟩
    · rw [Equiv.symm_apply_apply]
      rfl

/-- Scattering the 32-bit word 1 from every edge into a table of zero words, by the row-major fold of integer
    addition, leaves at entry `n` the number of edges into `n`: fewer than 2^31 edges, so the signed reading of
    the word is that number. -/
theorem count_ones (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (hM : M < 2 ^ 31) (idx : IVec ⟨2, ![M, 1]⟩ 32) (n : Fin N) :
    (Host.scatter d IntOp.addi (fun _ => (0#32 : BitVec 32)) idx (fun _ => (1#32 : BitVec 32)) (ix1 n)).toInt
      = ((edgesInto idx n).card : Int) := by
  unfold Host.scatter
  rw [foldl_count _ (fun r : (⟨1, ![N]⟩ : Shape).Idx → BitVec 32 => r (ix1 n))
    (fun k => (idx (ix2 (((⟨1, ![M]⟩ : Shape).rowMajor.symm k) 0) (0 : Fin 1))).toInt = (n.val : Int)) ?_
    (List.finRange (⟨1, ![M]⟩ : Shape).numel) (fun _ => (0#32 : BitVec 32))]
  · rw [countP_finRange, card_positions]
    refine toInt_ofNat_small _ (lt_of_le_of_lt ?_ hM)
    calc (edgesInto idx n).card ≤ (Finset.univ : Finset (Fin M)).card := Finset.card_filter_le _ _
      _ = M := by rw [Finset.card_univ, Fintype.card_fin]
  · intro r k
    have hp := entries_resultIdx d h1 h2 h3 h4 idx ((⟨1, ![M]⟩ : Shape).rowMajor.symm k) n
    beta_reduce
    by_cases hk : (idx (ix2 (((⟨1, ![M]⟩ : Shape).rowMajor.symm k) 0) (0 : Fin 1))).toInt = (n.val : Int)
    · rw [if_pos hk, hp.mpr hk]
      dsimp only
      rw [if_pos rfl]
      rfl
    · rw [if_neg hk, BitVec.add_zero]
      generalize d.resultIdx? ((⟨1, ![M]⟩ : Shape).rowMajor.symm k) idx = o at hp
      cases o with
      | none => rfl
      | some i =>
        dsimp only
        rw [if_neg]
        intro hin
        exact hk (hp.mp (by rw [hin]))

end Cert.ScatterRows

end
-- ==== Proof.LibAggregate.lean ====
/-
  Message passing on a rank-2 table, read at an entry.

  Rows of a table `X` (N rows, C columns) are gathered along a column of M signed index words (result row e is the
  table row its word names, clamped into range), each gathered entry is multiplied by a weight `ν`, and the products
  are scatter-added into a table `z` along a second column of M index words (update row e lands on the table row its
  word names, and is dropped when the word names no row). Entry (n, c) of the result is the entry of `z` plus the sum,
  over the edges e whose second word names row n, of `X` at (source row of e, c) times the weight at (e, c).
-/
import Idealize.ShloMosaic.PureOps.Ideal
import Idealize.ShloMosaic.PureOps.ShapeOps
import Idealize.ShloMosaic.Lib.ValueIdx
import proofs.«160346_j84963043049900_2_alg».proof.Proof.LibScatterRows

noncomputable section

open scoped BigOperators

namespace Cert.Aggregate

open Idealize.ShloMosaic Idealize.ShloMosaic.ValueIdx Cert.ScatterRows

variable {N M C w : Nat}

theorem aggregate_apply (hN : 0 < N)
    (d : ScatterDims ⟨2, ![N, C]⟩ ⟨2, ![M, 1]⟩ ⟨2, ![M, C]⟩)
    (h1 : d.updateWindowDims = [1]) (h2 : d.insertedWindowDims = [0]) (h3 : d.scatterDimsToOperandDims = [0]) (h4 : d.indexVectorDim = 1)
    (g : GatherDims ⟨2, ![N, C]⟩ ⟨2, ![M, 1]⟩ ⟨2, ![M, C]⟩)
    (g1 : g.offsetDims = [1]) (g2 : g.collapsedSliceDims = [0]) (g3 : g.operandBatchingDims = [])
    (g4 : g.startIndicesBatchingDims = []) (g5 : g.startIndexMap = [0]) (g6 : g.indexVectorDim = 1) (g7 : g.sliceSizes = ![1, C])
    (z X : (⟨2, ![N, C]⟩ : Shape).Idx → EReal) (sidx didx : IVec ⟨2, ![M, 1]⟩ w) (ν : (⟨2, ![M, C]⟩ : Shape).Idx → EReal)
    (n : Fin N) (c : Fin C) :
    Ideal.hostScatterAdd d z didx (fun j => Host.gather g X sidx j * ν j) (ix2 n c)
      = z (ix2 n c) + ∑ e ∈ edgesInto didx n, X (ix2 (sourceRow hN sidx e) c) * ν (ix2 e c) := by
  classical
  unfold Ideal.hostScatterAdd
  refine congrArg (z (ix2 n c) + ·) ?_
  rw [sum_landing_rows d h1 h2 h3 h4 didx n c]
  refine Finset.sum_congr rfl fun e _ => ?_
  show X (g.operandIdx (ix2 e c) sidx) * ν (ix2 e c) = _
  rw [gather_row hN g g1 g2 g3 g4 g5 g6 g7 sidx e c]

end Cert.Aggregate
-- ==== Proof.Layer0Ref.lean ====
/-
  The reference's first graph convolution at an entry. Entry (n, j) of the transformed, aggregated features is the
  scatter's zero plus, over the edges e into node n, (row of x·W0 at the source node of e, column j) times the weight of
  e, plus the bias at j; the row of x·W0 is the sum over k of x at (source, k) times W0 at (k, j).
-/
import proofs.«160346_j84963043049900_2_alg».proof.Proof.RefReadP
import proofs.«160346_j84963043049900_2_alg».proof.Proof.LibAggregate

set_option maxRecDepth 16384

noncomputable section

open scoped BigOperators

namespace Cert.ReferenceIdeal.Layer0

open Idealize.ShloMosaic Idealize.ShloMosaic.ValueIdx
open Cert.ReferenceIdeal Cert.ReferenceIdeal.ReadP Cert.ScatterRows Cert.Aggregate

/-- The source node of edge e: the wrapped source word, clamped into the table. -/
abbrev src (x1 : (⟨S2x800000, .i32⟩ : BufTy).Contents (Elt Ideal)) (e : Fin 850000) : Fin 50000 :=
  sourceRow (N := 50000) (by omega) (val_main_v36 (F := Ideal) x1) e
/-- The edges into node n. -/
abbrev into (x1 : (⟨S2x800000, .i32⟩ : BufTy).Contents (Elt Ideal)) (n : Fin 50000) : Finset (Fin 850000) :=
  edgesInto (val_main_v42 (F := Ideal) x1) n
/-- The weight of edge e. -/
abbrev wt (x1 : (⟨S2x800000, .i32⟩ : BufTy).Contents (Elt Ideal)) (e : Fin 850000) : EReal :=
  val_main_v29 (F := Ideal) x1 (ix1 e)

attribute [local irreducible] Ideal.hostScatterAdd

/-- The product x·W0 at (s, j). -/
theorem xw_apply (x0 : (⟨S50000x128, .f32⟩ : BufTy).Contents (Elt Ideal)) (x2 : (⟨S128x256, .f32⟩ : BufTy).Contents (Elt Ideal)) (s : Fin 50000) (j : Fin 256) :
    val_main_v30 (F := Ideal) x0 x2 (ix2 s j) = ∑ k : Fin 128, x0 (ix2 s k) * x2 (ix2 k j) := by
  refine (val_main_v30_apply x0 x2 (ix2 s j)).trans (Finset.sum_congr rfl fun k _ => ?_)
  refine congrArg₂ (fun a b : EReal => a * b) ?_ ?_
  · exact congrArg x0 (funext fun a => Fin.ext (by match a with | ⟨0, _⟩ => rfl | ⟨1, _⟩ => rfl))
  · exact congrArg x2 (funext fun a => Fin.ext (by match a with | ⟨0, _⟩ => rfl | ⟨1, _⟩ => rfl))

/-- The weight column repeated across the 256 columns, at (e, j): the weight of e. -/
theorem wtcol_apply (x1 : (⟨S2x800000, .i32⟩ : BufTy).Contents (Elt Ideal)) (e : Fin 850000) (j : Fin 256) :
    val_main_v39 (F := Ideal) x1 (ix2 e j) = wt x1 e :=
  ((val_main_v39_apply x1 (ix2 e j)).trans (val_main_v38_apply x1 _)).trans
    (congrArg (val_main_v29 (F := Ideal) x1) (funext fun a => Fin.ext (by match a with | ⟨0, _⟩ => rfl)))

/-- The scatter's starting table is zero. -/
theorem zero_apply (n : Fin 50000) (j : Fin 256) : val_main_v41 (F := Ideal) (ix2 n j) = Ideal.ofBits .f32 0#32 :=
  (val_main_v41_apply (ix2 n j)).trans rfl

/-- The aggregated product at (n, j), before the bias. -/
theorem agg_apply (x0 : (⟨S50000x128, .f32⟩ : BufTy).Contents (Elt Ideal)) (x1 : (⟨S2x800000, .i32⟩ : BufTy).Contents (Elt Ideal))
    (x2 : (⟨S128x256, .f32⟩ : BufTy).Contents (Elt Ideal)) (n : Fin 50000) (j : Fin 256) :
    val_main_v43 (F := Ideal) x0 x1 x2 (ix2 n j)
      = Ideal.ofBits .f32 0#32 + ∑ e ∈ into x1 n, (∑ k : Fin 128, x0 (ix2 (src x1 e) k) * x2 (ix2 k j)) * wt x1 e := by
  have e1 : val_main_v43 (F := Ideal) x0 x1 x2
      = Ideal.hostScatterAdd scatter_S50000x256_S850000x1_S850000x256_1_0_0_1 (val_main_v41 (F := Ideal)) (val_main_v42 (F := Ideal) x1)
          (fun i => Host.gather gather_S50000x256_S850000x1_S850000x256_1_0_n_n_0_1_1256 (val_main_v30 (F := Ideal) x0 x2) (val_main_v36 (F := Ideal) x1) i
            * val_main_v39 (F := Ideal) x1 i) := rfl
  have h := aggregate_apply (N := 50000) (M := 850000) (C := 256) (w := 32) (by omega) scatter_S50000x256_S850000x1_S850000x256_1_0_0_1 rfl rfl rfl rfl
    gather_S50000x256_S850000x1_S850000x256_1_0_n_n_0_1_1256 rfl rfl rfl rfl rfl rfl rfl
    (val_main_v41 (F := Ideal)) (val_main_v30 (F := Ideal) x0 x2) (val_main_v36 (F := Ideal) x1) (val_main_v42 (F := Ideal) x1)
    (val_main_v39 (F := Ideal) x1) n j
  refine ((congrFun e1 (ix2 n j)).trans h).trans ?_
  rw [zero_apply]
  refine congrArg (_ + ·) (Finset.sum_congr rfl fun e _ => ?_)
  rw [xw_apply, wtcol_apply]

/-- The bias at (n, j). -/
theorem bias_apply (x3 : (⟨S256, .f32⟩ : BufTy).Contents (Elt Ideal)) (n : Fin 50000) (j : Fin 256) :
    val_main_v45 (F := Ideal) x3 (ix2 n j) = x3 (ix1 j) :=
  ((val_main_v45_apply x3 (ix2 n j)).trans (val_main_v44_apply x3 _)).trans
    (congrArg x3 (funext fun a => Fin.ext (by match a with | ⟨0, _⟩ => rfl)))

theorem h0_apply (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal)) (n : Fin 50000) (j : Fin 256) :
    val_main_v46 (F := Ideal) x0 x1 x2 x3 (ix2 n j)
      = (Ideal.ofBits .f32 0#32 + ∑ e ∈ into x1 n, (∑ k : Fin 128, x0 (ix2 (src x1 e) k) * x2 (ix2 k j)) * wt x1 e) + x3 (ix1 j) := by
  refine (val_main_v46_apply x0 x1 x2 x3 (ix2 n j)).trans ?_
  show val_main_v43 (F := Ideal) x0 x1 x2 (ix2 n j) + val_main_v45 (F := Ideal) x3 (ix2 n j) = _
  rw [agg_apply, bias_apply]

end Cert.ReferenceIdeal.Layer0

end
-- ==== Proof.Layer0Ker.lean ====
/-
  The kernel's first graph convolution at an entry. The kernel aggregates first: entry (n, k) of the aggregated input
  features is the scatter's zero plus, over the edges e into node n, x at (source of e, k) times the weight of e —
  the same edges, sources and weights as the reference's, since both read them off the edge list by the same
  operations. Region 0 then maps the aggregate through W0 and adds the bias.
-/
import proofs.«160346_j84963043049900_2_alg».proof.Proof.Rd
import proofs.«160346_j84963043049900_2_alg».proof.Proof.HostK
import proofs.«160346_j84963043049900_2_alg».proof.Proof.Value0
import proofs.«160346_j84963043049900_2_alg».proof.Proof.Layer0Ref

set_option maxRecDepth 16384

noncomputable section

open scoped BigOperators

namespace Cert.KernelIdeal.Layer0

open Idealize.ShloMosaic Idealize.ShloMosaic.TcCoe Idealize.ShloMosaic.ValueIdx Idealize.SL.Sem
open Cert.KernelIdeal Cert.KernelIdeal.Gen Cert.KernelIdeal.Whole
open Cert.ReferenceIdeal.ReadP (val_main_v29 val_main_v36 val_main_v42)
open Cert.ReferenceIdeal.Layer0 (src into wt)
open Cert.ScatterRows Cert.Aggregate

variable (m : (ℓ : Loc nD τ sig) → Buf (Elt Ideal) ℓ)

attribute [local irreducible] Ideal.hostScatterAdd

/-- A scatter-add of an entrywise product, as the sum it is at the ideal instance: over any shapes. -/
theorem scatterAdd_mulf_eq {s si su : Shape} (d : ScatterDims s si su) {w : Nat} (z : FVec Ideal s .f32) (idx : IVec si w) (A B : FVec Ideal su .f32) :
    Host.scatterAdd (F := Ideal) d z idx (mulf A B) = Ideal.hostScatterAdd d z idx (fun i => A i * B i) := rfl

/-- The weight column repeated across 128 columns, read at (e, k): the weight of e. -/
theorem wt_bcast (v : (⟨S850000, .f32⟩ : BufTy).Contents (Elt Ideal)) (e : Fin 850000) (k : Fin 128) :
    broadcastInDim S850000x128 ![0, 1] bcast_S850000x1_S850000x128_0_1 (broadcastInDim S850000x1 ![0] bcast_S850000_S850000x1_0 v) (ix2 e k)
      = v (ix1 e) := by
  rw [broadcastInDim_apply _ bcast_S850000x1_S850000x128_0_1 _ (ix2 e k) (ix2 e (0 : Fin 1)) (fun a => by
      match a with
      | ⟨0, _⟩ => rfl
      | ⟨1, _⟩ => rfl),
    broadcastInDim_apply _ bcast_S850000_S850000x1_0 v (ix2 e (0 : Fin 1)) (ix1 e) (fun a => by
      match a with
      | ⟨0, _⟩ => rfl)]

set_option maxHeartbeats 2000000 in
/-- The aggregated input features at (n, k). -/
theorem agg_apply (c : Dev nD) (n : Fin 50000) (k : Fin 128) :
    (Cert.rd S50000x128 (S3 m c main_v42)) (ix2 n k)
      = Ideal.ofBits .f32 0#32 + ∑ e ∈ into (m ((c.tc : Thread nD τ).loc main_arg1)) n,
          (Cert.rd S50000x128 ((m ((c.tc : Thread nD τ).loc main_arg0)))) (ix2 (src (m ((c.tc : Thread nD τ).loc main_arg1)) e) k) * wt (m ((c.tc : Thread nD τ).loc main_arg1)) e := by
  have e1 : (Cert.rd S50000x128 (S3 m c main_v42))
      = Ideal.hostScatterAdd scatter_S50000x128_S850000x1_S850000x128_1_0_0_1
          (broadcastInDim S50000x128 ![] bcast_S_S50000x128 (constant (F := Ideal) S_ .f32 0x00000000#32)) (val_main_v42 (F := Ideal) (m ((c.tc : Thread nD τ).loc main_arg1)))
          (fun i => Host.gather gather_S50000x128_S850000x1_S850000x128_1_0_n_n_0_1_1128 (Cert.rd S50000x128 (m ((c.tc : Thread nD τ).loc main_arg0))) (val_main_v36 (F := Ideal) (m ((c.tc : Thread nD τ).loc main_arg1))) i
            * broadcastInDim S850000x128 ![0, 1] bcast_S850000x1_S850000x128_0_1
                (broadcastInDim S850000x1 ![0] bcast_S850000_S850000x1_0 (val_main_v29 (F := Ideal) (m ((c.tc : Thread nD τ).loc main_arg1)))) i) :=
    (HostK.agg0 m c).trans (scatterAdd_mulf_eq _ _ _ _ _)
  have h := aggregate_apply (N := 50000) (M := 850000) (C := 128) (w := 32) (by omega) scatter_S50000x128_S850000x1_S850000x128_1_0_0_1 rfl rfl rfl rfl
    gather_S50000x128_S850000x1_S850000x128_1_0_n_n_0_1_1128 rfl rfl rfl rfl rfl rfl rfl
    (broadcastInDim S50000x128 ![] bcast_S_S50000x128 (constant (F := Ideal) S_ .f32 0x00000000#32)) (Cert.rd S50000x128 (m ((c.tc : Thread nD τ).loc main_arg0))) (val_main_v36 (F := Ideal) (m ((c.tc : Thread nD τ).loc main_arg1)))
    (val_main_v42 (F := Ideal) (m ((c.tc : Thread nD τ).loc main_arg1)))
    (broadcastInDim S850000x128 ![0, 1] bcast_S850000x1_S850000x128_0_1
      (broadcastInDim S850000x1 ![0] bcast_S850000_S850000x1_0 (val_main_v29 (F := Ideal) (m ((c.tc : Thread nD τ).loc main_arg1))))) n k
  refine ((congrFun e1 (ix2 n k)).trans h).trans ?_
  refine congrArg₂ (fun a b : EReal => a + b) ?_ ?_
  · exact broadcastInDim_apply _ bcast_S_S50000x128 _ (ix2 n k) (fun a => a.elim0) (fun a => a.elim0)
  · refine Finset.sum_congr rfl fun e _ => ?_
    rw [wt_bcast]

end Cert.KernelIdeal.Layer0

end
-- ==== Proof.Value1.lean ====
/-
  What region 1 leaves in its two output rows: at column q, the sum over all 50000 rows of the array it reads, and the
  sum of their squares. The running rows after the tiles below a grid point are, at column q, the column summed over
  the rows below 5000·t (by induction on the point: each tile adds its own 5000 rows, and tile t's rows are rows
  5000·t … 5000·t + 4999 of the array); the last point copies the two rows over the two output blocks, each block
  being its whole 1×256 array.
-/
import proofs.«160346_j84963043049900_2_alg».proof.Proof.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stats1Value

open Idealize.ShloMosaic Idealize.ShloMosaic.TcCoe Idealize.ShloMosaic.ValueIdx
open Idealize.ShloMosaic.Pipeline (Dat Cfg Window)
open Cert.KernelIdeal Cert.KernelIdeal.Gen

/-- A 256-vector cast to a 1×256 row, read at (0, q): the vector at q. -/
theorem row_of_vec (v : FVec Ideal S256 .f32) (q : Fin 256) :
    shapeCast S1x256 v shapeCasts_S256_S1x256 (ix2 (0 : Fin 1) q) = v (ix1 q) := by
  refine (shapeCast_addUnit_apply ![256] v shapeCasts_S256_S1x256 (ix2 (0 : Fin 1) q)).trans (congrArg v ?_)
  funext a; match a with | ⟨0, _⟩ => rfl

/-- The column sums of a 5000×256 tile, read at column q: the sum down the column. -/
theorem colsum_apply (x : FVec Ideal S5000x256 .f32) (hφ) (hacc) (q : Fin 256) :
    multiReduction (F := Ideal) .add [0] S256 x 0x00000000#32 reduces_S5000x256_S256 hφ hacc (ix1 q) = ∑ r : Fin 5000, x (ix2 r q) := by
  refine (Ideal.multiReduction_add_single x 0x00000000#32 reduces_S5000x256_S256 hφ hacc (ix1 q)).trans ?_
  refine Finset.sum_congr rfl fun r _ => congrArg x (funext fun a => Fin.ext ?_)
  match a with
  | ⟨0, _⟩ => rfl
  | ⟨1, _⟩ => rfl

/-- Adding a tile's column sums to a row, at column q. -/
theorem addcols_apply (x : Vec Ideal S5000x256 .f32) (s : Vec Ideal S1x256 .f32) (q : Fin 256) :
    k1_pay4 (F := Ideal) x s (ix2 (0 : Fin 1) q) = s (ix2 (0 : Fin 1) q) + ∑ r : Fin 5000, x (ix2 r q) := by
  unfold k1_pay4 k1_pay3
  simp only [shapeCast_self, addf]
  refine congrArg (s (ix2 (0 : Fin 1) q) + ·) ?_
  exact (row_of_vec _ q).trans (colsum_apply x _ _ q)

/-- Adding a tile's column sums of squares to a row, at column q. -/
theorem addsqs_apply (x : Vec Ideal S5000x256 .f32) (s : Vec Ideal S1x256 .f32) (q : Fin 256) :
    k1_pay5 (F := Ideal) x s (ix2 (0 : Fin 1) q) = s (ix2 (0 : Fin 1) q) + ∑ r : Fin 5000, x (ix2 r q) * x (ix2 r q) := by
  unfold k1_pay5 k1_pay3
  simp only [shapeCast_self, addf]
  refine congrArg (s (ix2 (0 : Fin 1) q) + ·) ?_
  exact (row_of_vec _ q).trans (colsum_apply _ _ _ q)

/-- The zero rows the first point stores. -/
theorem zero_row1 (q : Fin 256) : k1_pay1 (F := Ideal) (ix2 (0 : Fin 1) q) = 0 := by
  unfold k1_pay1; simp only [shapeCast_self]; exact Ideal.ofBits_zero_f32
theorem zero_row2 (q : Fin 256) : k1_pay2 (F := Ideal) (ix2 (0 : Fin 1) q) = 0 := by
  unfold k1_pay2; simp only [shapeCast_self]; exact Ideal.ofBits_zero_f32

open Cert.KernelIdeal.Stats1

variable (V : (c : Dev nD) → (b : Ref sig .tc) → Buf (Elt Ideal) ((c : Thread nD τ).loc b))

/-- The array the region reads, as a function into the extended reals. -/
def entry (c : Dev nD) : S50000x256.Idx → EReal := V c (Pipeline.arrRef spec1 0)

/-- Column q of a 50000×256 array as a sequence indexed by the row number (0 past the last row). -/
def colN (H : S50000x256.Idx → EReal) (q : Fin 256) (R : ℕ) : EReal := if h : R < 50000 then H (ix2 (⟨R, h⟩ : Fin 50000) q) else 0

theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 2) = 0 ∧ win1_2.index t (1 : Fin 2) = 0 :=
  (by decide +kernel : ∀ t : Fin grid1.N, _)

/-- Row r of tile t is row 5000·t + r of the array. -/
theorem tile_row (c : Dev nD) (t : Fin cfg1.N) (r : Fin 5000) (q : Fin 256) :
    tile1 V c 0 t (ix2 r q) = colN (V c (Pipeline.arrRef spec1 0)) q (5000 * t.val + r.val) := by
  have ht : t.val < 10 := Nat.lt_of_lt_of_eq t.isLt N_1
  obtain ⟨e0, e1, -⟩ := idx_facts t
  unfold colN; rw [dif_pos (by omega)]
  show V c (Pipeline.arrRef spec1 0) (((cfg1.win 0).blk t).view.emb (ix2 r q)) = _
  refine congrArg _ (funext fun a => Fin.ext ?_)
  match a with
  | ⟨0, _⟩ => show win1_0.index t (0 : Fin 2) * 5000 + 1 * r.val = 5000 * t.val + r.val; omega
  | ⟨1, _⟩ => show win1_0.index t (1 : Fin 2) * 256 + 1 * q.val = q.val; omega

/-- The running sum row after the tiles below `t`, at column q: the column summed over the rows below 5000·t. -/
theorem sum_row (c : Dev nD) (q : Fin 256) : ∀ t : Fin (cfg1.N + 1),
    (sums V c t).1 (ix2 (0 : Fin 1) q) = ∑ R ∈ Finset.range (5000 * t.val), colN (V c (Pipeline.arrRef spec1 0)) q R := by
  intro t
  induction t using Fin.induction with
  | zero => rw [sums_zero]; show k1_pay1 (F := Ideal) (ix2 (0 : Fin 1) q) = _; rw [zero_row1]; simp
  | succ t ih =>
    rw [sums_succ]
    show k1_pay4 (F := Ideal) (tile1 V c 0 t) (sums V c t.castSucc).1 (ix2 (0 : Fin 1) q) = _
    rw [addcols_apply, ih]
    simp only [tile_row]
    rw [show 5000 * (t.succ : Fin (cfg1.N + 1)).val = 5000 * (t.castSucc : Fin (cfg1.N + 1)).val + 5000 from by simp [Nat.mul_succ],
      Finset.sum_range_add, Fin.sum_univ_eq_sum_range (fun r => colN (V c (Pipeline.arrRef spec1 0)) q (5000 * t.val + r)) 5000]
    rfl

/-- The same for the running sum of squares. -/
theorem sq_row (c : Dev nD) (q : Fin 256) : ∀ t : Fin (cfg1.N + 1),
    (sums V c t).2 (ix2 (0 : Fin 1) q)
      = ∑ R ∈ Finset.range (5000 * t.val), colN (V c (Pipeline.arrRef spec1 0)) q R * colN (V c (Pipeline.arrRef spec1 0)) q R := by
  intro t
  induction t using Fin.induction with
  | zero => rw [sums_zero]; show k1_pay2 (F := Ideal) (ix2 (0 : Fin 1) q) = _; rw [zero_row2]; simp
  | succ t ih =>
    rw [sums_succ]
    show k1_pay5 (F := Ideal) (tile1 V c 0 t) (sums V c t.castSucc).2 (ix2 (0 : Fin 1) q) = _
    rw [addsqs_apply, ih]
    simp only [tile_row]
    rw [show 5000 * (t.succ : Fin (cfg1.N + 1)).val = 5000 * (t.castSucc : Fin (cfg1.N + 1)).val + 5000 from by simp [Nat.mul_succ],
      Finset.sum_range_add, Fin.sum_univ_eq_sum_range (fun r => colN (V c (Pipeline.arrRef spec1 0)) q (5000 * t.val + r) * colN (V c (Pipeline.arrRef spec1 0)) q (5000 * t.val + r)) 5000]
    rfl

/-- A sum of the column sequence over all 50000 rows is the sum over the array's rows. -/
theorem colN_total (H : S50000x256.Idx → EReal) (q : Fin 256) (f : EReal → EReal) (hf : f 0 = 0 ∨ True) :
    ∑ R ∈ Finset.range 50000, f (colN H q R) = ∑ R : Fin 50000, f (H (ix2 R q)) := by
  rw [Finset.sum_range]
  exact Finset.sum_congr rfl fun R _ => by unfold colN; rw [dif_pos R.isLt]

/-- At the end: the sum row is the column sums of the whole array, the other row the column sums of squares. -/
theorem total_sum (c : Dev nD) (q : Fin 256) :
    (sums V c (Fin.last cfg1.N)).1 (ix2 (0 : Fin 1) q) = ∑ R : Fin 50000, entry V c (ix2 R q) := by
  rw [sum_row, show 5000 * (Fin.last cfg1.N).val = 50000 from by rw [Fin.val_last, show cfg1.N = 10 from N_1]]
  exact colN_total _ q id (Or.inr trivial)
theorem total_sq (c : Dev nD) (q : Fin 256) :
    (sums V c (Fin.last cfg1.N)).2 (ix2 (0 : Fin 1) q)
      = ∑ R : Fin 50000, entry V c (ix2 R q) * entry V c (ix2 R q) := by
  rw [sq_row, show 5000 * (Fin.last cfg1.N).val = 50000 from by rw [Fin.val_last, show cfg1.N = 10 from N_1]]
  exact colN_total _ q (fun x => x * x) (Or.inr trivial)

/-- An index of the first output array lies in the block written back at the last point (the block is the whole array). -/
theorem out_mem1 (i : S1x256.Idx) : i ∈ ((cfg1.win 1).blk t1_9).view.set := by
  obtain ⟨-, -, e2, e3, e4, e5⟩ := idx_facts t1_9
  have hi0 : (i 0).val < 1 := (i 0).isLt
  have hi1 : (i 1).val < 256 := (i 1).isLt
  show i ∈ ((View.whole main_v45_0).slice (win1_1.rect t1_9)).set
  rw [View.set_slice_whole, Rect.mem_set_unit]
  intro a
  match a with
  | ⟨0, _⟩ => show win1_1.index t1_9 (0 : Fin 2) * 1 ≤ (i 0).val ∧ (i 0).val < win1_1.index t1_9 (0 : Fin 2) * 1 + 1; omega
  | ⟨1, _⟩ => show win1_1.index t1_9 (1 : Fin 2) * 256 ≤ (i 1).val ∧ (i 1).val < win1_1.index t1_9 (1 : Fin 2) * 256 + 256; omega
/-- The same for the second output array. -/
theorem out_mem2 (i : S1x256.Idx) : i ∈ ((cfg1.win 2).blk t1_9).view.set := by
  obtain ⟨-, -, e2, e3, e4, e5⟩ := idx_facts t1_9
  have hi0 : (i 0).val < 1 := (i 0).isLt
  have hi1 : (i 1).val < 256 := (i 1).isLt
  show i ∈ ((View.whole main_v45_1).slice (win1_2.rect t1_9)).set
  rw [View.set_slice_whole, Rect.mem_set_unit]
  intro a
  match a with
  | ⟨0, _⟩ => show win1_2.index t1_9 (0 : Fin 2) * 1 ≤ (i 0).val ∧ (i 0).val < win1_2.index t1_9 (0 : Fin 2) * 1 + 1; omega
  | ⟨1, _⟩ => show win1_2.index t1_9 (1 : Fin 2) * 256 ≤ (i 1).val ∧ (i 1).val < win1_2.index t1_9 (1 : Fin 2) * 256 + 256; omega

/-- The point that writes an output block back is the last one: the point after it is the end of the grid. -/
theorem succ_of_flush (t : Fin cfg1.N) (h9 : t.val % 10 = 9) : t.succ = Fin.last cfg1.N := by
  have hlt : t.val < 10 := Nat.lt_of_lt_of_eq t.isLt N_1
  refine Fin.ext ?_
  have hN : cfg1.N = 10 := N_1
  rw [Fin.val_succ, Fin.val_last]; omega

set_option maxHeartbeats 2000000 in
/-- What the region leaves in its first output array: the running sum row after all ten tiles. -/
theorem final_sum (c : Dev nD) : (Stats1.dat V c).arrAt 1 cfg1.N = (sums V c (Fin.last cfg1.N)).1 := by
  refine (Stats1.dat V c).arrAt_eq_of_cover 1 _ (fun t ht => ?_) (fun i => ⟨t1_9, (flush1_1 t1_9).2 (by decide), out_mem1 i⟩)
  have hs := succ_of_flush t ((flush1_1 t).1 ht)
  obtain ⟨-, -, e2, e3, -, -⟩ := idx_facts t
  show (cfg1.win 1).cut (grid1.coords t) ((Stats1.dat V c).after 1 t) = _
  rw [Stats1.dat_after1, hs]
  funext y
  show (sums V c (Fin.last cfg1.N)).1 y = (sums V c (Fin.last cfg1.N)).1 (((cfg1.win 1).blk t).view.emb y)
  refine congrArg _ (funext fun a => Fin.ext ?_)
  match a with
  | ⟨0, _⟩ => show (y 0).val = win1_1.index t (0 : Fin 2) * 1 + 1 * (y 0).val; omega
  | ⟨1, _⟩ => show (y 1).val = win1_1.index t (1 : Fin 2) * 256 + 1 * (y 1).val; omega

set_option maxHeartbeats 2000000 in
/-- What the region leaves in its second output array: the running row of squares after all ten tiles. -/
theorem final_sq (c : Dev nD) : (Stats1.dat V c).arrAt 2 cfg1.N = (sums V c (Fin.last cfg1.N)).2 := by
  refine (Stats1.dat V c).arrAt_eq_of_cover 2 _ (fun t ht => ?_) (fun i => ⟨t1_9, (flush1_2 t1_9).2 (by decide), out_mem2 i⟩)
  have hs := succ_of_flush t ((flush1_2 t).1 ht)
  obtain ⟨-, -, -, -, e4, e5⟩ := idx_facts t
  show (cfg1.win 2).cut (grid1.coords t) ((Stats1.dat V c).after 2 t) = _
  rw [Stats1.dat_after2, hs]
  funext y
  show (sums V c (Fin.last cfg1.N)).2 y = (sums V c (Fin.last cfg1.N)).2 (((cfg1.win 2).blk t).view.emb y)
  refine congrArg _ (funext fun a => Fin.ext ?_)
  match a with
  | ⟨0, _⟩ => show (y 0).val = win1_2.index t (0 : Fin 2) * 1 + 1 * (y 0).val; omega
  | ⟨1, _⟩ => show (y 1).val = win1_2.index t (1 : Fin 2) * 256 + 1 * (y 1).val; omega

end Cert.KernelIdeal.Stats1Value

end
-- ==== Proof.LibSumExchange.lean ====
/-
  Aggregating before or after a linear map, on extended reals that are reals.

  Rows `x e` (indexed by edges `e` of a finite set), each scaled by a per-edge real `ν e` and summed, then mapped
  through a column `W`, give the same number as mapping each row through `W` first and then scaling and summing:
      Σ_e (Σ_k x e k · W k) · ν e  =  Σ_k (Σ_e x e k · ν e) · W k.
  Over the reals this is an exchange of two finite sums. Over the extended reals it needs every factor real (a product
  does not distribute over a sum that mixes infinities), which is how it is stated: reals embedded.
-/
import Idealize.ShloMosaic.PureOps.Ideal

open scoped BigOperators

namespace Cert.SumExchange

/-- A finite sum of embedded reals is the embedded sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exchange {E K : Type} [Fintype K] (s : Finset E) (x : E → K → ℝ) (W : K → ℝ) (ν : E → ℝ) :
    ∑ e ∈ s, (∑ k, (x e k : EReal) * (W k : EReal)) * (ν e : EReal)
      = ∑ k, (∑ e ∈ s, (x e k : EReal) * (ν e : EReal)) * (W k : EReal) := by
  have l : ∀ e, (∑ k, (x e k : EReal) * (W k : EReal)) * (ν e : EReal) = (((∑ k, x e k * W k) * ν e : ℝ) : EReal) := fun e => by
    simp only [← EReal.coe_mul, ← coe_sum]
  have r : ∀ k, (∑ e ∈ s, (x e k : EReal) * (ν e : EReal)) * (W k : EReal) = (((∑ e ∈ s, x e k * ν e) * W k : ℝ) : EReal) := fun k => by
    simp only [← EReal.coe_mul, ← coe_sum]
  simp only [l, r, ← coe_sum]
  refine congrArg _ ?_
  simp only [Finset.sum_mul]
  rw [Finset.sum_comm]
  exact Finset.sum_congr rfl fun k _ => Finset.sum_congr rfl fun e _ => by ring

end Cert.SumExchange
-- ==== Proof.PreReal.lean ====
import proofs.«160346_j84963043049900_2_alg».proof.Defs
import proofs.«160346_j84963043049900_2_alg».proof.Proof.Gen.Pre_finite_inputs
import Idealize.ShloMosaic.Lib.ReduceAll
import Idealize.ShloMosaic.Lib.ValueIdx

/-!
# From the precondition to real entries

The precondition is the conjunction, over the eleven float arguments `x`, of "every entry of
`x` has `|x i| < +∞`", each stated as a reduction by `and` of the entrywise comparisons from
the constant `1`. This file reads it back: the conjunction being `1` makes every conjunct `1`;
a reduction by `and` over all axes that is `1` met only `1`s; and an extended real `x` with
`max x (-x) < ⊤` is neither `⊥` (whose negation is `⊤`) nor `⊤`, so it is the embedding of a
real. The integer argument carries no such conjunct.
-/

namespace Cert.PreReal
open Idealize.ShloMosaic Idealize.SL.Sem

/-- The shape with no axes has exactly one index. -/
instance : Subsingleton Cert.Pre_finite_inputs.S_.Idx := ⟨fun a b => funext fun d => d.elim0⟩

/-- The 32-bit pattern with exponent all ones and significand zero denotes `+∞`. -/
theorem ofBits_inf : Ideal.ofBits .f32 0x7F800000#32 = (⊤ : EReal) := by
  simp [Ideal.ofBits, Ideal.ieee]

/-- An extended real whose absolute value `max x (-x)` compares below `+∞` is a real: at `⊥`
    the absolute value is `-⊥ = ⊤`, at `⊤` it is `⊤`, and `⊤ < ⊤` is false. -/
theorem real_of_abs_lt_inf (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Under the precondition every entry of every float argument is a real, on every device. -/
theorem args_real
    (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal)) := by
  -- the predicate's one entry, with its chain of operations in view
  have h0 := congrFun (h c) ValueIdx.ix0
  dsimp only [Cert.Pre_finite_inputs.fn, Cert.Pre_finite_inputs.fn_part1,
    Cert.Pre_finite_inputs.fn_part2, Cert.Pre_finite_inputs.fn_part3] at h0
  -- a conjunction of bits is 1 exactly when both are: peel the conjuncts off from the last
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  -- each conjunct: the reduction over all axes is 1, so the comparison is 1 at every entry
  exact ⟨fun i => real_of_abs_lt_inf _ (Host.reduce_andi_all _ _ _ _ _ e0 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i),
    fun i => real_of_abs_lt_inf _ (Host.reduce_andi_all _ _ _ _ _ e5 i),
    fun i => real_of_abs_lt_inf _ (Host.reduce_andi_all _ _ _ _ _ e6 i),
    fun i => real_of_abs_lt_inf _ (Host.reduce_andi_all _ _ _ _ _ e7 i),
    fun i => real_of_abs_lt_inf _ (Host.reduce_andi_all _ _ _ _ _ e8 i),
    fun i => real_of_abs_lt_inf _ (Host.reduce_andi_all _ _ _ _ _ e9 i),
    fun i => real_of_abs_lt_inf _ (Host.reduce_andi_all _ _ _ _ _ e10 i),
    fun i => real_of_abs_lt_inf _ (Host.reduce_andi_all _ _ _ _ _ e11 i)⟩

end Cert.PreReal
-- ==== Proof.Reals.lean ====
import Idealize.ShloMosaic.PureOps.Ideal

/-!
# Extended reals that are reals

An extended real *is a real* when it is the embedding of some real number, that is, when it is
neither `⊥` nor `⊤`. This file shows that the property is preserved by the arithmetic a
computation applies to its entries: sums, differences, products, maxima, finite sums, division
by a nonzero real, the reciprocal square root of a positive real, a choice between two reals,
and the all-zero bit pattern (which denotes `0`).
-/

namespace Cert.Reals
open Idealize.ShloMosaic

/-- `x` is the embedding of a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

/-- The sum of two reals is the real `a + b`. -/
theorem IsReal.add {x y : EReal} : IsReal x → IsReal y → IsReal (x + y) := by
  rintro ⟨a, rfl⟩ ⟨b, rfl⟩
  exact ⟨a + b, (EReal.coe_add a b).symm⟩

/-- The difference of two reals is the real `a - b`. -/
theorem IsReal.sub {x y : EReal} : IsReal x → IsReal y → IsReal (x - y) := by
  rintro ⟨a, rfl⟩ ⟨b, rfl⟩
  exact ⟨a - b, (EReal.coe_sub a b).symm⟩

/-- The product of two reals is the real `a * b`. -/
theorem IsReal.mul {x y : EReal} : IsReal x → IsReal y → IsReal (x * y) := by
  rintro ⟨a, rfl⟩ ⟨b, rfl⟩
  exact ⟨a * b, (EReal.coe_mul a b).symm⟩

/-- The maximum of two reals is one of them. -/
theorem IsReal.max {x y : EReal} (hx : IsReal x) (hy : IsReal y) : IsReal (max x y) := by
  rcases max_choice x y with h | h
  · rw [h]; exact hx
  · rw [h]; exact hy

/-- A finite sum of reals is a real: `0` is one and the property is closed under `+`. -/
theorem isReal_sum {ι : Type} (s : Finset ι) (f : ι → EReal) (h : ∀ i ∈ s, IsReal (f i)) :
    IsReal (∑ i ∈ s, f i) :=
  Finset.sum_induction f IsReal (fun _ _ ha hb => ha.add hb) isReal_zero h

/-- Dividing by a nonzero real `y` is multiplying by the real `1 / y`. -/
theorem IsReal.div_real {x : EReal} (hx : IsReal x) {y : ℝ} (hy : y ≠ 0) :
    IsReal (Ideal.div x (y : EReal)) := by
  rw [Ideal.div_coe hy]
  exact hx.mul (isReal_coe _)

/-- At a positive real `r` the reciprocal square root is the real `(√r)⁻¹`. -/
theorem isReal_rsqrt_pos {r : ℝ} (hr : 0 < r) : IsReal (Ideal.rsqrt (r : EReal)) := by
  rw [Ideal.rsqrt_coe, if_neg (not_lt.2 hr.le), if_neg hr.ne']
  exact isReal_coe _

/-- A choice between two reals is one of them. -/
theorem IsReal.select {c : BitVec 1} {x y : EReal} (hx : IsReal x) (hy : IsReal y) :
    IsReal (Scalar.select c x y) := by
  unfold Scalar.select
  split
  · exact hx
  · exact hy

/-- The all-zero 32-bit pattern denotes the real `0`. -/
theorem isReal_ofBits_zero : IsReal (Ideal.ofBits .f32 0#32) := by
  have h : Ideal.ofBits .f32 0#32 = (0 : EReal) := by
    simp [Ideal.ofBits, Ideal.ieee]
  rw [h]
  exact isReal_zero

end Cert.Reals
-- ==== Proof.Consts.lean ====
/-
  The float constants the two programs spell, as the extended reals their bit patterns denote: +0.0 is 0, 1.0 is 1,
  50000.0 is the real 50000, and the normalisation's ε (the float nearest 10⁻⁵) is a positive real.
-/
import Idealize.ShloMosaic.PureOps.Ideal

noncomputable section

namespace Cert.Consts

open Idealize.ShloMosaic

theorem ofBits_zero : Ideal.ofBits .f32 0#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

/-- ε as a real. -/
def eps : ℝ := 10995116 / 1099511627776

theorem ofBits_eps : Ideal.ofBits .f32 0x3727C5AC#32 = ((eps : ℝ) : EReal) := by
  unfold eps
  simp [Ideal.ofBits, Ideal.ieee, -EReal.coe_mul]; norm_num

theorem eps_pos : 0 < eps := by unfold eps; norm_num

end Cert.Consts

end
-- ==== Proof.Layer0.lean ====
/-
  The two first graph convolutions agree. The kernel aggregates the input features and then transforms them; the
  reference transforms and then aggregates. At entry (n, j) the kernel has the sum over k of (the sum over the edges e
  into n of x at (source of e, k) times the weight of e) times W0 at (k, j); the reference has the sum over those edges of
  (the sum over k of x at (source of e, k) times W0 at (k, j)) times the weight of e; both then add the bias at j. The
  two double sums are one another's exchange, which holds because every factor is a real number: the inputs by the
  precondition, the weights because a degree is a count.
-/
import proofs.«160346_j84963043049900_2_alg».proof.Proof.Rd
import proofs.«160346_j84963043049900_2_alg».proof.Proof.Layer0Ker
import proofs.«160346_j84963043049900_2_alg».proof.Proof.Value1
import proofs.«160346_j84963043049900_2_alg».proof.Proof.LibSumExchange
import proofs.«160346_j84963043049900_2_alg».proof.Proof.PreReal
import proofs.«160346_j84963043049900_2_alg».proof.Proof.Reals
import proofs.«160346_j84963043049900_2_alg».proof.Proof.Consts

set_option maxRecDepth 16384

noncomputable section

open scoped BigOperators

namespace Cert.KernelIdeal.Layer0

open Idealize.ShloMosaic Idealize.ShloMosaic.TcCoe Idealize.ShloMosaic.ValueIdx Idealize.SL.Sem
open Cert.KernelIdeal Cert.KernelIdeal.Gen Cert.KernelIdeal.Whole Cert.Reals
open Cert.ReferenceIdeal.ReadP (val_main_v46)
open Cert.ReferenceIdeal.Layer0 (src into wt)

variable (m : (ℓ : Loc nD τ sig) → Buf (Elt Ideal) ℓ)

set_option maxHeartbeats 2000000 in
/-- Region 0's output at (n, j): the aggregated features against W0, plus the bias. -/
theorem dense_apply (c : Dev nD) (n : Fin 50000) (j : Fin 256) :
    (Cert.rd S50000x256 (o44 m c)) (ix2 n j)
      = (∑ k : Fin 128, (Cert.rd S50000x128 (S3 m c main_v42)) (ix2 n k) * (Cert.rd S128x256 ((m ((c.tc : Thread nD τ).loc main_arg2)))) (ix2 k j))
        + (Cert.rd S256 ((m ((c.tc : Thread nD τ).loc main_arg3)))) (ix1 j) := by
  unfold o44
  rw [Cert.KernelIdeal.DenseValue.final]
  show (∑ k : Fin 128, (Cert.rd S50000x128 (S3 m c main_v42)) (ix2 n k) * (Cert.rd S128x256 (S3 m c main_arg2)) (ix2 k j))
      + (Cert.rd S1x256 (S3 m c main_v43)) (ix2 (0 : Fin 1) j) = _
  rw [HostK.arg2_at3, HostK.bias0]
  exact congrArg (_ + ·) (Cert.KernelIdeal.Stats1Value.row_of_vec _ j)

theorem h0_eq (hpre : @Cert.Pre_KernelIdeal Cert.Pre_finite_inputs.Gen.facts m) (c : Dev nD)
    (hν : ∀ e : Fin 850000, IsReal (wt (m ((c.tc : Thread nD τ).loc main_arg1)) e)) :
    (Cert.rd S50000x256 (o44 m c)) = val_main_v46 (F := Ideal) (m ((c.tc : Thread nD τ).loc main_arg0)) (m ((c.tc : Thread nD τ).loc main_arg1)) (m ((c.tc : Thread nD τ).loc main_arg2)) (m ((c.tc : Thread nD τ).loc main_arg3)) := by
  funext i
  obtain ⟨n, j, rfl⟩ : ∃ (n : Fin 50000) (j : Fin 256), i = ix2 n j := ⟨i 0, i 1, eq_ix2 i⟩
  rw [dense_apply, Cert.ReferenceIdeal.Layer0.h0_apply, Cert.Consts.ofBits_zero, zero_add]
  refine congrArg (fun t : EReal => t + (m ((c.tc : Thread nD τ).loc main_arg3)) (ix1 j)) ?_
  obtain ⟨h0, h2, -⟩ := Cert.PreReal.args_real m hpre c
  choose f0 hf0 using h0
  choose f2 hf2 using h2
  choose fν hfν using hν
  have hA : ∀ k : Fin 128, Cert.rd S50000x128 (S3 m c main_v42) (ix2 n k)
      = ∑ e ∈ into (m ((c.tc : Thread nD τ).loc main_arg1)) n, ((f0 (ix2 (src (m ((c.tc : Thread nD τ).loc main_arg1)) e) k) : ℝ) : EReal) * ((fν e : ℝ) : EReal) := fun k => by
    rw [agg_apply, Cert.Consts.ofBits_zero, zero_add]
    exact Finset.sum_congr rfl fun e _ => by rw [← hf0, ← hfν]
  have hL : ∑ k : Fin 128, Cert.rd S50000x128 (S3 m c main_v42) (ix2 n k) * Cert.rd S128x256 (m ((c.tc : Thread nD τ).loc main_arg2)) (ix2 k j)
      = ∑ k : Fin 128, (∑ e ∈ into (m ((c.tc : Thread nD τ).loc main_arg1)) n, ((f0 (ix2 (src (m ((c.tc : Thread nD τ).loc main_arg1)) e) k) : ℝ) : EReal) * ((fν e : ℝ) : EReal)) * ((f2 (ix2 k j) : ℝ) : EReal) :=
    Finset.sum_congr rfl fun k _ => by rw [hA k, ← hf2]
  rw [hL]
  refine (Cert.SumExchange.exchange (into (m ((c.tc : Thread nD τ).loc main_arg1)) n) (fun e k => f0 (ix2 (src (m ((c.tc : Thread nD τ).loc main_arg1)) e) k)) (fun k => f2 (ix2 k j)) fν).symm.trans
    (Finset.sum_congr rfl fun e _ => ?_)
  rw [hfν e]
  refine congrArg (fun t : EReal => t * ((fν e : ℝ) : EReal)) (Finset.sum_congr rfl fun k _ => ?_)
  rw [hf0, hf2]

end Cert.KernelIdeal.Layer0

end
-- ==== Proof.KerStats.lean ====
/-
  The kernel's mean and clamped-variance rows at a column: from a sum row s and a sum-of-squares row q, the mean at
  column j is s at j over 50000.0, and the variance is q at j over 50000.0 minus the squared mean, clamped below at +0.0.
-/
import proofs.«160346_j84963043049900_2_alg».proof.Proof.HostK
import Idealize.ShloMosaic.Lib.Pipeline.Value
import Idealize.ShloMosaic.Lib.ValueIdx

set_option maxRecDepth 16384

noncomputable section

namespace Cert.KernelIdeal.KerStats

open Idealize.ShloMosaic Idealize.ShloMosaic.ValueIdx
open Cert.KernelIdeal Cert.KernelIdeal.Gen Cert.KernelIdeal.HostK

theorem count_apply (j : Fin 256) : count_row (F := Ideal) (ix2 (0 : Fin 1) j) = Ideal.ofBits .f32 0x47435000#32 :=
  broadcastInDim_apply _ bcast_S_S1x256 _ (ix2 (0 : Fin 1) j) (fun a => a.elim0) (fun a => a.elim0)
theorem zero_apply (j : Fin 256) : zero_row (F := Ideal) (ix2 (0 : Fin 1) j) = Ideal.ofBits .f32 0#32 :=
  broadcastInDim_apply _ bcast_S_S1x256 _ (ix2 (0 : Fin 1) j) (fun a => a.elim0) (fun a => a.elim0)

theorem meanOf_apply (s : (⟨S1x256, .f32⟩ : BufTy).Contents (Elt Ideal)) (j : Fin 256) :
    meanOf (F := Ideal) s (ix2 (0 : Fin 1) j) = Ideal.div (s (ix2 (0 : Fin 1) j)) (Ideal.ofBits .f32 0x47435000#32) := by
  unfold meanOf
  show Ideal.div (s (ix2 (0 : Fin 1) j)) (count_row (F := Ideal) (ix2 (0 : Fin 1) j)) = _
  rw [count_apply]

theorem varOf_apply (s q : (⟨S1x256, .f32⟩ : BufTy).Contents (Elt Ideal)) (j : Fin 256) :
    varOf (F := Ideal) s q (ix2 (0 : Fin 1) j)
      = max (Ideal.div (q (ix2 (0 : Fin 1) j)) (Ideal.ofBits .f32 0x47435000#32)
          - Ideal.div (s (ix2 (0 : Fin 1) j)) (Ideal.ofBits .f32 0x47435000#32) * Ideal.div (s (ix2 (0 : Fin 1) j)) (Ideal.ofBits .f32 0x47435000#32))
        (Ideal.ofBits .f32 0#32) := by
  unfold varOf
  show max (Ideal.div (q (ix2 (0 : Fin 1) j)) (count_row (F := Ideal) (ix2 (0 : Fin 1) j))
      - meanOf (F := Ideal) s (ix2 (0 : Fin 1) j) * meanOf (F := Ideal) s (ix2 (0 : Fin 1) j)) (zero_row (F := Ideal) (ix2 (0 : Fin 1) j)) = _
  rw [count_apply, zero_apply, meanOf_apply]

end Cert.KernelIdeal.KerStats

end
-- ==== Proof.LibBatchNorm.lean ====
/-
  The batch-normalisation variance, two ways, on extended reals that are reals.

  For finitely many reals `g i` with mean `μ = (Σ g i) / N` (N the number of terms), the mean of the squared
  deviations is the mean of the squares minus the squared mean,
      (Σ (g i − μ)²) / N = (Σ (g i)²) / N − μ²,
  and it is not negative, so clamping the right-hand side below at 0 changes nothing. Stated over the extended reals
  with the reals embedded, division by `N` spelt as multiplication by the real `1 / N`; sums of embedded reals are
  embedded sums.
-/
import Idealize.ShloMosaic.PureOps.Ideal

open scoped BigOperators

namespace Cert.BatchNorm

/-- A finite sum of embedded reals is the embedded sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity: the mean squared deviation is the mean square minus the squared mean. -/
theorem real_var {ι : Type} [Fintype ι] (g : ι → ℝ) (N : ℝ) (hN : N = Fintype.card ι) (hpos : 0 < N) :
    (∑ i, (g i - (∑ k, g k) * (1 / N)) * (g i - (∑ k, g k) * (1 / N))) * (1 / N)
      = (∑ i, g i * g i) * (1 / N) - ((∑ k, g k) * (1 / N)) * ((∑ k, g k) * (1 / N)) := by
  have hne : N ≠ 0 := ne_of_gt hpos
  set S := ∑ k, g k with hS
  have h1 : ∑ i, (g i - S * (1 / N)) * (g i - S * (1 / N))
      = (∑ i, g i * g i) - 2 * (S * (1 / N)) * S + N * ((S * (1 / N)) * (S * (1 / N))) := by
    have : ∀ i, (g i - S * (1 / N)) * (g i - S * (1 / N)) = g i * g i - 2 * (S * (1 / N)) * g i + (S * (1 / N)) * (S * (1 / N)) := fun i => by ring
    simp only [this, Finset.sum_add_distrib, Finset.sum_sub_distrib, ← Finset.mul_sum, Finset.sum_const, Finset.card_univ, nsmul_eq_mul, ← hN, ← hS]
    ring
  rw [h1]; field_simp; ring

/-- The mean squared deviation of reals is not negative. -/
theorem real_var_nonneg {ι : Type} [Fintype ι] (g : ι → ℝ) (μ N : ℝ) (hpos : 0 < N) :
    0 ≤ (∑ i, (g i - μ) * (g i - μ)) * (1 / N) :=
  mul_nonneg (Finset.sum_nonneg fun i _ => mul_self_nonneg _) (by positivity)

/-- On extended reals: with `μ` the mean, the clamped "mean square minus squared mean" is the mean squared deviation. -/
theorem var_eq {ι : Type} [Fintype ι] (g : ι → ℝ) (N : ℝ) (hN : N = Fintype.card ι) (hpos : 0 < N) :
    max ((∑ i, (g i : EReal) * (g i : EReal)) * ((1 / N : ℝ) : EReal)
          - ((∑ k, (g k : EReal)) * ((1 / N : ℝ) : EReal)) * ((∑ k, (g k : EReal)) * ((1 / N : ℝ) : EReal))) 0
      = (∑ i, ((g i : EReal) - (∑ k, (g k : EReal)) * ((1 / N : ℝ) : EReal)) * ((g i : EReal) - (∑ k, (g k : EReal)) * ((1 / N : ℝ) : EReal)))
          * ((1 / N : ℝ) : EReal) := by
  have e1 : ∀ i, ((g i : EReal) - (∑ k, (g k : EReal)) * ((1 / N : ℝ) : EReal)) * ((g i : EReal) - (∑ k, (g k : EReal)) * ((1 / N : ℝ) : EReal))
      = (((g i - (∑ k, g k) * (1 / N)) * (g i - (∑ k, g k) * (1 / N)) : ℝ) : EReal) := fun i => by
    rw [← coe_sum, ← EReal.coe_mul, ← EReal.coe_sub, ← EReal.coe_mul]
  have e2 : ∀ i, (g i : EReal) * (g i : EReal) = ((g i * g i : ℝ) : EReal) := fun i => (EReal.coe_mul _ _).symm
  simp only [e1, e2]
  rw [← coe_sum, ← coe_sum, ← coe_sum, ← EReal.coe_mul, ← EReal.coe_mul, ← EReal.coe_mul, ← EReal.coe_mul, ← EReal.coe_sub,
    ← real_var g N hN hpos]
  exact max_eq_left (by exact_mod_cast real_var_nonneg g _ N hpos)

end Cert.BatchNorm
-- ==== Proof.BNBridge.lean ====
/-
  The two spellings of a column's batch statistics agree when the column is real-valued.
  With c the float 50000.0 and z the float +0.0: the mean computed from a plain column sum is the mean computed from a
  sum started at z; and "mean square minus squared mean", clamped below at z twice (once where it is computed, once
  where it is used), is the mean squared deviation computed from sums started at z.
-/
import proofs.«160346_j84963043049900_2_alg».proof.Proof.LibBatchNorm
import proofs.«160346_j84963043049900_2_alg».proof.Proof.Consts
import Idealize.ShloMosaic.PureOps.Ideal

noncomputable section

open scoped BigOperators

namespace Cert.BNBridge

open Idealize.ShloMosaic

/-- Dividing by the float 50000.0 is multiplying by the real 1/50000. -/
theorem div_count (x : EReal) : Ideal.div x (Ideal.ofBits .f32 0x47435000#32) = x * ((1 / (50000 : ℝ) : ℝ) : EReal) := by
  rw [Cert.Consts.ofBits_50000]; exact Ideal.div_coe (by norm_num) x

theorem mean_bridge (S : EReal) :
    Ideal.div S (Ideal.ofBits .f32 0x47435000#32) = Ideal.div (Ideal.ofBits .f32 0#32 + S) (Ideal.ofBits .f32 0x47435000#32) := by
  rw [Cert.Consts.ofBits_zero, zero_add]

theorem var_bridge (g : Fin 50000 → ℝ) :
    max (max (Ideal.div (∑ R, (g R : EReal) * (g R : EReal)) (Ideal.ofBits .f32 0x47435000#32)
          - Ideal.div (∑ R, (g R : EReal)) (Ideal.ofBits .f32 0x47435000#32) * Ideal.div (∑ R, (g R : EReal)) (Ideal.ofBits .f32 0x47435000#32))
        (Ideal.ofBits .f32 0#32)) (Ideal.ofBits .f32 0#32)
      = Ideal.div (Ideal.ofBits .f32 0#32
          + ∑ R, ((g R : EReal) - Ideal.div (Ideal.ofBits .f32 0#32 + ∑ k, (g k : EReal)) (Ideal.ofBits .f32 0x47435000#32))
              * ((g R : EReal) - Ideal.div (Ideal.ofBits .f32 0#32 + ∑ k, (g k : EReal)) (Ideal.ofBits .f32 0x47435000#32)))
          (Ideal.ofBits .f32 0x47435000#32) := by
  simp only [div_count, Cert.Consts.ofBits_zero, zero_add]
  rw [max_eq_left (le_max_right _ _)]
  exact Cert.BatchNorm.var_eq g 50000 (by simp) (by norm_num)

end Cert.BNBridge

end
-- ==== Proof.RefAct.lean ====
/-
  The reference's normalise-scale-shift-rectify block, as one function of the array it normalises. Column means and
  column variances (mean squared deviation) over the 50000 rows, each sum started at +0.0 and divided by 50000.0; every
  entry minus its column's mean, times the reciprocal square root of (its column's variance plus ε), times the scale,
  plus the shift; then the leaky rectifier. The block occurs twice in the reference (after each graph convolution)
  with the same operations, so both occurrences are this function of their inputs.
-/
import proofs.«160346_j84963043049900_2_alg».proof.Proof.RefReadP
import Idealize.ShloMosaic.PureOps.Ideal.Laws

set_option maxRecDepth 16384

noncomputable section

open scoped BigOperators

namespace Cert.ReferenceIdeal.Act

open Idealize.ShloMosaic Idealize.ShloMosaic.ValueIdx
open Cert.ReferenceIdeal Cert.ReferenceIdeal.Gen Cert.ReferenceIdeal.ReadP

section Generic
variable {F : FTy → Type} [FloatOps F]

/-- A 256-vector repeated down the 50000 rows. -/
def rows (v : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 v)
/-- The column means. -/
def colmean (H : (⟨S50000x256, .f32⟩ : BufTy).Contents (Elt F)) : (⟨S256, .f32⟩ : BufTy).Contents (Elt F) :=
  Host.divf (Host.reduceAdd H (constant S_ .f32 0x00000000#32) reducesTo_S50000x256_S256_d0 h_S_)
    (broadcastInDim S256 ![] bcast_S_S256 (constant S_ .f32 0x47435000#32))
/-- The column variances. -/
def colvar (H : (⟨S50000x256, .f32⟩ : BufTy).Contents (Elt F)) : (⟨S256, .f32⟩ : BufTy).Contents (Elt F) :=
  Host.divf (Host.reduceAdd (mulf (subf H (rows (colmean H))) (subf H (rows (colmean H)))) (constant S_ .f32 0x00000000#32) reducesTo_S50000x256_S256_d0 h_S_)
    (broadcastInDim S256 ![] bcast_S_S256 (constant S_ .f32 0x47435000#32))
/-- Normalised, scaled and shifted. -/
def normed (H : (⟨S50000x256, .f32⟩ : BufTy).Contents (Elt F)) (w b : (⟨S256, .f32⟩ : BufTy).Contents (Elt F)) : (⟨S50000x256, .f32⟩ : BufTy).Contents (Elt F) :=
  addf (mulf (mulf (subf H (rows (colmean H)))
    (rows (Host.rsqrt (addf (colvar H) (broadcastInDim S256 ![] bcast_S_S256 (constant S_ .f32 0x3727C5AC#32)))))) (rows w)) (rows b)
/-- Then rectified with slope `a`. -/
def act (H : (⟨S50000x256, .f32⟩ : BufTy).Contents (Elt F)) (w b : (⟨S256, .f32⟩ : BufTy).Contents (Elt F)) (a : (⟨S1, .f32⟩ : BufTy).Contents (Elt F)) : (⟨S50000x256, .f32⟩ : BufTy).Contents (Elt F) :=
  select (cmpf .oge (normed H w b) (broadcastInDim S50000x256 ![] bcast_S_S50000x256 (constant S_ .f32 0x00000000#32))) (normed H w b)
    (mulf (broadcastInDim S50000x256 ![] bcast_S_S50000x256 (shapeCast _ a shapeCasts_S1_S_)) (normed H w b))

theorem stage77 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S1, .f32⟩ : BufTy).Contents (Elt F)) :
    val_main_v77 (F := F) x0 x1 x2 x3 x4 x5 x6 = act (val_main_v46 (F := F) x0 x1 x2 x3) x4 x5 x6 := rfl
theorem stage125 (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S1, .f32⟩ : BufTy).Contents (Elt F)) :
    val_main_v125 (F := F) x0 x1 x2 x3 x4 x5 x6 x7 x8 x9 x10 x11 = act (val_main_v94 (F := F) x0 x1 x2 x3 x4 x5 x6 x7 x8) x9 x10 x11 := rfl

end Generic

/-! ## At an entry, over the extended reals -/

theorem rows_apply (v : (⟨S256, .f32⟩ : BufTy).Contents (Elt Ideal)) (r : Fin 50000) (j : Fin 256) : rows (F := Ideal) v (ix2 r j) = v (ix1 j) := by
  unfold rows
  rw [broadcastInDim_apply _ bcast_S1x256_S50000x256_0_1 _ (ix2 r j) (ix2 (0 : Fin 1) j) (fun a => by
      match a with
      | ⟨0, _⟩ => rfl
      | ⟨1, _⟩ => rfl),
    broadcastInDim_apply _ bcast_S256_S1x256_1 v (ix2 (0 : Fin 1) j) (ix1 j) (fun a => by
      match a with
      | ⟨0, _⟩ => rfl)]

theorem colsum_apply (H : (⟨S50000x256, .f32⟩ : BufTy).Contents (Elt Ideal)) (init : (⟨S_, .f32⟩ : BufTy).Contents (Elt Ideal)) (j : Fin 256) :
    Host.reduceAdd (F := Ideal) (φ := .f32) H init reducesTo_S50000x256_S256_d0 h_S_ (ix1 j) = init (Shape.Idx.first h_S_) + ∑ R : Fin 50000, H (ix2 R j) := by
  simp only [Host.reduceAdd, Ideal.hostReduceAdd_def]
  rw [Ideal.hostReduceAdd_single reducesTo_S50000x256_S256_d0 (by decide)]
  refine congrArg (_ + ·) (Finset.sum_congr rfl fun k _ => ?_)
  exact congrArg H (funext fun a => Fin.ext (by match a with | ⟨0, _⟩ => rfl | ⟨1, _⟩ => rfl))

theorem count_apply (j : Fin 256) :
    broadcastInDim S256 ![] bcast_S_S256 (constant (F := Ideal) S_ .f32 0x47435000#32) (ix1 j) = Ideal.ofBits .f32 0x47435000#32 :=
  broadcastInDim_apply _ bcast_S_S256 _ (ix1 j) (fun a => a.elim0) (fun a => a.elim0)
theorem eps_apply (j : Fin 256) :
    broadcastInDim S256 ![] bcast_S_S256 (constant (F := Ideal) S_ .f32 0x3727C5AC#32) (ix1 j) = Ideal.ofBits .f32 0x3727C5AC#32 :=
  broadcastInDim_apply _ bcast_S_S256 _ (ix1 j) (fun a => a.elim0) (fun a => a.elim0)

/-- The mean of column j. -/
def mu (H : (⟨S50000x256, .f32⟩ : BufTy).Contents (Elt Ideal)) (j : Fin 256) : EReal := Ideal.div (Ideal.ofBits .f32 0#32 + ∑ R : Fin 50000, H (ix2 R j)) (Ideal.ofBits .f32 0x47435000#32)
/-- The variance of column j. -/
def sigma2 (H : (⟨S50000x256, .f32⟩ : BufTy).Contents (Elt Ideal)) (j : Fin 256) : EReal :=
  Ideal.div (Ideal.ofBits .f32 0#32 + ∑ R : Fin 50000, (H (ix2 R j) - mu H j) * (H (ix2 R j) - mu H j)) (Ideal.ofBits .f32 0x47435000#32)

theorem colmean_apply (H : (⟨S50000x256, .f32⟩ : BufTy).Contents (Elt Ideal)) (j : Fin 256) : colmean (F := Ideal) H (ix1 j) = mu H j := by
  unfold colmean mu
  show Ideal.div (Host.reduceAdd (F := Ideal) (φ := .f32) H (constant (F := Ideal) S_ .f32 0x00000000#32) reducesTo_S50000x256_S256_d0 h_S_ (ix1 j))
      (broadcastInDim S256 ![] bcast_S_S256 (constant (F := Ideal) S_ .f32 0x47435000#32) (ix1 j)) = _
  rw [colsum_apply, count_apply]; rfl

theorem colvar_apply (H : (⟨S50000x256, .f32⟩ : BufTy).Contents (Elt Ideal)) (j : Fin 256) : colvar (F := Ideal) H (ix1 j) = sigma2 H j := by
  unfold colvar sigma2
  show Ideal.div (Host.reduceAdd (F := Ideal) (φ := .f32)
        (mulf (F := Ideal) (subf (F := Ideal) H (rows (F := Ideal) (colmean (F := Ideal) H))) (subf (F := Ideal) H (rows (F := Ideal) (colmean (F := Ideal) H))))
        (constant (F := Ideal) S_ .f32 0x00000000#32) reducesTo_S50000x256_S256_d0 h_S_ (ix1 j))
      (broadcastInDim S256 ![] bcast_S_S256 (constant (F := Ideal) S_ .f32 0x47435000#32) (ix1 j)) = _
  rw [colsum_apply, count_apply]
  have hs : ∀ R : Fin 50000,
      mulf (F := Ideal) (φ := .f32) (subf (F := Ideal) (φ := .f32) H (rows (F := Ideal) (colmean (F := Ideal) H))) (subf (F := Ideal) (φ := .f32) H (rows (F := Ideal) (colmean (F := Ideal) H))) (ix2 R j)
        = (H (ix2 R j) - mu H j) * (H (ix2 R j) - mu H j) := fun R => by
    show (H (ix2 R j) - rows (F := Ideal) (colmean (F := Ideal) H) (ix2 R j)) * (H (ix2 R j) - rows (F := Ideal) (colmean (F := Ideal) H) (ix2 R j)) = _
    rw [rows_apply, colmean_apply]
  rw [Finset.sum_congr rfl fun R _ => hs R]
  rfl

/-- The normalised entry, as a number. -/
def normR (h μ v w b : EReal) : EReal := ((h - μ) * Ideal.rsqrt (v + Ideal.ofBits .f32 0x3727C5AC#32)) * w + b
/-- The leaky rectifier, as the reference spells it. -/
def leakyR (x a : EReal) : EReal :=
  Scalar.select (FloatOps.cmpf (F := Ideal) (φ := .f32) .oge x (Ideal.ofBits .f32 0#32)) x (a * x)

theorem normed_apply (H : (⟨S50000x256, .f32⟩ : BufTy).Contents (Elt Ideal)) (w b : (⟨S256, .f32⟩ : BufTy).Contents (Elt Ideal)) (r : Fin 50000) (j : Fin 256) :
    normed (F := Ideal) H w b (ix2 r j) = normR (H (ix2 r j)) (mu H j) (sigma2 H j) (w (ix1 j)) (b (ix1 j)) := by
  unfold normed normR
  show ((H (ix2 r j) - rows (F := Ideal) (colmean (F := Ideal) H) (ix2 r j))
      * rows (F := Ideal) (Host.rsqrt (F := Ideal) (addf (F := Ideal) (colvar (F := Ideal) H) (broadcastInDim S256 ![] bcast_S_S256 (constant (F := Ideal) S_ .f32 0x3727C5AC#32)))) (ix2 r j))
      * rows (F := Ideal) w (ix2 r j) + rows (F := Ideal) b (ix2 r j) = _
  rw [rows_apply, rows_apply, rows_apply, rows_apply, colmean_apply]
  show ((H (ix2 r j) - mu H j) * Ideal.rsqrt (colvar (F := Ideal) H (ix1 j) + broadcastInDim S256 ![] bcast_S_S256 (constant (F := Ideal) S_ .f32 0x3727C5AC#32) (ix1 j))) * w (ix1 j) + b (ix1 j) = _
  rw [colvar_apply, eps_apply]

theorem act_apply (H : (⟨S50000x256, .f32⟩ : BufTy).Contents (Elt Ideal)) (w b : (⟨S256, .f32⟩ : BufTy).Contents (Elt Ideal)) (a : (⟨S1, .f32⟩ : BufTy).Contents (Elt Ideal)) (r : Fin 50000) (j : Fin 256) :
    act (F := Ideal) H w b a (ix2 r j)
      = leakyR (normR (H (ix2 r j)) (mu H j) (sigma2 H j) (w (ix1 j)) (b (ix1 j))) (shapeCast S_ a shapeCasts_S1_S_ (fun x => x.elim0)) := by
  unfold act leakyR
  show Scalar.select (FloatOps.cmpf (F := Ideal) (φ := .f32) .oge (normed (F := Ideal) H w b (ix2 r j))
        (broadcastInDim S50000x256 ![] bcast_S_S50000x256 (constant (F := Ideal) S_ .f32 0x00000000#32) (ix2 r j)))
      (normed (F := Ideal) H w b (ix2 r j))
      (broadcastInDim S50000x256 ![] bcast_S_S50000x256 (shapeCast S_ a shapeCasts_S1_S_) (ix2 r j) * normed (F := Ideal) H w b (ix2 r j)) = _
  rw [normed_apply,
    broadcastInDim_apply _ bcast_S_S50000x256 (constant (F := Ideal) S_ .f32 0x00000000#32) (ix2 r j) (fun x => x.elim0) (fun x => x.elim0),
    broadcastInDim_apply _ bcast_S_S50000x256 (shapeCast S_ a shapeCasts_S1_S_) (ix2 r j) (fun x => x.elim0) (fun x => x.elim0)]
  rfl

end Cert.ReferenceIdeal.Act

end
-- ==== Proof.BNCore.lean ====
/-
  One normalised entry, the kernel's way and the reference's way. For a 50000×256 array H with real entries and a
  column j, write S and Q for the sum and the sum of squares down the column. The kernel normalises an entry h with the
  mean S/50000 and the variance "Q/50000 minus the squared mean", clamped below at 0 where it is computed and again
  where it is used; the reference with the mean (0 + S)/50000 and the mean squared deviation. They are the same number.
-/
import proofs.«160346_j84963043049900_2_alg».proof.Proof.BNBridge
import proofs.«160346_j84963043049900_2_alg».proof.Proof.Reals
import proofs.«160346_j84963043049900_2_alg».proof.Proof.RefAct

noncomputable section

open scoped BigOperators

namespace Cert.BNCore

open Idealize.ShloMosaic Idealize.ShloMosaic.ValueIdx Cert.Reals
open Cert.ReferenceIdeal.Act (normR mu sigma2)

/-- The kernel's normalised entry from the entry, the (once clamped) variance, the mean, the scale and the shift. -/
def kerNorm (h var mean w b : EReal) : EReal :=
  ((h - mean) * Ideal.rsqrt (max var (Ideal.ofBits .f32 0#32) + Ideal.ofBits .f32 0x3727C5AC#32)) * w + b

theorem core (H : (⟨Cert.ReferenceIdeal.S50000x256, .f32⟩ : BufTy).Contents (Elt Ideal)) (hH : ∀ i, IsReal (H i)) (j : Fin 256) (h w b : EReal) :
    kerNorm h
        (max (Ideal.div (∑ R : Fin 50000, H (ix2 R j) * H (ix2 R j)) (Ideal.ofBits .f32 0x47435000#32)
            - Ideal.div (∑ R : Fin 50000, H (ix2 R j)) (Ideal.ofBits .f32 0x47435000#32) * Ideal.div (∑ R : Fin 50000, H (ix2 R j)) (Ideal.ofBits .f32 0x47435000#32))
          (Ideal.ofBits .f32 0#32))
        (Ideal.div (∑ R : Fin 50000, H (ix2 R j)) (Ideal.ofBits .f32 0x47435000#32)) w b
      = normR h (mu H j) (sigma2 H j) w b := by
  choose g hg using fun R : Fin 50000 => hH (ix2 R j)
  unfold kerNorm normR sigma2 mu
  simp only [hg]
  rw [Cert.BNBridge.var_bridge g, Cert.BNBridge.mean_bridge (∑ x : Fin 50000, (g x : EReal))]

end Cert.BNCore

end
-- ==== Proof.EntryEq.lean ====
/-
  One entry of a normalising region, the kernel's way and the reference's way. Given a real-valued 50000×256 array H,
  a row s holding its column sums and a row q holding its column sums of squares, the scale, shift and slope
  arguments: the kernel's entry (r, k) — H at (r, k) normalised with the mean row and the clamped variance row computed
  from s and q, scaled, shifted, rectified, with the slope read from the 1×1 reshape — is entry (r, k) of the reference's
  normalise-and-rectify block applied to H.
-/
import proofs.«160346_j84963043049900_2_alg».proof.Proof.KerStats
import proofs.«160346_j84963043049900_2_alg».proof.Proof.BNCore
import proofs.«160346_j84963043049900_2_alg».proof.Proof.Value1

set_option maxRecDepth 16384

noncomputable section

open scoped BigOperators

namespace Cert.KernelIdeal.EntryEq

open Idealize.ShloMosaic Idealize.ShloMosaic.ValueIdx Cert.Reals
open Cert.KernelIdeal Cert.KernelIdeal.Gen Cert.KernelIdeal.HostK Cert.KernelIdeal.KerStats

/-- The leaky rectifier as the kernel spells it. -/
def leakyK (x a : EReal) : EReal :=
  Scalar.select (FloatOps.cmpf (F := Ideal) (φ := .f32) .oge x (FloatOps.ofBits (F := Ideal) .f32 0#32)) x (FloatOps.mulf (F := Ideal) (φ := .f32) a x)

/-- The slope, read from the 1×1 reshape at (0, 0) or from the rank-0 reshape: the argument's one entry. -/
theorem slope_eq (a : (⟨S1, .f32⟩ : BufTy).Contents (Elt Ideal)) :
    extractAt ![0, 0] (shapeCast S1x1 a shapeCasts_S1_S1x1) inpos_S1x1_p0_0
      = shapeCast Cert.ReferenceIdeal.S_ a Cert.ReferenceIdeal.Gen.shapeCasts_S1_S_ (fun x => x.elim0) := by
  unfold extractAt
  rw [shapeCast_apply a shapeCasts_S1_S1x1 _ (ix1 (0 : Fin 1)) (by rfl),
    shapeCast_apply a Cert.ReferenceIdeal.Gen.shapeCasts_S1_S_ _ (ix1 (0 : Fin 1)) (by rfl)]

theorem entry_eq (H : (⟨S50000x256, .f32⟩ : BufTy).Contents (Elt Ideal)) (hH : ∀ i, IsReal (H i))
    (s q : (⟨S1x256, .f32⟩ : BufTy).Contents (Elt Ideal))
    (hs : ∀ k : Fin 256, s (ix2 (0 : Fin 1) k) = ∑ R : Fin 50000, H (ix2 R k))
    (hq : ∀ k : Fin 256, q (ix2 (0 : Fin 1) k) = ∑ R : Fin 50000, H (ix2 R k) * H (ix2 R k))
    (w b : (⟨S256, .f32⟩ : BufTy).Contents (Elt Ideal)) (a : (⟨S1, .f32⟩ : BufTy).Contents (Elt Ideal)) (r : Fin 50000) (k : Fin 256) :
    leakyK (Cert.BNCore.kerNorm (H (ix2 r k)) (varOf (F := Ideal) s q (ix2 (0 : Fin 1) k)) (meanOf (F := Ideal) s (ix2 (0 : Fin 1) k))
        (shapeCast S1x256 w shapeCasts_S256_S1x256 (ix2 (0 : Fin 1) k)) (shapeCast S1x256 b shapeCasts_S256_S1x256 (ix2 (0 : Fin 1) k)))
      (extractAt ![0, 0] (shapeCast S1x1 a shapeCasts_S1_S1x1) inpos_S1x1_p0_0)
      = Cert.ReferenceIdeal.Act.act (F := Ideal) H w b a (ix2 r k) := by
  rw [Cert.ReferenceIdeal.Act.act_apply, varOf_apply, meanOf_apply, hs, hq, Cert.KernelIdeal.Stats1Value.row_of_vec, Cert.KernelIdeal.Stats1Value.row_of_vec,
    Cert.BNCore.core H hH k, slope_eq]
  rfl

end Cert.KernelIdeal.EntryEq

end
-- ==== Proof.Value2.lean ====
/-
  What region 2 leaves in its output array, as one function of whole arrays: entry (r, j) is row r of the normalised,
  scaled, shifted and rectified input array against column j of the second layer's weight matrix. The tile's stored
  value is read at an index (entrywise operations, rows repeated down the tile, then the matrix unit's product into a
  zero accumulator as a plain sum); each grid point's block is the corresponding block of that function, the operand
  rows and the weight matrix being whole arrays; the ten blocks tile the array.
-/
import proofs.«160346_j84963043049900_2_alg».proof.Proof.Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.FusedValue

open Idealize.ShloMosaic Idealize.ShloMosaic.TcCoe Idealize.ShloMosaic.ValueIdx
open Idealize.ShloMosaic.Pipeline (Dat Cfg Window)
open Cert.KernelIdeal Cert.KernelIdeal.Gen

/-- A 1×256 row repeated down a 5000×256 tile, read at (p, q): the row at q. -/
theorem row_bcast (v : Vec Ideal S1x256 .f32) (p : Fin 5000) (q : Fin 256) :
    broadcastTo S5000x256 v broadcasts_S1x256_S5000x256 (ix2 p q) = v (ix2 (0 : Fin 1) q) :=
  broadcastTo_apply v broadcasts_S1x256_S5000x256 (ix2 p q) (ix2 (0 : Fin 1) q) (fun a => by
    match a with
    | ⟨0, _⟩ => rfl
    | ⟨1, _⟩ => rfl)

/-- The normalised entry before the rectifier: `(h − mean) · rsqrt(max(var, 0) + ε) · scale + shift`. -/
def normK (h var mean w b : EReal) : EReal :=
  FloatOps.addf (F := Ideal) (FloatOps.mulf (F := Ideal) (FloatOps.mulf (F := Ideal) (FloatOps.subf (F := Ideal) h mean)
    (FloatOps.rsqrt (F := Ideal) (φ := .f32) (FloatOps.addf (F := Ideal) (FloatOps.maximumf (F := Ideal) var (FloatOps.ofBits (F := Ideal) .f32 0#32)) (FloatOps.ofBits (F := Ideal) .f32 925353388#32)))) w) b

/-- The leaky rectifier with slope `a` on the negative side. -/
def leaky (x a : EReal) : EReal :=
  Scalar.select (FloatOps.cmpf (F := Ideal) (φ := .f32) .oge x (FloatOps.ofBits (F := Ideal) .f32 0#32)) x (FloatOps.mulf (F := Ideal) (φ := .f32) a x)

theorem act_apply (h : Vec Ideal S5000x256 .f32) (var mean w b : Vec Ideal S1x256 .f32) (a : Vec Ideal S1x1 .f32) (p : Fin 5000) (q : Fin 256) :
    k4_pay1 (F := Ideal) h var mean w b a (ix2 p q)
      = leaky (normK (h (ix2 p q)) (var (ix2 (0 : Fin 1) q)) (mean (ix2 (0 : Fin 1) q)) (w (ix2 (0 : Fin 1) q)) (b (ix2 (0 : Fin 1) q))) (extractAt ![0, 0] a inpos_S1x1_p0_0) := by
  unfold k4_pay1
  simp only [shapeCast_self, mulf, addf, subf, select, cmpf, broadcast]
  rw [row_bcast, row_bcast, row_bcast, row_bcast]
  rfl

theorem lhs0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem rhs0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem rhs1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The fused body's stored value at (p, q): row p of the normalised, rectified tile against column q of the weights. -/
theorem fused_apply (h : Vec Ideal S5000x256 .f32) (var mean w b : Vec Ideal S1x256 .f32) (a : Vec Ideal S1x1 .f32) (W : Vec Ideal S256x256 .f32)
    (p : Fin 5000) (q : Fin 256) :
    k2_pay1 (F := Ideal) h var mean w b a W (ix2 p q)
      = ∑ k : Fin 256, leaky (normK (h (ix2 p k)) (var (ix2 (0 : Fin 1) k)) (mean (ix2 (0 : Fin 1) k)) (w (ix2 (0 : Fin 1) k)) (b (ix2 (0 : Fin 1) k)))
          (extractAt ![0, 0] a inpos_S1x1_p0_0) * W (ix2 k q) := by
  have e : k2_pay1 (F := Ideal) h var mean w b a W
      = FloatOps.matmul (F := Ideal) dot_S5000x256_S256x256_S5000x256_1_0_0_1_n_n (some .fp32) (k4_pay1 (F := Ideal) h var mean w b a) W (constant (F := Ideal) S5000x256 .f32 0x00000000#32) := rfl
  rw [e, Ideal.matmul_constant_zero_apply, ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx (ix2 p q) ((ValueIdx.contrEquiv1 dot_S5000x256_S256x256_S5000x256_1_0_0_1_n_n 256 rfl rfl).symm k) = ix2 p k := funext fun a => Fin.ext (by
    match a with
    | ⟨0, _⟩ => exact lhs0 _ _
    | ⟨1, _⟩ => exact (lhs1 _ _).trans hk)
  have er : dot_S5000x256_S256x256_S5000x256_1_0_0_1_n_n.rhsIdx (ix2 p q) ((ValueIdx.contrEquiv1 dot_S5000x256_S256x256_S5000x256_1_0_0_1_n_n 256 rfl rfl).symm k) = ix2 k q := funext fun a => Fin.ext (by
    match a with
    | ⟨0, _⟩ => exact (rhs0 _ _).trans hk
    | ⟨1, _⟩ => exact rhs1 _ _)
  rw [el, er, act_apply]

open Cert.KernelIdeal.Fused

theorem hz : (![0, 0] : Fin 2 → Nat) = fun _ => 0 := by
  funext a; match a with | ⟨0, _⟩ => rfl | ⟨1, _⟩ => rfl

/-- Normalise-scale-shift-rectify, then the matrix product, as one function of whole arrays: entry (r, j) is row r of
    the normalised, rectified array against column j of the weights. -/
def G (H : S50000x256.Idx → EReal) (var mean w b : S1x256.Idx → EReal) (a : Vec Ideal S1x1 .f32) (W : S256x256.Idx → EReal) : S50000x256.Idx → EReal :=
  fun i => ∑ k : Fin 256, leaky (normK (H (ix2 (i 0) k)) (var (ix2 (0 : Fin 1) k)) (mean (ix2 (0 : Fin 1) k)) (w (ix2 (0 : Fin 1) k)) (b (ix2 (0 : Fin 1) k)))
    (extractAt ![0, 0] a inpos_S1x1_p0_0) * W (ix2 k (i 1))

variable (V : (c : Dev nD) → (b : Ref sig .tc) → Buf (Elt Ideal) ((c : Thread nD τ).loc b))

theorem idx_facts : ∀ t : Fin cfg2.N, win2_0.index t (0 : Fin 2) = win2_7.index t (0 : Fin 2) ∧ win2_0.index t (1 : Fin 2) = 0
    ∧ win2_1.index t (0 : Fin 2) = 0 ∧ win2_1.index t (1 : Fin 2) = 0 ∧ win2_2.index t (0 : Fin 2) = 0 ∧ win2_2.index t (1 : Fin 2) = 0
    ∧ win2_3.index t (0 : Fin 2) = 0 ∧ win2_3.index t (1 : Fin 2) = 0 ∧ win2_4.index t (0 : Fin 2) = 0 ∧ win2_4.index t (1 : Fin 2) = 0
    ∧ win2_5.index t (0 : Fin 2) = 0 ∧ win2_5.index t (1 : Fin 2) = 0 ∧ win2_6.index t (0 : Fin 2) = 0 ∧ win2_6.index t (1 : Fin 2) = 0
    ∧ win2_7.index t (1 : Fin 2) = 0 ∧ win2_7.index t (0 : Fin 2) ≤ 9 :=
  (by decide +kernel : ∀ t : Fin grid2.N, _)

theorem idx_onto : ∀ q0 : Fin 10, ∃ t : Fin cfg2.N, win2_7.index t = ![q0.val, 0] :=
  (by decide +kernel : ∀ q0 : Fin 10, ∃ t : Fin grid2.N, win2_7.index t = ![q0.val, 0])

set_option maxHeartbeats 4000000 in
theorem flushed_eq (c : Dev nD) (t : Fin cfg2.N) :
    (Fused.dat V c).flushed 7 t = ((cfg2.win 7).blk t).view.read (Elt Ideal) (G (V c (Pipeline.arrRef spec2 0)) (V c (Pipeline.arrRef spec2 2)) (V c (Pipeline.arrRef spec2 1)) (V c (Pipeline.arrRef spec2 3))
        (V c (Pipeline.arrRef spec2 4)) (V c (Pipeline.arrRef spec2 5)) (V c (Pipeline.arrRef spec2 6))) := by
  show (cfg2.win 7).cut (grid2.coords t) ((Fused.dat V c).after 7 t) = _
  rw [Fused.dat_after7]
  unfold Fused.out2
  rw [View.canon_unit_zero hz]
  simp only [View.ld_unit_zero (S := S5000x256) hz, View.ld_unit_zero (S := S1x256) hz, View.ld_unit_zero (S := S1x1) hz, View.ld_unit_zero (S := S256x256) hz]
  obtain ⟨e0, e1, e2, e3, e4, e5, e6, e7, e8, e9, e10, e11, e12, e13, e14, e15⟩ := idx_facts t
  funext j
  obtain ⟨p, q, rfl⟩ : ∃ (p : Fin 5000) (q : Fin 256), j = ix2 p q := ⟨j 0, j 1, eq_ix2 j⟩
  show k2_pay1 (F := Ideal) (tile2 V c 0 t) (tile2 V c 2 t) (tile2 V c 1 t) (tile2 V c 3 t) (tile2 V c 4 t) (tile2 V c 5 t) (tile2 V c 6 t) (ix2 p q)
      = G (V c (Pipeline.arrRef spec2 0)) (V c (Pipeline.arrRef spec2 2)) (V c (Pipeline.arrRef spec2 1)) (V c (Pipeline.arrRef spec2 3))
        (V c (Pipeline.arrRef spec2 4)) (V c (Pipeline.arrRef spec2 5)) (V c (Pipeline.arrRef spec2 6)) (((cfg2.win 7).blk t).view.emb (ix2 p q))
  rw [fused_apply]
  unfold G
  have hH : ∀ k : Fin 256, tile2 V c 0 t (ix2 p k) = V c (Pipeline.arrRef spec2 0) (ix2 ((((cfg2.win 7).blk t).view.emb (ix2 p q)) 0) k) := fun k => by
    show V c (Pipeline.arrRef spec2 0) (((cfg2.win 0).blk t).view.emb (ix2 p k)) = _
    refine congrArg _ (funext fun a => Fin.ext ?_)
    match a with
    | ⟨0, _⟩ => show win2_0.index t (0 : Fin 2) * 5000 + 1 * p.val = win2_7.index t (0 : Fin 2) * 5000 + 1 * p.val; omega
    | ⟨1, _⟩ => show win2_0.index t (1 : Fin 2) * 256 + 1 * k.val = k.val; omega
  have h1 : tile2 V c 1 t = V c (Pipeline.arrRef spec2 1) := by
    funext y
    show V c (Pipeline.arrRef spec2 1) (((cfg2.win 1).blk t).view.emb y) = _
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 256 + 1 * (y 1).val = (y 1).val; omega
  have h2 : tile2 V c 2 t = V c (Pipeline.arrRef spec2 2) := by
    funext y
    show V c (Pipeline.arrRef spec2 2) (((cfg2.win 2).blk t).view.emb y) = _
    refine congrArg _ (funext fun a => Fin.ext ?_)
    match a with
    | ⟨0, _⟩ => show win2_2.index t (0 : Fin 2) * 1 + 1 * (y 0).val = (y 0).val; omega
    | ⟨1, _⟩ => show win2_2.index t (1 : Fin 2) * 256 + 1 * (y 1).val = (y 1).val; omega
  have h3 : tile2 V c 3 t = V c (Pipeline.arrRef spec2 3) := by
    funext y
    show V c (Pipeline.arrRef spec2 3) (((cfg2.win 3).blk t).view.emb y) = _
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 256 + 1 * (y 1).val = (y 1).val; omega
  have h4 : tile2 V c 4 t = V c (Pipeline.arrRef spec2 4) := by
    funext y
    show V c (Pipeline.arrRef spec2 4) (((cfg2.win 4).blk t).view.emb y) = _
    refine congrArg _ (funext fun a => Fin.ext ?_)
    match a with
    | ⟨0, _⟩ => show win2_4.index t (0 : Fin 2) * 1 + 1 * (y 0).val = (y 0).val; omega
    | ⟨1, _⟩ => show win2_4.index t (1 : Fin 2) * 256 + 1 * (y 1).val = (y 1).val; omega
  have h5 : tile2 V c 5 t = V c (Pipeline.arrRef spec2 5) := by
    funext y
    show V c (Pipeline.arrRef spec2 5) (((cfg2.win 5).blk t).view.emb y) = _
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 1 + 1 * (y 1).val = (y 1).val; omega
  have h6 : tile2 V c 6 t = V c (Pipeline.arrRef spec2 6) := by
    funext y
    show V c (Pipeline.arrRef spec2 6) (((cfg2.win 6).blk t).view.emb y) = _
    refine congrArg _ (funext fun a => Fin.ext ?_)
    match a with
    | ⟨0, _⟩ => show win2_6.index t (0 : Fin 2) * 256 + 1 * (y 0).val = (y 0).val; omega
    | ⟨1, _⟩ => show win2_6.index t (1 : Fin 2) * 256 + 1 * (y 1).val = (y 1).val; omega
  have hq : ((((cfg2.win 7).blk t).view.emb (ix2 p q)) 1) = q := Fin.ext (by
    show win2_7.index t (1 : Fin 2) * 256 + 1 * q.val = q.val; omega)
  simp only [hH, h1, h2, h3, h4, h5, h6, hq]

theorem mem_blk (t : Fin cfg2.N) (i : S50000x256.Idx) :
    i ∈ ((cfg2.win 7).blk t).view.set ↔ ∀ a : Fin 2, win2_7.index t a * S5000x256.size a ≤ (i a).val ∧ (i a).val < win2_7.index t a * S5000x256.size a + S5000x256.size a := by
  show i ∈ ((View.whole main_v57).slice (win2_7.rect t)).set ↔ _
  rw [View.set_slice_whole, Rect.mem_set_unit]
  exact Iff.rfl

theorem cover (i : S50000x256.Idx) : ∃ t : Fin cfg2.N, (cfg2.win 7).flush t = true ∧ i ∈ ((cfg2.win 7).blk t).view.set := by
  have hi0 : (i 0).val < 50000 := (i 0).isLt
  have hi1 : (i 1).val < 256 := (i 1).isLt
  obtain ⟨t, ht⟩ := idx_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 256 ≤ (i 1).val ∧ (i 1).val < win2_7.index t (1 : Fin 2) * 256 + 256; omega

/-- What region 2 leaves in its output array. -/
theorem final (c : Dev nD) : (Fused.dat V c).arrAt 7 cfg2.N = G (V c (Pipeline.arrRef spec2 0)) (V c (Pipeline.arrRef spec2 2)) (V c (Pipeline.arrRef spec2 1)) (V c (Pipeline.arrRef spec2 3))
        (V c (Pipeline.arrRef spec2 4)) (V c (Pipeline.arrRef spec2 5)) (V c (Pipeline.arrRef spec2 6)) :=
  (Fused.dat V c).arrAt_eq_of_cover 7 _ (fun t _ => flushed_eq V c t) cover

end Cert.KernelIdeal.FusedValue

end
-- ==== Proof.Value3.lean ====
/-
  What region 3 leaves in its two output rows: at column q, the sum over all 50000 rows of the array it reads, and the
  sum of their squares. The running rows after the tiles below a grid point are, at column q, the column summed over
  the rows below 5000·t (by induction on the point: each tile adds its own 5000 rows, and tile t's rows are rows
  5000·t … 5000·t + 4999 of the array); the last point copies the two rows over the two output blocks, each block
  being its whole 1×256 array.
-/
import proofs.«160346_j84963043049900_2_alg».proof.Proof.Region3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Stats3Value

open Idealize.ShloMosaic Idealize.ShloMosaic.TcCoe Idealize.ShloMosaic.ValueIdx
open Idealize.ShloMosaic.Pipeline (Dat Cfg Window)
open Cert.KernelIdeal Cert.KernelIdeal.Gen

/-- A 256-vector cast to a 1×256 row, read at (0, q): the vector at q. -/
theorem row_of_vec (v : FVec Ideal S256 .f32) (q : Fin 256) :
    shapeCast S1x256 v shapeCasts_S256_S1x256 (ix2 (0 : Fin 1) q) = v (ix1 q) := by
  refine (shapeCast_addUnit_apply ![256] v shapeCasts_S256_S1x256 (ix2 (0 : Fin 1) q)).trans (congrArg v ?_)
  funext a; match a with | ⟨0, _⟩ => rfl

/-- The column sums of a 5000×256 tile, read at column q: the sum down the column. -/
theorem colsum_apply (x : FVec Ideal S5000x256 .f32) (hφ) (hacc) (q : Fin 256) :
    multiReduction (F := Ideal) .add [0] S256 x 0x00000000#32 reduces_S5000x256_S256 hφ hacc (ix1 q) = ∑ r : Fin 5000, x (ix2 r q) := by
  refine (Ideal.multiReduction_add_single x 0x00000000#32 reduces_S5000x256_S256 hφ hacc (ix1 q)).trans ?_
  refine Finset.sum_congr rfl fun r _ => congrArg x (funext fun a => Fin.ext ?_)
  match a with
  | ⟨0, _⟩ => rfl
  | ⟨1, _⟩ => rfl

/-- Adding a tile's column sums to a row, at column q. -/
theorem addcols_apply (x : Vec Ideal S5000x256 .f32) (s : Vec Ideal S1x256 .f32) (q : Fin 256) :
    k3_pay4 (F := Ideal) x s (ix2 (0 : Fin 1) q) = s (ix2 (0 : Fin 1) q) + ∑ r : Fin 5000, x (ix2 r q) := by
  unfold k3_pay4 k3_pay3
  simp only [shapeCast_self, addf]
  refine congrArg (s (ix2 (0 : Fin 1) q) + ·) ?_
  exact (row_of_vec _ q).trans (colsum_apply x _ _ q)

/-- Adding a tile's column sums of squares to a row, at column q. -/
theorem addsqs_apply (x : Vec Ideal S5000x256 .f32) (s : Vec Ideal S1x256 .f32) (q : Fin 256) :
    k3_pay5 (F := Ideal) x s (ix2 (0 : Fin 1) q) = s (ix2 (0 : Fin 1) q) + ∑ r : Fin 5000, x (ix2 r q) * x (ix2 r q) := by
  unfold k3_pay5 k3_pay3
  simp only [shapeCast_self, addf]
  refine congrArg (s (ix2 (0 : Fin 1) q) + ·) ?_
  exact (row_of_vec _ q).trans (colsum_apply _ _ _ q)

/-- The zero rows the first point stores. -/
theorem zero_row1 (q : Fin 256) : k3_pay1 (F := Ideal) (ix2 (0 : Fin 1) q) = 0 := by
  unfold k3_pay1; simp only [shapeCast_self]; exact Ideal.ofBits_zero_f32
theorem zero_row2 (q : Fin 256) : k3_pay2 (F := Ideal) (ix2 (0 : Fin 1) q) = 0 := by
  unfold k3_pay2; simp only [shapeCast_self]; exact Ideal.ofBits_zero_f32

open Cert.KernelIdeal.Stats3

variable (V : (c : Dev nD) → (b : Ref sig .tc) → Buf (Elt Ideal) ((c : Thread nD τ).loc b))

/-- The array the region reads, as a function into the extended reals. -/
def entry (c : Dev nD) : S50000x256.Idx → EReal := V c (Pipeline.arrRef spec3 0)

/-- Column q of a 50000×256 array as a sequence indexed by the row number (0 past the last row). -/
def colN (H : S50000x256.Idx → EReal) (q : Fin 256) (R : ℕ) : EReal := if h : R < 50000 then H (ix2 (⟨R, h⟩ : Fin 50000) q) else 0

theorem idx_facts : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 2) = 0 ∧ win3_2.index t (1 : Fin 2) = 0 :=
  (by decide +kernel : ∀ t : Fin grid3.N, _)

/-- Row r of tile t is row 5000·t + r of the array. -/
theorem tile_row (c : Dev nD) (t : Fin cfg3.N) (r : Fin 5000) (q : Fin 256) :
    tile3 V c 0 t (ix2 r q) = colN (V c (Pipeline.arrRef spec3 0)) q (5000 * t.val + r.val) := by
  have ht : t.val < 10 := Nat.lt_of_lt_of_eq t.isLt N_3
  obtain ⟨e0, e1, -⟩ := idx_facts t
  unfold colN; rw [dif_pos (by omega)]
  show V c (Pipeline.arrRef spec3 0) (((cfg3.win 0).blk t).view.emb (ix2 r q)) = _
  refine congrArg _ (funext fun a => Fin.ext ?_)
  match a with
  | ⟨0, _⟩ => show win3_0.index t (0 : Fin 2) * 5000 + 1 * r.val = 5000 * t.val + r.val; omega
  | ⟨1, _⟩ => show win3_0.index t (1 : Fin 2) * 256 + 1 * q.val = q.val; omega

/-- The running sum row after the tiles below `t`, at column q: the column summed over the rows below 5000·t. -/
theorem sum_row (c : Dev nD) (q : Fin 256) : ∀ t : Fin (cfg3.N + 1),
    (sums V c t).1 (ix2 (0 : Fin 1) q) = ∑ R ∈ Finset.range (5000 * t.val), colN (V c (Pipeline.arrRef spec3 0)) q R := by
  intro t
  induction t using Fin.induction with
  | zero => rw [sums_zero]; show k3_pay1 (F := Ideal) (ix2 (0 : Fin 1) q) = _; rw [zero_row1]; simp
  | succ t ih =>
    rw [sums_succ]
    show k3_pay4 (F := Ideal) (tile3 V c 0 t) (sums V c t.castSucc).1 (ix2 (0 : Fin 1) q) = _
    rw [addcols_apply, ih]
    simp only [tile_row]
    rw [show 5000 * (t.succ : Fin (cfg3.N + 1)).val = 5000 * (t.castSucc : Fin (cfg3.N + 1)).val + 5000 from by simp [Nat.mul_succ],
      Finset.sum_range_add, Fin.sum_univ_eq_sum_range (fun r => colN (V c (Pipeline.arrRef spec3 0)) q (5000 * t.val + r)) 5000]
    rfl

/-- The same for the running sum of squares. -/
theorem sq_row (c : Dev nD) (q : Fin 256) : ∀ t : Fin (cfg3.N + 1),
    (sums V c t).2 (ix2 (0 : Fin 1) q)
      = ∑ R ∈ Finset.range (5000 * t.val), colN (V c (Pipeline.arrRef spec3 0)) q R * colN (V c (Pipeline.arrRef spec3 0)) q R := by
  intro t
  induction t using Fin.induction with
  | zero => rw [sums_zero]; show k3_pay2 (F := Ideal) (ix2 (0 : Fin 1) q) = _; rw [zero_row2]; simp
  | succ t ih =>
    rw [sums_succ]
    show k3_pay5 (F := Ideal) (tile3 V c 0 t) (sums V c t.castSucc).2 (ix2 (0 : Fin 1) q) = _
    rw [addsqs_apply, ih]
    simp only [tile_row]
    rw [show 5000 * (t.succ : Fin (cfg3.N + 1)).val = 5000 * (t.castSucc : Fin (cfg3.N + 1)).val + 5000 from by simp [Nat.mul_succ],
      Finset.sum_range_add, Fin.sum_univ_eq_sum_range (fun r => colN (V c (Pipeline.arrRef spec3 0)) q (5000 * t.val + r) * colN (V c (Pipeline.arrRef spec3 0)) q (5000 * t.val + r)) 5000]
    rfl

/-- A sum of the column sequence over all 50000 rows is the sum over the array's rows. -/
theorem colN_total (H : S50000x256.Idx → EReal) (q : Fin 256) (f : EReal → EReal) (hf : f 0 = 0 ∨ True) :
    ∑ R ∈ Finset.range 50000, f (colN H q R) = ∑ R : Fin 50000, f (H (ix2 R q)) := by
  rw [Finset.sum_range]
  exact Finset.sum_congr rfl fun R _ => by unfold colN; rw [dif_pos R.isLt]

/-- At the end: the sum row is the column sums of the whole array, the other row the column sums of squares. -/
theorem total_sum (c : Dev nD) (q : Fin 256) :
    (sums V c (Fin.last cfg3.N)).1 (ix2 (0 : Fin 1) q) = ∑ R : Fin 50000, entry V c (ix2 R q) := by
  rw [sum_row, show 5000 * (Fin.last cfg3.N).val = 50000 from by rw [Fin.val_last, show cfg3.N = 10 from N_3]]
  exact colN_total _ q id (Or.inr trivial)
theorem total_sq (c : Dev nD) (q : Fin 256) :
    (sums V c (Fin.last cfg3.N)).2 (ix2 (0 : Fin 1) q)
      = ∑ R : Fin 50000, entry V c (ix2 R q) * entry V c (ix2 R q) := by
  rw [sq_row, show 5000 * (Fin.last cfg3.N).val = 50000 from by rw [Fin.val_last, show cfg3.N = 10 from N_3]]
  exact colN_total _ q (fun x => x * x) (Or.inr trivial)

/-- An index of the first output array lies in the block written back at the last point (the block is the whole array). -/
theorem out_mem1 (i : S1x256.Idx) : i ∈ ((cfg3.win 1).blk t3_9).view.set := by
  obtain ⟨-, -, e2, e3, e4, e5⟩ := idx_facts t3_9
  have hi0 : (i 0).val < 1 := (i 0).isLt
  have hi1 : (i 1).val < 256 := (i 1).isLt
  show i ∈ ((View.whole main_v74_0).slice (win3_1.rect t3_9)).set
  rw [View.set_slice_whole, Rect.mem_set_unit]
  intro a
  match a with
  | ⟨0, _⟩ => show win3_1.index t3_9 (0 : Fin 2) * 1 ≤ (i 0).val ∧ (i 0).val < win3_1.index t3_9 (0 : Fin 2) * 1 + 1; omega
  | ⟨1, _⟩ => show win3_1.index t3_9 (1 : Fin 2) * 256 ≤ (i 1).val ∧ (i 1).val < win3_1.index t3_9 (1 : Fin 2) * 256 + 256; omega
/-- The same for the second output array. -/
theorem out_mem2 (i : S1x256.Idx) : i ∈ ((cfg3.win 2).blk t3_9).view.set := by
  obtain ⟨-, -, e2, e3, e4, e5⟩ := idx_facts t3_9
  have hi0 : (i 0).val < 1 := (i 0).isLt
  have hi1 : (i 1).val < 256 := (i 1).isLt
  show i ∈ ((View.whole main_v74_1).slice (win3_2.rect t3_9)).set
  rw [View.set_slice_whole, Rect.mem_set_unit]
  intro a
  match a with
  | ⟨0, _⟩ => show win3_2.index t3_9 (0 : Fin 2) * 1 ≤ (i 0).val ∧ (i 0).val < win3_2.index t3_9 (0 : Fin 2) * 1 + 1; omega
  | ⟨1, _⟩ => show win3_2.index t3_9 (1 : Fin 2) * 256 ≤ (i 1).val ∧ (i 1).val < win3_2.index t3_9 (1 : Fin 2) * 256 + 256; omega

/-- The point that writes an output block back is the last one: the point after it is the end of the grid. -/
theorem succ_of_flush (t : Fin cfg3.N) (h9 : t.val % 10 = 9) : t.succ = Fin.last cfg3.N := by
  have hlt : t.val < 10 := Nat.lt_of_lt_of_eq t.isLt N_3
  refine Fin.ext ?_
  have hN : cfg3.N = 10 := N_3
  rw [Fin.val_succ, Fin.val_last]; omega

set_option maxHeartbeats 2000000 in
/-- What the region leaves in its first output array: the running sum row after all ten tiles. -/
theorem final_sum (c : Dev nD) : (Stats3.dat V c).arrAt 1 cfg3.N = (sums V c (Fin.last cfg3.N)).1 := by
  refine (Stats3.dat V c).arrAt_eq_of_cover 1 _ (fun t ht => ?_) (fun i => ⟨t3_9, (flush3_1 t3_9).2 (by decide), out_mem1 i⟩)
  have hs := succ_of_flush t ((flush3_1 t).1 ht)
  obtain ⟨-, -, e2, e3, -, -⟩ := idx_facts t
  show (cfg3.win 1).cut (grid3.coords t) ((Stats3.dat V c).after 1 t) = _
  rw [Stats3.dat_after1, hs]
  funext y
  show (sums V c (Fin.last cfg3.N)).1 y = (sums V c (Fin.last cfg3.N)).1 (((cfg3.win 1).blk t).view.emb y)
  refine congrArg _ (funext fun a => Fin.ext ?_)
  match a with
  | ⟨0, _⟩ => show (y 0).val = win3_1.index t (0 : Fin 2) * 1 + 1 * (y 0).val; omega
  | ⟨1, _⟩ => show (y 1).val = win3_1.index t (1 : Fin 2) * 256 + 1 * (y 1).val; omega

set_option maxHeartbeats 2000000 in
/-- What the region leaves in its second output array: the running row of squares after all ten tiles. -/
theorem final_sq (c : Dev nD) : (Stats3.dat V c).arrAt 2 cfg3.N = (sums V c (Fin.last cfg3.N)).2 := by
  refine (Stats3.dat V c).arrAt_eq_of_cover 2 _ (fun t ht => ?_) (fun i => ⟨t3_9, (flush3_2 t3_9).2 (by decide), out_mem2 i⟩)
  have hs := succ_of_flush t ((flush3_2 t).1 ht)
  obtain ⟨-, -, -, -, e4, e5⟩ := idx_facts t
  show (cfg3.win 2).cut (grid3.coords t) ((Stats3.dat V c).after 2 t) = _
  rw [Stats3.dat_after2, hs]
  funext y
  show (sums V c (Fin.last cfg3.N)).2 y = (sums V c (Fin.last cfg3.N)).2 (((cfg3.win 2).blk t).view.emb y)
  refine congrArg _ (funext fun a => Fin.ext ?_)
  match a with
  | ⟨0, _⟩ => show (y 0).val = win3_2.index t (0 : Fin 2) * 1 + 1 * (y 0).val; omega
  | ⟨1, _⟩ => show (y 1).val = win3_2.index t (1 : Fin 2) * 256 + 1 * (y 1).val; omega

end Cert.KernelIdeal.Stats3Value

end
-- ==== Proof.StatsApply.lean ====
/-
  The four statistics rows of the kernel. Region 1's two output rows are, at column j, the sum and the sum of squares
  down column j of region 0's output; region 3's are the same of the second layer's aggregate (the array the host
  stretch before region 3 leaves in `main_v73`).
-/
import proofs.«160346_j84963043049900_2_alg».proof.Proof.Rd
import proofs.«160346_j84963043049900_2_alg».proof.Proof.Whole
import proofs.«160346_j84963043049900_2_alg».proof.Proof.Value1
import proofs.«160346_j84963043049900_2_alg».proof.Proof.Value3

set_option maxRecDepth 16384

noncomputable section

open scoped BigOperators

namespace Cert.KernelIdeal.StatsApply

open Idealize.ShloMosaic Idealize.ShloMosaic.TcCoe Idealize.ShloMosaic.ValueIdx Idealize.SL.Sem
open Cert.KernelIdeal Cert.KernelIdeal.Gen Cert.KernelIdeal.Whole

variable (m : (ℓ : Loc nD τ sig) → Buf (Elt Ideal) ℓ)

/-- Region 1 reads region 0's output. -/
theorem entry1 (c : Dev nD) : Stats1Value.entry (byRef (S4 m)) c = (Cert.rd S50000x256 (o44 m c)) := by
  unfold Stats1Value.entry S4
  exact Function.update_self (Proc.devRef .tc main_v44 : DevRef τ sig) (o44 m c) (S3 m c)

/-- Region 3 reads the second layer's aggregate. -/
theorem entry3 (c : Dev nD) : Stats3Value.entry (byRef (S8 m)) c = (Cert.rd S50000x256 (S8 m c main_v73)) := rfl

theorem sum0 (c : Dev nD) (j : Fin 256) :
    (Cert.rd S1x256 (o45_0 m c)) (ix2 (0 : Fin 1) j) = ∑ R : Fin 50000, (Cert.rd S50000x256 (o44 m c)) (ix2 R j) := by
  unfold o45_0
  rw [Stats1Value.final_sum]
  exact (Stats1Value.total_sum (byRef (S4 m)) c j).trans (by rw [entry1])
theorem sq0 (c : Dev nD) (j : Fin 256) :
    (Cert.rd S1x256 (o45_1 m c)) (ix2 (0 : Fin 1) j)
      = ∑ R : Fin 50000, (Cert.rd S50000x256 (o44 m c)) (ix2 R j) * (Cert.rd S50000x256 (o44 m c)) (ix2 R j) := by
  unfold o45_1
  rw [Stats1Value.final_sq]
  exact (Stats1Value.total_sq (byRef (S4 m)) c j).trans (by rw [entry1])
theorem sum1 (c : Dev nD) (j : Fin 256) :
    (Cert.rd S1x256 (o74_0 m c)) (ix2 (0 : Fin 1) j) = ∑ R : Fin 50000, (Cert.rd S50000x256 (S8 m c main_v73)) (ix2 R j) := by
  unfold o74_0
  rw [Stats3Value.final_sum]
  exact (Stats3Value.total_sum (byRef (S8 m)) c j).trans (by rw [entry3])
theorem sq1 (c : Dev nD) (j : Fin 256) :
    (Cert.rd S1x256 (o74_1 m c)) (ix2 (0 : Fin 1) j)
      = ∑ R : Fin 50000, (Cert.rd S50000x256 (S8 m c main_v73)) (ix2 R j) * (Cert.rd S50000x256 (S8 m c main_v73)) (ix2 R j) := by
  unfold o74_1
  rw [Stats3Value.final_sq]
  exact (Stats3Value.total_sq (byRef (S8 m)) c j).trans (by rw [entry3])

end Cert.KernelIdeal.StatsApply

end
-- ==== Proof.RegionInputs.lean ====
/-
  What the two normalising regions find in their input arrays. Region 2 finds region 0's output, the mean and clamped
  variance rows computed from region 1's two rows, the first layer's scale, shift and slope reshaped to rows, and the
  second layer's weight matrix. Region 4 finds the second layer's aggregate, the rows computed from region 3's two rows,
  and the second layer's scale, shift and slope. Everything not written in between is carried along unchanged.
-/
import proofs.«160346_j84963043049900_2_alg».proof.Proof.HostK

set_option maxRecDepth 16384

noncomputable section

namespace Cert.KernelIdeal.RegionInputs

open Idealize.ShloMosaic Idealize.ShloMosaic.TcCoe Idealize.SL.Sem Idealize.ShloMosaic.StableHlo
open Cert.KernelIdeal Cert.KernelIdeal.Gen Cert.KernelIdeal.Whole Cert.KernelIdeal.HostK

variable {F : FTy → Type} [FloatOps F]
variable (m : (ℓ : Loc nD τ sig) → Buf (Elt F) ℓ)

/-! ## Results carried between stages -/

theorem o44_at4 (c : Dev nD) : S4 m c main_v44 = o44 m c := by
  unfold S4; exact Function.update_self (Proc.devRef .tc main_v44 : DevRef τ sig) (o44 m c) (S3 m c)
theorem o45_0_at5 (c : Dev nD) : S5 m c main_v45_0 = o45_0 m c := by
  unfold S5
  exact (Function.update_of_ne (ne_ref (by decide : main_v45_0 ≠ main_v45_1)) (o45_1 m c) (Function.update (S4 m c) main_v45_0 (o45_0 m c))).trans
    (Function.update_self (Proc.devRef .tc main_v45_0 : DevRef τ sig) (o45_0 m c) (S4 m c))
theorem o45_1_at5 (c : Dev nD) : S5 m c main_v45_1 = o45_1 m c := by
  unfold S5; exact Function.update_self (Proc.devRef .tc main_v45_1 : DevRef τ sig) (o45_1 m c) (Function.update (S4 m c) main_v45_0 (o45_0 m c))
theorem o57_at7 (c : Dev nD) : S7 m c main_v57 = o57 m c := by
  unfold S7; exact Function.update_self (Proc.devRef .tc main_v57 : DevRef τ sig) (o57 m c) (S6 m c)
theorem o74_0_at9 (c : Dev nD) : S9 m c main_v74_0 = o74_0 m c := by
  unfold S9
  exact (Function.update_of_ne (ne_ref (by decide : main_v74_0 ≠ main_v74_1)) (o74_1 m c) (Function.update (S8 m c) main_v74_0 (o74_0 m c))).trans
    (Function.update_self (Proc.devRef .tc main_v74_0 : DevRef τ sig) (o74_0 m c) (S8 m c))
theorem o74_1_at9 (c : Dev nD) : S9 m c main_v74_1 = o74_1 m c := by
  unfold S9; exact Function.update_self (Proc.devRef .tc main_v74_1 : DevRef τ sig) (o74_1 m c) (Function.update (S8 m c) main_v74_0 (o74_0 m c))

/-! ## Region 2's inputs -/

theorem in2_H (c : Dev nD) : S6 m c main_v44 = o44 m c :=
  (S6_old m c _ (by decide)).trans ((S5_old m c _ (by decide) (by decide)).trans (o44_at4 m c))
theorem in2_mean (c : Dev nD) : S6 m c main_v47 = meanOf (o45_0 m c) := by rw [mean0, o45_0_at5]
theorem in2_var (c : Dev nD) : S6 m c main_v53 = varOf (o45_0 m c) (o45_1 m c) := by rw [var0, o45_0_at5, o45_1_at5]
theorem arg_at5 (c : Dev nD) (r : Ref sig .tc) (h3 : r ∉ hostOps0_W ∧ r ∉ hostOps0_1_W ∧ r ∉ hostOps0_2_W) (h4 : r ≠ main_v44) (h5 : r ≠ main_v45_0 ∧ r ≠ main_v45_1) :
    S5 m c r = m ((c.tc : Thread nD τ).loc r) :=
  (S5_old m c r h5.1 h5.2).trans ((S4_old m c r h4).trans (arg_at3 m c r h3.1 h3.2.1 h3.2.2))
theorem in2_w (c : Dev nD) : S6 m c main_v54 = shapeCast S1x256 (m ((c.tc : Thread nD τ).loc main_arg4)) shapeCasts_S256_S1x256 := by
  rw [scale0, arg_at5 m c main_arg4 (by decide) (by decide) (by decide)]
theorem in2_b (c : Dev nD) : S6 m c main_v55 = shapeCast S1x256 (m ((c.tc : Thread nD τ).loc main_arg5)) shapeCasts_S256_S1x256 := by
  rw [shift0, arg_at5 m c main_arg5 (by decide) (by decide) (by decide)]
theorem in2_a (c : Dev nD) : S6 m c main_v56 = shapeCast S1x1 (m ((c.tc : Thread nD τ).loc main_arg6)) shapeCasts_S1_S1x1 := by
  rw [slope0, arg_at5 m c main_arg6 (by decide) (by decide) (by decide)]
theorem in2_W (c : Dev nD) : S6 m c main_arg7 = (m ((c.tc : Thread nD τ).loc main_arg7)) :=
  (S6_old m c _ (by decide)).trans (arg_at5 m c main_arg7 (by decide) (by decide) (by decide))

/-! ## Region 4's inputs -/

theorem in4_H (c : Dev nD) : S10 m c main_v73 = S8 m c main_v73 :=
  (S10_old m c _ (by decide)).trans (S9_old m c _ (by decide) (by decide))
theorem in4_mean (c : Dev nD) : S10 m c main_v76 = meanOf (o74_0 m c) := by rw [mean1, o74_0_at9]
theorem in4_var (c : Dev nD) : S10 m c main_v82 = varOf (o74_0 m c) (o74_1 m c) := by rw [var1, o74_0_at9, o74_1_at9]
theorem arg_at9 (c : Dev nD) (r : Ref sig .tc) (h3 : r ∉ hostOps0_W ∧ r ∉ hostOps0_1_W ∧ r ∉ hostOps0_2_W) (h4 : r ≠ main_v44) (h5 : r ≠ main_v45_0 ∧ r ≠ main_v45_1)
    (h6 : r ∉ hostOps2_W) (h7 : r ≠ main_v57) (h8 : r ∉ hostOps3_W) (h9 : r ≠ main_v74_0 ∧ r ≠ main_v74_1) :
    S9 m c r = m ((c.tc : Thread nD τ).loc r) :=
  (S9_old m c r h9.1 h9.2).trans ((S8_old m c r h8).trans ((S7_old m c r h7).trans ((S6_old m c r h6).trans (arg_at5 m c r h3 h4 h5))))
theorem in4_w (c : Dev nD) : S10 m c main_v83 = shapeCast S1x256 (m ((c.tc : Thread nD τ).loc main_arg9)) shapeCasts_S256_S1x256 := by
  rw [scale1, arg_at9 m c main_arg9 (by decide) (by decide) (by decide) (by decide) (by decide) (by decide) (by decide)]
theorem in4_b (c : Dev nD) : S10 m c main_v84 = shapeCast S1x256 (m ((c.tc : Thread nD τ).loc main_arg10)) shapeCasts_S256_S1x256 := by
  rw [shift1, arg_at9 m c main_arg10 (by decide) (by decide) (by decide) (by decide) (by decide) (by decide) (by decide)]
theorem in4_a (c : Dev nD) : S10 m c main_v85 = shapeCast S1x1 (m ((c.tc : Thread nD τ).loc main_arg11)) shapeCasts_S1_S1x1 := by
  rw [slope1, arg_at9 m c main_arg11 (by decide) (by decide) (by decide) (by decide) (by decide) (by decide) (by decide)]

end Cert.KernelIdeal.RegionInputs

end
-- ==== Proof.NormReal.lean ====
import proofs.«160346_j84963043049900_2_alg».proof.Proof.RefReadP
import proofs.«160346_j84963043049900_2_alg».proof.Proof.Reals
import proofs.«160346_j84963043049900_2_alg».proof.Proof.Consts
import Idealize.ShloMosaic.PureOps.Ideal

/-!
# The normalisation weights are reals

The degree of a node is `0` plus a finite sum of ones, hence a real `≥ 0`. Its inverse square
root, with `0` in place of the value at degree `0`, is therefore a real: where the degree is
positive the reciprocal square root of a positive real is a real, and elsewhere the entry is
the constant `0`. The weight of an edge is the product of two entries of that vector (those at
the edge's two end points, whichever they are), hence a real.

The two facts about a scatter-add and a gather are stated over arbitrary shapes, so that their
proofs open the definitions where no size is a literal.
-/

namespace Cert.NormReal
open Idealize.ShloMosaic Cert.ReferenceIdeal Cert.ReferenceIdeal.ReadP Cert.Reals

/-- `x` is the embedding of a nonnegative real. -/
def IsNonnegReal (x : EReal) : Prop := ∃ r : ℝ, 0 ≤ r ∧ x = (r : EReal)

/-- A finite sum of nonnegative reals is a nonnegative real. -/
theorem isNonnegReal_sum {ι : Type} (s : Finset ι) (f : ι → EReal) (h : ∀ j ∈ s, IsNonnegReal (f j)) :
    IsNonnegReal (∑ j ∈ s, f j) := by
  refine Finset.sum_induction f IsNonnegReal ?_ ⟨0, le_rfl, EReal.coe_zero.symm⟩ h
  rintro a b ⟨ra, ha0, rfl⟩ ⟨rb, hb0, rfl⟩
  exact ⟨ra + rb, add_nonneg ha0 hb0, (EReal.coe_add ra rb).symm⟩

/-- A scatter-add of nonnegative reals into nonnegative reals: every entry is its old value plus
    a finite sum of updates, a nonnegative real. -/
theorem hostScatterAdd_nonnegReal {s si su : Shape} (d : ScatterDims s si su) {w : Nat}
    (x : s.Idx → EReal) (idx : IVec si w) (upd : su.Idx → EReal)
    (hx : ∀ i, IsNonnegReal (x i)) (hu : ∀ j, IsNonnegReal (upd j)) (i : s.Idx) :
    IsNonnegReal (Ideal.hostScatterAdd d x idx upd i) := by
  unfold Ideal.hostScatterAdd
  obtain ⟨a, ha0, ha⟩ := hx i
  obtain ⟨b, hb0, hb⟩ := isNonnegReal_sum
    (Finset.univ.filter (fun j => d.resultIdx? j idx = some i)) upd (fun j _ => hu j)
  exact ⟨a + b, add_nonneg ha0 hb0, by rw [ha, hb, EReal.coe_add]⟩

/-- Every entry of a gather is an entry of its operand. -/
theorem gather_real {s si t : Shape} {w : Nat} (d : GatherDims s si t) (x : s.Idx → EReal)
    (idx : IVec si w) (hx : ∀ i, IsReal (x i)) (j : t.Idx) : IsReal (Host.gather d x idx j) :=
  hx _

-- from here on the scatter-add is opened only through the general lemma above
attribute [local irreducible] Ideal.hostScatterAdd

/-- Every update of the degree's scatter is the constant `1`. -/
theorem v7_eq_one (j : S850000.Idx) : val_main_v7 (F := Ideal) j = 1 := by
  rw [val_main_v7_apply, val_main_cst_apply, Ideal.ofBits_def, Cert.Consts.ofBits_one]

/-- The degree's scatter starts from the constant `0`. -/
theorem v8_eq_zero (i : S50000.Idx) : val_main_v8 (F := Ideal) i = 0 := by
  rw [val_main_v8_apply, val_main_cst_0_apply, Ideal.ofBits_def, Cert.Consts.ofBits_zero]

/-- The degree of a node: `0` plus a sum of ones over the edges that land on it, a real `≥ 0`. -/
theorem deg_nonnegReal (x1 : (⟨S2x800000, .i32⟩ : BufTy).Contents (Elt Ideal)) (i : S50000.Idx) :
    IsNonnegReal (val_main_v10 (F := Ideal) x1 i) := by
  have e : val_main_v10 (F := Ideal) x1
      = Ideal.hostScatterAdd scatter_S50000_S850000x1_S850000_n_0_0_1 (val_main_v8 (F := Ideal))
          (val_main_v9 (F := Ideal) x1) (val_main_v7 (F := Ideal)) := rfl
  rw [e]
  exact hostScatterAdd_nonnegReal _ _ _ _
    (fun i => ⟨0, le_rfl, (v8_eq_zero i).trans EReal.coe_zero.symm⟩)
    (fun j => ⟨1, zero_le_one, (v7_eq_one j).trans EReal.coe_one.symm⟩) i

/-- The fill value of the select is the constant `0`. -/
theorem call0_v1_eq_zero (i : S50000.Idx) : val_main_call0_v1 (F := Ideal) i = 0 := by
  rw [val_main_call0_v1_apply, val_main_call0_v0_apply, val_main_cst_2_apply, Ideal.ofBits_def,
    Cert.Consts.ofBits_zero]

/-- The threshold of the comparison is the constant `0`. -/
theorem v11_eq_zero (i : S50000.Idx) : val_main_v11 (F := Ideal) i = 0 := by
  rw [val_main_v11_apply, val_main_cst_1_apply, Ideal.ofBits_def, Cert.Consts.ofBits_zero]

/-- The inverse square root of the degree, `0` where the degree is not positive: a real. -/
theorem dinv_real (x1 : (⟨S2x800000, .i32⟩ : BufTy).Contents (Elt Ideal)) (i : S50000.Idx) :
    IsReal (val_main_v14 (F := Ideal) x1 i) := by
  rw [val_main_v14_apply]
  unfold Scalar.select
  split
  · -- the comparison says the degree is positive
    rename_i hc
    obtain ⟨r, _, hr⟩ := deg_nonnegReal x1 i
    rw [val_main_v12_apply, v11_eq_zero, hr] at hc
    have hc' : BitVec.ofBool (decide ((0 : EReal) < (r : EReal))) = 1#1 := hc
    have hpos : (0 : EReal) < (r : EReal) := by
      by_cases hp : (0 : EReal) < (r : EReal)
      · exact hp
      · rw [decide_eq_false hp] at hc'
        exact absurd hc' (by decide)
    rw [val_main_v13_apply, Ideal.hostUnary_rsqrt_def, hr]
    exact isReal_rsqrt_pos (EReal.coe_pos.1 hpos)
  · rw [call0_v1_eq_zero]
    exact isReal_zero

/-- The weight of an edge is the product of two entries of the inverse square root vector. -/
theorem wt_real (x1 : (⟨Cert.ReferenceIdeal.S2x800000, .i32⟩ : BufTy).Contents (Elt Ideal))
    (i : Cert.ReferenceIdeal.S850000.Idx) :
    Cert.Reals.IsReal (Cert.ReferenceIdeal.ReadP.val_main_v29 (F := Ideal) x1 i) := by
  have e21 : val_main_v21 (F := Ideal) x1
      = Host.gather gather_S50000_S850000x1_S850000_n_0_n_n_0_1_1 (val_main_v14 (F := Ideal) x1)
          (val_main_v20 (F := Ideal) x1) := rfl
  have e28 : val_main_v28 (F := Ideal) x1
      = Host.gather gather_S50000_S850000x1_S850000_n_0_n_n_0_1_1 (val_main_v14 (F := Ideal) x1)
          (val_main_v27 (F := Ideal) x1) := rfl
  rw [val_main_v29_apply, Ideal.mulf_def, e21, e28]
  exact IsReal.mul (gather_real _ _ _ (dinv_real x1) i) (gather_real _ _ _ (dinv_real x1) i)

end Cert.NormReal
-- ==== Proof.RefReal.lean ====
import proofs.«160346_j84963043049900_2_alg».proof.Proof.RefReadP
import proofs.«160346_j84963043049900_2_alg».proof.Proof.RefAct
import proofs.«160346_j84963043049900_2_alg».proof.Proof.Layer0Ref
import proofs.«160346_j84963043049900_2_alg».proof.Proof.Reals
import proofs.«160346_j84963043049900_2_alg».proof.Proof.Consts
import proofs.«160346_j84963043049900_2_alg».proof.Proof.BNBridge
import proofs.«160346_j84963043049900_2_alg».proof.Proof.NormReal

/-!
# The reference's intermediate arrays are real-valued

When every entry of every float argument is a real, so is every entry of each array the
reference computes on the way: the first aggregation (a finite sum of products of reals plus a
real), the normalise-scale-shift-rectify block applied to it, the product with the second
weight matrix, and the second aggregation.

The one step that is not closure under `+`, `-`, `*` and finite sums is the reciprocal square
root in the normalisation: its argument is a column's variance plus ε. The variance is a finite
sum of squares of reals divided by a positive real, hence a real `≥ 0`; ε is a positive real; so
the argument is a positive real and its reciprocal square root is a real.

The facts about a scatter-add, a gather and a reshape are stated over arbitrary shapes, so that
their proofs open the definitions where no size is a literal.
-/

namespace Cert.RefReal
open Idealize.ShloMosaic Idealize.ShloMosaic.ValueIdx
open Cert.ReferenceIdeal Cert.ReferenceIdeal.ReadP Cert.ReferenceIdeal.Act Cert.Reals Cert.NormReal

/-! ## Three general facts -/

/-- A scatter-add of reals into reals: every entry is its old value plus a finite sum of updates. -/
theorem hostScatterAdd_real {s si su : Shape} (d : ScatterDims s si su) {w : Nat}
    (x : s.Idx → EReal) (idx : IVec si w) (upd : su.Idx → EReal)
    (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- Every entry of a reshaped array is an entry of the array. -/
theorem shapeCast_real {s t : Shape} (x : s.Idx → EReal) (h : s.ShapeCasts t)
    (hx : ∀ i, IsReal (x i)) (j : t.Idx) : IsReal (shapeCast t x h j) :=
  hx _

/-- A nonnegative real is a real. -/
theorem IsNonnegReal.isReal {x : EReal} (h : IsNonnegReal x) : IsReal x := by
  obtain ⟨r, _, rfl⟩ := h
  exact isReal_coe r

/-! ## The normalisation, as numbers -/

/-- The squared deviation of a real from a real is a real `≥ 0`. -/
theorem sq_dev_nonnegReal {h μ : EReal} (hh : IsReal h) (hμ : IsReal μ) :
    IsNonnegReal ((h - μ) * (h - μ)) := by
  obtain ⟨a, rfl⟩ := hh
  obtain ⟨m, rfl⟩ := hμ
  exact ⟨(a - m) * (a - m), mul_self_nonneg _, by rw [← EReal.coe_sub, ← EReal.coe_mul]⟩

/-- The mean of a column of reals is a real: a finite sum of reals divided by the real `50000`. -/
theorem mu_real (H : (⟨S50000x256, .f32⟩ : BufTy).Contents (Elt Ideal)) (hH : ∀ i, IsReal (H i)) (j : Fin 256) :
    IsReal (mu H j) := by
  unfold mu
  rw [Cert.Consts.ofBits_50000]
  exact IsReal.div_real (isReal_ofBits_zero.add (isReal_sum _ _ fun R _ => hH _)) (by norm_num)

/-- The variance of a column of reals is a real `≥ 0`: a finite sum of squares, times `1/50000`. -/
theorem sigma2_nonnegReal (H : (⟨S50000x256, .f32⟩ : BufTy).Contents (Elt Ideal)) (hH : ∀ i, IsReal (H i)) (j : Fin 256) :
    IsNonnegReal (sigma2 H j) := by
  have hsum : IsNonnegReal (∑ R : Fin 50000, (H (ix2 R j) - mu H j) * (H (ix2 R j) - mu H j)) :=
    isNonnegReal_sum _ _ fun R _ => sq_dev_nonnegReal (hH _) (mu_real H hH j)
  obtain ⟨s, hs0, hs⟩ := hsum
  unfold sigma2
  rw [hs, Cert.Consts.ofBits_zero, zero_add, Cert.BNBridge.div_count]
  exact ⟨s * (1 / 50000), mul_nonneg hs0 (by norm_num), (EReal.coe_mul _ _).symm⟩

/-- The normalised, scaled and shifted entry is a real: the variance plus ε is a positive real. -/
theorem normR_real {h μ v w b : EReal} (hh : IsReal h) (hμ : IsReal μ) (hv : IsNonnegReal v)
    (hw : IsReal w) (hb : IsReal b) : IsReal (normR h μ v w b) := by
  obtain ⟨s, hs0, rfl⟩ := hv
  unfold normR
  rw [Cert.Consts.ofBits_eps, ← EReal.coe_add]
  exact (((hh.sub hμ).mul
    (isReal_rsqrt_pos (add_pos_of_nonneg_of_pos hs0 Cert.Consts.eps_pos))).mul hw).add hb

/-- The rectifier chooses between a real and a product of reals. -/
theorem leakyR_real {x a : EReal} (hx : IsReal x) (ha : IsReal a) : IsReal (leakyR x a) := by
  unfold leakyR
  exact IsReal.select hx (ha.mul hx)

/-! ## The arrays -/

/-- (1) The block applied to real arrays gives a real array. -/
theorem act_real (H : (⟨S50000x256, .f32⟩ : BufTy).Contents (Elt Ideal)) (w b : (⟨S256, .f32⟩ : BufTy).Contents (Elt Ideal)) (a : (⟨S1, .f32⟩ : BufTy).Contents (Elt Ideal))
    (hH : ∀ i, IsReal (H i)) (hw : ∀ i, IsReal (w i)) (hb : ∀ i, IsReal (b i))
    (ha : ∀ i, IsReal (a i)) : ∀ i, IsReal (act (F := Ideal) H w b a i) := by
  intro i
  obtain ⟨r, j, rfl⟩ : ∃ r j, i = ix2 r j := ⟨_, _, eq_ix2 i⟩
  rw [act_apply]
  exact leakyR_real
    (normR_real (hH _) (mu_real H hH j) (sigma2_nonnegReal H hH j) (hw _) (hb _))
    (shapeCast_real a _ ha _)

/-- (2) The first aggregation: the zero, plus over the edges into a node a finite sum of reals
    times the edge's weight, plus the bias. -/
theorem v46_real (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (h0 : ∀ i, IsReal (x0 i)) (h2 : ∀ i, IsReal (x2 i)) (h3 : ∀ i, IsReal (x3 i)) :
    ∀ i, IsReal (val_main_v46 (F := Ideal) x0 x1 x2 x3 i) := by
  intro i
  obtain ⟨n, j, rfl⟩ : ∃ n j, i = ix2 n j := ⟨_, _, eq_ix2 i⟩
  rw [Cert.ReferenceIdeal.Layer0.h0_apply]
  exact (isReal_ofBits_zero.add (isReal_sum _ _ fun e _ =>
    (isReal_sum _ _ fun k _ => (h0 _).mul (h2 _)).mul (wt_real x1 _))).add (h3 _)

/-- (3) The block applied to the first aggregation. -/
theorem v77_real (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 x4 x5 : (⟨S256, .f32⟩ : BufTy).Contents (Elt Ideal))
    (x6 : (⟨S1, .f32⟩ : BufTy).Contents (Elt Ideal))
    (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i)) :
    ∀ i, IsReal (val_main_v77 (F := Ideal) x0 x1 x2 x3 x4 x5 x6 i) := by
  rw [stage77]
  exact act_real _ _ _ _ (v46_real x0 x1 x2 x3 h0 h2 h3) h4 h5 h6

/-- (4) The product with the second weight matrix: a finite sum of products of reals. -/
theorem v78_real (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 x4 x5 : (⟨S256, .f32⟩ : BufTy).Contents (Elt Ideal))
    (x6 : (⟨S1, .f32⟩ : BufTy).Contents (Elt Ideal)) (x7 : (⟨S256x256, .f32⟩ : BufTy).Contents (Elt Ideal))
    (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i))
    (h7 : ∀ i, IsReal (x7 i)) :
    ∀ i, IsReal (val_main_v78 (F := Ideal) x0 x1 x2 x3 x4 x5 x6 x7 i) := by
  intro i
  rw [val_main_v78_apply]
  exact isReal_sum _ _ fun k _ => (v77_real x0 x1 x2 x3 x4 x5 x6 h0 h2 h3 h4 h5 h6 _).mul (h7 _)

-- from here on the scatter-add is opened only through the general lemma above
attribute [local irreducible] Ideal.hostScatterAdd

/-- (5) The second aggregation: a scatter-add, into zeros, of gathered entries of the product
    times the edges' weights, plus the bias. -/
theorem v94_real (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 x4 x5 : (⟨S256, .f32⟩ : BufTy).Contents (Elt Ideal))
    (x6 : (⟨S1, .f32⟩ : BufTy).Contents (Elt Ideal)) (x7 : (⟨S256x256, .f32⟩ : BufTy).Contents (Elt Ideal)) (x8 : (⟨S256, .f32⟩ : BufTy).Contents (Elt Ideal))
    (h0 : ∀ i, IsReal (x0 i)) (h2 : ∀ i, IsReal (x2 i)) (h3 : ∀ i, IsReal (x3 i))
    (h4 : ∀ i, IsReal (x4 i)) (h5 : ∀ i, IsReal (x5 i)) (h6 : ∀ i, IsReal (x6 i))
    (h7 : ∀ i, IsReal (x7 i)) (h8 : ∀ i, IsReal (x8 i)) :
    ∀ i, IsReal (val_main_v94 (F := Ideal) x0 x1 x2 x3 x4 x5 x6 x7 x8 i) := by
  intro i
  have e91 : val_main_v91 (F := Ideal) x0 x1 x2 x3 x4 x5 x6 x7
      = Ideal.hostScatterAdd scatter_S50000x256_S850000x1_S850000x256_1_0_0_1
          (val_main_v89 (F := Ideal)) (val_main_v90 (F := Ideal) x1)
          (val_main_v88 (F := Ideal) x0 x1 x2 x3 x4 x5 x6 x7) := rfl
  have e85 : val_main_v85 (F := Ideal) x0 x1 x2 x3 x4 x5 x6 x7
      = Host.gather gather_S50000x256_S850000x1_S850000x256_1_0_n_n_0_1_1256
          (val_main_v78 (F := Ideal) x0 x1 x2 x3 x4 x5 x6 x7) (val_main_v84 (F := Ideal) x1) := rfl
  rw [val_main_v94_apply, Ideal.addf_def, e91]
  refine (hostScatterAdd_real _ _ _ _ (fun i => ?_) (fun j => ?_) i).add ?_
  · rw [val_main_v89_apply, val_main_cst_17_apply, Ideal.ofBits_def]
    exact isReal_ofBits_zero
  · rw [val_main_v88_apply, Ideal.mulf_def, e85, val_main_v87_apply, val_main_v86_apply]
    exact (gather_real _ _ _ (v78_real x0 x1 x2 x3 x4 x5 x6 x7 h0 h2 h3 h4 h5 h6 h7) j).mul
      (wt_real x1 _)
  · rw [val_main_v93_apply, val_main_v92_apply]
    exact h8 _

end Cert.RefReal
-- ==== Proof.FusedEq.lean ====
/-
  Region 2's output is the reference's second matrix product. Entry (r, j) of each is the sum over k of the first
  layer's normalised, rectified entry (r, k) times W1 at (k, j); the normalised entries agree by the shared entry
  lemma, region 2 reading region 0's output (equal to the reference's first convolution), the rows computed from its
  column sums and column sums of squares, and the first layer's scale, shift and slope.
-/
import proofs.«160346_j84963043049900_2_alg».proof.Proof.Layer0
import proofs.«160346_j84963043049900_2_alg».proof.Proof.EntryEq
import proofs.«160346_j84963043049900_2_alg».proof.Proof.Value2
import proofs.«160346_j84963043049900_2_alg».proof.Proof.StatsApply
import proofs.«160346_j84963043049900_2_alg».proof.Proof.RegionInputs
import proofs.«160346_j84963043049900_2_alg».proof.Proof.RefReal
import proofs.«160346_j84963043049900_2_alg».proof.Proof.NormReal

set_option maxRecDepth 16384

noncomputable section

open scoped BigOperators

namespace Cert.KernelIdeal.FusedEq

open Idealize.ShloMosaic Idealize.ShloMosaic.TcCoe Idealize.ShloMosaic.ValueIdx Idealize.SL.Sem
open Cert.KernelIdeal Cert.KernelIdeal.Gen Cert.KernelIdeal.Whole Cert.KernelIdeal.HostK Cert.Reals
open Cert.ReferenceIdeal.ReadP (val_main_v46 val_main_v77 val_main_v78 val_main_v78_apply)

variable (m : (ℓ : Loc nD τ sig) → Buf (Elt Ideal) ℓ)

/-- The first convolution's output, the kernel's and the reference's, as one real-valued array. -/
theorem h0 (hpre : @Cert.Pre_KernelIdeal Cert.Pre_finite_inputs.Gen.facts m) (c : Dev nD) :
    Cert.rd S50000x256 (o44 m c) = val_main_v46 (F := Ideal) (m ((c.tc : Thread nD τ).loc main_arg0)) (m ((c.tc : Thread nD τ).loc main_arg1)) (m ((c.tc : Thread nD τ).loc main_arg2)) (m ((c.tc : Thread nD τ).loc main_arg3)) :=
  Cert.KernelIdeal.Layer0.h0_eq m hpre c fun e => Cert.NormReal.wt_real _ (ix1 e)

theorem h0_real (hpre : @Cert.Pre_KernelIdeal Cert.Pre_finite_inputs.Gen.facts m) (c : Dev nD) :
    ∀ i, IsReal (val_main_v46 (F := Ideal) (m ((c.tc : Thread nD τ).loc main_arg0)) (m ((c.tc : Thread nD τ).loc main_arg1)) (m ((c.tc : Thread nD τ).loc main_arg2)) (m ((c.tc : Thread nD τ).loc main_arg3)) i) := by
  obtain ⟨r0, r2, r3, -⟩ := Cert.PreReal.args_real m hpre c
  exact Cert.RefReal.v46_real _ _ _ _ r0 r2 r3

set_option maxHeartbeats 2000000 in
theorem z1_eq (hpre : @Cert.Pre_KernelIdeal Cert.Pre_finite_inputs.Gen.facts m) (c : Dev nD) :
    Cert.rd S50000x256 (S7 m c main_v57) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hh0 := h0 m hpre c
  have hH := h0_real m hpre c
  have hs : ∀ k : Fin 256, Cert.rd S1x256 (o45_0 m c) (ix2 (0 : Fin 1) k) = ∑ R : Fin 50000, val_main_v46 (F := Ideal) (m ((c.tc : Thread nD τ).loc main_arg0)) (m ((c.tc : Thread nD τ).loc main_arg1)) (m ((c.tc : Thread nD τ).loc main_arg2)) (m ((c.tc : Thread nD τ).loc main_arg3)) (ix2 R k) := fun k =>
    (StatsApply.sum0 m c k).trans (by rw [hh0])
  have hq : ∀ k : Fin 256, Cert.rd S1x256 (o45_1 m c) (ix2 (0 : Fin 1) k)
      = ∑ R : Fin 50000, val_main_v46 (F := Ideal) (m ((c.tc : Thread nD τ).loc main_arg0)) (m ((c.tc : Thread nD τ).loc main_arg1)) (m ((c.tc : Thread nD τ).loc main_arg2)) (m ((c.tc : Thread nD τ).loc main_arg3)) (ix2 R k) * val_main_v46 (F := Ideal) (m ((c.tc : Thread nD τ).loc main_arg0)) (m ((c.tc : Thread nD τ).loc main_arg1)) (m ((c.tc : Thread nD τ).loc main_arg2)) (m ((c.tc : Thread nD τ).loc main_arg3)) (ix2 R k) := fun k =>
    (StatsApply.sq0 m c k).trans (by rw [hh0])
  rw [RegionInputs.o57_at7]
  funext i
  obtain ⟨r, j, rfl⟩ : ∃ (r : Fin 50000) (j : Fin 256), i = ix2 r j := ⟨i 0, i 1, eq_ix2 i⟩
  unfold o57
  rw [Cert.KernelIdeal.FusedValue.final]
  show Cert.KernelIdeal.FusedValue.G (S6 m c main_v44) (S6 m c main_v53) (S6 m c main_v47) (S6 m c main_v54) (S6 m c main_v55) (S6 m c main_v56)
      (S6 m c main_arg7) (ix2 r j) = _
  rw [RegionInputs.in2_H, RegionInputs.in2_var, RegionInputs.in2_mean, RegionInputs.in2_w, RegionInputs.in2_b, RegionInputs.in2_a, RegionInputs.in2_W]
  unfold Cert.KernelIdeal.FusedValue.G
  rw [val_main_v78_apply]
  refine Finset.sum_congr rfl fun k _ => ?_
  refine congrArg₂ (fun a b : EReal => a * b) ?_ ?_
  · have e := Cert.KernelIdeal.EntryEq.entry_eq (val_main_v46 (F := Ideal) (m ((c.tc : Thread nD τ).loc main_arg0)) (m ((c.tc : Thread nD τ).loc main_arg1)) (m ((c.tc : Thread nD τ).loc main_arg2)) (m ((c.tc : Thread nD τ).loc main_arg3))) hH (o45_0 m c) (o45_1 m c) hs hq (m ((c.tc : Thread nD τ).loc main_arg4)) (m ((c.tc : Thread nD τ).loc main_arg5)) (m ((c.tc : Thread nD τ).loc main_arg6)) r k
    rw [← Cert.ReferenceIdeal.Act.stage77] at e
    refine Eq.trans ?_ (e.trans (congrArg (val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (funext fun a => Fin.ext (by match a with | ⟨0, _⟩ => rfl | ⟨1, _⟩ => rfl))))
    show Cert.KernelIdeal.EntryEq.leakyK (Cert.BNCore.kerNorm (Cert.rd S50000x256 (o44 m c) (ix2 r k)) _ _ _ _) _ = _
    rw [hh0]
  · exact congrArg (m ((c.tc : Thread nD τ).loc main_arg7)) (funext fun a => Fin.ext (by match a with | ⟨0, _⟩ => rfl | ⟨1, _⟩ => rfl))

end Cert.KernelIdeal.FusedEq

end
-- ==== Proof.Layer1.lean ====
/-
  The second graph convolution's aggregation, as one function: rows of an array Z gathered by the (wrapped) source
  words, each scaled by its edge's weight, scatter-added by destination into zeros, plus the bias repeated down the
  rows. The kernel applies it to region 2's output, the reference to its own second matrix product; the source and
  destination words and the weights are the same functions of the edge list in both programs. So if the two inputs are
  equal arrays, so are the two aggregates.
-/
import proofs.«160346_j84963043049900_2_alg».proof.Proof.HostK
import proofs.«160346_j84963043049900_2_alg».proof.Proof.RefReadP
import proofs.«160346_j84963043049900_2_alg».proof.Proof.LibConcat2

set_option maxRecDepth 16384

noncomputable section

namespace Cert.KernelIdeal.Layer1

open Idealize.ShloMosaic Idealize.ShloMosaic.TcCoe Idealize.SL.Sem Idealize.ShloMosaic.StableHlo
open Cert.KernelIdeal Cert.KernelIdeal.Gen Cert.KernelIdeal.Whole Cert.HostLine
open Cert.ReferenceIdeal.ReadP (val_main_v3 val_main_v6 val_main_v29 val_main_v78 val_main_v94)

variable {F : FTy → Type} [FloatOps F]

/-- The aggregation, from the array, the source words, the destination words, the weights and the bias. -/
def aggOp (Z : (⟨S50000x256, .f32⟩ : BufTy).Contents (Elt F)) (s d : (⟨S850000, .i32⟩ : BufTy).Contents (Elt F)) (ν : (⟨S850000, .f32⟩ : BufTy).Contents (Elt F)) (b : (⟨S256, .f32⟩ : BufTy).Contents (Elt F)) : (⟨S50000x256, .f32⟩ : BufTy).Contents (Elt F) :=
  addf
    (Host.scatterAdd scatter_S50000x256_S850000x1_S850000x256_1_0_0_1
      (broadcastInDim S50000x256 ![] bcast_S_S50000x256 (constant S_ .f32 0x00000000#32))
      (broadcastInDim S850000x1 ![0] bcast_S850000_S850000x1_0 d)
      (mulf
        (Host.gather gather_S50000x256_S850000x1_S850000x256_1_0_n_n_0_1_1256 Z
          (broadcastInDim S850000x1 ![0] bcast_S850000_S850000x1_0
            (select (cmpi .slt s (broadcastInDim S850000 ![] bcast_S_S850000 (constantI S_ 32 0#32)))
              (addi s (broadcastInDim S850000 ![] bcast_S_S850000 (constantI S_ 32 50000#32))) s)))
        (broadcastInDim S850000x256 ![0, 1] bcast_S850000x1_S850000x256_0_1 (broadcastInDim S850000x1 ![0] bcast_S850000_S850000x1_0 ν))))
    (broadcastInDim S50000x256 ![0, 1] bcast_S1x256_S50000x256_0_1 (broadcastInDim S1x256 ![1] bcast_S256_S1x256_1 b))

variable (m : (ℓ : Loc nD τ sig) → Buf (Elt F) ℓ)

set_option maxHeartbeats 0 in
/-- The kernel's aggregate, from what the stretch before region 3 finds. -/
theorem ker_agg (c : Dev nD) :
    S8 m c main_v73 = aggOp (S7 m c main_v57) (S7 m c main_v3) (S7 m c main_v6) (S7 m c main_v29) (S7 m c main_arg8) := by
  unfold S8
  host_line
  rfl

/-- The source words, the destination words and the weights are still what the first stretches computed. -/
theorem src_at7 (c : Dev nD) : S7 m c main_v3 = S3 m c main_v3 :=
  (HostK.S7_old m c _ (by decide)).trans ((HostK.S6_old m c _ (by decide)).trans ((HostK.S5_old m c _ (by decide) (by decide)).trans (HostK.S4_old m c _ (by decide))))
theorem dst_at7 (c : Dev nD) : S7 m c main_v6 = S3 m c main_v6 :=
  (HostK.S7_old m c _ (by decide)).trans ((HostK.S6_old m c _ (by decide)).trans ((HostK.S5_old m c _ (by decide) (by decide)).trans (HostK.S4_old m c _ (by decide))))
theorem wt_at7 (c : Dev nD) : S7 m c main_v29 = S3 m c main_v29 :=
  (HostK.S7_old m c _ (by decide)).trans ((HostK.S6_old m c _ (by decide)).trans ((HostK.S5_old m c _ (by decide) (by decide)).trans (HostK.S4_old m c _ (by decide))))
theorem bias_at7 (c : Dev nD) : S7 m c main_arg8 = m ((c.tc : Thread nD τ).loc main_arg8) :=
  (HostK.S7_old m c _ (by decide)).trans ((HostK.S6_old m c _ (by decide)).trans ((HostK.S5_old m c _ (by decide) (by decide)).trans
    ((HostK.S4_old m c _ (by decide)).trans (HostK.arg_at3 m c _ (by decide) (by decide) (by decide)))))

set_option maxHeartbeats 0 in
theorem src_eq (c : Dev nD) : S3 m c main_v3 = val_main_v3 (F := F) (m ((c.tc : Thread nD τ).loc main_arg1)) := by
  unfold S3 V3 V2 V1 V0; host_line; rfl
set_option maxHeartbeats 0 in
theorem dst_eq (c : Dev nD) : S3 m c main_v6 = val_main_v6 (F := F) (m ((c.tc : Thread nD τ).loc main_arg1)) := by
  unfold S3 V3 V2 V1 V0; host_line; rfl
set_option maxHeartbeats 0 in
theorem wt_eq (c : Dev nD) : S3 m c main_v29 = val_main_v29 (F := F) (m ((c.tc : Thread nD τ).loc main_arg1)) := by
  unfold S3 V3 V2 V1 V0; host_line; rfl

/-- The reference's aggregate is the same function of its own second matrix product. -/
theorem ref_agg (x0 : (⟨S50000x128, .f32⟩ : BufTy).Contents (Elt F)) (x1 : (⟨S2x800000, .i32⟩ : BufTy).Contents (Elt F)) (x2 : (⟨S128x256, .f32⟩ : BufTy).Contents (Elt F)) (x3 : (⟨S256, .f32⟩ : BufTy).Contents (Elt F)) (x4 : (⟨S256, .f32⟩ : BufTy).Contents (Elt F)) (x5 : (⟨S256, .f32⟩ : BufTy).Contents (Elt F)) (x6 : (⟨S1, .f32⟩ : BufTy).Contents (Elt F)) (x7 : (⟨S256x256, .f32⟩ : BufTy).Contents (Elt F)) (x8 : (⟨S256, .f32⟩ : BufTy).Contents (Elt F)) :
    val_main_v94 (F := F) x0 x1 x2 x3 x4 x5 x6 x7 x8 = aggOp (val_main_v78 (F := F) x0 x1 x2 x3 x4 x5 x6 x7) (val_main_v3 (F := F) x1) (val_main_v6 (F := F) x1) (val_main_v29 (F := F) x1) x8 := rfl

/-- If region 2's output is the reference's second matrix product, the two aggregates agree. -/
theorem agg_eq (c : Dev nD) (hZ : S7 m c main_v57 = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    S8 m c main_v73 = val_main_v94 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ker_agg, ref_agg, hZ, src_at7, dst_at7, wt_at7, bias_at7, src_eq, dst_eq, wt_eq]

end Cert.KernelIdeal.Layer1

end
-- ==== Proof.Value4.lean ====
/-
  What region 4 leaves in its output array, as one function of whole arrays: entry (r, j) is the entry (r, j) of the
  array it normalises, minus the mean of column j, times the reciprocal square root of (the variance of column j
  clamped below at 0, plus ε), times the scale at j, plus the shift at j, then passed through the leaky rectifier.
  A tile's stored value is read at an index (every operation is entrywise; the statistics, scale and shift rows are
  repeated down the tile); each grid point's block is the corresponding block of that function; the ten blocks tile
  the array.
-/
import proofs.«160346_j84963043049900_2_alg».proof.Proof.Region4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ActValue

open Idealize.ShloMosaic Idealize.ShloMosaic.TcCoe Idealize.ShloMosaic.ValueIdx
open Idealize.ShloMosaic.Pipeline (Dat Cfg Window)
open Cert.KernelIdeal Cert.KernelIdeal.Gen

/-- A 1×256 row repeated down a 5000×256 tile, read at (p, q): the row at q. -/
theorem row_bcast (v : Vec Ideal S1x256 .f32) (p : Fin 5000) (q : Fin 256) :
    broadcastTo S5000x256 v broadcasts_S1x256_S5000x256 (ix2 p q) = v (ix2 (0 : Fin 1) q) :=
  broadcastTo_apply v broadcasts_S1x256_S5000x256 (ix2 p q) (ix2 (0 : Fin 1) q) (fun a => by
    match a with
    | ⟨0, _⟩ => rfl
    | ⟨1, _⟩ => rfl)

/-- The normalised entry before the rectifier: `(h − mean) · rsqrt(max(var, 0) + ε) · scale + shift`. -/
def normK (h var mean w b : EReal) : EReal :=
  FloatOps.addf (F := Ideal) (FloatOps.mulf (F := Ideal) (FloatOps.mulf (F := Ideal) (FloatOps.subf (F := Ideal) h mean)
    (FloatOps.rsqrt (F := Ideal) (φ := .f32) (FloatOps.addf (F := Ideal) (FloatOps.maximumf (F := Ideal) var (FloatOps.ofBits (F := Ideal) .f32 0#32)) (FloatOps.ofBits (F := Ideal) .f32 925353388#32)))) w) b

/-- The leaky rectifier with slope `a` on the negative side. -/
def leaky (x a : EReal) : EReal :=
  Scalar.select (FloatOps.cmpf (F := Ideal) (φ := .f32) .oge x (FloatOps.ofBits (F := Ideal) .f32 0#32)) x (FloatOps.mulf (F := Ideal) (φ := .f32) a x)

theorem act_apply (h : Vec Ideal S5000x256 .f32) (var mean w b : Vec Ideal S1x256 .f32) (a : Vec Ideal S1x1 .f32) (p : Fin 5000) (q : Fin 256) :
    k4_pay1 (F := Ideal) h var mean w b a (ix2 p q)
      = leaky (normK (h (ix2 p q)) (var (ix2 (0 : Fin 1) q)) (mean (ix2 (0 : Fin 1) q)) (w (ix2 (0 : Fin 1) q)) (b (ix2 (0 : Fin 1) q))) (extractAt ![0, 0] a inpos_S1x1_p0_0) := by
  unfold k4_pay1
  simp only [shapeCast_self, mulf, addf, subf, select, cmpf, broadcast]
  rw [row_bcast, row_bcast, row_bcast, row_bcast]
  rfl

open Cert.KernelIdeal.Act

theorem hz : (![0, 0] : Fin 2 → Nat) = fun _ => 0 := by
  funext a; match a with | ⟨0, _⟩ => rfl | ⟨1, _⟩ => rfl

/-- Normalise-scale-shift-rectify as one function of whole arrays: entry `i` of `H` with the statistics, scale and shift
    of its column, the slope read at the one entry of `a`. -/
def G (H : S50000x256.Idx → EReal) (var mean w b : S1x256.Idx → EReal) (a : Vec Ideal S1x1 .f32) : S50000x256.Idx → EReal :=
  fun i => leaky (normK (H i) (var (ix2 (0 : Fin 1) (i 1))) (mean (ix2 (0 : Fin 1) (i 1))) (w (ix2 (0 : Fin 1) (i 1))) (b (ix2 (0 : Fin 1) (i 1))))
    (extractAt ![0, 0] a inpos_S1x1_p0_0)

variable (V : (c : Dev nD) → (b : Ref sig .tc) → Buf (Elt Ideal) ((c : Thread nD τ).loc b))

theorem idx_facts : ∀ t : Fin cfg4.N, win4_0.index t (0 : Fin 2) = win4_6.index t (0 : Fin 2) ∧ win4_0.index t (1 : Fin 2) = 0
    ∧ win4_1.index t (0 : Fin 2) = 0 ∧ win4_1.index t (1 : Fin 2) = 0 ∧ win4_2.index t (0 : Fin 2) = 0 ∧ win4_2.index t (1 : Fin 2) = 0
    ∧ win4_3.index t (0 : Fin 2) = 0 ∧ win4_3.index t (1 : Fin 2) = 0 ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) ≤ 9 :=
  (by decide +kernel : ∀ t : Fin grid4.N, _)

theorem idx_onto : ∀ q0 : Fin 10, ∃ t : Fin cfg4.N, win4_6.index t = ![q0.val, 0] :=
  (by decide +kernel : ∀ q0 : Fin 10, ∃ t : Fin grid4.N, win4_6.index t = ![q0.val, 0])

set_option maxHeartbeats 4000000 in
theorem flushed_eq (c : Dev nD) (t : Fin cfg4.N) :
    (Act.dat V c).flushed 6 t = ((cfg4.win 6).blk t).view.read (Elt Ideal)
      (G (V c (Pipeline.arrRef spec4 0)) (V c (Pipeline.arrRef spec4 2)) (V c (Pipeline.arrRef spec4 1)) (V c (Pipeline.arrRef spec4 3))
        (V c (Pipeline.arrRef spec4 4)) (V c (Pipeline.arrRef spec4 5))) := by
  show (cfg4.win 6).cut (grid4.coords t) ((Act.dat V c).after 6 t) = _
  rw [Act.dat_after6]
  unfold Act.out4
  rw [View.canon_unit_zero hz]
  simp only [View.ld_unit_zero (S := S5000x256) hz, View.ld_unit_zero (S := S1x256) hz, View.ld_unit_zero (S := S1x1) hz]
  obtain ⟨e0, e1, e2, e3, e4, e5, e6, e7, e8, e9, e10, e11, e12, e13⟩ := idx_facts t
  funext j
  obtain ⟨p, q, rfl⟩ : ∃ (p : Fin 5000) (q : Fin 256), j = ix2 p q := ⟨j 0, j 1, eq_ix2 j⟩
  show k4_pay1 (F := Ideal) (tile4 V c 0 t) (tile4 V c 2 t) (tile4 V c 1 t) (tile4 V c 3 t) (tile4 V c 4 t) (tile4 V c 5 t) (ix2 p q)
      = G (V c (Pipeline.arrRef spec4 0)) (V c (Pipeline.arrRef spec4 2)) (V c (Pipeline.arrRef spec4 1)) (V c (Pipeline.arrRef spec4 3))
        (V c (Pipeline.arrRef spec4 4)) (V c (Pipeline.arrRef spec4 5)) (((cfg4.win 6).blk t).view.emb (ix2 p q))
  rw [act_apply]
  unfold G
  have hH : tile4 V c 0 t (ix2 p q) = V c (Pipeline.arrRef spec4 0) (((cfg4.win 6).blk t).view.emb (ix2 p q)) := by
    show V c (Pipeline.arrRef spec4 0) (((cfg4.win 0).blk t).view.emb (ix2 p q)) = _
    refine congrArg _ (funext fun a => Fin.ext ?_)
    match a with
    | ⟨0, _⟩ => show win4_0.index t (0 : Fin 2) * 5000 + 1 * p.val = win4_6.index t (0 : Fin 2) * 5000 + 1 * p.val; omega
    | ⟨1, _⟩ => show win4_0.index t (1 : Fin 2) * 256 + 1 * q.val = win4_6.index t (1 : Fin 2) * 256 + 1 * q.val; omega
  have h1 : tile4 V c 1 t (ix2 (0 : Fin 1) q) = V c (Pipeline.arrRef spec4 1) (ix2 (0 : Fin 1) ((((cfg4.win 6).blk t).view.emb (ix2 p q)) 1)) := by
    show V c (Pipeline.arrRef spec4 1) (((cfg4.win 1).blk t).view.emb (ix2 (0 : Fin 1) q)) = _
    refine congrArg _ (funext fun a => Fin.ext ?_)
    match a with
    | ⟨0, _⟩ => show win4_1.index t (0 : Fin 2) * 1 + 1 * 0 = 0; omega
    | ⟨1, _⟩ => show win4_1.index t (1 : Fin 2) * 256 + 1 * q.val = win4_6.index t (1 : Fin 2) * 256 + 1 * q.val; omega
  have h2 : tile4 V c 2 t (ix2 (0 : Fin 1) q) = V c (Pipeline.arrRef spec4 2) (ix2 (0 : Fin 1) ((((cfg4.win 6).blk t).view.emb (ix2 p q)) 1)) := by
    show V c (Pipeline.arrRef spec4 2) (((cfg4.win 2).blk t).view.emb (ix2 (0 : Fin 1) q)) = _
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * q.val = win4_6.index t (1 : Fin 2) * 256 + 1 * q.val; omega
  have h3 : tile4 V c 3 t (ix2 (0 : Fin 1) q) = V c (Pipeline.arrRef spec4 3) (ix2 (0 : Fin 1) ((((cfg4.win 6).blk t).view.emb (ix2 p q)) 1)) := by
    show V c (Pipeline.arrRef spec4 3) (((cfg4.win 3).blk t).view.emb (ix2 (0 : Fin 1) q)) = _
    refine congrArg _ (funext fun a => Fin.ext ?_)
    match a with
    | ⟨0, _⟩ => show win4_3.index t (0 : Fin 2) * 1 + 1 * 0 = 0; omega
    | ⟨1, _⟩ => show win4_3.index t (1 : Fin 2) * 256 + 1 * q.val = win4_6.index t (1 : Fin 2) * 256 + 1 * q.val; omega
  have h4 : tile4 V c 4 t (ix2 (0 : Fin 1) q) = V c (Pipeline.arrRef spec4 4) (ix2 (0 : Fin 1) ((((cfg4.win 6).blk t).view.emb (ix2 p q)) 1)) := by
    show V c (Pipeline.arrRef spec4 4) (((cfg4.win 4).blk t).view.emb (ix2 (0 : Fin 1) q)) = _
    refine congrArg _ (funext fun a => Fin.ext ?_)
    match a with
    | ⟨0, _⟩ => show win4_4.index t (0 : Fin 2) * 1 + 1 * 0 = 0; omega
    | ⟨1, _⟩ => show win4_4.index t (1 : Fin 2) * 256 + 1 * q.val = win4_6.index t (1 : Fin 2) * 256 + 1 * q.val; omega
  have h5 : tile4 V c 5 t = V c (Pipeline.arrRef spec4 5) := by
    funext y
    show V c (Pipeline.arrRef spec4 5) (((cfg4.win 5).blk t).view.emb y) = _
    refine congrArg _ (funext fun a => Fin.ext ?_)
    match a with
    | ⟨0, _⟩ => show win4_5.index t (0 : Fin 2) * 1 + 1 * (y 0).val = (y 0).val; omega
    | ⟨1, _⟩ => show win4_5.index t (1 : Fin 2) * 1 + 1 * (y 1).val = (y 1).val; omega
  rw [hH, h1, h2, h3, h4, h5]

theorem mem_blk (t : Fin cfg4.N) (i : S50000x256.Idx) :
    i ∈ ((cfg4.win 6).blk t).view.set ↔ ∀ a : Fin 2, win4_6.index t a * S5000x256.size a ≤ (i a).val ∧ (i a).val < win4_6.index t a * S5000x256.size a + S5000x256.size a := by
  show i ∈ ((View.whole main_v86).slice (win4_6.rect t)).set ↔ _
  rw [View.set_slice_whole, Rect.mem_set_unit]
  exact Iff.rfl

theorem cover (i : S50000x256.Idx) : ∃ t : Fin cfg4.N, (cfg4.win 6).flush t = true ∧ i ∈ ((cfg4.win 6).blk t).view.set := by
  have hi0 : (i 0).val < 50000 := (i 0).isLt
  have hi1 : (i 1).val < 256 := (i 1).isLt
  obtain ⟨t, ht⟩ := idx_onto ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 256 ≤ (i 1).val ∧ (i 1).val < win4_6.index t (1 : Fin 2) * 256 + 256; omega

/-- What region 4 leaves in its output array. -/
theorem final (c : Dev nD) :
    (Act.dat V c).arrAt 6 cfg4.N = G (V c (Pipeline.arrRef spec4 0)) (V c (Pipeline.arrRef spec4 2)) (V c (Pipeline.arrRef spec4 1)) (V c (Pipeline.arrRef spec4 3))
        (V c (Pipeline.arrRef spec4 4)) (V c (Pipeline.arrRef spec4 5)) :=
  (Act.dat V c).arrAt_eq_of_cover 6 _ (fun t _ => flushed_eq V c t) cover

end Cert.KernelIdeal.ActValue

end
-- ==== Proof.ActEq.lean ====
/-
  The kernel's result array is the reference's result. Region 4 normalises, scales, shifts and rectifies the second
  layer's aggregate; that aggregate is the reference's (the same aggregation applied to equal arrays, region 2's output
  being the reference's second matrix product), it is real-valued, region 3's rows are its column sums and column sums
  of squares, and so each entry agrees with the reference's normalise-and-rectify block by the shared entry lemma.
-/
import proofs.«160346_j84963043049900_2_alg».proof.Proof.FusedEq
import proofs.«160346_j84963043049900_2_alg».proof.Proof.Layer1
import proofs.«160346_j84963043049900_2_alg».proof.Proof.Value4

set_option maxRecDepth 16384

noncomputable section

open scoped BigOperators

namespace Cert.KernelIdeal.ActEq

open Idealize.ShloMosaic Idealize.ShloMosaic.TcCoe Idealize.ShloMosaic.ValueIdx Idealize.SL.Sem
open Cert.KernelIdeal Cert.KernelIdeal.Gen Cert.KernelIdeal.Whole Cert.KernelIdeal.HostK Cert.Reals
open Cert.ReferenceIdeal.ReadP (val_main_v94 val_main_v125)

variable (m : (ℓ : Loc nD τ sig) → Buf (Elt Ideal) ℓ)

/-- The second layer's aggregate, the kernel's and the reference's, as one array. -/
theorem h1 (hpre : @Cert.Pre_KernelIdeal Cert.Pre_finite_inputs.Gen.facts m) (c : Dev nD) :
    Cert.rd S50000x256 (S8 m c main_v73) = val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  Cert.KernelIdeal.Layer1.agg_eq m c (Cert.KernelIdeal.FusedEq.z1_eq m hpre c)

theorem h1_real (hpre : @Cert.Pre_KernelIdeal Cert.Pre_finite_inputs.Gen.facts m) (c : Dev nD) :
    ∀ i, IsReal (val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i) := by
  obtain ⟨r0, r2, r3, r4, r5, r6, r7, r8, -⟩ := Cert.PreReal.args_real m hpre c
  exact Cert.RefReal.v94_real _ _ _ _ _ _ _ _ _ r0 r2 r3 r4 r5 r6 r7 r8

set_option maxHeartbeats 2000000 in
theorem out_eq (hpre : @Cert.Pre_KernelIdeal Cert.Pre_finite_inputs.Gen.facts m) (c : Dev nD) :
    Cert.rd S50000x256 (o86 m c) = val_main_v125 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have hh1 := h1 m hpre c
  have hH := h1_real m hpre c
  have hs : ∀ k : Fin 256, Cert.rd S1x256 (o74_0 m c) (ix2 (0 : Fin 1) k) = ∑ R : Fin 50000, val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 R k) := fun k =>
    (StatsApply.sum1 m c k).trans (by rw [hh1])
  have hq : ∀ k : Fin 256, Cert.rd S1x256 (o74_1 m c) (ix2 (0 : Fin 1) k)
      = ∑ R : Fin 50000, val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 R k) * val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (ix2 R k) := fun k =>
    (StatsApply.sq1 m c k).trans (by rw [hh1])
  funext i
  obtain ⟨r, j, rfl⟩ : ∃ (r : Fin 50000) (j : Fin 256), i = ix2 r j := ⟨i 0, i 1, eq_ix2 i⟩
  unfold o86
  rw [Cert.KernelIdeal.ActValue.final]
  show Cert.KernelIdeal.ActValue.G (S10 m c main_v73) (S10 m c main_v82) (S10 m c main_v76) (S10 m c main_v83) (S10 m c main_v84) (S10 m c main_v85) (ix2 r j) = _
  rw [RegionInputs.in4_H, RegionInputs.in4_var, RegionInputs.in4_mean, RegionInputs.in4_w, RegionInputs.in4_b, RegionInputs.in4_a]
  unfold Cert.KernelIdeal.ActValue.G
  have e := Cert.KernelIdeal.EntryEq.entry_eq (val_main_v94 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) hH (o74_0 m c) (o74_1 m c) hs hq (m ((c.tc : Thread nD τ).loc main_arg9)) (m ((c.tc : Thread nD τ).loc main_arg10)) (m ((c.tc : Thread nD τ).loc main_arg11)) r j
  rw [← Cert.ReferenceIdeal.Act.stage125] at e
  refine Eq.trans ?_ e
  show Cert.KernelIdeal.EntryEq.leakyK (Cert.BNCore.kerNorm (Cert.rd S50000x256 (S8 m c main_v73) (ix2 r j)) _ _ _ _) _ = _
  rw [hh1]

end Cert.KernelIdeal.ActEq

end
-- ==== Proof.lean ====
/-
  Two stacked graph-convolution blocks (aggregate over edges with symmetric degree normalisation, batch-normalise,
  leaky-rectify), the kernel's way and the reference's way, are the same function of the inputs over the extended
  reals, whenever every float input is finite.

  The kernel program is five kernel regions among host stretches: a dense transform, a pass that accumulates column
  sums and column sums of squares over ten row tiles, a region that normalises, rectifies and multiplies by the second
  weight matrix, the statistics pass again, and a final normalise-and-rectify region. Its frame (it runs to the end,
  nothing faults, the arguments are unchanged) is the run of those eleven items; the same run names the result array.
  The reference is straight-line host code.

  The two programs differ in three places, and each is an identity on real numbers:
  the first layer aggregates before transforming where the reference transforms before aggregating (an exchange of two
  finite sums); the variance is "mean square minus squared mean", clamped at zero, where the reference takes the mean
  squared deviation; and the column sums are taken tile by tile. Everything else is the same operations in the same
  order. Finiteness of the inputs makes every intermediate value a real number, which those identities need.

  The idealization rewrote nothing, so that conjunct is trivial.
-/
import proofs.«160346_j84963043049900_2_alg».proof.Defs
import proofs.«160346_j84963043049900_2_alg».proof.Proof.Gen.Kernel
import proofs.«160346_j84963043049900_2_alg».proof.Proof.Gen.KernelIdeal
import proofs.«160346_j84963043049900_2_alg».proof.Proof.Gen.ReferenceIdeal
import proofs.«160346_j84963043049900_2_alg».proof.Proof.Gen.Pre_finite_inputs
import proofs.«160346_j84963043049900_2_alg».proof.Proof.Frames
import proofs.«160346_j84963043049900_2_alg».proof.Proof.WholeRun
import proofs.«160346_j84963043049900_2_alg».proof.Proof.RefResult
import proofs.«160346_j84963043049900_2_alg».proof.Proof.ActEq

noncomputable section

namespace Cert.Proof

open Idealize.ShloMosaic Idealize.SL.Sem

/-- From memories that agree on the arguments, both idealized programs run to the end, and the result arrays agree
    entry by entry: the kernel's is what its last region leaves, the reference's is its last stage, and those are equal. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Whole.o86 m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.Result.result_eq, a0, a1, a2, a3, a4, a5, a6, a7, a8, a9, a10, a11]
  exact (Cert.KernelIdeal.ActEq.out_eq m hpre c).symm

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, algebraic⟩

end Cert.Proof

end
